-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x100 : Shape := ⟨2, ![100000, 100]⟩
abbrev S100000 : Shape := ⟨1, ![100000]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn_part1 {F : FTy → Type} [FloatOps F] (main_arg3 : IVec S100000 32) (main_v10 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v10 main_v16
  let main_c_6 : IVec S_ 32 := constantI S_ 32 0#32
  let main_v18 : IVec S100000 32 := broadcastInDim S100000 ![] bcast_S_S100000 main_c_6
  let main_v19 : IVec S100000 1 := cmpi .sge main_arg3 main_v18
  let main_c_7 : IVec S_ 32 := constantI S_ 32 100#32
  let main_v20 : IVec S100000 32 := broadcastInDim S100000 ![] bcast_S_S100000 main_c_7
  let main_v21 : IVec S100000 1 := cmpi .sle main_arg3 main_v20
  let main_v22 : IVec S100000 1 := andi main_v19 main_v21
  let main_c_8 : IVec S_ 1 := constantI S_ 1 1#1
  let main_v23 : IVec S_ 1 := (fun x v => Host.reduce IntOp.andi x v reducesTo_S100000_S_d0 h_S_) main_v22 main_c_8
  let main_v24 : IVec S_ 1 := andi main_v17 main_v23
  main_v24

def fn {F : FTy → Type} [FloatOps F] (main_arg0 : FVec F S100000x100 .f32) (main_arg1 : IVec S100000 32) (main_arg2 : IVec S100000 32) (main_arg3 : IVec S100000 32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_c_0 : IVec S_ 32 := constantI S_ 32 0#32
  let main_v4 : IVec S100000 32 := broadcastInDim S100000 ![] bcast_S_S100000 main_c_0
  let main_v5 : IVec S100000 1 := cmpi .sge main_arg1 main_v4
  let main_c_1 : IVec S_ 32 := constantI S_ 32 100#32
  let main_v6 : IVec S100000 32 := broadcastInDim S100000 ![] bcast_S_S100000 main_c_1
  let main_v7 : IVec S100000 1 := cmpi .sle main_arg1 main_v6
  let main_v8 : IVec S100000 1 := andi main_v5 main_v7
  let main_c_2 : IVec S_ 1 := constantI S_ 1 1#1
  let main_v9 : IVec S_ 1 := (fun x v => Host.reduce IntOp.andi x v reducesTo_S100000_S_d0 h_S_) main_v8 main_c_2
  let main_v10 : IVec S_ 1 := andi main_v3 main_v9
  let main_c_3 : IVec S_ 32 := constantI S_ 32 0#32
  let main_v11 : IVec S100000 32 := broadcastInDim S100000 ![] bcast_S_S100000 main_c_3
  let main_v12 : IVec S100000 1 := cmpi .sge main_arg2 main_v11
  let main_c_4 : IVec S_ 32 := constantI S_ 32 1#32
  let main_v13 : IVec S100000 32 := broadcastInDim S100000 ![] bcast_S_S100000 main_c_4
  let main_v14 : IVec S100000 1 := cmpi .sle main_arg2 main_v13
  let main_v15 : IVec S100000 1 := andi main_v12 main_v14
  let main_c_5 : IVec S_ 1 := constantI S_ 1 1#1
  fn_part1 (F := F) main_arg3 main_v10 main_v15 main_c_5
-- ==== Kernel.lean ====
abbrev S100000x100 : Shape := ⟨2, ![100000, 100]⟩
abbrev S100000 : Shape := ⟨1, ![100000]⟩
abbrev S32x128 : Shape := ⟨2, ![32, 128]⟩
abbrev S3120 : Shape := ⟨1, ![3120]⟩
abbrev S16 : Shape := ⟨1, ![16]⟩
abbrev S2080 : Shape := ⟨1, ![2080]⟩
abbrev S128 : Shape := ⟨1, ![128]⟩
abbrev S_ : Shape := ⟨0, ![]⟩
abbrev S1x128 : Shape := ⟨2, ![1, 128]⟩
abbrev S1x1 : Shape := ⟨2, ![1, 1]⟩
abbrev S1x1x128 : Shape := ⟨3, ![1, 1, 128]⟩
abbrev S1 : Shape := ⟨1, ![1]⟩
abbrev S1x1x1 : Shape := ⟨3, ![1, 1, 1]⟩

abbrev nBuf : Table → Nat
  | .hbm => 8
  | .local .tc .vmem => 3
  | .local .scVector .vmem => 8
  | _ => 0

abbrev bufTy : (tb : Table) → Fin (nBuf tb) → BufTy
  | .hbm, ⟨0, _⟩ => ⟨S100000x100, .f32⟩
  | .hbm, ⟨1, _⟩ => ⟨S100000, .i32⟩
  | .hbm, ⟨2, _⟩ => ⟨S100000, .i32⟩
  | .hbm, ⟨3, _⟩ => ⟨S100000, .i32⟩
  | .hbm, ⟨4, _⟩ => ⟨S32x128, .f32⟩
  | .hbm, ⟨5, _⟩ => ⟨S32x128, .f32⟩
  | .hbm, ⟨6, _⟩ => ⟨S1x1, .f32⟩
  | .hbm, ⟨7, _⟩ => ⟨S_, .f32⟩
  | .local .tc .vmem, ⟨0, _⟩ => ⟨S32x128, .f32⟩
  | .local .tc .vmem, ⟨1, _⟩ => ⟨S32x128, .f32⟩
  | .local .tc .vmem, ⟨2, _⟩ => ⟨S1x1, .f32⟩
  | .local .scVector .vmem, ⟨0, _⟩ => ⟨S3120, .i32⟩
  | .local .scVector .vmem, ⟨1, _⟩ => ⟨S3120, .i32⟩
  | .local .scVector .vmem, ⟨2, _⟩ => ⟨S16, .i32⟩
  | .local .scVector .vmem, ⟨3, _⟩ => ⟨S16, .i32⟩
  | .local .scVector .vmem, ⟨4, _⟩ => ⟨S2080, .f32⟩
  | .local .scVector .vmem, ⟨5, _⟩ => ⟨S2080, .f32⟩
  | .local .scVector .vmem, ⟨6, _⟩ => ⟨S128, .f32⟩
  | .local .scVector .vmem, ⟨7, _⟩ => ⟨S128, .f32⟩
  | _, _ => ⟨S100000x100, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_arg1_scv : Ref sig .scVector := ⟨.hbm, 1, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 6
abbrev cc1_sem1_0 : DmaSem sig := 7
abbrev cc1_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  ![v2.toNat]
@[reducible] def k0_t1_loop : Scf.Loop 32 :=
  let c0_i32_1 : BitVec 32 := 0#32
  let c130_i32 : BitVec 32 := 130#32
  let v12 : BitVec 32 := Scalar.addi c0_i32_1 c130_i32
  let c1_i32 : BitVec 32 := 1#32
  ⟨c0_i32_1, v12, c1_i32⟩
def k0_off2 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c16_i32 : BitVec 32 := 16#32
  let v22 : BitVec 32 := Scalar.muli arg16 c16_i32
  let v23 : Index := Scalar.indexCast v22
  ![v23.toNat]
@[reducible] def k0_t2_loop : Scf.Loop 32 :=
  let c0_i32_4 : BitVec 32 := 0#32
  let c195_i32 : BitVec 32 := 195#32
  let v17 : BitVec 32 := Scalar.addi c0_i32_4 c195_i32
  let c1_i32_5 : BitVec 32 := 1#32
  ⟨c0_i32_4, v17, c1_i32_5⟩
def k0_off3 (k0_t2 : Fin k0_t2_loop.trips) : Fin 1 → Nat :=
  let c0_i32_4 : BitVec 32 := 0#32
  let c1_i32_5 : BitVec 32 := 1#32
  let arg16 : BitVec 32 := Scf.iv c0_i32_4 c1_i32_5 k0_t2
  let c16_i32 : BitVec 32 := 16#32
  let v22 : BitVec 32 := Scalar.muli arg16 c16_i32
  let v23 : Index := Scalar.indexCast v22
  ![v23.toNat]

def k0_chk1 (v25 : IVec S16 32) : Prop :=
  (∀ a x, ((![v25] : Fin 1 → IVec S16 32) a x).toNat < S2080.size a)
instance k0_chk1.dec : ∀ (v25 : IVec S16 32), Decidable (k0_chk1 v25) := fun v25 => decidable_of_iff' _ (Iff.of_eq (k0_chk1.eq_1 v25))
theorem k0_idx1_inb : ∀ (v25 : IVec S16 32) (k0_hw1 : k0_chk1 v25), ∀ a x, ((![v25] : Fin 1 → IVec S16 32) a x).toNat < S2080.size a := fun v25 k0_hw1 => k0_hw1
def k0_off4 (k0_t2 : Fin k0_t2_loop.trips) : Fin 1 → Nat :=
  let c0_i32_4 : BitVec 32 := 0#32
  let c1_i32_5 : BitVec 32 := 1#32
  let arg16 : BitVec 32 := Scf.iv c0_i32_4 c1_i32_5 k0_t2
  let c16_i32_12 : BitVec 32 := 16#32
  let v26 : BitVec 32 := Scalar.muli arg16 c16_i32_12
  let v27 : Index := Scalar.indexCast v26
  ![v27.toNat]

def k0_chk2 (v29 : IVec S16 32) : Prop :=
  (∀ a x, ((![v29] : Fin 1 → IVec S16 32) a x).toNat < S2080.size a)
instance k0_chk2.dec : ∀ (v29 : IVec S16 32), Decidable (k0_chk2 v29) := fun v29 => decidable_of_iff' _ (Iff.of_eq (k0_chk2.eq_1 v29))
theorem k0_idx2_inb : ∀ (v29 : IVec S16 32) (k0_hw2 : k0_chk2 v29), ∀ a x, ((![v29] : Fin 1 → IVec S16 32) a x).toNat < S2080.size a := fun v29 k0_hw2 => k0_hw2
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v18 : BitVec 1 := Scalar.cmpi .slt v1 c10_i32
  let v19 : BitVec 32 := Scalar.extui v18
  let c0_i32_7 : BitVec 32 := 0#32
  let v20 : BitVec 1 := Scalar.cmpi .ne v19 c0_i32_7
  v20

def k0_off5 (i : grid0.Coords) : Fin 1 → Nat :=
  let c99840_i32 : BitVec 32 := 99840#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v22 : BitVec 32 := Scalar.muli v1 c16_i32
  let v23 : BitVec 32 := Scalar.addi c99840_i32 v22
  ![v23.toNat]

def k0_chk3 (i : grid0.Coords) (v25 : IVec S16 32) : Prop :=
  (∀ (k0_h1 : k0_cond1 i = 1#1), ∀ a x, ((![v25] : Fin 1 → IVec S16 32) a x).toNat < S2080.size a)
instance k0_chk3.dec : ∀ (i : grid0.Coords) (v25 : IVec S16 32), Decidable (k0_chk3 i v25) := fun i v25 => decidable_of_iff' _ (Iff.of_eq (k0_chk3.eq_1 i v25))
theorem k0_idx3_inb : ∀ (i : grid0.Coords) (v25 : IVec S16 32) (k0_hw3 : k0_chk3 i v25), ∀ (k0_h1 : k0_cond1 i = 1#1), ∀ a x, ((![v25] : Fin 1 → IVec S16 32) a x).toNat < S2080.size a := fun i v25 k0_hw3 k0_h1 => k0_hw3 k0_h1

def k0_chk4 (i : grid0.Coords) (v27 : IVec S16 32) : Prop :=
  (∀ (k0_h1 : k0_cond1 i = 1#1), ∀ a x, ((![v27] : Fin 1 → IVec S16 32) a x).toNat < S2080.size a)
instance k0_chk4.dec : ∀ (i : grid0.Coords) (v27 : IVec S16 32), Decidable (k0_chk4 i v27) := fun i v27 => decidable_of_iff' _ (Iff.of_eq (k0_chk4.eq_1 i v27))
theorem k0_idx4_inb : ∀ (i : grid0.Coords) (v27 : IVec S16 32) (k0_hw4 : k0_chk4 i v27), ∀ (k0_h1 : k0_cond1 i = 1#1), ∀ a x, ((![v27] : Fin 1 → IVec S16 32) a x).toNat < S2080.size a := fun i v27 k0_hw4 k0_h1 => k0_hw4 k0_h1
@[reducible] def k0_t3_loop : Scf.Loop 32 :=
  let c0_i32_9 : BitVec 32 := 0#32
  let c8_i32 : BitVec 32 := 8#32
  let v21 : BitVec 32 := Scalar.addi c0_i32_9 c8_i32
  let c1_i32_10 : BitVec 32 := 1#32
  ⟨c0_i32_9, v21, c1_i32_10⟩
@[reducible] def k0_t4_loop : Scf.Loop 32 :=
  let c0_i32_12 : BitVec 32 := 0#32
  let c16_i32 : BitVec 32 := 16#32
  let v22 : BitVec 32 := Scalar.addi c0_i32_12 c16_i32
  let c1_i32_13 : BitVec 32 := 1#32
  ⟨c0_i32_12, v22, c1_i32_13⟩
def k0_off6 (k0_t3 : Fin k0_t3_loop.trips) (k0_t4 : Fin k0_t4_loop.trips) : Fin 1 → Nat :=
  let c0_i32_12 : BitVec 32 := 0#32
  let c1_i32_13 : BitVec 32 := 1#32
  let arg17 : BitVec 32 := Scf.iv c0_i32_12 c1_i32_13 k0_t4
  let c129_i32_17 : BitVec 32 := 129#32
  let v30 : BitVec 32 := Scalar.muli arg17 c129_i32_17
  let c0_i32_9 : BitVec 32 := 0#32
  let c1_i32_10 : BitVec 32 := 1#32
  let arg16 : BitVec 32 := Scf.iv c0_i32_9 c1_i32_10 k0_t3
  let c16_i32_18 : BitVec 32 := 16#32
  let v31 : BitVec 32 := Scalar.muli arg16 c16_i32_18
  let v32 : BitVec 32 := Scalar.addi v30 v31
  let v33 : Index := Scalar.indexCast v32
  ![v33.toNat]
def k0_off7 (k0_t3 : Fin k0_t3_loop.trips) : Fin 1 → Nat :=
  let c0_i32_9 : BitVec 32 := 0#32
  let c1_i32_10 : BitVec 32 := 1#32
  let arg16 : BitVec 32 := Scf.iv c0_i32_9 c1_i32_10 k0_t3
  let c16_i32_15 : BitVec 32 := 16#32
  let v24 : BitVec 32 := Scalar.muli arg16 c16_i32_15
  let v25 : Index := Scalar.indexCast v24
  ![v25.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r2 : BitVec 32 := 0#32
  ![v1.toNat, 0]
abbrev grid1 : Pipeline.Grid := .none

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S16 : 0 < S16.numel
  h_S2080 : 0 < S2080.numel
  inb_S16_S16_0 : ∀ a, (![0] : Fin 1 → Nat) a + S16.size a ≤ S16.size a
  squeezes_S1x128_S128 : S1x128.Squeezes S128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x128_S128 : S32x128.Reduces [0] S128
  shapeCasts_S128_S1x128 : S128.ShapeCasts S1x128
  iota_S1x128_d1_w32 : S1x128.Iotas .tc 32 [1]
  shapeCasts_S1x128_S1x1x128 : S1x128.ShapeCasts S1x1x128
  reduces_S1x1x128_S1 : S1x1x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  hcc0_scratch8 : 0 + S_.numel ≤ 9
  hcc0_scratch9 : 1 + S_.numel ≤ 9
  hcc0_scoped0 : 2 + S_.numel ≤ 9
  hcc0_scoped1 : 3 + S_.numel ≤ 9
  hcc0_scoped2 : 4 + S_.numel ≤ 9
  hcc0_scoped3 : 5 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3120.size a ≤ S100000.size a
  k0_t1_ok : k0_t1_loop.OK
  k0_off2_inb : ∀ k0_t1 : Fin k0_t1_loop.trips, ∀ a, (k0_off2 k0_t1) a + S16.size a ≤ S2080.size a
  k0_t2_ok : k0_t2_loop.OK
  k0_off3_inb : ∀ k0_t2 : Fin k0_t2_loop.trips, ∀ a, (k0_off3 k0_t2) a + S16.size a ≤ S3120.size a
  k0_off4_inb : ∀ k0_t2 : Fin k0_t2_loop.trips, ∀ a, (k0_off4 k0_t2) a + S16.size a ≤ S3120.size a
  k0_off5_inb : ∀ i : grid0.Coords, ∀ (k0_h1 : k0_cond1 i = 1#1), ∀ a, (k0_off5 i) a + S16.size a ≤ S100000.size a
  k0_t3_ok : k0_t3_loop.OK
  k0_t4_ok : k0_t4_loop.OK
  k0_off6_inb : ∀ (k0_t3 : Fin k0_t3_loop.trips) (k0_t4 : Fin k0_t4_loop.trips), ∀ a, (k0_off6 k0_t3 k0_t4) a + S16.size a ≤ S2080.size a
  k0_off7_inb : ∀ k0_t3 : Fin k0_t3_loop.trips, ∀ a, (k0_off7 k0_t3) a + S16.size a ≤ S128.size a
  k0_off8_inb : ∀ i : grid0.Coords, ∀ a, (k0_off8 i) a + S1x128.size a ≤ S32x128.size a
  hstage1_0 : ∀ j, (stage1_0 j).IsWhole
  hstage1_1 : ∀ j, (stage1_1 j).IsWhole
  hstage1_2 : ∀ j, (stage1_2 j).IsWhole

variable [Facts₀]

abbrev cc0_scratch8 : DmaSems sig S_ := SemArray.consecutive 0 S_ hcc0_scratch8
abbrev cc0_scratch9 : DmaSems sig S_ := SemArray.consecutive 1 S_ hcc0_scratch9
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3

abbrev win1_0 : Pipeline.Window sig grid1 :=
  Pipeline.Window.whole (Memref.whole main_v0_0) false false (stage1_0 0) (sem1_0 0) (Memref.isWhole_whole _) (hstage1_0 0)

abbrev win1_1 : Pipeline.Window sig grid1 :=
  Pipeline.Window.whole (Memref.whole main_v0_1) false false (stage1_1 0) (sem1_1 0) (Memref.isWhole_whole _) (hstage1_1 0)

abbrev win1_2 : Pipeline.Window sig grid1 :=
  Pipeline.Window.whole (Memref.whole main_v1) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x100 : Shape := ⟨2, ![100000, 100]⟩
abbrev S100000 : Shape := ⟨1, ![100000]⟩
abbrev S_ : Shape := ⟨0, ![]⟩
abbrev S101 : Shape := ⟨1, ![101]⟩
abbrev S100000x1 : Shape := ⟨2, ![100000, 1]⟩
abbrev S100 : Shape := ⟨1, ![100]⟩

abbrev nBuf : Space → Nat
  | .hbm => 72
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S100000, .i32⟩
  | .hbm, ⟨2, _⟩ => ⟨S100000, .i32⟩
  | .hbm, ⟨3, _⟩ => ⟨S100000, .i32⟩
  | .hbm, ⟨4, _⟩ => ⟨S_, .i32⟩
  | .hbm, ⟨5, _⟩ => ⟨S101, .i32⟩
  | .hbm, ⟨6, _⟩ => ⟨S_, .i32⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S_, .i32⟩
  | .hbm, ⟨19, _⟩ => ⟨S100000, .i32⟩
  | .hbm, ⟨20, _⟩ => ⟨S101, .i32⟩
  | .hbm, ⟨21, _⟩ => ⟨S101, .f32⟩
  | .hbm, ⟨22, _⟩ => ⟨S100, .f32⟩
  | .hbm, ⟨23, _⟩ => ⟨S_, .i32⟩
  | .hbm, ⟨24, _⟩ => ⟨S101, .i32⟩
  | .hbm, ⟨25, _⟩ => ⟨S_, .i32⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S_, .i32⟩
  | .hbm, ⟨30, _⟩ => ⟨S100000, .i32⟩
  | .hbm, ⟨31, _⟩ => ⟨S100000, .i1⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000, .i32⟩
  | .hbm, ⟨36, _⟩ => ⟨S100000x1, .i32⟩
  | .hbm, ⟨37, _⟩ => ⟨S_, .i32⟩
  | .hbm, ⟨38, _⟩ => ⟨S100000, .i32⟩
  | .hbm, ⟨39, _⟩ => ⟨S101, .i32⟩
  | .hbm, ⟨40, _⟩ => ⟨S101, .f32⟩
  | .hbm, ⟨41, _⟩ => ⟨S100, .f32⟩
  | .hbm, ⟨42, _⟩ => ⟨S100, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S100, .f32⟩
  | .hbm, ⟨48, _⟩ => ⟨S100, .f32⟩
  | .hbm, ⟨49, _⟩ => ⟨S100, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S100, .f32⟩
  | .hbm, ⟨55, _⟩ => ⟨S100, .f32⟩
  | .hbm, ⟨56, _⟩ => ⟨S_, .f32⟩
  | .hbm, ⟨57, _⟩ => ⟨S100, .f32⟩
  | .hbm, ⟨58, _⟩ => ⟨S100, .i1⟩
  | .hbm, ⟨59, _⟩ => ⟨S100, .i1⟩
  | .hbm, ⟨60, _⟩ => ⟨S100, .i1⟩
  | .hbm, ⟨61, _⟩ => ⟨S100, .f32⟩
  | .hbm, ⟨62, _⟩ => ⟨S100, .f32⟩
  | .hbm, ⟨63, _⟩ => ⟨S_, .f32⟩
  | .hbm, ⟨64, _⟩ => ⟨S100, .f32⟩
  | .hbm, ⟨65, _⟩ => ⟨S100, .f32⟩
  | .hbm, ⟨66, _⟩ => ⟨S100, .f32⟩
  | .hbm, ⟨67, _⟩ => ⟨S100, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_c_5 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_c_6 : Ref sig .tc := ⟨.hbm, 29, rfl⟩
abbrev main_v14 : Ref sig .tc := ⟨.hbm, 30, rfl⟩
abbrev main_v15 : Ref sig .tc := ⟨.hbm, 31, rfl⟩
abbrev main_c_7 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_cst_15 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  bcast_S_S101 : S_.BroadcastsInDim S101 (![] : Fin 0 → Fin S101.rank)
  bcast_S_S100000 : S_.BroadcastsInDim S100000 (![] : Fin 0 → Fin S100000.rank)
  bcast_S100000_S100000x1_0 : S100000.BroadcastsInDim S100000x1 (![0] : Fin 1 → Fin S100000x1.rank)
  slices_S101_S100_1 : S101.Slices ![1] S100
  reducesTo_S100_S_d0 : S100.ReducesTo [0] S_
  h_S_ : 0 < S_.numel
  bcast_S_S100 : S_.BroadcastsInDim S100 (![] : Fin 0 → Fin S100.rank)
  scatter_S101_S100000x1_S100000_n_0_0_1_wf : ScatterDims.WF S101 S100000x1 S100000 [] [0] [0] 1

variable [Facts₀]

def scatter_S101_S100000x1_S100000_n_0_0_1 : ScatterDims S101 S100000x1 S100000 where
  updateWindowDims := []
  insertedWindowDims := [0]
  scatterDimsToOperandDims := [0]
  indexVectorDim := 1
  wf := scatter_S101_S100000x1_S100000_n_0_0_1_wf

class Facts : Prop extends Facts₀ where

variable [Facts]
-- ==== Proof.Hist.lean ====
/-
  The kernel's result as a pure function of its two integer argument arrays, for every float instance.

  Each of the 32 vector subcores, numbered w = 2·s + c for subcore s of SparseCore c, histograms 3120 consecutive words
  of an array (from 3120·w), sixteen at a time: the word v met in lane l adds one to slot 129·l + v of a 2080-slot
  table, so that sixteen lanes never meet in one slot. Subcores 0‥9 take sixteen more words each from the array's last
  160. The sixteen lane tables are then summed slot by slot into a row of 128 bins, row w of a 32 × 128 array. The
  second kernel sums the 32 rows of each of the two arrays, keeps bins 1‥100, normalises both to unit mass and returns
  the divergence sum over the bins divided by 100.
-/
import proofs.«214571_g7919919694435_cont_9to1_m_483_28_alg».proof.Proof.Gen.KernelIdeal.Skeleton
import Idealize.ShloMosaic.Lib.ValueIdx

noncomputable section

namespace Cert.KernelIdeal.Hist

open Idealize.ShloMosaic Idealize.ShloMosaic.ValueIdx Cert.KernelIdeal Cert.KernelIdeal.Gen

variable {F : FTy → Type} [FloatOps F]

/-- The slots sixteen words name: lane l's word v names slot 129·l + v. -/
def slots (w : IVec S16 32) : IVec S16 32 := addi k0_pay1 w

/-- Every named slot is inside the table. -/
def InRange (w : IVec S16 32) : Prop := ∀ a x, ((![slots w] : Fin 1 → IVec S16 32) a x).toNat < S2080.size a

/-- One is added at each of the sixteen named slots (nothing changes if a slot were outside the table). -/
def bump (g : Vec F S2080 .f32) (w : IVec S16 32) : Vec F S2080 .f32 :=
  open Classical in
  if h : InRange w then storeIdx g ![slots w] (k0_pay2 (F := F)) (fun _ => 1#1) true h else g

/-- Sixteen consecutive words of the array from offset o. -/
def group (a : IVec S100000 32) (o : Nat) : IVec S16 32 :=
  fun x => if h : o + (x 0).val < 100000 then a (ix1 ⟨o + (x 0).val, h⟩) else 0#32

/-- Where a subcore's 3120 words start, and where its sixteen extra words start. -/
def base (L : grid0.Coords) : Nat := 6240 * (L 1).val + 3120 * (L 0).val
def tailOff (L : grid0.Coords) : Nat := 32 * (L 1).val + 16 * (L 0).val + 99840

/-- The table after k groups of the subcore's 3120 words, from the all-zero table. -/
def histMain (a : IVec S100000 32) (L : grid0.Coords) : Nat → Vec F S2080 .f32
  | 0 => fun _ => Scalar.ofBits .f32 0x00000000#32
  | k + 1 => bump (histMain a L k) (group a (base L + 16 * k))

/-- The finished table: all 195 groups, and for subcores 0‥9 the extra group. -/
def histAll (a : IVec S100000 32) (L : grid0.Coords) : Vec F S2080 .f32 :=
  open Classical in
  if k0_cond1 L = 1#1 then bump (histMain a L 195) (group a (tailOff L)) else histMain a L 195

/-- Sixteen slots of a table from offset o. -/
def piece (h : Vec F S2080 .f32) (o : Nat) : Vec F S16 .f32 :=
  fun x => if hh : o + (x 0).val < 2080 then h (ix1 ⟨o + (x 0).val, hh⟩) else Scalar.ofBits .f32 0x00000000#32

/-- Bins 16·cc ‥ 16·cc + 15 summed over the first r lane tables, in lane order from zero. -/
def acc (h : Vec F S2080 .f32) (cc : Nat) : Nat → FVec F S16 .f32
  | 0 => k0_pay3
  | r + 1 => k0_pay4 (acc h cc r) (piece h (129 * r + 16 * cc))

/-- The 128 bins a table folds to. -/
def fold (h : Vec F S2080 .f32) : Vec F S128 .f32 :=
  fun b => acc h ((b 0).val / 16) 16 (ix1 ⟨(b 0).val % 16, Nat.mod_lt _ (by decide)⟩)

/-- Subcore L's row of bins. -/
def rowOut (a : IVec S100000 32) (L : grid0.Coords) : Vec F S128 .f32 := fold (histAll (F := F) a L)

/-- The subcore that writes row w: SparseCore w mod 2, subcore w / 2. -/
def coordsOfRow (w : Fin 32) : grid0.Coords :=
  fun | ⟨0, _⟩ => ⟨w.val % 2, Nat.mod_lt _ (by decide)⟩ | ⟨1, _⟩ => ⟨w.val / 2, by have := w.isLt; show w.val / 2 < 16; omega⟩
      | ⟨_ + 2, h⟩ => absurd h (Nat.not_lt.2 (Nat.le_add_left _ _))

/-- The 32 × 128 array of rows. -/
def parts (a : IVec S100000 32) : Vec F S32x128 .f32 := fun j => rowOut a (coordsOfRow (j 0)) (ix1 (j 1))

/-- The second kernel's one stored value, from the two arrays of rows. -/
def tcOut (x y : Vec F S32x128 .f32) : Vec F S1x1 .f32 := k1_pay1 (k1_pay3 x) (k1_pay4 y) (k1_pay5 y)

/-- The program's result, from its second and fourth argument arrays. -/
def result (a1 a3 : IVec S100000 32) : Vec F S_ .f32 :=
  shapeCast S_ (tcOut (F := F) (parts a1) (parts a3)) Facts₀.shapeCasts_S1x1_S_

end Cert.KernelIdeal.Hist

end
-- ==== Proof.Setup.lean ====
/-
  The kernel program as the SparseCore launch sees it, and what its threads hand each other.

  One call runs the histogram task on the 32 vector subcores; the TensorCore then runs the second kernel and a reshape.
  The call takes the two integer arrays (every task reads its own stretch of each, so each task is lent a read share of
  the whole array) and the two 32 × 128 arrays of bins, of which task (c, s) owns row 2·s + c. A task returns its read
  shares and its two rows, each now holding the bins its stretch folds to.
-/
import proofs.«214571_g7919919694435_cont_9to1_m_483_28_alg».proof.Defs
import proofs.«214571_g7919919694435_cont_9to1_m_483_28_alg».proof.Proof.Gen.KernelIdeal
import proofs.«214571_g7919919694435_cont_9to1_m_483_28_alg».proof.Proof.Gen.KernelIdeal.Skeleton
import proofs.«214571_g7919919694435_cont_9to1_m_483_28_alg».proof.Proof.Gen.KernelIdeal.Launch
import proofs.«214571_g7919919694435_cont_9to1_m_483_28_alg».proof.Proof.Gen.KernelIdeal.Points
import proofs.«214571_g7919919694435_cont_9to1_m_483_28_alg».proof.Proof.Hist
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the second kernel's staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev hLoc (d : Dev nD) : Loc nD τ sig := (SparseCore.T d).loc main_arg1
abbrev rLoc (d : Dev nD) : Loc nD τ sig := (SparseCore.T d).loc main_arg3
abbrev ohLoc (d : Dev nD) : Loc nD τ sig := (SparseCore.T d).loc main_v0_0
abbrev orLoc (d : Dev nD) : Loc nD τ sig := (SparseCore.T d).loc main_v0_1

/-- The words of the two integer arrays at launch. -/
abbrev hArr (d : Dev nD) : IVec S100000 32 := m (hLoc d)
abbrev rArr (d : Dev nD) : IVec S100000 32 := m (rLoc d)

/-- What the proof asks of the launch memory: every word of the two integer arrays is at most 100. -/
def PreOK : Prop := ∀ d : Dev nD, (∀ i, (hArr m d i).toNat ≤ 100) ∧ (∀ i, (rArr m d i).toNat ≤ 100)

variable [FloatOps F]

/-- The two arrays of bins after the call, whole. -/
abbrev ohVal (d : Dev nD) : Buf (Elt F) (ohLoc d) := Hist.parts (F := F) (hArr m d)
abbrev orVal (d : Dev nD) : Buf (Elt F) (orLoc d) := Hist.parts (F := F) (rArr m d)

/-! ## Rows and read shares -/

theorem hdiv : 32 ∣ S32x128.size 0 := ⟨1, rfl⟩
abbrev row (w : Fin 32) : Rect S32x128 := Rect.part (s := S32x128) (a₀ := 0) hdiv w
abbrev rowSet (w : Fin 32) : Finset S32x128.Idx := ((Memref.whole main_v0_0_scv : Memref sig .scVector .hbm S32x128 .f32).view.slice (row w)).set

/-- The row task (c, s) owns. -/
def wid (c : Fin 2) (s : Fin 16) : Fin 32 := ⟨2 * s.val + c.val, by omega⟩

/-- The 2ⁿ leaves of a share. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Task (c, s)'s read share of an array every task reads. -/
def sh (c : Fin 2) (s : Fin 16) : PosShare TreeShare := leaf 5 fullShare ⟨16 * c.val + s.val, by omega⟩

omit [FloatOps F] in
/-- What task (c, s) takes: its read shares of the two integer arrays and its row of each array of bins. -/
def tileRes (d : Dev nD) (c : Fin 2) (s : Fin 16) : sProp 𝕄 :=
  iprop((hLoc d ↦{sh c s} m (hLoc d)) ∗ (rLoc d ↦{sh c s} m (rLoc d))
    ∗ (ohLoc d ↦[rowSet (wid c s)]{fullShare} m (ohLoc d)) ∗ (orLoc d ↦[rowSet (wid c s)]{fullShare} m (orLoc d)))

/-- What it returns: the shares, and its rows at the bins of its stretch. -/
def tileRet (d : Dev nD) (c : Fin 2) (s : Fin 16) : sProp 𝕄 :=
  iprop((hLoc d ↦{sh c s} m (hLoc d)) ∗ (rLoc d ↦{sh c s} m (rLoc d))
    ∗ (ohLoc d ↦[rowSet (wid c s)]{fullShare} ohVal m d) ∗ (orLoc d ↦[rowSet (wid c s)]{fullShare} orVal m d))

/-- The call hands SparseCore c the sixteen tasks' holdings and takes them back. -/
def P : (K (F := F)).Pay (nD := nD) (Val := Elt F) (Name := ℕ) (U := UU) where
  st := fun q d c => match q with | 0 => bigSep Finset.univ fun s : Fin 16 => tileRes m d (Fin.cast nCore_zero c) s
  dn := fun q d c => match q with | 0 => bigSep Finset.univ fun s : Fin 16 => tileRet m d (Fin.cast nCore_zero c) s
  go := fun q d c i => match q with | 0 => tileRes m d (Fin.cast nCore_zero c) (Fin.cast nSub_zero i)
  td := fun q d c i => match q with | 0 => tileRet m d (Fin.cast nCore_zero c) (Fin.cast nSub_zero i)
  x := fun _ _ => iprop(emp)

instance tileRes_storable (d : Dev nD) (c : Fin 2) (s : Fin 16) : BI.Storable (upEmb : UEmb _ 𝕄) (tileRes (F := F) m d c s) := by
  unfold tileRes; infer_instance
instance tileRet_storable (d : Dev nD) (c : Fin 2) (s : Fin 16) : BI.Storable (upEmb : UEmb _ 𝕄) (tileRet (F := F) m d c s) := by
  unfold tileRet; infer_instance

instance P_storable : (P (F := F) m).IsStorable where
  st q d c := match q with | 0 => (inferInstance : BI.Storable (upEmb : UEmb _ 𝕄) (bigSep Finset.univ fun s : Fin 16 => tileRes m d (Fin.cast nCore_zero c) s))
  dn q d c := match q with | 0 => (inferInstance : BI.Storable (upEmb : UEmb _ 𝕄) (bigSep Finset.univ fun s : Fin 16 => tileRet m d (Fin.cast nCore_zero c) s))
  go q d c i := match q with | 0 => (inferInstance : BI.Storable (upEmb : UEmb _ 𝕄) (tileRes m d (Fin.cast nCore_zero c) (Fin.cast nSub_zero i)))
  td q d c i := match q with | 0 => (inferInstance : BI.Storable (upEmb : UEmb _ 𝕄) (tileRet m d (Fin.cast nCore_zero c) (Fin.cast nSub_zero i)))

end Cert.KernelIdeal.Hand

end
-- ==== Proof.TileDefs.lean ====
/-
  The histogram task on one vector subcore: its thread, its six transfer counters, and its two rows of the arrays of
  bins as the task itself addresses them.
-/
import proofs.«214571_g7919919694435_cont_9to1_m_483_28_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "hV" => (Memref.whole Cert.KernelIdeal.main_arg1_scv : Memref Cert.KernelIdeal.sig Kind.scVector Space.hbm Cert.KernelIdeal.S100000 EltTy.i32)
local notation "rV" => (Memref.whole Cert.KernelIdeal.main_arg3_scv : Memref Cert.KernelIdeal.sig Kind.scVector Space.hbm Cert.KernelIdeal.S100000 EltTy.i32)
local notation "ohV" => (Memref.whole Cert.KernelIdeal.main_v0_0_scv : Memref Cert.KernelIdeal.sig Kind.scVector Space.hbm Cert.KernelIdeal.S32x128 EltTy.f32)
local notation "orV" => (Memref.whole Cert.KernelIdeal.main_v0_1_scv : Memref Cert.KernelIdeal.sig Kind.scVector Space.hbm Cert.KernelIdeal.S32x128 EltTy.f32)
local notation "s0V" => (Memref.whole Cert.KernelIdeal.cc0_scratch0 : Memref Cert.KernelIdeal.sig Kind.scVector Space.vmem Cert.KernelIdeal.S3120 EltTy.i32)
local notation "s1V" => (Memref.whole Cert.KernelIdeal.cc0_scratch1 : Memref Cert.KernelIdeal.sig Kind.scVector Space.vmem Cert.KernelIdeal.S3120 EltTy.i32)
local notation "s2V" => (Memref.whole Cert.KernelIdeal.cc0_scratch2 : Memref Cert.KernelIdeal.sig Kind.scVector Space.vmem Cert.KernelIdeal.S16 EltTy.i32)
local notation "s3V" => (Memref.whole Cert.KernelIdeal.cc0_scratch3 : Memref Cert.KernelIdeal.sig Kind.scVector Space.vmem Cert.KernelIdeal.S16 EltTy.i32)
local notation "s4V" => (Memref.whole Cert.KernelIdeal.cc0_scratch4 : Memref Cert.KernelIdeal.sig Kind.scVector Space.vmem Cert.KernelIdeal.S2080 EltTy.f32)
local notation "s5V" => (Memref.whole Cert.KernelIdeal.cc0_scratch5 : Memref Cert.KernelIdeal.sig Kind.scVector Space.vmem Cert.KernelIdeal.S2080 EltTy.f32)
local notation "s6V" => (Memref.whole Cert.KernelIdeal.cc0_scratch6 : Memref Cert.KernelIdeal.sig Kind.scVector Space.vmem Cert.KernelIdeal.S128 EltTy.f32)
local notation "s7V" => (Memref.whole Cert.KernelIdeal.cc0_scratch7 : Memref Cert.KernelIdeal.sig Kind.scVector Space.vmem Cert.KernelIdeal.S128 EltTy.f32)

/-- The SparseCore and the subcore of grid point L, and the thread that runs its task. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The subcore's transfer counters the task names: two for the stretches, two for the extra words, two for the rows. -/
abbrev csem (k : Nat) (hk : k < 9 := by decide) : DmaSem sig := ⟨k, hk⟩

abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0)

/-- Row 2·s + c of each array of bins, as the task slices it. -/
abbrev oRowH (L : grid0.Coords) : Memref sig .scVector .hbm S128 .f32 :=
  ((ohV).slice (Rect.unit (s := S32x128) (k0_off8 L) S1x128.size (k0_off8_inb L)) (fun _ => rfl)).squeeze S128 squeezes_S1x128_S128
abbrev oRowR (L : grid0.Coords) : Memref sig .scVector .hbm S128 .f32 :=
  ((orV).slice (Rect.unit (s := S32x128) (k0_off8 L) S1x128.size (k0_off8_inb L)) (fun _ => rfl)).squeeze S128 squeezes_S1x128_S128

end Cert.KernelIdeal.Hand

end
-- ==== Proof.TileFacts.lean ====
/-
  Pure facts about what the histogram task's copies, loads and stores see and leave, for every float instance: the
  zero-filled tables, the words a copy lands, the sixteen words a trip loads, the indexed add-store as one bump, the
  lane-table fold.
-/
import proofs.«214571_g7919919694435_cont_9to1_m_483_28_alg».proof.Proof.Hist
import Idealize.ShloMosaic.Lib.Writes

noncomputable section

namespace Cert.KernelIdeal.Hand

open Cert.KernelIdeal Cert.KernelIdeal.Gen
open Idealize.ShloMosaic Idealize.ShloMosaic.ValueIdx

variable {F : FTy → Type} [FloatOps F]

/-! ## The zero fill -/

/-- A table whose first 16·k slots are zero and whose other slots are as found. -/
def zfill (f : Vec F S2080 .f32) (k : Nat) : Vec F S2080 .f32 :=
  fun j => if (j 0).val < 16 * k then Scalar.ofBits .f32 0x00000000#32 else f j

/-- After all 130 groups of sixteen the table is zero: the table no group of words has been counted into. -/
theorem zfill_last (f : Vec F S2080 .f32) (a : IVec S100000 32) (L : grid0.Coords) :
    zfill f 130 = Hist.histMain (F := F) a L 0 := by
  funext j
  have : (j 0).val < 2080 := (j 0).isLt
  unfold zfill; rw [if_pos (by omega)]; rfl

/-- Sixteen zeros written at slots 16·k ‥ 16·k + 15 of table 4 extend the zero prefix by sixteen. -/
theorem zfill_step4 (f : Vec F S2080 .f32) (k : Fin k0_t1_loop.trips) (h : ∀ a, (k0_off2 k) a + S16.size a ≤ S2080.size a) :
    (Memref.whole (cc0_scratch4 : Ref sig .scVector)).view.writes (Elt F) (zfill f k.val) [⟨Rect.unit (s := S2080) (k0_off2 k) S16.size h, k0_pay3 (F := F)⟩]
      = zfill f (k.val + 1) := by
  have hoff : k0_off2 k = ![16 * k.val] := k0_off2_eq k
  funext j
  refine (congrFun (View.read_whole (cc0_scratch4 : Ref sig .scVector) (Val := Elt F)
    ((View.whole (cc0_scratch4 : Ref sig .scVector)).writes (Elt F) (zfill f k.val) [⟨Rect.unit (s := S2080) (k0_off2 k) S16.size h, k0_pay3 (F := F)⟩])).symm j).trans ?_
  by_cases hj : 16 * k.val ≤ (j 0).val ∧ (j 0).val < 16 * k.val + 16
  · have hx : (Rect.unit (s := S2080) (k0_off2 k) S16.size h).emb (ix1 ⟨(j 0).val - 16 * k.val, by omega⟩) = j := by
      funext a; obtain rfl : a = 0 := Subsingleton.elim _ _
      apply Fin.ext; rw [Rect.emb_apply]
      show (k0_off2 k) 0 + 1 * ((j 0).val - 16 * k.val) = (j 0).val
      rw [hoff]; show 16 * k.val + 1 * ((j 0).val - 16 * k.val) = (j 0).val; omega
    rw [← hx, View.read_writes_cons_emb, hx]
    unfold zfill; rw [if_pos (by omega)]; rfl
  · rw [View.read_writes_apply_of_forall_not_mem]
    · show zfill f k.val j = zfill f (k.val + 1) j
      unfold zfill
      by_cases h1 : (j 0).val < 16 * k.val
      · rw [if_pos h1, if_pos (by omega)]
      · rw [if_neg h1, if_neg (by omega)]
    · intro p hp hm
      obtain rfl : p = ⟨Rect.unit (s := S2080) (k0_off2 k) S16.size h, k0_pay3 (F := F)⟩ := List.mem_singleton.mp hp
      have := (Rect.mem_set_unit (s := S2080) (off := k0_off2 k) (size := S16.size) (inb := h) (i := j)).mp hm 0
      rw [hoff] at this
      exact hj ⟨this.1, this.2⟩

/-- Sixteen zeros written at slots 16·k ‥ 16·k + 15 of table 5 extend the zero prefix by sixteen. -/
theorem zfill_step5 (f : Vec F S2080 .f32) (k : Fin k0_t1_loop.trips) (h : ∀ a, (k0_off2 k) a + S16.size a ≤ S2080.size a) :
    (Memref.whole (cc0_scratch5 : Ref sig .scVector)).view.writes (Elt F) (zfill f k.val) [⟨Rect.unit (s := S2080) (k0_off2 k) S16.size h, k0_pay3 (F := F)⟩]
      = zfill f (k.val + 1) := by
  have hoff : k0_off2 k = ![16 * k.val] := k0_off2_eq k
  funext j
  refine (congrFun (View.read_whole (cc0_scratch5 : Ref sig .scVector) (Val := Elt F)
    ((View.whole (cc0_scratch5 : Ref sig .scVector)).writes (Elt F) (zfill f k.val) [⟨Rect.unit (s := S2080) (k0_off2 k) S16.size h, k0_pay3 (F := F)⟩])).symm j).trans ?_
  by_cases hj : 16 * k.val ≤ (j 0).val ∧ (j 0).val < 16 * k.val + 16
  · have hx : (Rect.unit (s := S2080) (k0_off2 k) S16.size h).emb (ix1 ⟨(j 0).val - 16 * k.val, by omega⟩) = j := by
      funext a; obtain rfl : a = 0 := Subsingleton.elim _ _
      apply Fin.ext; rw [Rect.emb_apply]
      show (k0_off2 k) 0 + 1 * ((j 0).val - 16 * k.val) = (j 0).val
      rw [hoff]; show 16 * k.val + 1 * ((j 0).val - 16 * k.val) = (j 0).val; omega
    rw [← hx, View.read_writes_cons_emb, hx]
    unfold zfill; rw [if_pos (by omega)]; rfl
  · rw [View.read_writes_apply_of_forall_not_mem]
    · show zfill f k.val j = zfill f (k.val + 1) j
      unfold zfill
      by_cases h1 : (j 0).val < 16 * k.val
      · rw [if_pos h1, if_pos (by omega)]
      · rw [if_neg h1, if_neg (by omega)]
    · intro p hp hm
      obtain rfl : p = ⟨Rect.unit (s := S2080) (k0_off2 k) S16.size h, k0_pay3 (F := F)⟩ := List.mem_singleton.mp hp
      have := (Rect.mem_set_unit (s := S2080) (off := k0_off2 k) (size := S16.size) (inb := h) (i := j)).mp hm 0
      rw [hoff] at this
      exact hj ⟨this.1, this.2⟩

end Cert.KernelIdeal.Hand

end
-- ==== Proof.InRange.lean ====
/-
  Every slot a group of sixteen words names is inside the 2080-slot table when every word of the array is at most 100:
  lane l's word v names slot 129·l + v (the lane offsets 129·l are 32-bit words with no wrap), at most 129·15 + 100,
  and a lane read beyond the array's end holds the word 0.
-/
import proofs.«214571_g7919919694435_cont_9to1_m_483_28_alg».proof.Proof.Hist

noncomputable section

namespace Cert.Bridge

open Idealize.ShloMosaic Idealize.ShloMosaic.ValueIdx Cert.KernelIdeal Cert.KernelIdeal.Gen Cert.KernelIdeal.Hist

/-- The slot lane l's word names: 129·l plus the word, when the word is at most 100. -/
theorem slots_toNat (w : IVec S16 32) (l : Fin 16) (hw : (w (ix1 l)).toNat ≤ 100) :
    (slots w (ix1 l)).toNat = 129 * l.val + (w (ix1 l)).toNat := by
  have hl := l.isLt
  have e : slots w (ix1 l) = BitVec.ofNat 32 (0 * 16 + l.val) * 129#32 + w (ix1 l) := rfl
  rw [e, BitVec.toNat_add, BitVec.toNat_mul, BitVec.toNat_ofNat]
  have e129 : (129#32 : BitVec 32).toNat = 129 := by decide
  rw [e129]
  omega

/-- Every named slot is inside the table when every word is at most 100. -/
theorem inRange_of_le (w : IVec S16 32) (hw : ∀ x, (w x).toNat ≤ 100) : InRange w := by
  intro a x
  have ha : a = 0 := Fin.eq_zero a
  subst ha
  obtain ⟨l, rfl⟩ : ∃ l : Fin 16, x = ix1 l := ⟨x 0, eq_ix1 x⟩
  show (slots w (ix1 l)).toNat < 2080
  rw [slots_toNat w l (hw _)]
  have h16 : l.val < 16 := l.isLt
  have := hw (ix1 l)
  omega

/-- The word at position p as a natural number, 0 beyond the array. -/
def wd (a : IVec S100000 32) (p : ℕ) : ℕ := if h : p < 100000 then (a (ix1 ⟨p, h⟩)).toNat else 0

theorem wd_le (a : IVec S100000 32) (ha : ∀ i, (a i).toNat ≤ 100) (p : ℕ) : wd a p ≤ 100 := by
  unfold wd
  split
  · exact ha _
  · omega

/-- Lane l of the sixteen words from offset o is the word at o + l. -/
theorem group_toNat (a : IVec S100000 32) (o : ℕ) (l : Fin 16) : (group a o (ix1 l)).toNat = wd a (o + l.val) := by
  unfold wd
  show (if h : o + l.val < 100000 then a (ix1 ⟨o + l.val, h⟩) else 0#32).toNat = _
  split <;> rfl

theorem group_le (a : IVec S100000 32) (ha : ∀ i, (a i).toNat ≤ 100) (o : ℕ) (x : S16.Idx) : (group a o x).toNat ≤ 100 := by
  obtain ⟨l, rfl⟩ : ∃ l : Fin 16, x = ix1 l := ⟨x 0, eq_ix1 x⟩
  rw [group_toNat]
  exact wd_le a ha _

/-- Every slot a group of the array's words names is inside the table. -/
theorem inRange_group (a : IVec S100000 32) (ha : ∀ i, (a i).toNat ≤ 100) (o : Nat) : InRange (group a o) :=
  inRange_of_le _ (group_le a ha o)

end Cert.Bridge

end
-- ==== Proof.TileFacts2.lean ====
/-
  More pure facts about what the histogram task's loads and stores see and leave, for every float instance: the
  indexed add-store as one bump, the sixteen words a trip loads as a group of the array's words, sixteen slots of a
  table, the row of bins filled sixteen at a time, and the subcore that writes a row.
-/
import proofs.«214571_g7919919694435_cont_9to1_m_483_28_alg».proof.Proof.TileFacts
import proofs.«214571_g7919919694435_cont_9to1_m_483_28_alg».proof.Proof.InRange
import Idealize.ShloMosaic.Lib.Writes
import Idealize.ShloMosaic.Lib.Exec

noncomputable section

namespace Cert.KernelIdeal.Hand

open Cert.KernelIdeal Cert.KernelIdeal.Gen
open Idealize.ShloMosaic Idealize.ShloMosaic.ValueIdx

variable {F : FTy → Type} [FloatOps F]

/-- An index of a rank-one shape is its one coordinate. -/
theorem idx1_ext {n : Nat} (i j : (⟨1, ![n]⟩ : Shape).Idx) (h : (i 0).val = (j 0).val) : i = j := by
  funext a
  have ha : a = 0 := Fin.eq_zero a
  subst ha
  exact Fin.ext h

/-! ## The indexed add-store -/

/-- The indexed add-store of ones into table 4, through the whole table, is one bump. -/
theorem store_eq4 (g : Vec F S2080 .f32) (w : IVec S16 32) (h : ∀ a x, ((![addi k0_pay1 w] : Fin 1 → IVec S16 32) a x).toNat < S2080.size a) :
    View.write (Elt F) ((Memref.whole (cc0_scratch4 : Ref sig .scVector)).access (Rect.whole (cc0_scratch4 : Ref sig .scVector).ty.shape)) g
      (storeIdx (View.read (Elt F) ((Memref.whole (cc0_scratch4 : Ref sig .scVector)).access (Rect.whole (cc0_scratch4 : Ref sig .scVector).ty.shape)) g) ![addi k0_pay1 w] (k0_pay2 (F := F)) (fun _ => 1#1) true h) Finset.univ
      = Hist.bump g w := by
  rw [Memref.write_access_whole_univ, Memref.read_access_whole]
  have h' : Hist.InRange w := h
  unfold Hist.bump
  rw [dif_pos h']
  rfl

/-- The indexed add-store of ones into table 5, through the whole table, is one bump. -/
theorem store_eq5 (g : Vec F S2080 .f32) (w : IVec S16 32) (h : ∀ a x, ((![addi k0_pay1 w] : Fin 1 → IVec S16 32) a x).toNat < S2080.size a) :
    View.write (Elt F) ((Memref.whole (cc0_scratch5 : Ref sig .scVector)).access (Rect.whole (cc0_scratch5 : Ref sig .scVector).ty.shape)) g
      (storeIdx (View.read (Elt F) ((Memref.whole (cc0_scratch5 : Ref sig .scVector)).access (Rect.whole (cc0_scratch5 : Ref sig .scVector).ty.shape)) g) ![addi k0_pay1 w] (k0_pay2 (F := F)) (fun _ => 1#1) true h) Finset.univ
      = Hist.bump g w := by
  rw [Memref.write_access_whole_univ, Memref.read_access_whole]
  have h' : Hist.InRange w := h
  unfold Hist.bump
  rw [dif_pos h']
  rfl

/-! ## The words a trip loads -/

/-- A subcore's coordinates: SparseCore below 2, subcore below 16. -/
theorem coord0_lt (L : grid0.Coords) : (L 0).val < 2 := (L 0).isLt
theorem coord1_lt (L : grid0.Coords) : (L 1).val < 16 := (L 1).isLt
theorem trips2 (k : Fin k0_t2_loop.trips) : k.val < 195 := lt_of_lt_of_le k.isLt k0_t2_abs.2.1

/-- Trip k of the counting loop loads, from the subcore's landed 3120 words of the first array, the sixteen words of
    the array from base + 16·k. -/
theorem loaded0 (a : IVec S100000 32) (L : grid0.Coords) (k : Fin k0_t2_loop.trips) (g : Vec F S3120 .i32) :
    (Memref.whole (cc0_scratch0 : Ref sig .scVector)).view.readAt (Elt F) (Rect.unit (s := S3120) (k0_off3 k) S16.size (k0_off3_inb k)).toLoadRect
      ((Memref.whole (cc0_scratch0 : Ref sig .scVector)).view.writes (Elt F) g [⟨Rect.whole (cc0_scratch0 : Ref sig .scVector).ty.shape,
        ReadAs.same.apply (View.read (Elt F) ((Memref.whole main_arg1_scv : Memref sig .scVector .hbm S100000 .i32).slice (Rect.unit (s := S100000) (k0_off1 L) S3120.size (k0_off1_inb L)) (fun _ => rfl)).view a)⟩])
      = Hist.group a (Hist.base L + 16 * k.val) := by
  have e1 : (k0_off1 L) 0 = 6240 * (L 1).val + 3120 * (L 0).val := congrFun (k0_off1_eq L) 0
  have e3 : (k0_off3 k) 0 = 16 * k.val := congrFun (k0_off3_eq k) 0
  have h0 := coord0_lt L
  have h1 := coord1_lt L
  have hk := trips2 k
  funext x
  have hx : (x 0).val < 16 := (x 0).isLt
  rw [View.readAt_apply, View.read_writes_whole]
  unfold Hist.group Hist.base
  rw [dif_pos (by omega)]
  show a _ = a _
  refine congrArg a (idx1_ext _ _ ?_)
  show (k0_off1 L) 0 + 1 * ((k0_off3 k) 0 + 1 * (x 0).val) = 6240 * (L 1).val + 3120 * (L 0).val + 16 * k.val + (x 0).val
  rw [e1, e3]
  omega

/-- Trip k of the counting loop loads, from the subcore's landed 3120 words of the second array, the sixteen words of
    the array from base + 16·k. -/
theorem loaded1 (a : IVec S100000 32) (L : grid0.Coords) (k : Fin k0_t2_loop.trips) (g : Vec F S3120 .i32) :
    (Memref.whole (cc0_scratch1 : Ref sig .scVector)).view.readAt (Elt F) (Rect.unit (s := S3120) (k0_off4 k) S16.size (k0_off4_inb k)).toLoadRect
      ((Memref.whole (cc0_scratch1 : Ref sig .scVector)).view.writes (Elt F) g [⟨Rect.whole (cc0_scratch1 : Ref sig .scVector).ty.shape,
        ReadAs.same.apply (View.read (Elt F) ((Memref.whole main_arg3_scv : Memref sig .scVector .hbm S100000 .i32).slice (Rect.unit (s := S100000) (k0_off1 L) S3120.size (k0_off1_inb L)) (fun _ => rfl)).view a)⟩])
      = Hist.group a (Hist.base L + 16 * k.val) := by
  have e1 : (k0_off1 L) 0 = 6240 * (L 1).val + 3120 * (L 0).val := congrFun (k0_off1_eq L) 0
  have e3 : (k0_off4 k) 0 = 16 * k.val := congrFun (k0_off4_eq k) 0
  have h0 := coord0_lt L
  have h1 := coord1_lt L
  have hk := trips2 k
  funext x
  have hx : (x 0).val < 16 := (x 0).isLt
  rw [View.readAt_apply, View.read_writes_whole]
  unfold Hist.group Hist.base
  rw [dif_pos (by omega)]
  show a _ = a _
  refine congrArg a (idx1_ext _ _ ?_)
  show (k0_off1 L) 0 + 1 * ((k0_off4 k) 0 + 1 * (x 0).val) = 6240 * (L 1).val + 3120 * (L 0).val + 16 * k.val + (x 0).val
  rw [e1, e3]
  omega

/-- A subcore with extra words loads, from its landed sixteen extra words of the first array, the sixteen words of the
    array from its extra words' offset. -/
theorem loadedT2 (a : IVec S100000 32) (L : grid0.Coords) (hc : k0_cond1 L = 1#1) (g : Vec F S16 .i32) :
    (Memref.whole (cc0_scratch2 : Ref sig .scVector)).view.readAt (Elt F) (Rect.unit (s := S16) ![0] S16.size inb_S16_S16_0).toLoadRect
      ((Memref.whole (cc0_scratch2 : Ref sig .scVector)).view.writes (Elt F) g [⟨Rect.whole (cc0_scratch2 : Ref sig .scVector).ty.shape,
        ReadAs.same.apply (View.read (Elt F) ((Memref.whole main_arg1_scv : Memref sig .scVector .hbm S100000 .i32).slice (Rect.unit (s := S100000) (k0_off5 L) S16.size (k0_off5_inb L hc)) (fun _ => rfl)).view a)⟩])
      = Hist.group a (Hist.tailOff L) := by
  have e5 : (k0_off5 L) 0 = 32 * (L 1).val + 16 * (L 0).val + 99840 := congrFun (k0_off5_eq L) 0
  have hin := k0_off5_inb L hc 0
  rw [e5] at hin
  have hin' : 32 * (L 1).val + 16 * (L 0).val + 99840 + 16 ≤ 100000 := hin
  funext x
  have hx : (x 0).val < 16 := (x 0).isLt
  rw [View.readAt_apply, View.read_writes_whole]
  unfold Hist.group Hist.tailOff
  rw [dif_pos (by omega)]
  show a _ = a _
  refine congrArg a (idx1_ext _ _ ?_)
  show (k0_off5 L) 0 + 1 * (0 + 1 * (x 0).val) = 32 * (L 1).val + 16 * (L 0).val + 99840 + (x 0).val
  rw [e5]
  omega

/-- A subcore with extra words loads, from its landed sixteen extra words of the second array, the sixteen words of the
    array from its extra words' offset. -/
theorem loadedT3 (a : IVec S100000 32) (L : grid0.Coords) (hc : k0_cond1 L = 1#1) (g : Vec F S16 .i32) :
    (Memref.whole (cc0_scratch3 : Ref sig .scVector)).view.readAt (Elt F) (Rect.unit (s := S16) ![0] S16.size inb_S16_S16_0).toLoadRect
      ((Memref.whole (cc0_scratch3 : Ref sig .scVector)).view.writes (Elt F) g [⟨Rect.whole (cc0_scratch3 : Ref sig .scVector).ty.shape,
        ReadAs.same.apply (View.read (Elt F) ((Memref.whole main_arg3_scv : Memref sig .scVector .hbm S100000 .i32).slice (Rect.unit (s := S100000) (k0_off5 L) S16.size (k0_off5_inb L hc)) (fun _ => rfl)).view a)⟩])
      = Hist.group a (Hist.tailOff L) := by
  have e5 : (k0_off5 L) 0 = 32 * (L 1).val + 16 * (L 0).val + 99840 := congrFun (k0_off5_eq L) 0
  have hin := k0_off5_inb L hc 0
  rw [e5] at hin
  have hin' : 32 * (L 1).val + 16 * (L 0).val + 99840 + 16 ≤ 100000 := hin
  funext x
  have hx : (x 0).val < 16 := (x 0).isLt
  rw [View.readAt_apply, View.read_writes_whole]
  unfold Hist.group Hist.tailOff
  rw [dif_pos (by omega)]
  show a _ = a _
  refine congrArg a (idx1_ext _ _ ?_)
  show (k0_off5 L) 0 + 1 * (0 + 1 * (x 0).val) = 32 * (L 1).val + 16 * (L 0).val + 99840 + (x 0).val
  rw [e5]
  omega

/-! ## Sixteen slots of a table -/

/-- The trip counts of the fold's two loops. -/
theorem trips3 (cc : Fin k0_t3_loop.trips) : cc.val < 8 := lt_of_lt_of_le cc.isLt k0_t3_abs.2.1
theorem trips4 (r : Fin k0_t4_loop.trips) : r.val < 16 := lt_of_lt_of_le r.isLt k0_t4_abs.2.1

/-- What the fold's load reads off table 4: sixteen slots from 129·r + 16·cc. -/
theorem piece4 (h : Vec F S2080 .f32) (cc : Fin k0_t3_loop.trips) (r : Fin k0_t4_loop.trips) :
    (Memref.whole (cc0_scratch4 : Ref sig .scVector)).view.readAt (Elt F) (Rect.unit (s := S2080) (k0_off6 cc r) S16.size (k0_off6_inb cc r)).toLoadRect h
      = Hist.piece h (129 * r.val + 16 * cc.val) := by
  have e0 : (k0_off6 cc r) 0 = 129 * r.val + 16 * cc.val := congrFun (k0_off6_eq cc r) 0
  have h3 := trips3 cc
  have h4 := trips4 r
  funext x
  have hx : (x 0).val < 16 := (x 0).isLt
  rw [View.readAt_apply]
  unfold Hist.piece
  rw [dif_pos (by omega)]
  refine congrArg h (idx1_ext _ _ ?_)
  show (k0_off6 cc r) 0 + 1 * (x 0).val = 129 * r.val + 16 * cc.val + (x 0).val
  rw [e0]
  omega

/-- What the fold's load reads off table 5: sixteen slots from 129·r + 16·cc. -/
theorem piece5 (h : Vec F S2080 .f32) (cc : Fin k0_t3_loop.trips) (r : Fin k0_t4_loop.trips) :
    (Memref.whole (cc0_scratch5 : Ref sig .scVector)).view.readAt (Elt F) (Rect.unit (s := S2080) (k0_off6 cc r) S16.size (k0_off6_inb cc r)).toLoadRect h
      = Hist.piece h (129 * r.val + 16 * cc.val) := by
  have e0 : (k0_off6 cc r) 0 = 129 * r.val + 16 * cc.val := congrFun (k0_off6_eq cc r) 0
  have h3 := trips3 cc
  have h4 := trips4 r
  funext x
  have hx : (x 0).val < 16 := (x 0).isLt
  rw [View.readAt_apply]
  unfold Hist.piece
  rw [dif_pos (by omega)]
  refine congrArg h (idx1_ext _ _ ?_)
  show (k0_off6 cc r) 0 + 1 * (x 0).val = 129 * r.val + 16 * cc.val + (x 0).val
  rw [e0]
  omega

/-! ## The row of bins, sixteen at a time -/

/-- A row whose first 16·k bins are the table's folded bins and whose other bins are as found. -/
def outfill (h : Vec F S2080 .f32) (f : Vec F S128 .f32) (k : Nat) : Vec F S128 .f32 :=
  fun b => if (b 0).val < 16 * k then Hist.fold h b else f b

/-- After all eight groups of sixteen the row is the table's fold. -/
theorem outfill_last (h : Vec F S2080 .f32) (f : Vec F S128 .f32) : outfill h f 8 = Hist.fold h := by
  funext b
  have : (b 0).val < 128 := (b 0).isLt
  unfold outfill
  rw [if_pos (by omega)]

/-- Bins 16·k ‥ 16·k + 15 of the fold are the sixteen lanes of the k-th accumulated vector. -/
theorem acc_eq_fold (h : Vec F S2080 .f32) (k : Nat) (j : S128.Idx) (hj : 16 * k ≤ (j 0).val ∧ (j 0).val < 16 * k + 16) :
    Hist.acc h k 16 (ix1 ⟨(j 0).val - 16 * k, by omega⟩) = Hist.fold h j := by
  have e1 : (j 0).val / 16 = k := by omega
  have e2 : (⟨(j 0).val % 16, Nat.mod_lt _ (by decide)⟩ : Fin 16) = ⟨(j 0).val - 16 * k, by omega⟩ := Fin.ext (by show (j 0).val % 16 = (j 0).val - 16 * k; omega)
  unfold Hist.fold
  rw [e1, e2]

/-- Sixteen accumulated bins written at bins 16·k ‥ 16·k + 15 of row buffer 6 extend the folded prefix by sixteen. -/
theorem outfill_step6 (h : Vec F S2080 .f32) (f : Vec F S128 .f32) (k : Fin k0_t3_loop.trips) (hh : ∀ a, (k0_off7 k) a + S16.size a ≤ S128.size a) :
    (Memref.whole (cc0_scratch6 : Ref sig .scVector)).view.writes (Elt F) (outfill h f k.val) [⟨Rect.unit (s := S128) (k0_off7 k) S16.size hh, Hist.acc h k.val 16⟩]
      = outfill h f (k.val + 1) := by
  have hoff : k0_off7 k = ![16 * k.val] := k0_off7_eq k
  funext j
  refine (congrFun (View.read_whole (cc0_scratch6 : Ref sig .scVector) (Val := Elt F)
    ((View.whole (cc0_scratch6 : Ref sig .scVector)).writes (Elt F) (outfill h f k.val) [⟨Rect.unit (s := S128) (k0_off7 k) S16.size hh, Hist.acc h k.val 16⟩])).symm j).trans ?_
  by_cases hj : 16 * k.val ≤ (j 0).val ∧ (j 0).val < 16 * k.val + 16
  · have hx : (Rect.unit (s := S128) (k0_off7 k) S16.size hh).emb (ix1 ⟨(j 0).val - 16 * k.val, by omega⟩) = j := by
      funext a; obtain rfl : a = 0 := Subsingleton.elim _ _
      apply Fin.ext; rw [Rect.emb_apply]
      show (k0_off7 k) 0 + 1 * ((j 0).val - 16 * k.val) = (j 0).val
      rw [hoff]; show 16 * k.val + 1 * ((j 0).val - 16 * k.val) = (j 0).val; omega
    rw [← hx, View.read_writes_cons_emb, hx]
    unfold outfill; rw [if_pos (by omega)]
    exact acc_eq_fold h k.val j hj
  · rw [View.read_writes_apply_of_forall_not_mem]
    · show outfill h f k.val j = outfill h f (k.val + 1) j
      unfold outfill
      by_cases h1 : (j 0).val < 16 * k.val
      · rw [if_pos h1, if_pos (by omega)]
      · rw [if_neg h1, if_neg (by omega)]
    · intro p hp hm
      obtain rfl : p = ⟨Rect.unit (s := S128) (k0_off7 k) S16.size hh, Hist.acc h k.val 16⟩ := List.mem_singleton.mp hp
      have := (Rect.mem_set_unit (s := S128) (off := k0_off7 k) (size := S16.size) (inb := hh) (i := j)).mp hm 0
      rw [hoff] at this
      exact hj ⟨this.1, this.2⟩

/-- Sixteen accumulated bins written at bins 16·k ‥ 16·k + 15 of row buffer 7 extend the folded prefix by sixteen. -/
theorem outfill_step7 (h : Vec F S2080 .f32) (f : Vec F S128 .f32) (k : Fin k0_t3_loop.trips) (hh : ∀ a, (k0_off7 k) a + S16.size a ≤ S128.size a) :
    (Memref.whole (cc0_scratch7 : Ref sig .scVector)).view.writes (Elt F) (outfill h f k.val) [⟨Rect.unit (s := S128) (k0_off7 k) S16.size hh, Hist.acc h k.val 16⟩]
      = outfill h f (k.val + 1) := by
  have hoff : k0_off7 k = ![16 * k.val] := k0_off7_eq k
  funext j
  refine (congrFun (View.read_whole (cc0_scratch7 : Ref sig .scVector) (Val := Elt F)
    ((View.whole (cc0_scratch7 : Ref sig .scVector)).writes (Elt F) (outfill h f k.val) [⟨Rect.unit (s := S128) (k0_off7 k) S16.size hh, Hist.acc h k.val 16⟩])).symm j).trans ?_
  by_cases hj : 16 * k.val ≤ (j 0).val ∧ (j 0).val < 16 * k.val + 16
  · have hx : (Rect.unit (s := S128) (k0_off7 k) S16.size hh).emb (ix1 ⟨(j 0).val - 16 * k.val, by omega⟩) = j := by
      funext a; obtain rfl : a = 0 := Subsingleton.elim _ _
      apply Fin.ext; rw [Rect.emb_apply]
      show (k0_off7 k) 0 + 1 * ((j 0).val - 16 * k.val) = (j 0).val
      rw [hoff]; show 16 * k.val + 1 * ((j 0).val - 16 * k.val) = (j 0).val; omega
    rw [← hx, View.read_writes_cons_emb, hx]
    unfold outfill; rw [if_pos (by omega)]
    exact acc_eq_fold h k.val j hj
  · rw [View.read_writes_apply_of_forall_not_mem]
    · show outfill h f k.val j = outfill h f (k.val + 1) j
      unfold outfill
      by_cases h1 : (j 0).val < 16 * k.val
      · rw [if_pos h1, if_pos (by omega)]
      · rw [if_neg h1, if_neg (by omega)]
    · intro p hp hm
      obtain rfl : p = ⟨Rect.unit (s := S128) (k0_off7 k) S16.size hh, Hist.acc h k.val 16⟩ := List.mem_singleton.mp hp
      have := (Rect.mem_set_unit (s := S128) (off := k0_off7 k) (size := S16.size) (inb := hh) (i := j)).mp hm 0
      rw [hoff] at this
      exact hj ⟨this.1, this.2⟩

/-- One more lane table added into the accumulated bins (the first array's table). -/
theorem acc_succ (h : Vec F S2080 .f32) (cc r : Nat) (v : Vec F S16 .f32) (hv : v = Hist.piece h (129 * r + 16 * cc)) :
    k0_pay4 (Hist.acc h cc r) v = Hist.acc h cc (r + 1) := by
  rw [hv]; rfl

/-- One more lane table added into the accumulated bins (the second array's table). -/
theorem acc_succ5 (h : Vec F S2080 .f32) (cc r : Nat) (v : Vec F S16 .f32) (hv : v = Hist.piece h (129 * r + 16 * cc)) :
    k0_pay5 (Hist.acc h cc r) v = Hist.acc h cc (r + 1) := by
  rw [hv]; rfl

/-! ## The subcore that writes a row -/

/-- Row 2·s + c is written by subcore s of SparseCore c. -/
theorem coordsOfRow_wid (L : grid0.Coords) :
    Hist.coordsOfRow ⟨2 * (L 1).val + (L 0).val, by have := coord0_lt L; have := coord1_lt L; omega⟩ = L := by
  have h0 := coord0_lt L
  have h1 := coord1_lt L
  funext a
  match a with
  | ⟨0, _⟩ => exact Fin.ext (by show (2 * (L 1).val + (L 0).val) % 2 = (L 0).val; omega)
  | ⟨1, _⟩ => exact Fin.ext (by show (2 * (L 1).val + (L 0).val) / 2 = (L 1).val; omega)

end Cert.KernelIdeal.Hand

end
-- ==== Proof.TileFacts3.lean ====
/-
  The row of bins a task sends, as it lands in the 32 × 128 array of rows: the task's row is row 2·s + c, bin b of
  which is the bin the array of rows names there.
-/
import proofs.«214571_g7919919694435_cont_9to1_m_483_28_alg».proof.Proof.TileDefs
import proofs.«214571_g7919919694435_cont_9to1_m_483_28_alg».proof.Proof.TileFacts2
import Idealize.ShloMosaic.Lib.Exec

noncomputable section

namespace Cert.KernelIdeal.Hand

open Cert.KernelIdeal Cert.KernelIdeal.Gen
open Idealize.ShloMosaic Idealize.ShloMosaic.ValueIdx

variable {F : FTy → Type} [FloatOps F]

/-- Where bin y of the task's row lies in the array of rows: row 2·s + c, column y. -/
theorem emb_oRowH (L : grid0.Coords) (y : S128.Idx) :
    (((oRowH L).view.emb y) 0).val = 2 * (L 1).val + (L 0).val ∧ (((oRowH L).view.emb y) 1).val = (y 0).val := by
  have e0 : (k0_off8 L) 0 = 2 * (L 1).val + (L 0).val := congrFun (k0_off8_eq L) 0
  have e1 : (k0_off8 L) 1 = 0 := congrFun (k0_off8_eq L) 1
  have hemb : (oRowH L).view.emb y
      = (Rect.unit (s := S32x128) (k0_off8 L) S1x128.size (k0_off8_inb L)).emb (Shape.reshapeEquiv squeezes_S1x128_S128.numel_eq y) := rfl
  rw [hemb, Shape.reshapeEquiv_cons_one]
  constructor
  · show (k0_off8 L) 0 + 1 * 0 = _
    rw [e0]; omega
  · show (k0_off8 L) 1 + 1 * (y 0).val = _
    rw [e1]; omega

/-- The other array's row lies at the same place. -/
theorem emb_oRowR (L : grid0.Coords) (y : S128.Idx) :
    (((oRowR L).view.emb y) 0).val = 2 * (L 1).val + (L 0).val ∧ (((oRowR L).view.emb y) 1).val = (y 0).val := by
  have e0 : (k0_off8 L) 0 = 2 * (L 1).val + (L 0).val := congrFun (k0_off8_eq L) 0
  have e1 : (k0_off8 L) 1 = 0 := congrFun (k0_off8_eq L) 1
  have hemb : (oRowR L).view.emb y
      = (Rect.unit (s := S32x128) (k0_off8 L) S1x128.size (k0_off8_inb L)).emb (Shape.reshapeEquiv squeezes_S1x128_S128.numel_eq y) := rfl
  rw [hemb, Shape.reshapeEquiv_cons_one]
  constructor
  · show (k0_off8 L) 0 + 1 * 0 = _
    rw [e0]; omega
  · show (k0_off8 L) 1 + 1 * (y 0).val = _
    rw [e1]; omega

/-- Bin (2·s + c, b) of the array of rows is bin b of subcore (c, s)'s folded table. -/
theorem parts_at (a : IVec S100000 32) (L : grid0.Coords) (j : S32x128.Idx) (y : S128.Idx)
    (h0 : (j 0).val = 2 * (L 1).val + (L 0).val) (h1 : (j 1).val = (y 0).val) :
    Hist.parts (F := F) a j = Hist.fold (Hist.histAll (F := F) a L) y := by
  have hL0 := coord0_lt L
  have hL1 := coord1_lt L
  have e0 : j 0 = (⟨2 * (L 1).val + (L 0).val, by omega⟩ : Fin 32) := Fin.ext h0
  have e1 : j 1 = (y 0 : Fin 128) := Fin.ext h1
  unfold Hist.parts
  rw [e0, e1, coordsOfRow_wid L]
  show Hist.fold (Hist.histAll (F := F) a L) (ix1 (y 0)) = _
  exact congrArg (Hist.fold (Hist.histAll (F := F) a L)) (eq_ix1 (n := 128) y).symm

/-- The task's row of the first array of bins, landed: every element of the row holds the bin the array of rows names there. -/
theorem row_landedH (a : IVec S100000 32) (L : grid0.Coords) (g : Vec F S32x128 .f32) (pay : S128.Idx → Elt F .f32)
    (hp : pay = Hist.fold (Hist.histAll (F := F) a L)) :
    ∀ i ∈ (oRowH L).view.set, (oRowH L).view.writes (Elt F) g [⟨Rect.whole S128, pay⟩] i = Hist.parts (F := F) a i := by
  intro i hi
  obtain ⟨y, -, rfl⟩ := Finset.mem_map.mp hi
  have hr := congrFun (View.read_writes_whole (oRowH L).view g pay) y
  rw [View.read_apply] at hr
  have hw : (oRowH L).view.writes (Elt F) g [⟨Rect.whole S128, pay⟩] ((oRowH L).view.emb y) = pay y := hr
  rw [hw, hp]
  exact (parts_at a L _ y (emb_oRowH L y).1 (emb_oRowH L y).2).symm

/-- The task's row of the second array of bins, landed. -/
theorem row_landedR (a : IVec S100000 32) (L : grid0.Coords) (g : Vec F S32x128 .f32) (pay : S128.Idx → Elt F .f32)
    (hp : pay = Hist.fold (Hist.histAll (F := F) a L)) :
    ∀ i ∈ (oRowR L).view.set, (oRowR L).view.writes (Elt F) g [⟨Rect.whole S128, pay⟩] i = Hist.parts (F := F) a i := by
  intro i hi
  obtain ⟨y, -, rfl⟩ := Finset.mem_map.mp hi
  have hr := congrFun (View.read_writes_whole (oRowR L).view g pay) y
  rw [View.read_apply] at hr
  have hw : (oRowR L).view.writes (Elt F) g [⟨Rect.whole S128, pay⟩] ((oRowR L).view.emb y) = pay y := hr
  rw [hw, hp]
  exact (parts_at a L _ y (emb_oRowR L y).1 (emb_oRowR L y).2).symm

/-! ## The indexed add-store at any index vector -/

/-- The indexed add-store of ones into table 4, through the whole table, is the pure indexed add-store. -/
theorem store_acc4 (g : Vec F S2080 .f32) (v : IVec S16 32) (h : ∀ a x, ((![v] : Fin 1 → IVec S16 32) a x).toNat < S2080.size a) :
    View.write (Elt F) ((Memref.whole (cc0_scratch4 : Ref sig .scVector)).access (Rect.whole (cc0_scratch4 : Ref sig .scVector).ty.shape)) g
      (storeIdx (View.read (Elt F) ((Memref.whole (cc0_scratch4 : Ref sig .scVector)).access (Rect.whole (cc0_scratch4 : Ref sig .scVector).ty.shape)) g) ![v] (k0_pay2 (F := F)) (fun _ => 1#1) true h) Finset.univ
      = storeIdx g ![v] (k0_pay2 (F := F)) (fun _ => 1#1) true h := by
  rw [Memref.write_access_whole_univ, Memref.read_access_whole]

/-- The indexed add-store of ones into table 5, through the whole table, is the pure indexed add-store. -/
theorem store_acc5 (g : Vec F S2080 .f32) (v : IVec S16 32) (h : ∀ a x, ((![v] : Fin 1 → IVec S16 32) a x).toNat < S2080.size a) :
    View.write (Elt F) ((Memref.whole (cc0_scratch5 : Ref sig .scVector)).access (Rect.whole (cc0_scratch5 : Ref sig .scVector).ty.shape)) g
      (storeIdx (View.read (Elt F) ((Memref.whole (cc0_scratch5 : Ref sig .scVector)).access (Rect.whole (cc0_scratch5 : Ref sig .scVector).ty.shape)) g) ![v] (k0_pay2 (F := F)) (fun _ => 1#1) true h) Finset.univ
      = storeIdx g ![v] (k0_pay2 (F := F)) (fun _ => 1#1) true h := by
  rw [Memref.write_access_whole_univ, Memref.read_access_whole]

/-- At the slots sixteen words name, the pure indexed add-store of ones is one bump. -/
theorem bump_of_eq (g : Vec F S2080 .f32) (v w : IVec S16 32) (hv : v = addi k0_pay1 w)
    (h : ∀ a x, ((![v] : Fin 1 → IVec S16 32) a x).toNat < S2080.size a) :
    storeIdx g ![v] (k0_pay2 (F := F)) (fun _ => 1#1) true h = Hist.bump g w := by
  subst hv
  have h' : Hist.InRange w := h
  unfold Hist.bump
  rw [dif_pos h']
  rfl

end Cert.KernelIdeal.Hand

end
-- ==== Proof.TileBody.lean ====
/-
  The histogram task's run on one vector subcore: the two stretches copied in while the tables are zeroed, 195 groups of
  sixteen words counted into the lane tables (and sixteen more words on subcores 0‥9), the lane tables folded into a row
  of 128 bins, the two rows copied out. Each loop keeps an invariant that names the tables' contents by the pure
  recursion the program performs; one theorem per loop trip, then the whole run.
-/
import proofs.«214571_g7919919694435_cont_9to1_m_483_28_alg».proof.Proof.TileDefs
import proofs.«214571_g7919919694435_cont_9to1_m_483_28_alg».proof.Proof.TileFacts
import proofs.«214571_g7919919694435_cont_9to1_m_483_28_alg».proof.Proof.TileFacts2
import proofs.«214571_g7919919694435_cont_9to1_m_483_28_alg».proof.Proof.InRange
import proofs.«214571_g7919919694435_cont_9to1_m_483_28_alg».proof.Proof.TileFacts3

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "hV" => (Memref.whole Cert.KernelIdeal.main_arg1_scv : Memref Cert.KernelIdeal.sig Kind.scVector Space.hbm Cert.KernelIdeal.S100000 EltTy.i32)
local notation "rV" => (Memref.whole Cert.KernelIdeal.main_arg3_scv : Memref Cert.KernelIdeal.sig Kind.scVector Space.hbm Cert.KernelIdeal.S100000 EltTy.i32)
local notation "ohV" => (Memref.whole Cert.KernelIdeal.main_v0_0_scv : Memref Cert.KernelIdeal.sig Kind.scVector Space.hbm Cert.KernelIdeal.S32x128 EltTy.f32)
local notation "orV" => (Memref.whole Cert.KernelIdeal.main_v0_1_scv : Memref Cert.KernelIdeal.sig Kind.scVector Space.hbm Cert.KernelIdeal.S32x128 EltTy.f32)
local notation "s0V" => (Memref.whole Cert.KernelIdeal.cc0_scratch0 : Memref Cert.KernelIdeal.sig Kind.scVector Space.vmem Cert.KernelIdeal.S3120 EltTy.i32)
local notation "s1V" => (Memref.whole Cert.KernelIdeal.cc0_scratch1 : Memref Cert.KernelIdeal.sig Kind.scVector Space.vmem Cert.KernelIdeal.S3120 EltTy.i32)
local notation "s2V" => (Memref.whole Cert.KernelIdeal.cc0_scratch2 : Memref Cert.KernelIdeal.sig Kind.scVector Space.vmem Cert.KernelIdeal.S16 EltTy.i32)
local notation "s3V" => (Memref.whole Cert.KernelIdeal.cc0_scratch3 : Memref Cert.KernelIdeal.sig Kind.scVector Space.vmem Cert.KernelIdeal.S16 EltTy.i32)
local notation "s4V" => (Memref.whole Cert.KernelIdeal.cc0_scratch4 : Memref Cert.KernelIdeal.sig Kind.scVector Space.vmem Cert.KernelIdeal.S2080 EltTy.f32)
local notation "s5V" => (Memref.whole Cert.KernelIdeal.cc0_scratch5 : Memref Cert.KernelIdeal.sig Kind.scVector Space.vmem Cert.KernelIdeal.S2080 EltTy.f32)
local notation "s6V" => (Memref.whole Cert.KernelIdeal.cc0_scratch6 : Memref Cert.KernelIdeal.sig Kind.scVector Space.vmem Cert.KernelIdeal.S128 EltTy.f32)
local notation "s7V" => (Memref.whole Cert.KernelIdeal.cc0_scratch7 : Memref Cert.KernelIdeal.sig Kind.scVector Space.vmem Cert.KernelIdeal.S128 EltTy.f32)

variable [FloatOps F]

theorem zfill_zero (f : Vec F S2080 .f32) : zfill f 0 = f := by
  funext j; unfold zfill; rw [if_neg (by omega)]
theorem outfill_zero (h : Vec F S2080 .f32) (f : Vec F S128 .f32) : outfill h f 0 = f := by
  funext b; unfold outfill; rw [if_neg (by omega)]

omit [FloatOps F] in
theorem ntrips1 : Scf.trips k0_t1_loop.lb k0_t1_loop.ub k0_t1_loop.st = 130 := by decide
omit [FloatOps F] in
theorem ntrips2 : Scf.trips k0_t2_loop.lb k0_t2_loop.ub k0_t2_loop.st = 195 := by decide
omit [FloatOps F] in
theorem ntrips3 : Scf.trips k0_t3_loop.lb k0_t3_loop.ub k0_t3_loop.st = 8 := by decide
omit [FloatOps F] in
theorem ntrips4 : Scf.trips k0_t4_loop.lb k0_t4_loop.ub k0_t4_loop.st = 16 := by decide

variable (d : Dev nD) (L : grid0.Coords)

/-! ## What the copies land and what each loop keeps -/

/-- The subcore's 3120 words of each array, as its two copies land them. -/
abbrev c0H : Buf (Elt F) ((s0V).view.loc (VT d L)) :=
  (s0V).view.writes (Elt F) (s0V).view.junk [⟨Rect.whole (cc0_scratch0 : Ref sig .scVector).ty.shape,
    ReadAs.same.apply (View.read (Elt F) ((hV).slice (Rect.unit (s := S100000) (k0_off1 L) S3120.size (k0_off1_inb L)) (fun _ => rfl)).view (m (hLoc d)))⟩]
abbrev c1R : Buf (Elt F) ((s1V).view.loc (VT d L)) :=
  (s1V).view.writes (Elt F) (s1V).view.junk [⟨Rect.whole (cc0_scratch1 : Ref sig .scVector).ty.shape,
    ReadAs.same.apply (View.read (Elt F) ((rV).slice (Rect.unit (s := S100000) (k0_off1 L) S3120.size (k0_off1_inb L)) (fun _ => rfl)).view (m (rLoc d)))⟩]

/-- Zero fill: before trip k the first 16·k slots of both tables are zero. -/
def inv1 (f4 : Buf (Elt F) ((s4V).view.loc (VT d L))) (f5 : Buf (Elt F) ((s5V).view.loc (VT d L))) (k : Nat) (_ : PUnit) : sProp 𝕄 :=
  iprop(((s4V).view.loc (VT d L) ↦[(s4V).view.set]{fullShare} zfill (F := F) f4 k)
    ∗ ((s5V).view.loc (VT d L) ↦[(s5V).view.set]{fullShare} zfill (F := F) f5 k))

/-- Counting: before trip k the tables hold the first k groups of the subcore's words. -/
def inv2 (k : Nat) (_ : PUnit) : sProp 𝕄 :=
  iprop(((s0V).view.loc (VT d L) ↦[(s0V).view.set]{fullShare} c0H m d L)
    ∗ ((s1V).view.loc (VT d L) ↦[(s1V).view.set]{fullShare} c1R m d L)
    ∗ ((s4V).view.loc (VT d L) ↦[(s4V).view.set]{fullShare} Hist.histMain (F := F) (hArr m d) L k)
    ∗ ((s5V).view.loc (VT d L) ↦[(s5V).view.set]{fullShare} Hist.histMain (F := F) (rArr m d) L k))

omit [FloatOps F] in
/-- A table held whole, in the two spellings the rules use. -/
theorem pts_acc4 (f : Buf (Elt F) (((s4V).access (Rect.whole (cc0_scratch4 : Ref sig .scVector).ty.shape)).loc (VT d L))) :
    ((((s4V).access (Rect.whole (cc0_scratch4 : Ref sig .scVector).ty.shape)).loc (VT d L)
        ↦[((s4V).access (Rect.whole (cc0_scratch4 : Ref sig .scVector).ty.shape)).set]{fullShare} f : sProp 𝕄))
      = ((s4V).view.loc (VT d L) ↦[(s4V).view.set]{fullShare} f) := by
  rw [show ((s4V).access (Rect.whole (cc0_scratch4 : Ref sig .scVector).ty.shape)).set = Finset.univ from Memref.set_access_whole (cc0_scratch4 : Ref sig .scVector)]
  simp only [Memref.view_whole, View.set_whole]
omit [FloatOps F] in
theorem pts_acc5 (f : Buf (Elt F) (((s5V).access (Rect.whole (cc0_scratch5 : Ref sig .scVector).ty.shape)).loc (VT d L))) :
    ((((s5V).access (Rect.whole (cc0_scratch5 : Ref sig .scVector).ty.shape)).loc (VT d L)
        ↦[((s5V).access (Rect.whole (cc0_scratch5 : Ref sig .scVector).ty.shape)).set]{fullShare} f : sProp 𝕄))
      = ((s5V).view.loc (VT d L) ↦[(s5V).view.set]{fullShare} f) := by
  rw [show ((s5V).access (Rect.whole (cc0_scratch5 : Ref sig .scVector).ty.shape)).set = Finset.univ from Memref.set_access_whole (cc0_scratch5 : Ref sig .scVector)]
  simp only [Memref.view_whole, View.set_whole]

/-- One counting trip on the first table: the indexed add-store of the loaded group is the next table. -/
theorem step4 (k : Fin k0_t2_loop.trips) (h) :
    ((((s4V).access (Rect.whole (cc0_scratch4 : Ref sig .scVector).ty.shape)).loc (VT d L)
        ↦[((s4V).access (Rect.whole (cc0_scratch4 : Ref sig .scVector).ty.shape)).set]{fullShare}
          View.write (Elt F) ((s4V).access (Rect.whole (cc0_scratch4 : Ref sig .scVector).ty.shape)) (Hist.histMain (F := F) (hArr m d) L k.val)
            (storeIdx (View.read (Elt F) ((s4V).access (Rect.whole (cc0_scratch4 : Ref sig .scVector).ty.shape)) (Hist.histMain (F := F) (hArr m d) L k.val))
              ![addi k0_pay1 ((s0V).view.readAt (Elt F) (Rect.unit (s := S3120) (k0_off3 k) S16.size (k0_off3_inb k)).toLoadRect (c0H m d L))]
              (k0_pay2 (F := F)) (fun _ => 1#1) true h) Finset.univ : sProp 𝕄))
      = ((s4V).view.loc (VT d L) ↦[(s4V).view.set]{fullShare} Hist.histMain (F := F) (hArr m d) L (k.val + 1)) := by
  rw [pts_acc4]
  congr 1
  have e := loaded0 (F := F) (hArr m d) L k (s0V).view.junk
  generalize hw : (s0V).view.readAt (Elt F) (Rect.unit (s := S3120) (k0_off3 k) S16.size (k0_off3_inb k)).toLoadRect (c0H m d L) = w at h ⊢
  rw [store_eq4, ← hw, e]; rfl

/-- The same trip on the second table. -/
theorem step5 (k : Fin k0_t2_loop.trips) (h) :
    ((((s5V).access (Rect.whole (cc0_scratch5 : Ref sig .scVector).ty.shape)).loc (VT d L)
        ↦[((s5V).access (Rect.whole (cc0_scratch5 : Ref sig .scVector).ty.shape)).set]{fullShare}
          View.write (Elt F) ((s5V).access (Rect.whole (cc0_scratch5 : Ref sig .scVector).ty.shape)) (Hist.histMain (F := F) (rArr m d) L k.val)
            (storeIdx (View.read (Elt F) ((s5V).access (Rect.whole (cc0_scratch5 : Ref sig .scVector).ty.shape)) (Hist.histMain (F := F) (rArr m d) L k.val))
              ![addi k0_pay1 ((s1V).view.readAt (Elt F) (Rect.unit (s := S3120) (k0_off4 k) S16.size (k0_off4_inb k)).toLoadRect (c1R m d L))]
              (k0_pay2 (F := F)) (fun _ => 1#1) true h) Finset.univ : sProp 𝕄))
      = ((s5V).view.loc (VT d L) ↦[(s5V).view.set]{fullShare} Hist.histMain (F := F) (rArr m d) L (k.val + 1)) := by
  rw [pts_acc5]
  congr 1
  have e := loaded1 (F := F) (rArr m d) L k (s1V).view.junk
  generalize hw : (s1V).view.readAt (Elt F) (Rect.unit (s := S3120) (k0_off4 k) S16.size (k0_off4_inb k)).toLoadRect (c1R m d L) = w at h ⊢
  rw [store_eq5, ← hw, e]; rfl

/-- Folding: before trip cc the first 16·cc bins of each row are folded; the tables are read only. -/
def inv3 (h4 h5 : Vec F S2080 .f32) (f6 : Buf (Elt F) ((s6V).view.loc (VT d L))) (f7 : Buf (Elt F) ((s7V).view.loc (VT d L))) (k : Nat) (_ : PUnit) : sProp 𝕄 :=
  iprop(((s4V).view.loc (VT d L) ↦[(s4V).view.set]{fullShare} h4)
    ∗ ((s5V).view.loc (VT d L) ↦[(s5V).view.set]{fullShare} h5)
    ∗ ((s6V).view.loc (VT d L) ↦[(s6V).view.set]{fullShare} outfill (F := F) h4 f6 k)
    ∗ ((s7V).view.loc (VT d L) ↦[(s7V).view.set]{fullShare} outfill (F := F) h5 f7 k))

/-- Summing lane tables: before trip r the carried pair is the first r lane tables' sum at bins 16·cc ‥ 16·cc + 15. -/
def inv4 (h4 h5 : Vec F S2080 .f32) (cc : Nat) (r : Nat) (acc : FVec F S16 .f32 × FVec F S16 .f32) : sProp 𝕄 :=
  iprop(((s4V).view.loc (VT d L) ↦[(s4V).view.set]{fullShare} h4)
    ∗ ((s5V).view.loc (VT d L) ↦[(s5V).view.set]{fullShare} h5)
    ∗ ⌜acc.1 = Hist.acc h4 cc r ∧ acc.2 = Hist.acc h5 cc r⌝)

/-- The extra sixteen words as loaded once their copy has landed, for either array. -/
theorem loadedT2c (a : IVec S100000 32) (hc : k0_cond1 L = 1#1) :
    (s2V).view.readCov [⟨Rect.whole (cc0_scratch2 : Ref sig .scVector).ty.shape,
        ReadAs.same.apply (View.read (Elt F) ((hV).slice (Rect.unit (s := S100000) (k0_off5 L) S16.size (k0_off5_inb L hc)) (fun _ => rfl)).view a)⟩]
      (Rect.unit (s := S16) ![0] S16.size inb_S16_S16_0).toLoadRect = Hist.group a (Hist.tailOff L) :=
  (View.readAt_writes_of_cover (s2V).view (s2V).view.junk _ _
    (fun j => ⟨_, List.mem_singleton_self _, by rw [Rect.set_whole]; exact Finset.mem_univ _⟩)).symm.trans (loadedT2 (F := F) a L hc _)
theorem loadedT3c (a : IVec S100000 32) (hc : k0_cond1 L = 1#1) :
    (s3V).view.readCov [⟨Rect.whole (cc0_scratch3 : Ref sig .scVector).ty.shape,
        ReadAs.same.apply (View.read (Elt F) ((rV).slice (Rect.unit (s := S100000) (k0_off5 L) S16.size (k0_off5_inb L hc)) (fun _ => rfl)).view a)⟩]
      (Rect.unit (s := S16) ![0] S16.size inb_S16_S16_0).toLoadRect = Hist.group a (Hist.tailOff L) :=
  (View.readAt_writes_of_cover (s3V).view (s3V).view.junk _ _
    (fun j => ⟨_, List.mem_singleton_self _, by rw [Rect.set_whole]; exact Finset.mem_univ _⟩)).symm.trans (loadedT3 (F := F) a L hc _)

/-- An indexed add-store into a table held whole, respelt. -/
theorem stepG4 (g : Vec F S2080 .f32) (v : IVec S16 32) (h : ∀ a x, ((![v] : Fin 1 → IVec S16 32) a x).toNat < S2080.size a) :
    ((((s4V).access (Rect.whole (cc0_scratch4 : Ref sig .scVector).ty.shape)).loc (VT d L)
        ↦[((s4V).access (Rect.whole (cc0_scratch4 : Ref sig .scVector).ty.shape)).set]{fullShare}
          View.write (Elt F) ((s4V).access (Rect.whole (cc0_scratch4 : Ref sig .scVector).ty.shape)) g
            (storeIdx (View.read (Elt F) ((s4V).access (Rect.whole (cc0_scratch4 : Ref sig .scVector).ty.shape)) g) ![v] (k0_pay2 (F := F)) (fun _ => 1#1) true h) Finset.univ : sProp 𝕄))
      = ((s4V).view.loc (VT d L) ↦[(s4V).view.set]{fullShare} storeIdx g ![v] (k0_pay2 (F := F)) (fun _ => 1#1) true h) := by
  rw [pts_acc4, store_acc4]
theorem stepG5 (g : Vec F S2080 .f32) (v : IVec S16 32) (h : ∀ a x, ((![v] : Fin 1 → IVec S16 32) a x).toNat < S2080.size a) :
    ((((s5V).access (Rect.whole (cc0_scratch5 : Ref sig .scVector).ty.shape)).loc (VT d L)
        ↦[((s5V).access (Rect.whole (cc0_scratch5 : Ref sig .scVector).ty.shape)).set]{fullShare}
          View.write (Elt F) ((s5V).access (Rect.whole (cc0_scratch5 : Ref sig .scVector).ty.shape)) g
            (storeIdx (View.read (Elt F) ((s5V).access (Rect.whole (cc0_scratch5 : Ref sig .scVector).ty.shape)) g) ![v] (k0_pay2 (F := F)) (fun _ => 1#1) true h) Finset.univ : sProp 𝕄))
      = ((s5V).view.loc (VT d L) ↦[(s5V).view.set]{fullShare} storeIdx g ![v] (k0_pay2 (F := F)) (fun _ => 1#1) true h) := by
  rw [pts_acc5, store_acc5]

/-! ## One trip of each loop -/

/-- A zero-fill trip. -/
theorem region1 (f4 : Buf (Elt F) ((s4V).view.loc (VT d L))) (f5 : Buf (Elt F) ((s5V).view.loc (VT d L))) (k : Fin k0_t1_loop.trips) (acc : Unit) :
    inv1 (F := F) d L f4 f5 k.val acc
      ⊢ wp frame (wpE (defs₀ (F := F)) 𝒱₀ (VT d L) none) Set.univ (k0_t1_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 k acc) (inv1 (F := F) d L f4 f5 (k.val + 1)) := by
  unfold inv1 k0_t1_body
  iintro ⟨H4, H5⟩
  sl_exec
  sl_step
  isplitl [H4]
  · rw [← zfill_step4 (F := F) f4 k (k0_off2_inb k)]; iexact H4
  · rw [← zfill_step5 (F := F) f5 k (k0_off2_inb k)]; iexact H5

/-- A counting trip. -/
theorem region2 (hpre : PreOK m) (k : Fin k0_t2_loop.trips) (acc : Unit) :
    inv2 (F := F) m d L k.val acc
      ⊢ wp frame (wpE (defs₀ (F := F)) 𝒱₀ (VT d L) none) Set.univ (k0_t2_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 k acc) (inv2 (F := F) m d L (k.val + 1)) := by
  unfold inv2 k0_t2_body
  iintro ⟨H0, H1, H4, H5⟩
  have hk1 : k0_chk1 (addi k0_pay1 ((s0V).view.readAt (Elt F) (Rect.unit (s := S3120) (k0_off3 k) S16.size (k0_off3_inb k)).toLoadRect (c0H m d L))) := by
    rw [loaded0 (F := F) (hArr m d) L k (s0V).view.junk]; exact Cert.Bridge.inRange_group _ (hpre d).1 _
  have hk2 : k0_chk2 (addi k0_pay1 ((s1V).view.readAt (Elt F) (Rect.unit (s := S3120) (k0_off4 k) S16.size (k0_off4_inb k)).toLoadRect (c1R m d L))) := by
    rw [loaded1 (F := F) (rArr m d) L k (s1V).view.junk]; exact Cert.Bridge.inRange_group _ (hpre d).2 _
  sl_exec
  ihave H4' := (Entails.of_eq (pts_acc4 (F := F) d L _).symm) $$ H4
  iapply (SparseCore.wp_vectorStoreIdx 𝒱₀ (VT d L) none Set.univ (base := s4V)) $$ H4'; iintro H4
  sl_exec
  ihave H5' := (Entails.of_eq (pts_acc5 (F := F) d L _).symm) $$ H5
  iapply (SparseCore.wp_vectorStoreIdx 𝒱₀ (VT d L) none Set.univ (base := s5V)) $$ H5'; iintro H5
  sl_exec
  sl_step
  isplitl [H0]; · iexact H0
  isplitl [H1]; · iexact H1
  isplitl [H4]
  · iapply (Entails.of_eq (step4 (F := F) m d L k hk1)); iexact H4
  · iapply (Entails.of_eq (step5 (F := F) m d L k hk2)); iexact H5

/-- A lane-table trip of the fold. -/
theorem region4 (h4 h5 : Vec F S2080 .f32) (cc : Fin k0_t3_loop.trips) (r : Fin k0_t4_loop.trips) (acc : FVec F S16 .f32 × FVec F S16 .f32) :
    inv4 (F := F) d L h4 h5 cc.val r.val acc
      ⊢ wp frame (wpE (defs₀ (F := F)) 𝒱₀ (VT d L) none) Set.univ (k0_t4_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 cc r acc) (inv4 (F := F) d L h4 h5 cc.val (r.val + 1)) := by
  unfold inv4 k0_t4_body
  iintro ⟨H4, H5, %hacc⟩
  sl_exec
  sl_step
  isplitl [H4]; · iexact H4
  isplitl [H5]; · iexact H5
  ipureintro
  exact ⟨by rw [hacc.1, piece4]; rfl, by rw [hacc.2, piece5]; rfl⟩

set_option maxHeartbeats 4000000 in
/-- A bin-group trip of the fold: sixteen lane tables summed, the sixteen bins stored. -/
theorem region3 (h4 h5 : Vec F S2080 .f32) (f6 : Buf (Elt F) ((s6V).view.loc (VT d L))) (f7 : Buf (Elt F) ((s7V).view.loc (VT d L))) (cc : Fin k0_t3_loop.trips) (acc : Unit) :
    inv3 (F := F) d L h4 h5 f6 f7 cc.val acc
      ⊢ wp frame (wpE (defs₀ (F := F)) 𝒱₀ (VT d L) none) Set.univ (k0_t3_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 cc acc) (inv3 (F := F) d L h4 h5 f6 f7 (cc.val + 1)) := by
  unfold inv3 k0_t3_body
  iintro ⟨H4, H5, H6, H7⟩
  sl_exec
  sl_for (inv4 d L h4 h5 cc.val) $$ [H4 H5]
  case region =>
    intro r acc
    exact region4 (F := F) d L h4 h5 cc r acc
  · unfold inv4
    isplitl [H4]; · iexact H4
    isplitl [H5]; · iexact H5
    ipureintro; exact ⟨rfl, rfl⟩
  iintro %acc HI
  unfold inv4
  rw [ntrips4]
  icases HI with ⟨H4, H5, %hacc⟩
  obtain ⟨a1, a2⟩ := acc
  obtain ⟨rfl, rfl⟩ : a1 = Hist.acc h4 cc.val 16 ∧ a2 = Hist.acc h5 cc.val 16 := hacc
  sl_exec
  sl_step
  isplitl [H4]; · iexact H4
  isplitl [H5]; · iexact H5
  isplitl [H6]
  · rw [← outfill_step6 (F := F) h4 f6 cc (k0_off7_inb cc)]; iexact H6
  · rw [← outfill_step7 (F := F) h5 f7 cc (k0_off7_inb cc)]; iexact H7

/-! ## The whole task -/

attribute [local irreducible] Hist.histMain in
set_option maxHeartbeats 16000000 in
theorem tile_run (hpre : PreOK m) (q : PosShare TreeShare) (O : CellTallies nD τ sig (HIx 1)) (W : Waits sig (HIx 1))
    (f0 : Buf (Elt F) ((s0V).view.loc (VT d L))) (f1 : Buf (Elt F) ((s1V).view.loc (VT d L)))
    (f2 : Buf (Elt F) ((s2V).view.loc (VT d L))) (f3 : Buf (Elt F) ((s3V).view.loc (VT d L)))
    (f4 : Buf (Elt F) ((s4V).view.loc (VT d L))) (f5 : Buf (Elt F) ((s5V).view.loc (VT d L)))
    (f6 : Buf (Elt F) ((s6V).view.loc (VT d L))) (f7 : Buf (Elt F) ((s7V).view.loc (VT d L))) :
    (iprop(Transfers.MayWaits (VT d L) (default : HIx 1) O
        ∗ ((hV).view.loc (VT d L) ↦{q} m (hLoc d))
        ∗ ((rV).view.loc (VT d L) ↦{q} m (rLoc d))
        ∗ ((oRowH L).view.loc (VT d L) ↦[(oRowH L).view.set]{fullShare} m (ohLoc d))
        ∗ ((oRowR L).view.loc (VT d L) ↦[(oRowR L).view.set]{fullShare} m (orLoc d))
        ∗ ((s0V).view.loc (VT d L) ↦[(s0V).view.set]{fullShare} f0)
        ∗ ((s1V).view.loc (VT d L) ↦[(s1V).view.set]{fullShare} f1)
        ∗ ((s2V).view.loc (VT d L) ↦[(s2V).view.set]{fullShare} f2)
        ∗ ((s3V).view.loc (VT d L) ↦[(s3V).view.set]{fullShare} f3)
        ∗ ((s4V).view.loc (VT d L) ↦[(s4V).view.set]{fullShare} f4)
        ∗ ((s5V).view.loc (VT d L) ↦[(s5V).view.set]{fullShare} f5)
        ∗ ((s6V).view.loc (VT d L) ↦[(s6V).view.set]{fullShare} f6)
        ∗ ((s7V).view.loc (VT d L) ↦[(s7V).view.set]{fullShare} f7)
        ∗ cells0 d L
        ∗ owes (VT d L) O W) : sProp 𝕄)
      ⊢ wp frame (wpE (defs₀ (F := F)) 𝒱₀ (VT d L) none) Set.univ
          (cc0__sc_hist_body L hV (Memref.isWhole_whole _) rV (Memref.isWhole_whole _) ohV (Memref.isWhole_whole _) orV (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _) s7V (Memref.isWhole_whole _)
            cc0_scratch8 cc0_scratch9 cc0_scoped0 cc0_scoped1 cc0_scoped2 cc0_scoped3)
          fun _ => iprop(((hV).view.loc (VT d L) ↦{q} m (hLoc d))
            ∗ ((rV).view.loc (VT d L) ↦{q} m (rLoc d))
            ∗ ((oRowH L).view.loc (VT d L) ↦[(oRowH L).view.set]{fullShare} ohVal m d)
            ∗ ((oRowR L).view.loc (VT d L) ↦[(oRowR L).view.set]{fullShare} orVal m d)
            ∗ (∃ g, (s0V).view.loc (VT d L) ↦[(s0V).view.set]{fullShare} g)
            ∗ (∃ g, (s1V).view.loc (VT d L) ↦[(s1V).view.set]{fullShare} g)
            ∗ (∃ g, (s2V).view.loc (VT d L) ↦[(s2V).view.set]{fullShare} g)
            ∗ (∃ g, (s3V).view.loc (VT d L) ↦[(s3V).view.set]{fullShare} g)
            ∗ (∃ g, (s4V).view.loc (VT d L) ↦[(s4V).view.set]{fullShare} g)
            ∗ (∃ g, (s5V).view.loc (VT d L) ↦[(s5V).view.set]{fullShare} g)
            ∗ (∃ g, (s6V).view.loc (VT d L) ↦[(s6V).view.set]{fullShare} g)
            ∗ (∃ g, (s7V).view.loc (VT d L) ↦[(s7V).view.set]{fullShare} g)
            ∗ cells0 d L
            ∗ ∃ W', owes (VT d L) O W') := by
  iintro ⟨#Hmw, HH, HR, HOH, HOR, H0, H1, H2, H3, H4, H5, H6, H7, ⟨Hc0, Hc1, Hc2, Hc3, Hc4, Hc5⟩, HO⟩
  sl_unfold [cc0__sc_hist_body, k0_part1]
  sl_exec
  -- the zero fill
  sl_for (inv1 d L f4 f5) $$ [H4 H5]
  case region =>
    intro k acc
    exact region1 (F := F) d L f4 f5 k acc
  · unfold inv1
    rw [zfill_zero, zfill_zero]
    isplitl [H4] <;> iassumption
  iintro %_ HI
  unfold inv1
  rw [ntrips1, zfill_last (F := F) f4 (hArr m d) L, zfill_last (F := F) f5 (rArr m d) L]
  icases HI with ⟨H4, H5⟩
  -- the two stretches have landed
  sl_exec
  -- the counting loop
  sl_for (inv2 m d L) $$ [H0 H1 H4 H5]
  case region =>
    intro k acc
    exact region2 (F := F) m d L hpre k acc
  · unfold inv2
    isplitl [H0]; · iexact H0
    isplitl [H1]; · iexact H1
    isplitl [H4] <;> iassumption
  iintro %_ HI
  unfold inv2
  rw [ntrips2]
  icases HI with ⟨H0, H1, H4, H5⟩
  -- subcores 0‥9 count sixteen more words
  by_cases hc : k0_cond1 L = 1#1
  · have hk3 : ∀ g, k0_chk3 L (addi k0_pay1 ((s2V).view.readAt (Elt F) (Rect.unit (s := S16) ![0] S16.size inb_S16_S16_0).toLoadRect
        ((s2V).view.writes (Elt F) g [⟨Rect.whole (cc0_scratch2 : Ref sig .scVector).ty.shape,
          ReadAs.same.apply (View.read (Elt F) ((hV).slice (Rect.unit (s := S100000) (k0_off5 L) S16.size (k0_off5_inb L hc)) (fun _ => rfl)).view (m (hLoc d)))⟩]))) := by
      intro g _; rw [loadedT2 (F := F) (hArr m d) L hc g]; exact Cert.Bridge.inRange_group _ (hpre d).1 _
    have hk4 : ∀ g, k0_chk4 L (addi k0_pay1 ((s3V).view.readAt (Elt F) (Rect.unit (s := S16) ![0] S16.size inb_S16_S16_0).toLoadRect
        ((s3V).view.writes (Elt F) g [⟨Rect.whole (cc0_scratch3 : Ref sig .scVector).ty.shape,
          ReadAs.same.apply (View.read (Elt F) ((rV).slice (Rect.unit (s := S100000) (k0_off5 L) S16.size (k0_off5_inb L hc)) (fun _ => rfl)).view (m (rLoc d)))⟩]))) := by
      intro g _; rw [loadedT3 (F := F) (rArr m d) L hc g]; exact Cert.Bridge.inRange_group _ (hpre d).2 _
    have eA4 : Hist.bump (Hist.histMain (F := F) (hArr m d) L 195) (Hist.group (hArr m d) (Hist.tailOff L)) = Hist.histAll (F := F) (hArr m d) L := by
      unfold Hist.histAll; rw [if_pos hc]
    have eA5 : Hist.bump (Hist.histMain (F := F) (rArr m d) L 195) (Hist.group (rArr m d) (Hist.tailOff L)) = Hist.histAll (F := F) (rArr m d) L := by
      unfold Hist.histAll; rw [if_pos hc]
    sl_exec (disch := first | sl_exact hc | omega)
    have ev4 : tile_run.sl.v25 m d L hc = addi k0_pay1 (Hist.group (hArr m d) (Hist.tailOff L)) := by
      show addi k0_pay1 ((s2V).view.readCov [⟨Rect.whole (cc0_scratch2 : Ref sig .scVector).ty.shape,
        ReadAs.same.apply (View.read (Elt F) ((hV).slice (Rect.unit (s := S100000) (k0_off5 L) S16.size (k0_off5_inb L hc)) (fun _ => rfl)).view (m (hLoc d)))⟩]
        (Rect.unit (s := S16) ![0] S16.size inb_S16_S16_0).toLoadRect) = _
      rw [loadedT2c (F := F) L (hArr m d) hc]
    ihave H4' := (Entails.of_eq (pts_acc4 (F := F) d L _).symm) $$ H4
    iapply (SparseCore.wp_vectorStoreIdx 𝒱₀ (VT d L) none Set.univ (base := s4V)) $$ H4'; iintro H4
    ihave H4 := (Entails.of_eq (stepG4 (F := F) d L _ _ _)) $$ H4
    rw [bump_of_eq (F := F) _ _ _ ev4, eA4]
    sl_exec (disch := first | sl_exact hc | omega)
    have ev5 : tile_run.sl.v27 m d L hc = addi k0_pay1 (Hist.group (rArr m d) (Hist.tailOff L)) := by
      show addi k0_pay1 ((s3V).view.readCov [⟨Rect.whole (cc0_scratch3 : Ref sig .scVector).ty.shape,
        ReadAs.same.apply (View.read (Elt F) ((rV).slice (Rect.unit (s := S100000) (k0_off5 L) S16.size (k0_off5_inb L hc)) (fun _ => rfl)).view (m (rLoc d)))⟩]
        (Rect.unit (s := S16) ![0] S16.size inb_S16_S16_0).toLoadRect) = _
      rw [loadedT3c (F := F) L (rArr m d) hc]
    ihave H5' := (Entails.of_eq (pts_acc5 (F := F) d L _).symm) $$ H5
    iapply (SparseCore.wp_vectorStoreIdx 𝒱₀ (VT d L) none Set.univ (base := s5V)) $$ H5'; iintro H5
    ihave H5 := (Entails.of_eq (stepG5 (F := F) d L _ _ _)) $$ H5
    rw [bump_of_eq (F := F) _ _ _ ev5, eA5]
    sl_exec
    sl_for (inv3 d L (Hist.histAll (F := F) (hArr m d) L) (Hist.histAll (F := F) (rArr m d) L) f6 f7) $$ [H4 H5 H6 H7]
    case region =>
      intro cc acc
      exact region3 (F := F) d L _ _ f6 f7 cc acc
    · unfold inv3
      rw [outfill_zero, outfill_zero]
      isplitl [H4]; · iexact H4
      isplitl [H5]; · iexact H5
      isplitl [H6] <;> iassumption
    iintro %_ HI
    unfold inv3
    rw [ntrips3, outfill_last, outfill_last]
    icases HI with ⟨H4, H5, H6, H7⟩
    sl_exec
    ihave HOH := (Entails.of_eq (pointsTo_congr (ℓ := (oRowH L).view.loc (VT d L)) (q := fullShare) (row_landedH (F := F) (hArr m d) L (m (ohLoc d)) _ rfl))) $$ [HOH]
    · iexact HOH
    ihave HOR := (Entails.of_eq (pointsTo_congr (ℓ := (oRowR L).view.loc (VT d L)) (q := fullShare) (row_landedR (F := F) (rArr m d) L (m (orLoc d)) _ rfl))) $$ [HOR]
    · iexact HOR
    sl_step
    isplitl [HH]; · iexact HH
    isplitl [HR]; · iexact HR
    isplitl [HOH]; · iexact HOH
    isplitl [HOR]; · iexact HOR
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; iexact HO
  · sl_exec (disch := first | sl_exact hc | omega)
    have e4 : Hist.histMain (F := F) (hArr m d) L 195 = Hist.histAll (F := F) (hArr m d) L := by unfold Hist.histAll; rw [if_neg hc]
    have e5 : Hist.histMain (F := F) (rArr m d) L 195 = Hist.histAll (F := F) (rArr m d) L := by unfold Hist.histAll; rw [if_neg hc]
    rw [e4, e5]
    sl_for (inv3 d L (Hist.histAll (F := F) (hArr m d) L) (Hist.histAll (F := F) (rArr m d) L) f6 f7) $$ [H4 H5 H6 H7]
    case region =>
      intro cc acc
      exact region3 (F := F) d L _ _ f6 f7 cc acc
    · unfold inv3
      rw [outfill_zero, outfill_zero]
      isplitl [H4]; · iexact H4
      isplitl [H5]; · iexact H5
      isplitl [H6] <;> iassumption
    iintro %_ HI
    unfold inv3
    rw [ntrips3, outfill_last, outfill_last]
    icases HI with ⟨H4, H5, H6, H7⟩
    sl_exec
    ihave HOH := (Entails.of_eq (pointsTo_congr (ℓ := (oRowH L).view.loc (VT d L)) (q := fullShare) (row_landedH (F := F) (hArr m d) L (m (ohLoc d)) _ rfl))) $$ [HOH]
    · iexact HOH
    ihave HOR := (Entails.of_eq (pointsTo_congr (ℓ := (oRowR L).view.loc (VT d L)) (q := fullShare) (row_landedR (F := F) (rArr m d) L (m (orLoc d)) _ rfl))) $$ [HOR]
    · iexact HOR
    sl_step
    isplitl [HH]; · iexact HH
    isplitl [HR]; · iexact HR
    isplitl [HOH]; · iexact HOH
    isplitl [HOR]; · iexact HOR
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; iexact HO

end Cert.KernelIdeal.Hand

end
-- ==== Proof.TileObl.lean ====
/-
  The launch theorem's two obligations about the histogram task: each vector subcore's task from what the call deals it,
  and how a SparseCore's holdings are its sixteen tasks'.
-/
import proofs.«214571_g7919919694435_cont_9to1_m_483_28_alg».proof.Proof.TileBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "hV" => (Memref.whole Cert.KernelIdeal.main_arg1_scv : Memref Cert.KernelIdeal.sig Kind.scVector Space.hbm Cert.KernelIdeal.S100000 EltTy.i32)
local notation "rV" => (Memref.whole Cert.KernelIdeal.main_arg3_scv : Memref Cert.KernelIdeal.sig Kind.scVector Space.hbm Cert.KernelIdeal.S100000 EltTy.i32)
local notation "ohV" => (Memref.whole Cert.KernelIdeal.main_v0_0_scv : Memref Cert.KernelIdeal.sig Kind.scVector Space.hbm Cert.KernelIdeal.S32x128 EltTy.f32)
local notation "orV" => (Memref.whole Cert.KernelIdeal.main_v0_1_scv : Memref Cert.KernelIdeal.sig Kind.scVector Space.hbm Cert.KernelIdeal.S32x128 EltTy.f32)
local notation "s0V" => (Memref.whole Cert.KernelIdeal.cc0_scratch0 : Memref Cert.KernelIdeal.sig Kind.scVector Space.vmem Cert.KernelIdeal.S3120 EltTy.i32)
local notation "s1V" => (Memref.whole Cert.KernelIdeal.cc0_scratch1 : Memref Cert.KernelIdeal.sig Kind.scVector Space.vmem Cert.KernelIdeal.S3120 EltTy.i32)
local notation "s2V" => (Memref.whole Cert.KernelIdeal.cc0_scratch2 : Memref Cert.KernelIdeal.sig Kind.scVector Space.vmem Cert.KernelIdeal.S16 EltTy.i32)
local notation "s3V" => (Memref.whole Cert.KernelIdeal.cc0_scratch3 : Memref Cert.KernelIdeal.sig Kind.scVector Space.vmem Cert.KernelIdeal.S16 EltTy.i32)
local notation "s4V" => (Memref.whole Cert.KernelIdeal.cc0_scratch4 : Memref Cert.KernelIdeal.sig Kind.scVector Space.vmem Cert.KernelIdeal.S2080 EltTy.f32)
local notation "s5V" => (Memref.whole Cert.KernelIdeal.cc0_scratch5 : Memref Cert.KernelIdeal.sig Kind.scVector Space.vmem Cert.KernelIdeal.S2080 EltTy.f32)
local notation "s6V" => (Memref.whole Cert.KernelIdeal.cc0_scratch6 : Memref Cert.KernelIdeal.sig Kind.scVector Space.vmem Cert.KernelIdeal.S128 EltTy.f32)
local notation "s7V" => (Memref.whole Cert.KernelIdeal.cc0_scratch7 : Memref Cert.KernelIdeal.sig Kind.scVector Space.vmem Cert.KernelIdeal.S128 EltTy.f32)

variable [FloatOps F]

section Tile

variable (d : Dev nD) (L : grid0.Coords)

omit [FloatOps F] in
theorem bound_zero : grid0.bound 0 = 2 := rfl
omit [FloatOps F] in
theorem bound_one : grid0.bound 1 = 16 := rfl
/-- The SparseCore and the subcore of a grid point, as the indices the tasks' holdings are stated over. -/
abbrev cL (L : grid0.Coords) : Fin 2 := Fin.cast bound_zero (L 0)
abbrev sL (L : grid0.Coords) : Fin 16 := Fin.cast bound_one (L 1)

/-! ### The row a task slices is the row the call dealt it -/

omit [FloatOps F] in
theorem rowK_eq : Rect.unit (s := S32x128) (k0_off8 L) S1x128.size (k0_off8_inb L) = row (wid (cL L) (sL L)) := by
  unfold row Rect.part Rect.block
  congr 1 <;> funext a
  · rw [k0_off8_eq]
    match a with
    | 0 => simp [Shape.partIx, Shape.partSize, wid]
    | 1 => simp [Shape.partIx, Shape.partSize]
  · match a with
    | 0 => simp [Shape.partSize]
    | 1 => simp [Shape.partSize]

omit [FloatOps F] in
theorem set_oRowH : (oRowH L).view.set = rowSet (wid (cL L) (sL L)) := by
  show (((ohV).view.slice (Rect.unit (s := S32x128) (k0_off8 L) S1x128.size (k0_off8_inb L))).reshape S128 squeezes_S1x128_S128.numel_eq).set
    = ((ohV).view.slice (row (wid (cL L) (sL L)))).set
  rw [View.set_reshape]
  exact rowK_eq L ▸ rfl
omit [FloatOps F] in
theorem set_oRowR : (oRowR L).view.set = rowSet (wid (cL L) (sL L)) := by
  show (((orV).view.slice (Rect.unit (s := S32x128) (k0_off8 L) S1x128.size (k0_off8_inb L))).reshape S128 squeezes_S1x128_S128.numel_eq).set
    = ((ohV).view.slice (row (wid (cL L) (sL L)))).set
  rw [View.set_reshape]
  exact rowK_eq L ▸ rfl

omit [FloatOps F] in
theorem pts_hV (q : PosShare TreeShare) (f : Buf (Elt F) (hLoc d)) :
    ((hV).view.loc (VT d L) ↦{q} f : sProp 𝕄) = hLoc d ↦{q} f := rfl
omit [FloatOps F] in
theorem pts_rV (q : PosShare TreeShare) (f : Buf (Elt F) (rLoc d)) :
    ((rV).view.loc (VT d L) ↦{q} f : sProp 𝕄) = rLoc d ↦{q} f := rfl
omit [FloatOps F] in
theorem pts_oRowH (f : Buf (Elt F) (ohLoc d)) :
    ((oRowH L).view.loc (VT d L) ↦[(oRowH L).view.set]{fullShare} f : sProp 𝕄) = ohLoc d ↦[rowSet (wid (cL L) (sL L))]{fullShare} f := by
  rw [set_oRowH]
omit [FloatOps F] in
theorem pts_oRowR (f : Buf (Elt F) (orLoc d)) :
    ((oRowR L).view.loc (VT d L) ↦[(oRowR L).view.set]{fullShare} f : sProp 𝕄) = orLoc d ↦[rowSet (wid (cL L) (sL L))]{fullShare} f := by
  rw [set_oRowR]
omit [FloatOps F] in
theorem pts_s0 (f : Buf (Elt F) ((VT d L).loc cc0_scratch0)) :
    ((s0V).view.loc (VT d L) ↦[(s0V).view.set]{fullShare} f : sProp 𝕄) = (VT d L).loc cc0_scratch0 ↦{fullShare} f := by
  rw [View.set_whole]
omit [FloatOps F] in
theorem pts_s1 (f : Buf (Elt F) ((VT d L).loc cc0_scratch1)) :
    ((s1V).view.loc (VT d L) ↦[(s1V).view.set]{fullShare} f : sProp 𝕄) = (VT d L).loc cc0_scratch1 ↦{fullShare} f := by
  rw [View.set_whole]
omit [FloatOps F] in
theorem pts_s2 (f : Buf (Elt F) ((VT d L).loc cc0_scratch2)) :
    ((s2V).view.loc (VT d L) ↦[(s2V).view.set]{fullShare} f : sProp 𝕄) = (VT d L).loc cc0_scratch2 ↦{fullShare} f := by
  rw [View.set_whole]
omit [FloatOps F] in
theorem pts_s3 (f : Buf (Elt F) ((VT d L).loc cc0_scratch3)) :
    ((s3V).view.loc (VT d L) ↦[(s3V).view.set]{fullShare} f : sProp 𝕄) = (VT d L).loc cc0_scratch3 ↦{fullShare} f := by
  rw [View.set_whole]
omit [FloatOps F] in
theorem pts_s4 (f : Buf (Elt F) ((VT d L).loc cc0_scratch4)) :
    ((s4V).view.loc (VT d L) ↦[(s4V).view.set]{fullShare} f : sProp 𝕄) = (VT d L).loc cc0_scratch4 ↦{fullShare} f := by
  rw [View.set_whole]
omit [FloatOps F] in
theorem pts_s5 (f : Buf (Elt F) ((VT d L).loc cc0_scratch5)) :
    ((s5V).view.loc (VT d L) ↦[(s5V).view.set]{fullShare} f : sProp 𝕄) = (VT d L).loc cc0_scratch5 ↦{fullShare} f := by
  rw [View.set_whole]
omit [FloatOps F] in
theorem pts_s6 (f : Buf (Elt F) ((VT d L).loc cc0_scratch6)) :
    ((s6V).view.loc (VT d L) ↦[(s6V).view.set]{fullShare} f : sProp 𝕄) = (VT d L).loc cc0_scratch6 ↦{fullShare} f := by
  rw [View.set_whole]
omit [FloatOps F] in
theorem pts_s7 (f : Buf (Elt F) ((VT d L).loc cc0_scratch7)) :
    ((s7V).view.loc (VT d L) ↦[(s7V).view.set]{fullShare} f : sProp 𝕄) = (VT d L).loc cc0_scratch7 ↦{fullShare} f := by
  rw [View.set_whole]

/-! ### The subcore's own counters and buffers -/

/-- The six transfer counters the task names, as a family. -/
abbrev dcell (d : Dev nD) (c : Fin τ.nSC) (i : Fin τ.nSub) (k : Fin 6) : GSem nD τ sig :=
  (V d c i, .dma (csem k.val (Nat.lt_of_lt_of_le k.isLt (by decide))))

omit [FloatOps F] in
theorem dcell_mem (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

omit [FloatOps F] in
/-- The subcore's own counters at zero: the six the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The subcore's own buffers less the eight the task names. -/
abbrev restRefs (L : grid0.Coords) : Finset (DevRef τ sig) :=
  (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))

omit [FloatOps F] in
/-- The eight scratch buffers are among the subcore's own: they are them, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := (Proc.scVector (cV L) (jV L))) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := (Proc.scVector (cV L) (jV L))) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := (Proc.scVector (cV L) (jV L))) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := (Proc.scVector (cV L) (jV L))) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := (Proc.scVector (cV L) (jV L))) (b := ((Proc.scVector (cV L) (jV L)).devRef cc0_scratch5)) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := (Proc.scVector (cV L) (jV L))) (b := ((Proc.scVector (cV L) (jV L)).devRef cc0_scratch6)) rfl)⟩)⟩)⟩)⟩)⟩)⟩),
    SparseCore.bigSep_erase' (Finset.mem_erase.mpr ⟨fun e => absurd (Proc.devRef_injective _ e) (show (cc0_scratch7 : Ref sig .scVector) ≠ cc0_scratch6 by decide), (Finset.mem_erase.mpr ⟨fun e => absurd (Proc.devRef_injective _ e) (show (cc0_scratch7 : Ref sig .scVector) ≠ cc0_scratch5 by decide), (Finset.mem_erase.mpr ⟨fun e => absurd (Proc.devRef_injective _ e) (show (cc0_scratch7 : Ref sig .scVector) ≠ cc0_scratch4 by decide), (Finset.mem_erase.mpr ⟨fun e => absurd (Proc.devRef_injective _ e) (show (cc0_scratch7 : Ref sig .scVector) ≠ cc0_scratch3 by decide), (Finset.mem_erase.mpr ⟨fun e => absurd (Proc.devRef_injective _ e) (show (cc0_scratch7 : Ref sig .scVector) ≠ cc0_scratch2 by decide), (Finset.mem_erase.mpr ⟨fun e => absurd (Proc.devRef_injective _ e) (show (cc0_scratch7 : Ref sig .scVector) ≠ cc0_scratch1 by decide), (Finset.mem_erase.mpr ⟨fun e => absurd (Proc.devRef_injective _ e) (show (cc0_scratch7 : Ref sig .scVector) ≠ cc0_scratch0 by decide), (SparseCore.Cfg.mem_ownRefs_of_owner (p := (Proc.scVector (cV L) (jV L))) (b := ((Proc.scVector (cV L) (jV L)).devRef cc0_scratch7)) rfl)⟩)⟩)⟩)⟩)⟩)⟩)⟩)]

/-! ### The task, from what the call deals it to what it hands back -/

/-- The task on vector subcore (L 0, L 1) of device d: the call's holdings and the subcore's own buffers and counters
    respelt as the task names them, the run, and everything put back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileRes m d (cL L) (sL L)
        ∗ scopedBufs (VT d L) ∗ scopedSems0 (VT d L) ∗ owes (VT d L) O W)
      ⊢ wp frame (wpE (defs₀ (F := F)) 𝒱₀ (VT d L) none) Set.univ
          (cc0__sc_hist_body L hV (Memref.isWhole_whole _) rV (Memref.isWhole_whole _) ohV (Memref.isWhole_whole _) orV (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _) s7V (Memref.isWhole_whole _)
            cc0_scratch8 cc0_scratch9 cc0_scoped0 cc0_scoped1 cc0_scoped2 cc0_scoped3)
          fun _ => iprop(tileRet m d (cL L) (sL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold tileRes tileRet
  iintro ⟨#Hlv, -, ⟨Hh, Hr, Hoh, Hor⟩, ⟨⟨%g0, H0⟩, ⟨%g1, H1⟩, ⟨%g2, H2⟩, ⟨%g3, H3⟩, ⟨%g4, H4⟩, ⟨%g5, H5⟩, ⟨%g6, H6⟩, ⟨%g7, H7⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hoh' := (Entails.of_eq (pts_oRowH (F := F) d L _).symm) $$ Hoh
  ihave Hor' := (Entails.of_eq (pts_oRowR (F := F) d L _).symm) $$ Hor
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave H5' := (Entails.of_eq (pts_s5 (F := F) d L _).symm) $$ H5
  ihave H6' := (Entails.of_eq (pts_s6 (F := F) d L _).symm) $$ H6
  ihave H7' := (Entails.of_eq (pts_s7 (F := F) d L _).symm) $$ H7
  iapply (wp_wand_r Idealize.ShloMosaic.frame (wpE (defs₀ (F := F)) 𝒱₀ (VT d L) none) Set.univ)
  isplitl [Hh Hr Hoh' Hor' H0' H1' H2' H3' H4' H5' H6' H7' HC HO]
  · iapply (tile_run m d L hpre (sh (cL L) (sL L)) O W g0 g1 g2 g3 g4 g5 g6 g7)
    isplitr; · iexact Hmw
    isplitl [Hh]; · iexact Hh
    isplitl [Hr]; · iexact Hr
    isplitl [Hoh']; · iexact Hoh'
    isplitl [Hor']; · iexact Hor'
    isplitl [H0']; · iexact H0'
    isplitl [H1']; · iexact H1'
    isplitl [H2']; · iexact H2'
    isplitl [H3']; · iexact H3'
    isplitl [H4']; · iexact H4'
    isplitl [H5']; · iexact H5'
    isplitl [H6']; · iexact H6'
    isplitl [H7']; · iexact H7'
    isplitl [HC]; · iexact HC
    iexact HO
  iintro %_ ⟨Hh, Hr, Hoh', Hor', ⟨%t0, H0'⟩, ⟨%t1, H1'⟩, ⟨%t2, H2'⟩, ⟨%t3, H3'⟩, ⟨%t4, H4'⟩, ⟨%t5, H5'⟩, ⟨%t6, H6'⟩, ⟨%t7, H7'⟩, HC, ⟨%W', HO⟩⟩
  isplitl [Hh Hr Hoh' Hor']
  · isplitl [Hh]; · iexact Hh
    isplitl [Hr]; · iexact Hr
    isplitl [Hoh']; · iapply (Entails.of_eq (pts_oRowH (F := F) d L _)); iexact Hoh'
    iapply (Entails.of_eq (pts_oRowR (F := F) d L _)); iexact Hor'
  isplitl [H0' H1' H2' H3' H4' H5' H6' H7' Hbufs]
  · isplitl [H0']; · iexists _; iapply (Entails.of_eq (pts_s0 (F := F) d L _)); iexact H0'
    isplitl [H1']; · iexists _; iapply (Entails.of_eq (pts_s1 (F := F) d L _)); iexact H1'
    isplitl [H2']; · iexists _; iapply (Entails.of_eq (pts_s2 (F := F) d L _)); iexact H2'
    isplitl [H3']; · iexists _; iapply (Entails.of_eq (pts_s3 (F := F) d L _)); iexact H3'
    isplitl [H4']; · iexists _; iapply (Entails.of_eq (pts_s4 (F := F) d L _)); iexact H4'
    isplitl [H5']; · iexists _; iapply (Entails.of_eq (pts_s5 (F := F) d L _)); iexact H5'
    isplitl [H6']; · iexists _; iapply (Entails.of_eq (pts_s6 (F := F) d L _)); iexact H6'
    isplitl [H7']; · iexists _; iapply (Entails.of_eq (pts_s7 (F := F) d L _)); iexact H7'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ### The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          hV (Memref.isWhole_whole _) rV (Memref.isWhole_whole _) ohV (Memref.isWhole_whole _) orV (Memref.isWhole_whole _)
          s0V (Memref.isWhole_whole _) s1V (Memref.isWhole_whole _) s2V (Memref.isWhole_whole _) s3V (Memref.isWhole_whole _)
          s4V (Memref.isWhole_whole _) s5V (Memref.isWhole_whole _) s6V (Memref.isWhole_whole _) s7V (Memref.isWhole_whole _)
          cc0_scratch8 cc0_scratch9 cc0_scoped0 cc0_scoped1 cc0_scoped2 cc0_scoped3) ⟨⟩ c s := rfl

end Tile

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

omit [FloatOps F] in
/-- A family over the sixteen tasks, indexed by the launch's subcore count. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileRes m d (Fin.cast nCore_zero c) s) ⊢ |={Set.univ}=> iprop(
      (bigSep Finset.univ fun i : Fin ((K (F := F)).nSub 0) => tileRes m d (Fin.cast nCore_zero c) (Fin.cast nSub_zero i))
      ∗ ((bigSep Finset.univ fun i : Fin ((K (F := F)).nSub 0) => tileRet m d (Fin.cast nCore_zero c) (Fin.cast nSub_zero i))
          -∗ (bigSep Finset.univ fun s : Fin 16 => tileRet m d (Fin.cast nCore_zero c) s)))
  rw [bigSep_tasks (F := F) (fun s => tileRes m d (Fin.cast nCore_zero c) s),
    bigSep_tasks (F := F) (fun s => tileRet m d (Fin.cast nCore_zero c) s)]
  iintro H; imodintro
  isplitl [H]; · iexact H
  iintro H; iexact H

end Cert.KernelIdeal.Hand

end
-- ==== Proof.TcBody.lean ====
/-
  The second kernel's body as the pipeline calls it: it loads its two staged 32 × 128 arrays whole and stores one value,
  the function Hist.tcOut of the two; the pipeline's proof data say so, and that nothing is owed across the region.
-/
import proofs.«214571_g7919919694435_cont_9to1_m_483_28_alg».proof.Proof.Setup
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The proof data -/

/-- The three windowed arrays when the region is entered: the two arrays of bins as the call left them, the result array as launched. -/
def Aent (d : Dev nD) : (w : Fin cfg1.W) → Buf (Elt F) ((cfg1.win w).arr.view.loc (d : Thread nD τ))
  | ⟨0, _⟩ => ohVal m d
  | ⟨1, _⟩ => orVal m d
  | ⟨2, _⟩ => m ((SparseCore.T d).loc main_v1)

/-- A window's block at the one point, read off its array. -/
def iblk (d : Dev nD) (w : Fin cfg1.W) (t : Fin cfg1.N) : ((cfg1.win w).xblock (cfg1.grid.coords t)).Idx → Elt F (cfg1.win w).elt :=
  ((cfg1.win w).blk t).view.read (Elt F) (Aent m d w)

/-- The windows' one block sits at the array's origin. -/
theorem idx1_0 : ∀ (t : Fin grid1.N) (a : Fin 2), win1_0.index t a = 0 := by decide +kernel
theorem idx1_1 : ∀ (t : Fin grid1.N) (a : Fin 2), win1_1.index t a = 0 := by decide +kernel
theorem idx1_2 : ∀ (t : Fin grid1.N) (a : Fin 2), win1_2.index t a = 0 := by decide +kernel

omit [FloatOps F] in
/-- The one block of a window that stages its whole array is the array. -/
theorem read_blk0 (d : Dev nD) (t : Fin cfg1.N) (f : Buf (Elt F) ((cfg1.win 0).arr.view.loc (d : Thread nD τ))) :
    ((cfg1.win 0).blk t).view.read (Elt F) f = f := by
  funext j
  rw [View.read_apply]
  have h : ((cfg1.win 0).blk t).view.emb j = j := by
    funext a; apply Fin.ext
    match a with
    | ⟨0, _⟩ => show win1_0.index t (0 : Fin 2) * 32 + 1 * (j 0).val = (j 0).val; rw [idx1_0]; omega
    | ⟨1, _⟩ => show win1_0.index t (1 : Fin 2) * 128 + 1 * (j 1).val = (j 1).val; rw [idx1_0]; omega
  rw [h]; rfl
omit [FloatOps F] in
theorem read_blk1 (d : Dev nD) (t : Fin cfg1.N) (f : Buf (Elt F) ((cfg1.win 1).arr.view.loc (d : Thread nD τ))) :
    ((cfg1.win 1).blk t).view.read (Elt F) f = f := by
  funext j
  rw [View.read_apply]
  have h : ((cfg1.win 1).blk t).view.emb j = j := by
    funext a; apply Fin.ext
    match a with
    | ⟨0, _⟩ => show win1_1.index t (0 : Fin 2) * 32 + 1 * (j 0).val = (j 0).val; rw [idx1_1]; omega
    | ⟨1, _⟩ => show win1_1.index t (1 : Fin 2) * 128 + 1 * (j 1).val = (j 1).val; rw [idx1_1]; omega
  rw [h]; rfl

theorem Aent_0 (d : Dev nD) : Aent m d 0 = ohVal m d := by unfold Aent; rfl
theorem Aent_1 (d : Dev nD) : Aent m d 1 = orVal m d := by unfold Aent; rfl
theorem Aent_2 (d : Dev nD) : Aent m d 2 = m ((SparseCore.T d).loc main_v1) := by unfold Aent; rfl

theorem iblk_0 (d : Dev nD) (t : Fin cfg1.N) : iblk m d 0 t = ohVal m d := by
  unfold iblk; rw [read_blk0, Aent_0]
theorem iblk_1 (d : Dev nD) (t : Fin cfg1.N) : iblk m d 1 t = orVal m d := by
  unfold iblk; rw [read_blk1, Aent_1]

/-- The (semaphore, index) pairs the TensorCore's recorded waits stay among, before and through the region: those at level at most 8. -/
def recOK (d : Dev nD) : Set (SemLoc sig × HIx 1) := {p | (K (F := F)).lev (SparseCore.T d, p.1) p.2 ≤ 8}

/-- The proof data of the one pipeline on device d: the arrays as the region finds them; after the body each input's
    buffer at its block and the output's at Hist.tcOut of the two input blocks; the invariant the scoped buffers that
    stage nothing; full shares; nothing owed; the recorded waits among recOK. -/
def dat (d : Dev nD) : Dat τ (Elt F) (HIx 1) ℕ UU ℕ cfg1 d where
  A := Aent m d
  after w t := match w with
    | ⟨0, _⟩ => iblk m d 0 t
    | ⟨1, _⟩ => iblk m d 1 t
    | ⟨2, _⟩ => Hist.tcOut (F := F) (iblk m d 0 t) (iblk m d 1 t)
  Φ _ := Pipeline.scopedRest spec1 d
  q _ := fullShare
  owed _ := 0
  recorded _ := recOK (F := F) d

theorem A_eq (d : Dev nD) (w : Fin cfg1.W) : (dat m d).A w = Aent m d w := by dsimp only [dat]
theorem after1_0 (d : Dev nD) (t : Fin cfg1.N) : (dat m d).after 0 t = iblk m d 0 t := by dsimp only [dat]
theorem after1_1 (d : Dev nD) (t : Fin cfg1.N) : (dat m d).after 1 t = iblk m d 1 t := by dsimp only [dat]
theorem after1_2 (d : Dev nD) (t : Fin cfg1.N) : (dat m d).after 2 t = Hist.tcOut (F := F) (iblk m d 0 t) (iblk m d 1 t) := by dsimp only [dat]

/-- Each input's staging buffer holds its block when the body runs. -/
theorem before1_0 (d : Dev nD) (t : Fin cfg1.N) (dd) : (dat m d).before 0 t dd = iblk m d 0 t :=
  ((dat m d).before_in_eq_fetched 0 rfl (fun _ => rfl) (fun _ _ _ => rfl) (fun t => by rw [after1_0]; unfold Dat.blockOf iblk; rw [A_eq]; try rfl) t dd).trans
    (by unfold Dat.fetched Dat.blockOf iblk; rw [A_eq]; try rfl)
theorem before1_1 (d : Dev nD) (t : Fin cfg1.N) (dd) : (dat m d).before 1 t dd = iblk m d 1 t :=
  ((dat m d).before_in_eq_fetched 1 rfl (fun _ => rfl) (fun _ _ _ => rfl) (fun t => by rw [after1_1]; unfold Dat.blockOf iblk; rw [A_eq]; try rfl) t dd).trans
    (by unfold Dat.fetched Dat.blockOf iblk; rw [A_eq]; try rfl)

/-! ## The body's triple -/

theorem hz2 : (![0, 0] : Fin 2 → Nat) = fun _ => 0 := funext fun a => by fin_cases a <;> rfl

set_option maxHeartbeats 1000000 in
/-- The body on whole staging memrefs, the inputs' reading x0 and x1 and the output's anything, leaves the inputs' as
    they were and the output's reading Hist.tcOut x0 x1: its two whole loads, its one whole store. -/
theorem sound_kernel [∀ e, Nonempty (Elt F e)] (c : Dev nD) (E : Set ℕ) (arg0 : Memref sig .tc .vmem S32x128 .f32) (harg0 : arg0.IsWhole)
    (arg1 : Memref sig .tc .vmem S32x128 .f32) (harg1 : arg1.IsWhole) (arg2 : Memref sig .tc .vmem S1x1 .f32) (harg2 : arg2.IsWhole)
    (x0 : Vec F S32x128 .f32) (x1 : Vec F S32x128 .f32) (Kk : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (Hist.tcOut (F := F) x0 x1)) -∗ Kk ⟨⟩))
      ⊢ wp frame (wpE (defs₀ (F := F)) Variants.none c none) E (cc1__kl_body arg0 harg0 arg1 harg1 arg2 harg2) Kk := by
  simp only [cc1__kl_body_eq_skeleton]; unfold cc1__kl_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon (Val := Elt F) _ _ _ (View.cover_of_tiled (Val := Elt F) [⟨Rect.unit ![0, 0] S1x1.size inb_S1x1_S1x1_0_0, _⟩] S1x1.size (by rfl))).trans ?_
  rw [View.canon_unit_zero (Val := Elt F) hz2]
  sl_unfold_run_names
  simp only [View.readAt_eq_ld, View.ld_unit_zero (S := S32x128) hz2]
  rfl

/-! ## The body obligation -/

/-- What the body is called with at the point, the windows one by one, -/
def bodyPre (d : Dev nD) (t : Fin cfg1.N) : sProp 𝕄 :=
  iprop((dat m d).Φ t.castSucc ∗ (dat m d).owesAt none t.castSucc
    ∗ (∃ dd, owns (d : Thread nD τ) (st1_0 t) fullShare ((dat m d).before 0 t dd))
    ∗ (∃ dd, owns (d : Thread nD τ) (st1_1 t) fullShare ((dat m d).before 1 t dd))
    ∗ (∃ dd, owns (d : Thread nD τ) (st1_2 t) fullShare ((dat m d).before 2 t dd)))

/-- and what it returns. -/
def bodyPost (d : Dev nD) (t : Fin cfg1.N) : sProp 𝕄 :=
  iprop((dat m d).Φ t.succ ∗ (dat m d).owesAt none t.succ
    ∗ owns (d : Thread nD τ) (st1_0 t) fullShare ((dat m d).after 0 t)
    ∗ owns (d : Thread nD τ) (st1_1 t) fullShare ((dat m d).after 1 t)
    ∗ owns (d : Thread nD τ) (st1_2 t) fullShare ((dat m d).after 2 t))

/-- The body at the point: the inputs' memrefs hold their blocks, so the triple applies; the invariant and what the
    core owes pass through unread. -/
theorem sound_body [∀ e, Nonempty (Elt F e)] (d : Dev nD) (t : Fin cfg1.N) :
    bodyPre m d t ⊢ wp frame (wpE (defs₀ (F := F)) Variants.none d none) Set.univ (bodyAt1 t) (fun _ => bodyPost m d t) := by
  unfold bodyPre bodyPost bodyAt1
  simp only [before1_0, before1_1]
  rw [show (dat m d).Φ t.succ = (dat m d).Φ t.castSucc from rfl,
    show (dat m d).owesAt none t.succ = (dat m d).owesAt none t.castSucc from rfl,
    after1_0, after1_1, after1_2]
  iintro ⟨HΦ, Ho, ⟨%d0, H0⟩, ⟨%d1, H1⟩, ⟨%d2, H2⟩⟩
  iapply (sound_kernel d Set.univ _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at the one point. -/
theorem body_obligation [∀ e, Nonempty (Elt F e)] (d : Dev nD) : BodyObligation (dat (F := F) m d) (defs₀ (F := F)) Variants.none none Set.univ := fun t => by
  rw [bigSep_W1, bigSep_W1]
  exact sound_body m d t

/-! ## What the arrays hold after the region -/

omit [FloatOps F] in
theorem read_blk2 (d : Dev nD) (t : Fin cfg1.N) (f : Buf (Elt F) ((cfg1.win 2).arr.view.loc (d : Thread nD τ))) :
    ((cfg1.win 2).blk t).view.read (Elt F) f = f := by
  funext j
  rw [View.read_apply]
  have h : ((cfg1.win 2).blk t).view.emb j = j := by
    funext a; apply Fin.ext
    match a with
    | ⟨0, _⟩ => show win1_2.index t (0 : Fin 2) * 1 + 1 * (j 0).val = (j 0).val; rw [idx1_2]; omega
    | ⟨1, _⟩ => show win1_2.index t (1 : Fin 2) * 1 + 1 * (j 1).val = (j 1).val; rw [idx1_2]; omega
  rw [h]; rfl

omit [FloatOps F] in
/-- The result window's block is not cut. -/
theorem cut1_2 (t : Fin cfg1.N) (X : (cfg1.win 2).block.Idx → Elt F (cfg1.win 2).elt) : (cfg1.win 2).cut (cfg1.grid.coords t) X = X := rfl

theorem share_eq (d : Dev nD) (w : Fin cfg1.W) : (dat m d).share w = fullShare := (dat m d).share_full (fun _ => rfl) w

/-- The two arrays of bins are only read. -/
theorem arrAt_0 (d : Dev nD) (n : Nat) : (dat m d).arrAt 0 n = ohVal m d := ((dat m d).arrAt_in 0 rfl n).trans ((A_eq m d 0).trans (Aent_0 m d))
theorem arrAt_1 (d : Dev nD) (n : Nat) : (dat m d).arrAt 1 n = orVal m d := ((dat m d).arrAt_in 1 rfl n).trans ((A_eq m d 1).trans (Aent_1 m d))

/-- The result array ends at the one stored value. -/
theorem arrAt_2 (d : Dev nD) : (dat m d).arrAt 2 cfg1.N = Hist.tcOut (F := F) (ohVal m d) (orVal m d) := by
  have h := (dat m d).read_blk_arrAt_eq_flushed 2 (fun t t' _ _ hne => absurd ((fin_N1 t).trans (fin_N1 t').symm) hne) cfg1.N t1_0 t1_0.isLt (flush1_2 t1_0)
  rw [read_blk2] at h
  rw [h]
  show (cfg1.win 2).cut (cfg1.grid.coords t1_0) ((dat m d).after 2 t1_0) = _
  rw [cut1_2, after1_2, iblk_0, iblk_1]

/-! ## The arrays one by one, and what the TensorCore owes -/

/-- The pipeline's three arrays, each whole at the full share. -/
theorem arrays_eq3 (d : Dev nD) (Fw : (w : Fin cfg1.W) → Buf (Elt F) ((cfg1.win w).arr.view.loc (d : Thread nD τ))) :
    ((dat m d).arrays Fw : sProp 𝕄)
      = iprop((ohLoc d ↦{fullShare} Fw 0) ∗ (orLoc d ↦{fullShare} Fw 1) ∗ ((SparseCore.T d).loc main_v1 ↦{fullShare} Fw 2)) := by
  unfold Dat.arrays
  rw [bigSep_W1, (arr_whole1 0).set_eq_univ, (arr_whole1 1).set_eq_univ, (arr_whole1 2).set_eq_univ, share_eq, share_eq, share_eq]

/-- The TensorCore owing nothing, its recorded waits at level at most 8. -/
def owesSt (d : Dev nD) : sProp 𝕄 :=
  iprop(∃ W, ⌜(K (F := F)).WBelow (SparseCore.T d) W (8 * 1)⌝ ∗ owes (SparseCore.T d) 0 W)

theorem owesAt_of_owesSt (d : Dev nD) (t : Fin (cfg1.N + 1)) : owesSt (F := F) d ⊢ ((dat m d).owesAt none t : sProp 𝕄) := by
  unfold owesSt
  iintro ⟨%W, %hW, HO⟩
  iexists W
  isplitr
  · ipureintro
    intro p hp
    exact Or.inl (hW p hp)
  · iexact HO

theorem owesSt_of_owesAt (d : Dev nD) (t : Fin (cfg1.N + 1)) : ((dat m d).owesAt none t : sProp 𝕄) ⊢ owesSt (F := F) d := by
  unfold owesSt
  iintro ⟨%W, %hW, HO⟩
  iexists W
  isplitr
  · ipureintro
    intro p hp
    rcases hW hp with h | ⟨w, s, rfl⟩
    · exact h
    · show (K (F := F)).lev _ none ≤ 8 * 1
      rw [SparseCore.Cfg.lev_none]; omega
  · iexact HO

end Cert.KernelIdeal.Hand

end
-- ==== Proof.TcRegion.lean ====
/-
  The TensorCore's part of the program after the call: the second kernel as a pipeline region entered inside the
  launched program, then the reshape of its one stored value.
-/
import proofs.«214571_g7919919694435_cont_9to1_m_483_28_alg».proof.Proof.TcBody
import Idealize.ShloMosaic.Lib.Pipeline.Regions
import Idealize.ShloMosaic.Lib.Pipeline.Frame
import Idealize.ShloMosaic.Lib.StableHlo.Run

noncomputable section

namespace Cert.KernelIdeal.Hand

open Cert.KernelIdeal Cert.KernelIdeal.Gen

open Idealize.ShloMosaic Idealize.ShloMosaic.TcCoe
open Idealize.ShloMosaic.SparseCore.Cfg (HIx Pay)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The staging cells' rounds in the resource algebra -/

/-- The middle factor of the algebra, embedded. -/
def ER : Emb UR (MT nD τ sig (HIx 1) (Elt F) ℕ UU ℕ) := (Emb.inl : Emb UR (UR × Counters)).trans embR

instance ER_landsIn : (ER (F := F)).LandsIn (upEmb : UEmb _ 𝕄) := by
  unfold ER; infer_instance

/-- The launch element of the staging cells' rounds. -/
def uR₀ : UR := initOf (Pipeline.cells (nD := nD) (τ := τ) cfgs cellOf_inj) (Pipeline.launchToks (nD := nD) (τ := τ) cfgs cellOf_inj)

/-- What the launch element gives device d's TensorCore for the region: its staging cells' launch state and the
    duty tokens of the transfers the region issues. -/
def G (d : Dev nD) : sProp 𝕄 :=
  iprop(Pipeline.cellsGhost (nD := nD) (τ := τ) cfgs (ER (F := F)) 0 d ∗ Pipeline.toksInit (nD := nD) (τ := τ) cfgs (ER (F := F)) 0 d)

/-- A conjunction over the one pipeline is its summand. -/
theorem bigSep_fin_one {M : Type} [URA M] (Φ : Fin 1 → sProp M) : bigSep Finset.univ Φ = Φ 0 := by
  rw [show (Finset.univ : Finset (Fin 1)) = {0} from by decide, bigSep_singleton]

theorem fundG : (BI.own ((ER (F := F)) uR₀) : sProp 𝕄) ⊢ iprop(|==> bigSep Finset.univ (G (F := F))) := by
  have h : iprop((bigSep Finset.univ fun c : Dev nD => bigSep Finset.univ fun p : Fin 1 => Pipeline.cellsGhost (nD := nD) (τ := τ) cfgs (ER (F := F)) p c)
        ∗ (bigSep Finset.univ fun c : Dev nD => bigSep Finset.univ fun p : Fin 1 => (Pipeline.toksInit (nD := nD) (τ := τ) cfgs (ER (F := F)) p c : sProp 𝕄)))
      ⊢ bigSep Finset.univ (G (F := F)) := by
    unfold G
    rw [bigSep_sep']
    simp only [bigSep_fin_one]
    exact BI.Entails.refl _
  exact (Pipeline.fund_ghost (nD := nD) (τ := τ) cfgs (ER (F := F)) cellOf_inj).trans (BI.bupd_mono h)

/-- The TensorCore's program after the call: the second kernel's region, the reshape, the return. -/
abbrev afterProg : Prog (TpuEff nD τ sig (Elt F) (SparseCore.Sig (ΛP (F := F)) 1) .tc) PUnit := do
  Prog.lift (.customCall (SparseCore.inner (Pipeline.entry 0)) ())
  hlo rfl (StableHlo.reshape main_v1 main_v2 rfl Facts₀.shapeCasts_S1x1_S_) (fun _ => .ret ⟨⟩)
  pure ⟨⟩

variable (m : (ℓ : Loc nD τ sig) → Buf (Elt F) ℓ) (ρ : Dev nD → PrngReg)

/-! ## The region -/

/-- The one pipeline has no prefetched table: its one admissible contents. -/
abbrev adm : (p : Fin 1) → (pcfgs (F := F) p).Adm := fun q => (cfgs q).toPCfg_adm

/-- The one pipeline's proof data on every device. -/
def pdats : (p : Fin 1) → (c : Dev nD) → Dat τ (Elt F) (HIx 1) ℕ UU ℕ (Pipeline.pin (pcfgs (F := F)) adm p) c := fun _ c => dat m c

/-- What the TensorCore holds of the region's concern when it enters it: that it owes nothing, and the three arrays. -/
def regPre (d : Dev nD) : sProp 𝕄 :=
  iprop(owesSt (F := F) d ∗ (ohLoc d ↦{fullShare} ohVal m d) ∗ (orLoc d ↦{fullShare} orVal m d)
    ∗ ((SparseCore.T d).loc main_v1 ↦{fullShare} m ((SparseCore.T d).loc main_v1)))

/-- and when it leaves it: the result array at the one stored value. -/
def regPost (d : Dev nD) : sProp 𝕄 :=
  iprop(owesSt (F := F) d ∗ (ohLoc d ↦{fullShare} ohVal m d) ∗ (orLoc d ↦{fullShare} orVal m d)
    ∗ ((SparseCore.T d).loc main_v1 ↦{fullShare} Hist.tcOut (F := F) (ohVal m d) (orVal m d)))

set_option backward.isDefEq.respectTransparency.types false in
/-- The region's record: the decided layout, no semaphore of the kernel's own, the body obligation, no wait evidence
    needed (nothing is owed), and the entry and exit entailments between the thread states above. -/
def region [∀ e, Nonempty (Elt F e)] :
    Pipeline.RegionSeg (pcfgs (F := F)) adm (pdats m) none (defs₀ (F := F)) 𝒱₀ (K (F := F)).L (K (F := F)).lev 0 where
  win := winFacts1.to₀
  block_pos := block_pos1
  stage_whole := stage_whole1
  K := PEmpty
  osem := fun k => k.elim
  ho := Pipeline.OwnSemFacts.none _
  hbody := fun c => (body_obligation m c).loose
  hwaits := fun c => (show (levAts (K (F := F)).L (K (F := F)).lev : sProp 𝕄) ⊢ BI.emp from by iintro -; iempintro).trans
    (Pipeline.cellsWaits_of_owed_zero (Pipeline.pin (pcfgs (F := F)) adm) (pdats m) none 0 c (fun _ => rfl))
  pre := regPre m
  post := regPost m
  X := fun _ => iprop(emp)
  Y := fun _ => iprop(emp)
  Z := fun _ => iprop(emp)
  hentry := fun c => by
    show iprop(regPre m c ∗ _ ∗ _) ⊢ |={Set.univ}=> iprop((dat m c).arrays ((dat m c).arrAt · 0) ∗ _ ∗ (dat m c).owesAt none 0 ∗ _ ∗ _)
    rw [arrays_eq3, arrAt_0, arrAt_1, show (dat m c).arrAt 2 0 = m ((SparseCore.T c).loc main_v1) from (A_eq m c 2).trans (Aent_2 m c)]
    unfold regPre
    iintro ⟨⟨HO, Hoh, Hor, Hv1⟩, -, -⟩
    imodintro
    isplitl [Hoh Hor Hv1]
    · isplitl [Hoh]; · iexact Hoh
      isplitl [Hor]; · iexact Hor
      iexact Hv1
    isplitr
    · unfold Pipeline.prefHeld; rw [Finset.univ_eq_empty, bigSep_empty]; iempintro
    isplitl [HO]
    · iapply (owesAt_of_owesSt m c 0); iexact HO
    isplitr <;> iempintro
  hin := fun c => by
    show iprop(_ ∗ _ ∗ Pipeline.scopedRest spec1 c) ⊢ (Pipeline.scopedRest spec1 c : sProp 𝕄)
    iintro ⟨-, -, H⟩; iexact H
  hout := fun c => by
    show (Pipeline.scopedRest spec1 c : sProp 𝕄) ⊢ iprop(_ ∗ _ ∗ Pipeline.scopedRest spec1 c)
    iintro H
    isplitr; · iempintro
    isplitr
    · unfold Pipeline.ownSems0; rw [Finset.univ_eq_empty, bigSep_empty]; iempintro
    iexact H
  hexit := fun c => by
    show iprop((dat m c).arrays ((dat m c).arrAt · cfg1.N) ∗ (dat m c).owesAt none (Fin.last cfg1.N) ∗ _ ∗ _) ⊢ |={Set.univ}=> regPost m c
    rw [arrays_eq3, arrAt_0, arrAt_1, arrAt_2]
    unfold regPost
    iintro ⟨⟨Hoh, Hor, Hv1⟩, HO, -, -⟩
    imodintro
    isplitl [HO]; · iapply (owesSt_of_owesAt m c _); iexact HO
    isplitl [Hoh]; · iexact Hoh
    isplitl [Hor]; · iexact Hor
    iexact Hv1

/-! ## The reshape -/

abbrev v1' : DevRef τ sig := Proc.devRef .tc (main_v1 : Ref sig .tc)
abbrev v2' : DevRef τ sig := Proc.devRef .tc (main_v2 : Ref sig .tc)

/-- The reshape of the second kernel's 1 × 1 result to a scalar. -/
abbrev opR : HloOp τ sig (Elt F) := StableHlo.reshape main_v1 main_v2 rfl Facts₀.shapeCasts_S1x1_S_

/-- Its two arrays. -/
abbrev SR : Finset (DevRef τ sig) := {v1', v2'}

omit [FloatOps F] in
theorem held_SR (d : Dev nD) (W : Valuation τ sig (Elt F)) :
    (StableHlo.held (SparseCore.T d) SR W : sProp 𝕄)
      = iprop(((SparseCore.T d).loc main_v1 ↦{fullShare} W v1') ∗ ((SparseCore.T d).loc main_v2 ↦{fullShare} W v2')) := by
  unfold StableHlo.held SR
  rw [SparseCore.bigSep_insert' (by decide), bigSep_singleton]

/-- The device's arrays after the region: as launched, but the second kernel's result. -/
def VR (d : Dev nD) : Valuation τ sig (Elt F) := Function.update (fun b => m (d, b)) v1' (Hist.tcOut (F := F) (ohVal m d) (orVal m d))

theorem VR_v1 (d : Dev nD) : VR m d v1' = Hist.tcOut (F := F) (ohVal m d) (orVal m d) := Function.update_self _ _ _
theorem VR_v2 (d : Dev nD) : VR m d v2' = m ((SparseCore.T d).loc main_v2) := Function.update_of_ne (show v2' ≠ v1' by decide) _ _

/-- The reshape leaves the program's result in the scalar array. -/
theorem result_v2 (d : Dev nD) : (opR (F := F)).result (VR m d) v2' = Hist.result (F := F) (hArr m d) (rArr m d) := by
  refine (StableHlo.reshape_result main_v1 main_v2 rfl Facts₀.shapeCasts_S1x1_S_ ⟨by decide, rfl⟩ ⟨by decide, rfl⟩ (VR m d)).trans ?_
  rw [show VR m d (main_v1 : Ref sig .tc) = Hist.tcOut (F := F) (ohVal m d) (orVal m d) from VR_v1 m d]
  rfl

/-- After the call has returned: from the TensorCore's state after its one call, the region boundary, the eight arrays
    (the two arrays of bins at what the call left) and the staging cells' launch state, the second kernel's region and
    the reshape run to the same state with the scalar array at the program's result; the four argument arrays are kept. -/
theorem after_call [∀ e, Nonempty (Elt F e)] (κ : GSem nD τ sig → ℕ) (d : Dev nD) :
    iprop((K (F := F)).ctx EH (P m) κ ∗ (K (F := F)).tcSt EH d 1 ∗ boundary (SparseCore.T d) ∗ (K (F := F)).tcSems0 d ∗ prngReg d (ρ d)
        ∗ ((SparseCore.T d).loc main_arg0 ↦{fullShare} m ((SparseCore.T d).loc main_arg0)) ∗ (hLoc d ↦{fullShare} m (hLoc d)) ∗ ((SparseCore.T d).loc main_arg2 ↦{fullShare} m ((SparseCore.T d).loc main_arg2)) ∗ (rLoc d ↦{fullShare} m (rLoc d))
        ∗ (ohLoc d ↦{fullShare} ohVal m d) ∗ (orLoc d ↦{fullShare} orVal m d) ∗ ((SparseCore.T d).loc main_v1 ↦{fullShare} m ((SparseCore.T d).loc main_v1)) ∗ ((SparseCore.T d).loc main_v2 ↦{fullShare} m ((SparseCore.T d).loc main_v2))
        ∗ G (F := F) d)
      ⊢ wp frame (wpE ((K (F := F)).defs (D (F := F))) 𝒱 (SparseCore.T d) none) Set.univ
          (afterProg (F := F))
          fun _ => iprop((K (F := F)).tcSt EH d 1
            ∗ ((SparseCore.T d).loc main_arg0 ↦{fullShare} m ((SparseCore.T d).loc main_arg0)) ∗ (hLoc d ↦{fullShare} m (hLoc d)) ∗ ((SparseCore.T d).loc main_arg2 ↦{fullShare} m ((SparseCore.T d).loc main_arg2)) ∗ (rLoc d ↦{fullShare} m (rLoc d))
            ∗ ((SparseCore.T d).loc main_v2 ↦{fullShare} Hist.result (F := F) (hArr m d) (rArr m d))) := by
  classical
  have hOtc : (K (F := F)).Otc d 1 = 0 := (K (F := F)).Otc_end d le_rfl
  unfold SparseCore.Cfg.tcSt
  rw [hOtc]
  simp only [afterProg, wp_bind, wp_pure]
  iintro ⟨#Hctx, ⟨HO, Hrest⟩, Hb, -, -, Ha0, Hh, Ha2, Hr, Hoh, Hor, Hv1, Hv2, HG⟩
  ihave Hlev := (SparseCore.Cfg.ctx_levAts (K := K (F := F)) (EH := EH) (P := P m) κ) $$ Hctx
  unfold G
  icases HG with ⟨Hg, Ht⟩
  -- the region, entered through the lifted call
  iapply ((K (F := F)).wp_liftProg (D (F := F)) 𝒱 (SparseCore.T d) Set.univ none
    (Prog.op (TpuEff.customCall (Pipeline.entry 0) ()) fun x => Prog.ret x) _)
  iapply (Pipeline.RegionSeg.wp (pcfgs (F := F)) adm (pdats m) none cellOf_inj (ER (F := F)) (defs₀ (F := F)) 𝒱₀ (K (F := F)).L (K (F := F)).lev
    (region m) d none (fun u hu => nomatch hu) (fun x => Prog.ret x) _)
  isplitr [HO Hoh Hor Hv1 Hb Hg Ht]
  swap
  · isplitl [Hb]; · iexact Hb
    isplitl [HO Hoh Hor Hv1]
    · iapply (show regPre m d ⊢ (region m).pre d from BI.Entails.refl _)
      unfold regPre owesSt
      isplitl [HO]; · iexact HO
      isplitl [Hoh]; · iexact Hoh
      isplitl [Hor]; · iexact Hor
      iexact Hv1
    isplitr; · iexact Hlev
    isplitl [Hg]; · iexact Hg
    iexact Ht
  iintro ⟨Hb, Hpost⟩
  ihave Hpost' := (show (region m).post d ⊢ regPost m d from BI.Entails.refl _) $$ Hpost
  unfold regPost owesSt
  icases Hpost' with ⟨HO, Hoh, Hor, Hv1⟩
  rw [wp_ret]; imodintro
  -- the reshape
  iapply (StableHlo.wp_hlo_within 𝒱 (SparseCore.T d) none Set.univ (op := opR (F := F)) (S := SR) (Finset.Subset.refl _) (V := VR m d)) $$ [Hb Hv1 Hv2]
  · isplitl [Hb]; · iexact Hb
    rw [held_SR, VR_v1, VR_v2]
    isplitl [Hv1]; · iexact Hv1
    iexact Hv2
  iintro ⟨Hb, Hheld⟩
  ihave Hh2 := (Entails.of_eq (held_SR (F := F) d _)) $$ Hheld
  icases Hh2 with ⟨-, Hv2⟩
  rw [result_v2]
  rw [wp_ret]; imodintro; imodintro
  isplitl [HO Hrest]
  · isplitl [HO]; · iexact HO
    iexact Hrest
  isplitl [Ha0]; · iexact Ha0
  isplitl [Hh]; · iexact Hh
  isplitl [Ha2]; · iexact Ha2
  isplitl [Hr]; · iexact Hr
  iexact Hv2

end Cert.KernelIdeal.Hand

end
-- ==== Proof.Shares.lean ====
/-
  How the four arrays the call takes are the 32 tasks' holdings: a points-to at the full share is its 32 leaves' at
  once, leaf 16·c + s being task (c, s)'s; an array of 32 rows is its rows, row 2·s + c being task (c, s)'s.
-/
import proofs.«214571_g7919919694435_cont_9to1_m_483_28_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The leaves of a share -/

/-- The two halves of the leaves of depth n + 1. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## Tasks, leaves and rows -/

/-- Task (c, s) holds leaf 16·c + s. -/
def leafEquiv : Fin 2 × Fin 16 ≃ Fin (2 ^ 5) where
  toFun p := ⟨16 * p.1.val + p.2.val, by have := p.1.isLt; have := p.2.isLt; show _ < 32; omega⟩
  invFun i := (⟨i.val / 16, by have : i.val < 32 := i.isLt; omega⟩, ⟨i.val % 16, Nat.mod_lt _ (by decide)⟩)
  left_inv p := by
    have := p.1.isLt; have := p.2.isLt
    exact Prod.ext (Fin.ext (by show (16 * p.1.val + p.2.val) / 16 = p.1.val; omega)) (Fin.ext (by show (16 * p.1.val + p.2.val) % 16 = p.2.val; omega))
  right_inv i := Fin.ext (by show 16 * (i.val / 16) + i.val % 16 = i.val; omega)

/-- Task (c, s) holds row 2·s + c. -/
def rowEquiv : Fin 2 × Fin 16 ≃ Fin 32 where
  toFun p := wid p.1 p.2
  invFun w := (⟨w.val % 2, Nat.mod_lt _ (by decide)⟩, ⟨w.val / 2, by have := w.isLt; omega⟩)
  left_inv p := by
    have := p.1.isLt; have := p.2.isLt
    exact Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-- A family over the tasks of the SparseCores of the call is the family over the pairs (c, s). -/
theorem bigSep_cores (Φ : Fin 2 → Fin 16 → sProp 𝕄) :
    (bigSep Finset.univ fun c : Fin ((K (F := F)).nCore 0) => bigSep Finset.univ fun s : Fin 16 => Φ (Fin.cast nCore_zero c) s)
      = bigSep Finset.univ fun p : Fin 2 × Fin 16 => Φ p.1 p.2 := by
  rw [bigSep_univ_prod]
  exact bigSep_congr fun _ _ => bigSep_congr fun _ _ => congrArg (fun c => Φ c _) (Fin.ext rfl)

/-- A whole array at the full share is the 32 tasks' read shares. -/
theorem pts_shares {ℓ : Loc nD τ sig} (f : Buf (Elt F) ℓ) :
    (ℓ ↦{fullShare} f : sProp 𝕄) = bigSep Finset.univ fun p : Fin 2 × Fin 16 => ℓ ↦{sh p.1 p.2} f := by
  rw [pointsTo_leaves Finset.univ f 5 fullShare,
    bigSep_univ_equiv leafEquiv (fun i : Fin (2 ^ 5) => (ℓ ↦{leaf 5 fullShare i} f : sProp 𝕄))]
  rfl

/-! ## The rows of the arrays of bins -/

theorem rowSet_eq (w : Fin 32) : rowSet w = (row w).set := by
  show ((View.whole (main_v0_0_scv : Ref sig .scVector)).slice (row w)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-- An array of 32 rows whole is its rows. -/
theorem oh_rows32 (d : Dev nD) (f : Buf (Elt F) (ohLoc d)) :
    (ohLoc d ↦{fullShare} f : sProp 𝕄) = bigSep Finset.univ fun w : Fin 32 => ohLoc d ↦[rowSet w]{fullShare} f := by
  rw [← pointsTo_biUnion Finset.univ (ℓ := ohLoc d) rowSet rows_disjoint, rows_cover]; try rfl
theorem or_rows32 (d : Dev nD) (f : Buf (Elt F) (orLoc d)) :
    (orLoc d ↦{fullShare} f : sProp 𝕄) = bigSep Finset.univ fun w : Fin 32 => orLoc d ↦[rowSet w]{fullShare} f := by
  rw [← pointsTo_biUnion Finset.univ (ℓ := orLoc d) rowSet rows_disjoint, rows_cover]; try rfl

/-- The first array of bins whole is the 32 tasks' rows. -/
theorem oh_rows (d : Dev nD) (f : Buf (Elt F) (ohLoc d)) :
    (ohLoc d ↦{fullShare} f : sProp 𝕄) = bigSep Finset.univ fun p : Fin 2 × Fin 16 => ohLoc d ↦[rowSet (wid p.1 p.2)]{fullShare} f :=
  (oh_rows32 d f).trans (bigSep_univ_equiv rowEquiv (fun w : Fin 32 => (ohLoc d ↦[rowSet w]{fullShare} f : sProp 𝕄)))

/-- The second likewise. -/
theorem or_rows (d : Dev nD) (f : Buf (Elt F) (orLoc d)) :
    (orLoc d ↦{fullShare} f : sProp 𝕄) = bigSep Finset.univ fun p : Fin 2 × Fin 16 => orLoc d ↦[rowSet (wid p.1 p.2)]{fullShare} f :=
  (or_rows32 d f).trans (bigSep_univ_equiv rowEquiv (fun w : Fin 32 => (orLoc d ↦[rowSet w]{fullShare} f : sProp 𝕄)))

/-! ## What the call takes and hands back -/

variable (m : (ℓ : Loc nD τ sig) → Buf (Elt F) ℓ) [FloatOps F]

/-- What the call takes for the two SparseCores is the four arrays whole, at their launch contents. -/
theorem st0_eq (d : Dev nD) :
    (bigSep Finset.univ fun c : Fin ((K (F := F)).nCore 0) => (P m).st 0 d c)
      = iprop((hLoc d ↦{fullShare} m (hLoc d)) ∗ (rLoc d ↦{fullShare} m (rLoc d))
          ∗ (ohLoc d ↦{fullShare} m (ohLoc d)) ∗ (orLoc d ↦{fullShare} m (orLoc d))) := by
  show (bigSep Finset.univ fun c : Fin ((K (F := F)).nCore 0) => bigSep Finset.univ fun s : Fin 16 => tileRes m d (Fin.cast nCore_zero c) s) = _
  rw [bigSep_cores (F := F) (fun c s => tileRes m d c s)]
  unfold tileRes
  rw [bigSep_sep', bigSep_sep', bigSep_sep', pts_shares (m (hLoc d)), pts_shares (m (rLoc d)), oh_rows d (m (ohLoc d)), or_rows d (m (orLoc d))]

/-- What it hands back is the two integer arrays whole and the two arrays of bins whole, at the rows of bins. -/
theorem dn0_eq (d : Dev nD) :
    (bigSep Finset.univ fun c : Fin ((K (F := F)).nCore 0) => (P m).dn 0 d c)
      = iprop((hLoc d ↦{fullShare} m (hLoc d)) ∗ (rLoc d ↦{fullShare} m (rLoc d))
          ∗ (ohLoc d ↦{fullShare} ohVal m d) ∗ (orLoc d ↦{fullShare} orVal m d)) := by
  show (bigSep Finset.univ fun c : Fin ((K (F := F)).nCore 0) => bigSep Finset.univ fun s : Fin 16 => tileRet m d (Fin.cast nCore_zero c) s) = _
  rw [bigSep_cores (F := F) (fun c s => tileRet m d c s)]
  unfold tileRet
  rw [bigSep_sep', bigSep_sep', bigSep_sep', pts_shares (m (hLoc d)), pts_shares (m (rLoc d)), oh_rows d (ohVal m d), or_rows d (orVal m d)]

end Cert.KernelIdeal.Hand

end
-- ==== Proof.Launch.lean ====
/-
  The launch: the ghost state the program starts from, the TensorCore's program from what the launch deals it, and
  the claim read off the final memory.

  The launch element is the handshakes' rounds, the second kernel's staging rounds, and the unit counters. The
  TensorCore lends every task a read share of the two integer arrays (the full share halved five times: 32 leaves)
  and gives task (c, s) row 2·s + c of each array of bins; the tasks hand the shares back and each row at the bins of
  its stretch, which together are the two arrays of rows; the second kernel and the reshape follow.
-/
import proofs.«214571_g7919919694435_cont_9to1_m_483_28_alg».proof.Proof.TileObl
import proofs.«214571_g7919919694435_cont_9to1_m_483_28_alg».proof.Proof.TcRegion
import proofs.«214571_g7919919694435_cont_9to1_m_483_28_alg».proof.Proof.Shares

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks, (uR₀, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HR, -⟩
  have hfund : (BI.own (((Emb.inl : Emb UR (UR × Counters)).trans embR) uR₀) : sProp 𝕄) ⊢ iprop(|==> bigSep Finset.univ (G (F := F))) :=
    fundG (F := F)
  imod hfund $$ HR with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the four argument arrays at their launch contents, the result at the loss. -/
abbrev FIN (d : Dev nD) : sProp 𝕄 :=
  iprop(((SparseCore.T d).loc main_arg0 ↦{fullShare} m ((SparseCore.T d).loc main_arg0)) ∗ (hLoc d ↦{fullShare} m (hLoc d))
    ∗ ((SparseCore.T d).loc main_arg2 ↦{fullShare} m ((SparseCore.T d).loc main_arg2)) ∗ (rLoc d ↦{fullShare} m (rLoc d))
    ∗ ((SparseCore.T d).loc main_v2 ↦{fullShare} Hist.result (F := F) (hArr m d) (rArr m d)))

omit [FloatOps F] in
/-- The TensorCore's eight arrays, all unscoped. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ (hLoc d ↦{fullShare} W main_arg1)
          ∗ ((SparseCore.T d).loc main_arg2 ↦{fullShare} W main_arg2) ∗ (rLoc d ↦{fullShare} W main_arg3)
          ∗ (ohLoc d ↦{fullShare} W main_v0_0) ∗ (orLoc d ↦{fullShare} W main_v0_1)
          ∗ ((SparseCore.T d).loc main_v1 ↦{fullShare} W main_v1) ∗ ((SparseCore.T d).loc main_v2 ↦{fullShare} W main_v2)) := by
  unfold unscopedBufs
  rw [show (Finset.univ.filter fun b : Ref sig .tc => ¬ b.isScoped) = {main_arg0, main_arg1, main_arg2, main_arg3, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- @main is the call, then the rest. -/
theorem main_eq (d : Dev nD) : main (F := F) d = ((K (F := F)).run d 0 >>= fun _ => afterProg (F := F)) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq, wp_bind]
  iintro ⟨#Hctx, Hst, ⟨Hb, ⟨H0, H1, H2, H3, Hoh, Hor, Hv1, Hv2⟩, Hsems, Hprng⟩, HG⟩
  iapply ((K (F := F)).wp_run (D (F := F)) 𝒱 (EH := EH) (P := P m) κ d 0) $$ [Hst H0 H1 H2 H3 Hoh Hor Hv1 Hv2 Hb Hsems Hprng HG]
  isplitr; · iexact Hctx
  isplitl [Hst]; · iexact Hst
  isplitl [H1 H3 Hoh Hor]
  · rw [st0_eq]
    isplitl [H1]; · iexact H1
    isplitl [H3]; · iexact H3
    isplitl [Hoh]; · iexact Hoh
    iexact Hor
  iintro ⟨Hst, Hdn⟩
  ihave Hdn' := (Entails.of_eq (dn0_eq m d)) $$ Hdn
  icases Hdn' with ⟨H1, H3, Hoh, Hor⟩
  iapply (after_call m ρ κ d)
  isplitr; · iexact Hctx
  isplitl [Hst]; · iexact Hst
  isplitl [Hb]; · iexact Hb
  isplitl [Hsems]; · iexact Hsems
  isplitl [Hprng]; · iexact Hprng
  isplitl [H0]; · iexact H0
  isplitl [H1]; · iexact H1
  isplitl [H2]; · iexact H2
  isplitl [H3]; · iexact H3
  isplitl [Hoh]; · iexact Hoh
  isplitl [Hor]; · iexact Hor
  isplitl [Hv1]; · iexact Hv1
  isplitl [Hv2]; · iexact Hv2
  iexact HG

/-! ## The claim -/

def fq (d : Dev nD) (s' : Phys nD τ sig (Elt F)) : Prop :=
  s'.mem.mem ((SparseCore.T d).loc main_v2) = Hist.result (F := F) (hArr m d) (rArr m d)
    ∧ s'.mem.mem ((SparseCore.T d).loc main_arg0) = m ((SparseCore.T d).loc main_arg0)
    ∧ s'.mem.mem (hLoc d) = m (hLoc d)
    ∧ s'.mem.mem ((SparseCore.T d).loc main_arg2) = m ((SparseCore.T d).loc main_arg2)
    ∧ s'.mem.mem (rLoc d) = m (rLoc d)

theorem hfin (d : Dev nD) (s' : Phys nD τ sig (Elt F)) : iprop(FIN m d ∗ SI s') ⊢ (⌜fq m d s'⌝ : sProp 𝕄) := by
  iintro ⟨⟨H0, H1, H2, H3, Hv⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := hLoc d) (I := Finset.univ) (q := fullShare) (f := m (hLoc d)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (persistent_entails_right (SI_pointsTo_agree (st := s') (ℓ := rLoc d) (I := Finset.univ) (q := fullShare) (f := m (rLoc d)))) $$ [HSI H3]
  · isplitl [HSI] <;> iassumption
  icases H with ⟨%h3, HSI, -⟩
  ihave H := (SI_pointsTo_agree (st := s') (ℓ := (SparseCore.T d).loc main_v2) (I := Finset.univ) (q := fullShare)
    (f := Hist.result (F := F) (hArr m d) (rArr m d))) $$ [HSI Hv]
  · isplitl [HSI] <;> iassumption
  icases H with %hv
  ipureintro
  exact ⟨funext fun (i : Idx ((SparseCore.T d).loc main_v2)) => hv i (by simp),
    funext fun (i : Idx ((SparseCore.T d).loc main_arg0)) => h0 i (by simp),
    funext fun (i : Idx (hLoc d)) => h1 i (by simp),
    funext fun (i : Idx ((SparseCore.T d).loc main_arg2)) => h2 i (by simp),
    funext fun (i : Idx (rLoc d)) => h3 i (by simp)⟩

theorem run_main [∀ e, Nonempty (Elt F e)] (hpre : PreOK m) :
    θ_run (Cert.KernelIdeal.defs (F := F)) (Cert.KernelIdeal.threads (F := F)) ⟨m, fun _ => 0, ρ⟩
      (fun r => ∀ c : Dev nD, r.2.mem ((c.tc : Thread nD τ).loc main_v2) = Hist.result (F := F) (hArr m c) (rArr m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) _ (fun _ h => h)

end Cert.KernelIdeal.Hand

end
-- ==== Proof.ScatterCount.lean ====
/-
  A scatter of ones, with addition, into a table of 32-bit words: each entry grows by the number of updates that
  land on it (modulo 2^32).
-/
import Idealize.ShloMosaic.PureOps.ShapeOps
import Mathlib.Data.Fintype.Card
import Mathlib.Data.Fintype.BigOperators

namespace Cert.Bridge

open Idealize.ShloMosaic

/-- Folding "add this update's word at the entry it names, if it names one" over a list of updates that all carry
    the word one: the entry j ends with its starting word plus the number of listed updates naming j. -/
theorem foldl_add_ones {s : Shape} {ι : Type} (tgt : ι → Option s.Idx) (val : ι → BitVec 32) (hval : ∀ n, val n = 1#32)
    (l : List ι) (r : s.Idx → BitVec 32) (j : s.Idx) :
    (l.foldl (fun r n => match tgt n with
        | some i => fun i' => if i' = i then IntOp.addi (r i) (val n) else r i'
        | none => r) r) j
      = r j + BitVec.ofNat 32 (l.countP fun n => decide (tgt n = some j)) := by
  induction l generalizing r with
  | nil => simp
  | cons n l ih =>
    rw [List.foldl_cons, ih, List.countP_cons]
    cases h : tgt n with
    | none => simp
    | some i =>
      by_cases hj : j = i
      · subst hj
        simp only [if_true, IntOp.addi, hval, decide_true, if_pos]
        rw [BitVec.ofNat_add]
        show r j + 1#32 + _ = r j + (_ + 1#32)
        ac_rfl
      · have hne : ¬ (some i = some j) := fun e => hj (Option.some.inj e).symm
        simp [hj, hne]

/-- Counting over the list of all positions is the cardinality of the set. -/
theorem countP_finRange_eq_card (N : Nat) (p : Fin N → Prop) [DecidablePred p] :
    (List.finRange N).countP (fun n => decide (p n)) = (Finset.univ.filter p).card := by
  rw [List.countP_eq_length_filter]
  rfl

/-- The scatter of ones: entry j of the result is entry j of the operand plus the number of update positions whose
    result index is j. -/
theorem scatter_ones_apply {s si u : Shape} {w : Nat} (d : ScatterDims s si u) (x : s.Idx → BitVec 32) (idx : IVec si w)
    (upd : u.Idx → BitVec 32) (hupd : ∀ n, upd n = 1#32) (j : s.Idx) :
    Host.scatter d IntOp.addi x idx upd j
      = x j + BitVec.ofNat 32 (Finset.univ.filter fun n : u.Idx => d.resultIdx? n idx = some j).card := by
  unfold Host.scatter
  refine (foldl_add_ones (fun n => d.resultIdx? (u.rowMajor.symm n) idx) (fun n => upd (u.rowMajor.symm n)) (fun n => hupd _)
    (List.finRange u.numel) x j).trans ?_
  rw [countP_finRange_eq_card]
  congr 2
  exact Finset.card_equiv u.rowMajor.symm (fun n => by simp)

end Cert.Bridge
-- ==== Proof.Count.lean ====
/-
  How often a word occurs in an array of 100000 words.
-/
import proofs.«214571_g7919919694435_cont_9to1_m_483_28_alg».proof.Proof.Hist

noncomputable section

namespace Cert.Bridge

open Idealize.ShloMosaic Idealize.ShloMosaic.ValueIdx

/-- The number of positions of the array whose word, read unsigned, is b. -/
def cnt (a : IVec Cert.KernelIdeal.S100000 32) (b : Nat) : ℕ :=
  (Finset.univ.filter fun i : Fin 100000 => (a (ix1 i)).toNat = b).card

end Cert.Bridge

end
-- ==== Proof.Loss.lean ====
/-
  The loss as one function of two tables of counts.

  A table c gives, for every word v, how many positions of an array hold v. Bins 1‥100 of the table are kept; each
  kept bin is divided by the table's mass, the sum of the kept bins, but by no less than a fixed small positive
  number; and the loss is the sum over the kept bins of  t·log t − t·p  (t the share of the first table's bin, p of
  the second's, and 0·log 0 read as 0), divided by the number of bins. The small number and the number of bins are
  kept as the two float words both programs carry; only the sign of the first is ever used.
-/
import Idealize.ShloMosaic.PureOps.Ideal
import Idealize.ShloMosaic.PureOps.Ideal.Laws
import Idealize.ShloMosaic.Lib.ValueIdx

noncomputable section

namespace Cert.Bridge.Loss

open Idealize.ShloMosaic

/-- The least mass a table is divided by. -/
def floorWord : EReal := Ideal.ofBits .f32 0x2B8CBCCC#32

/-- The number of kept bins, as a float. -/
def binsWord : EReal := Ideal.ofBits .f32 0x42C80000#32

/-- The least mass is positive. -/
theorem floorWord_pos : 0 < floorWord := by
  unfold floorWord
  simp [Ideal.ofBits, Ideal.ieee, -EReal.coe_mul]

/-- u·log u, with 0·log 0 = 0. -/
def xlogx (u : EReal) : EReal := if u = 0 then 0 else u * Ideal.log u

/-- The mass a row of bins is divided by. -/
def massOf (t : Fin 100 → EReal) : EReal := max (∑ b : Fin 100, t b) floorWord

/-- The loss of two rows of a hundred bins. -/
def lossOf (t p : Fin 100 → EReal) : EReal :=
  Ideal.div (∑ b : Fin 100, (xlogx (Ideal.div (t b) (massOf t)) - Ideal.div (t b) (massOf t) * Ideal.div (p b) (massOf p))) binsWord

/-- Kept bin b (0 ≤ b < 100) of a table of counts is the count of the word b + 1. -/
def bin (c : ℕ → ℕ) (b : Fin 100) : EReal := (((c (b.val + 1) : ℕ) : ℝ) : EReal)

/-- The loss of two tables of counts: the first the true steps', the second the predicted steps'. -/
def loss (ct cp : ℕ → ℕ) : EReal := lossOf (bin ct) (bin cp)

theorem massOf_pos (t : Fin 100 → EReal) : 0 < massOf t := lt_max_of_lt_right floorWord_pos

theorem massOf_ne_zero (t : Fin 100 → EReal) : massOf t ≠ 0 := (massOf_pos t).ne'

theorem bin_nonneg (c : ℕ → ℕ) (b : Fin 100) : 0 ≤ bin c b := by
  unfold bin; exact_mod_cast Nat.cast_nonneg _

/-- A nonnegative number divided by a positive one is nonnegative. -/
theorem div_nonneg_of_pos {x y : EReal} (hx : 0 ≤ x) (hy : 0 < y) : 0 ≤ Ideal.div x y := by
  rw [Ideal.div, if_neg hy.ne']
  exact mul_nonneg hx (EReal.inv_nonneg_of_nonneg hy.le)

/-- Zero divided by a nonzero number is zero. -/
theorem zero_div_of_ne {y : EReal} (hy : y ≠ 0) : Ideal.div 0 y = 0 := by
  rw [Ideal.div, if_neg hy, zero_mul]

end Cert.Bridge.Loss

end
-- ==== Proof.RefCounts.lean ====
/-
  The reference's two tables of counts. Each of the 100000 words, clipped below at zero and wrapped if negative
  (both the identity on a word in 0‥100), names one of 101 entries; a scatter adds one at the named entry for every
  word. Entry b therefore holds the number of words equal to b — at most 100000, so the 32-bit word does not wrap and
  its conversion to a float is that number.
-/
import proofs.«214571_g7919919694435_cont_9to1_m_483_28_alg».proof.Proof.RefReadP
import proofs.«214571_g7919919694435_cont_9to1_m_483_28_alg».proof.Proof.ScatterCount
import proofs.«214571_g7919919694435_cont_9to1_m_483_28_alg».proof.Proof.Count
import proofs.«214571_g7919919694435_cont_9to1_m_483_28_alg».proof.Proof.Loss

noncomputable section

namespace Cert.Bridge

open Idealize.ShloMosaic Idealize.ShloMosaic.ValueIdx Cert.ReferenceIdeal Cert.ReferenceIdeal.Gen Cert.ReferenceIdeal.ReadP

/-- The indices of a one-axis array are its positions. -/
def idx1Equiv (n : Nat) : (⟨1, ![n]⟩ : Shape).Idx ≃ Fin n where
  toFun j := ⟨(j 0).val, (j 0).isLt⟩
  invFun i := ix1 i
  left_inv j := (eq_ix1 j).symm
  right_inv _ := rfl

/-- On a word in 0‥100 the clip below at zero, and the wrap of a negative index, change nothing. -/
theorem clip_wrap_id (a : BitVec 32) (h : a.toNat ≤ 100) :
    Scalar.select (IntOp.cmpi .slt (IntOp.maxsi 0#32 a) 0#32) (IntOp.addi (IntOp.maxsi 0#32 a) 101#32) (IntOp.maxsi 0#32 a) = a := by
  have hs : a.slt 0#32 = false := by
    rw [BitVec.slt, BitVec.toInt_eq_toNat_of_lt (by omega)]
    simp
  have hm : IntOp.maxsi 0#32 a = a := by rw [IntOp.maxsi, hs]; rfl
  rw [hm]
  have hc : IntOp.cmpi .slt a 0#32 = 0#1 := by show BitVec.ofBool (a.slt 0#32) = 0#1; rw [hs]; rfl
  rw [hc, select_zero]

/-- Where an update lands: update position n of the scatter reads its one index component at (n, 0), signed; when
    that word is in 0‥100 the update lands on the entry of that number. -/
theorem resultIdx_of_word (idx : IVec S100000x1 32) (n : Fin 100000) (hw : (idx (ix2 n (0 : Fin 1))).toNat ≤ 100) :
    scatter_S101_S100000x1_S100000_n_0_0_1.resultIdx? (ix1 n) idx
      = some (ix1 (⟨(idx (ix2 n (0 : Fin 1))).toNat, by omega⟩ : Fin 101)) := by
  have hstart : ∀ a, scatter_S101_S100000x1_S100000_n_0_0_1.start (ix1 n) idx a = (idx (ix2 n (0 : Fin 1))).toInt := by
    intro a
    match a with
    | ⟨0, h0⟩ =>
      have hm : (⟨0, h0⟩ : Fin S101.rank) ∈ scatter_S101_S100000x1_S100000_n_0_0_1.scatterDimsToOperandDims :=
        List.mem_singleton.2 (Fin.ext rfl)
      unfold ScatterDims.start
      rw [dif_pos hm]
      congr 2
      funext b
      match b with
      | ⟨0, _⟩ => exact Fin.ext rfl
      | ⟨1, _⟩ => exact Fin.ext rfl
  have hwin : ∀ a, scatter_S101_S100000x1_S100000_n_0_0_1.window (ix1 n) a = 0 := by
    intro a
    match a with
    | ⟨0, _⟩ => rfl
  have hint : (idx (ix2 n (0 : Fin 1))).toInt = ((idx (ix2 n (0 : Fin 1))).toNat : Int) :=
    BitVec.toInt_eq_toNat_of_lt (by omega)
  unfold ScatterDims.resultIdx?
  rw [dif_pos (fun a => by
    rw [hstart, hwin, hint]
    match a with
    | ⟨0, _⟩ => exact ⟨by omega, by show _ < (101 : Int); omega⟩)]
  congr 1
  funext a
  match a with
  | ⟨0, _⟩ => exact Fin.ext (by show (_ + _ : Int).toNat = _; rw [hstart, hwin, hint]; simp)

/-- A scatter of ones into a table of zeros, whose update n names the entry of the word at position n of an array of
    words in 0‥100: entry b ends as the 32-bit word of the number of positions holding b. -/
theorem scatter_counts_of (x : IVec S100000 32) (hx : ∀ i, (x i).toNat ≤ 100) (x0 : S101.Idx → BitVec 32)
    (idx : IVec S100000x1 32) (upd : S100000.Idx → BitVec 32) (h0 : ∀ j, x0 j = 0#32)
    (hidx : ∀ i : Fin 100000, idx (ix2 i (0 : Fin 1)) = x (ix1 i)) (hupd : ∀ n, upd n = 1#32) (b : Fin 101) :
    Host.scatter scatter_S101_S100000x1_S100000_n_0_0_1 IntOp.addi x0 idx upd (ix1 b) = BitVec.ofNat 32 (cnt x b.val) := by
  rw [scatter_ones_apply _ _ _ _ hupd, h0, BitVec.zero_add]
  refine congrArg (BitVec.ofNat 32) ?_
  unfold cnt
  refine Finset.card_equiv (idx1Equiv 100000) (fun n => ?_)
  simp only [Finset.mem_filter, Finset.mem_univ, true_and]
  have hn : n = ix1 (idx1Equiv 100000 n) := ((idx1Equiv 100000).left_inv n).symm
  generalize idx1Equiv 100000 n = i at hn ⊢
  subst hn
  have hw : (idx (ix2 i (0 : Fin 1))).toNat ≤ 100 := by rw [hidx]; exact hx _
  have hxi : (x (ix1 i)).toNat = (idx (ix2 i (0 : Fin 1))).toNat := by rw [hidx]
  rw [resultIdx_of_word idx i hw, hxi]
  constructor
  · intro h
    exact congrArg (fun k : S101.Idx => (k 0).val) (Option.some.inj h)
  · intro h
    exact congrArg some (funext fun a => match a with | ⟨0, _⟩ => Fin.ext h)

/-- No count exceeds the number of positions. -/
theorem cnt_le (a : IVec Cert.KernelIdeal.S100000 32) (b : Nat) : cnt a b ≤ 100000 :=
  (Finset.card_filter_le _ _).trans (by simp)

/-- A count, as a 32-bit word read signed and converted, is the count. -/
theorem sitofp_count (k : ℕ) (hk : k ≤ 100000) :
    FloatOps.sitofp (F := Ideal) .f32 (BitVec.ofNat 32 k) = (((k : ℕ) : ℝ) : EReal) := by
  have hn : (BitVec.ofNat 32 k).toNat = k := by rw [BitVec.toNat_ofNat]; exact Nat.mod_eq_of_lt (by omega)
  show ((((BitVec.ofNat 32 k).toInt : ℤ) : ℝ) : EReal) = _
  rw [BitVec.toInt_eq_toNat_of_lt (by rw [hn]; omega), hn, Int.cast_natCast]

end Cert.Bridge

end
-- ==== Proof.RefValue.lean ====
/-
  The reference's result as a function of the argument arrays: the loss of the table of counts of its fourth
  argument's words (the true steps) and of its second's (the predicted steps). Its two scatters give the tables; a
  count is not negative, so its absolute value is itself; the test "t ≠ 0 or t ≠ t" is "t ≠ 0"; the rest is the loss
  operation by operation.
-/
import proofs.«214571_g7919919694435_cont_9to1_m_483_28_alg».proof.Proof.RefReadP
import proofs.«214571_g7919919694435_cont_9to1_m_483_28_alg».proof.Proof.Hist
import proofs.«214571_g7919919694435_cont_9to1_m_483_28_alg».proof.Proof.RefCounts

noncomputable section

namespace Cert.Bridge

open Idealize.ShloMosaic Idealize.ShloMosaic.ValueIdx Cert.ReferenceIdeal Cert.ReferenceIdeal.Gen Cert.ReferenceIdeal.ReadP
  Cert.Bridge.Loss

/-- The first scatter's table: entry b is the word of the number of fourth-argument words equal to b. -/
theorem counts3 (x3 : IVec S100000 32) (h3 : ∀ i, (x3 i).toNat ≤ 100) (b : Fin 101) :
    val_main_v9 (F := Ideal) x3 (ix1 b) = BitVec.ofNat 32 (cnt x3 b.val) := by
  unfold val_main_v9
  refine scatter_counts_of x3 h3 _ _ _ (fun j => ?_) (fun i => ?_) (fun n => ?_) b
  · rw [val_main_v0_apply, val_main_c_apply]
  · have hi : idx_main_v7 (ix2 i (0 : Fin 1)) = ix1 i := funext fun a => match a with | ⟨0, _⟩ => rfl
    rw [val_main_v7_apply, hi, val_main_v6_apply, val_main_v3_apply, val_main_v5_apply, val_main_v1_apply,
      val_main_call0_v1_apply, val_main_call0_v0_apply, val_main_c_0_apply, val_main_v2_apply, val_main_c_1_apply,
      val_main_v4_apply, val_main_c_2_apply]
    exact clip_wrap_id _ (h3 _)
  · rw [val_main_v8_apply, val_main_c_3_apply]

/-- The second scatter's table, of the second argument's words. -/
theorem counts1 (x1 : IVec S100000 32) (h1 : ∀ i, (x1 i).toNat ≤ 100) (b : Fin 101) :
    val_main_v21 (F := Ideal) x1 (ix1 b) = BitVec.ofNat 32 (cnt x1 b.val) := by
  unfold val_main_v21
  refine scatter_counts_of x1 h1 _ _ _ (fun j => ?_) (fun i => ?_) (fun n => ?_) b
  · rw [val_main_v12_apply, val_main_c_4_apply]
  · have hi : idx_main_v19 (ix2 i (0 : Fin 1)) = ix1 i := funext fun a => match a with | ⟨0, _⟩ => rfl
    rw [val_main_v19_apply, hi, val_main_v18_apply, val_main_v15_apply, val_main_v17_apply, val_main_v13_apply,
      val_main_call1_v1_apply, val_main_call1_v0_apply, val_main_c_5_apply, val_main_v14_apply, val_main_c_6_apply,
      val_main_v16_apply, val_main_c_7_apply]
    exact clip_wrap_id _ (h1 _)
  · rw [val_main_v20_apply, val_main_c_8_apply]

/-- The kept bins of the first table, as floats. -/
theorem row3 (x3 : IVec S100000 32) (h3 : ∀ i, (x3 i).toNat ≤ 100) (c : Fin 100) :
    val_main_v11 (F := Ideal) x3 (ix1 c) = bin (cnt x3) c := by
  have hi : idx_main_v11 (ix1 c) = ix1 (⟨c.val + 1, by omega⟩ : Fin 101) :=
    funext fun a => match a with | ⟨0, _⟩ => Fin.ext (Nat.add_comm 1 c.val)
  rw [val_main_v11_apply, hi, val_main_v10_apply, counts3 x3 h3, sitofp_count _ (cnt_le _ _)]
  rfl

/-- The kept bins of the second table, as floats. -/
theorem row1 (x1 : IVec S100000 32) (h1 : ∀ i, (x1 i).toNat ≤ 100) (c : Fin 100) :
    val_main_v23 (F := Ideal) x1 (ix1 c) = bin (cnt x1) c := by
  have hi : idx_main_v23 (ix1 c) = ix1 (⟨c.val + 1, by omega⟩ : Fin 101) :=
    funext fun a => match a with | ⟨0, _⟩ => Fin.ext (Nat.add_comm 1 c.val)
  rw [val_main_v23_apply, hi, val_main_v22_apply, counts1 x1 h1, sitofp_count _ (cnt_le _ _)]
  rfl

/-- A sum over the indices of a row of a hundred bins is the sum over the bins. -/
theorem sum_idx100 (f : S100.Idx → EReal) : ∑ j : S100.Idx, f j = ∑ c : Fin 100, f (ix1 c) :=
  Fintype.sum_equiv (idx1Equiv 100) _ _ (fun j => congrArg f ((idx1Equiv 100).left_inv j).symm)

/-- A count's absolute value is the count. -/
theorem abs_bin (c : ℕ → ℕ) (b : Fin 100) : max (bin c b) (-(bin c b)) = bin c b :=
  max_eq_left ((EReal.neg_le_zero.2 (bin_nonneg c b)).trans (bin_nonneg c b))

/-- "t ≠ 0 or t ≠ t" chooses t·log t exactly where t is not zero. -/
theorem xlogx_select (t : EReal) :
    Scalar.select (IntOp.ori (Ideal.cmp .une t 0) (Ideal.cmp .une t t)) (t * Ideal.log t) 0 = xlogx t := by
  unfold xlogx
  by_cases h : t = 0
  · have hc : IntOp.ori (Ideal.cmp .une t 0) (Ideal.cmp .une t t) = 0#1 := by simp [Ideal.cmp, h, IntOp.ori]
    rw [hc, select_zero, if_pos h]
  · have hc : IntOp.ori (Ideal.cmp .une t 0) (Ideal.cmp .une t t) = 1#1 := by simp [Ideal.cmp, h, IntOp.ori]
    rw [hc, select_one, if_neg h]

section Rows

variable (x1 x3 : IVec S100000 32) (ct cp : ℕ → ℕ)
  (ht : ∀ c : Fin 100, val_main_v11 (F := Ideal) x3 (ix1 c) = bin ct c)
  (hp : ∀ c : Fin 100, val_main_v23 (F := Ideal) x1 (ix1 c) = bin cp c)

include ht in
/-- The mass the true steps' row is divided by. -/
theorem mass3 (i : S_.Idx) : val_main_v26 (F := Ideal) x3 i = massOf (bin ct) := by
  rw [val_main_v26_apply, val_main_v25_apply, val_main_cst_apply, val_main_cst_9_apply]
  show max (Ideal.ofBits .f32 0x00000000#32 + ∑ j : S100.Idx, val_main_v24 (F := Ideal) x3 j) (Ideal.ofBits .f32 0x2B8CBCCC#32) = _
  rw [Ideal.ofBits_zero_f32, zero_add, sum_idx100]
  unfold massOf
  refine congrArg (max · floorWord) (Finset.sum_congr rfl fun c _ => ?_)
  rw [val_main_v24_apply, ht]
  exact abs_bin ct c

include hp in
/-- The mass the predicted steps' row is divided by. -/
theorem mass1 (i : S_.Idx) : val_main_v31 (F := Ideal) x1 i = massOf (bin cp) := by
  rw [val_main_v31_apply, val_main_v30_apply, val_main_cst_10_apply, val_main_cst_11_apply]
  show max (Ideal.ofBits .f32 0x00000000#32 + ∑ j : S100.Idx, val_main_v29 (F := Ideal) x1 j) (Ideal.ofBits .f32 0x2B8CBCCC#32) = _
  rw [Ideal.ofBits_zero_f32, zero_add, sum_idx100]
  unfold massOf
  refine congrArg (max · floorWord) (Finset.sum_congr rfl fun c _ => ?_)
  rw [val_main_v29_apply, hp]
  exact abs_bin cp c

include ht in
/-- The true steps' shares. -/
theorem share3 (c : Fin 100) : val_main_v28 (F := Ideal) x3 (ix1 c) = Ideal.div (bin ct c) (massOf (bin ct)) := by
  rw [val_main_v28_apply, val_main_v27_apply, mass3 x3 ct ht, ht]
  rfl

include hp in
/-- The predicted steps' shares. -/
theorem share1 (c : Fin 100) : val_main_v33 (F := Ideal) x1 (ix1 c) = Ideal.div (bin cp c) (massOf (bin cp)) := by
  rw [val_main_v33_apply, val_main_v32_apply, mass1 x1 cp hp, hp]
  rfl

include ht in
/-- The terms t·log t. -/
theorem term3 (c : Fin 100) : val_main_v41 (F := Ideal) x3 (ix1 c) = xlogx (Ideal.div (bin ct c) (massOf (bin ct))) := by
  rw [val_main_v41_apply, val_main_v37_apply, val_main_v35_apply, val_main_v36_apply, val_main_v39_apply, val_main_v38_apply,
    val_main_v34_apply, val_main_cst_12_apply, val_main_v40_apply, val_main_cst_13_apply, share3 x3 ct ht]
  generalize Ideal.div (bin ct c) (massOf (bin ct)) = t
  show Scalar.select (IntOp.ori (Ideal.cmp .une t (Ideal.ofBits .f32 0x00000000#32)) (Ideal.cmp .une t t)) (t * Ideal.log t)
    (Ideal.ofBits .f32 0x00000000#32) = _
  rw [Ideal.ofBits_zero_f32]
  exact xlogx_select t

include ht hp in
/-- The reference's last stage is the loss of the two tables. -/
theorem ref_eq_loss (i : S_.Idx) : val_main_v45 (F := Ideal) x1 x3 i = loss ct cp := by
  rw [val_main_v45_apply, val_main_v44_apply, val_main_cst_14_apply, val_main_cst_15_apply]
  show Ideal.div (Ideal.ofBits .f32 0x00000000#32 + ∑ j : S100.Idx, val_main_v43 (F := Ideal) x1 x3 j) (Ideal.ofBits .f32 0x42C80000#32) = _
  rw [Ideal.ofBits_zero_f32, zero_add, sum_idx100]
  unfold loss lossOf
  refine congrArg (Ideal.div · binsWord) (Finset.sum_congr rfl fun c _ => ?_)
  rw [val_main_v43_apply, val_main_v42_apply, term3 x3 ct ht, share3 x3 ct ht, share1 x1 cp hp]
  rfl

end Rows

/-- The reference's result is the loss of the counts of its fourth and second argument arrays. -/
theorem res_eq_loss (m' : (ℓ : Loc nD τ sig) → Buf (Elt Ideal) ℓ) (c : Dev nD)
    (h1 : ∀ i, (m' ((c.tc : Thread nD τ).loc main_arg1) i).toNat ≤ 100)
    (h3 : ∀ i, (m' ((c.tc : Thread nD τ).loc main_arg3) i).toNat ≤ 100) (i : S_.Idx) :
    Cert.ReferenceIdeal.ValueP.res_main_v45 (F := Ideal) m' c i
      = loss (cnt (m' ((c.tc : Thread nD τ).loc main_arg3))) (cnt (m' ((c.tc : Thread nD τ).loc main_arg1))) := by
  rw [val_main_v45_eq]
  exact ref_eq_loss _ _ _ _ (row3 _ h3) (row1 _ h1) i

end Cert.Bridge

end
-- ==== Proof.RowSums.lean ====
/-
  The second kernel's operations that are not elementwise, read at an index: the sum of the 32 rows of a 32 × 128
  array, bin by bin; the total of a row of 128 bins; and the mask that keeps bins 1‥100.
-/
import proofs.«214571_g7919919694435_cont_9to1_m_483_28_alg».proof.Proof.Hist
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx Cert.KernelIdeal Cert.KernelIdeal.Gen

/-- The indices of a 1 × 1 × 128 array are the 128 bins. -/
def binOfIdx : S1x1x128.Idx ≃ Fin 128 where
  toFun i := ⟨(i 2).val, (i 2).isLt⟩
  invFun b := ix3 (0 : Fin 1) (0 : Fin 1) b
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  right_inv b := rfl

/-- A row of 128 bins, viewed 1 × 1 × 128, summed over its last two axes, viewed 1 × 1 × 1 and read at its one
    index: the sum of the 128 bins. -/
theorem total_row (v : FVec Ideal S1x128 .f32) (shapeCasts_S1x128_S1x1x128 : S1x128.ShapeCasts S1x1x128)
    (reduces_S1x1x128_S1 : S1x1x128.Reduces [1, 2] S1) (shapeCasts_S1_S1x1x1 : S1.ShapeCasts S1x1x1)
    (inpos_S1x1x1_p0_0_0 : ∀ a, (![0, 0, 0] : Fin 3 → Nat) a < S1x1x1.size a) :
    extractAt ![0, 0, 0] (shapeCast S1x1x1 (multiReduction (F := Ideal) .add [1, 2] S1 (shapeCast S1x1x128 v shapeCasts_S1x128_S1x1x128)
        0x00000000#32 reduces_S1x1x128_S1 (.inl rfl) rfl) shapeCasts_S1_S1x1x1) inpos_S1x1x1_p0_0_0
      = ∑ b : Fin 128, v (ix2 (0 : Fin 1) b) := by
  unfold extractAt
  refine (shapeCast_apply _ shapeCasts_S1_S1x1x1 _ (ix1 (0 : Fin 1)) (by
    rw [Shape.rowMajor_val_three, Shape.rowMajor_val_one]; rfl)).trans ?_
  refine (Ideal.multiReduction_add_total _ 0x00000000#32 reduces_S1x1x128_S1
    (fun b => by match b with | ⟨0, _⟩ => rfl) (.inl rfl) rfl (ix1 (0 : Fin 1))).trans ?_
  refine Fintype.sum_equiv binOfIdx _ _ fun i => ?_
  refine shapeCast_apply v shapeCasts_S1x128_S1x1x128 i _ (by
    have h0 : (i 0).val < 1 := (i 0).isLt
    have h1 : (i 1).val < 1 := (i 1).isLt
    rw [Shape.rowMajor_val_three, Shape.rowMajor_val_two]
    show 0 * 128 + (i 2).val = ((i 0).val * 1 + (i 1).val) * 128 + (i 2).val
    have e0 : (i 0).val = 0 := by omega
    have e1 : (i 1).val = 0 := by omega
    rw [e0, e1])

/-- The 32 rows of a 32 × 128 array summed, viewed 1 × 128, at bin b: the sum over the rows of the bin. -/
theorem rows_sum (x : FVec Ideal S32x128 .f32) (shapeCasts_S32x128_S32x128 : S32x128.ShapeCasts S32x128)
    (reduces_S32x128_S128 : S32x128.Reduces [0] S128) (shapeCasts_S128_S1x128 : S128.ShapeCasts S1x128) (u : Fin 1) (b : Fin 128) :
    shapeCast S1x128 (multiReduction (F := Ideal) .add [0] S128 (shapeCast S32x128 x shapeCasts_S32x128_S32x128) 0x00000000#32
        reduces_S32x128_S128 (.inl rfl) rfl) shapeCasts_S128_S1x128 (ix2 u b)
      = ∑ w : Fin 32, x (ix2 w b) := by
  refine (shapeCast_a_1a_apply _ shapeCasts_S128_S1x128 u b).trans ?_
  rw [shapeCast_self]
  refine (Ideal.multiReduction_add_single (φ := .f32) x 0x00000000#32 reduces_S32x128_S128 (.inl rfl) rfl (ix1 b)).trans ?_
  refine Finset.sum_congr rfl fun w _ => congrArg x ?_
  funext a
  match a with
  | ⟨0, _⟩ => rfl
  | ⟨1, _⟩ => rfl

/-- The mask: one at bins 1‥100, zero at the others. -/
theorem keep_apply (u : Fin 1) (b : Fin 128) :
    k1_pay2 (ix2 u b) = if 1 ≤ b.val ∧ b.val ≤ 100 then 1#1 else 0#1 := by
  unfold k1_pay2
  show IntOp.andi (IntOp.cmpi .sge (iota .tc S1x128 32 [1] Facts₀.iota_S1x128_d1_w32 (ix2 u b)) 1#32)
      (IntOp.cmpi .sle (iota .tc S1x128 32 [1] Facts₀.iota_S1x128_d1_w32 (ix2 u b)) 100#32) = _
  rw [iota_single_apply]
  show IntOp.andi (IntOp.cmpi .sge (BitVec.ofNat 32 b.val) 1#32) (IntOp.cmpi .sle (BitVec.ofNat 32 b.val) 100#32) = _
  revert b
  decide

end Cert.Bridge

end
-- ==== Proof.TcLoss.lean ====
/-
  The second kernel's stored value is the loss of the column sums of its two arrays: the rows of each array are
  summed bin by bin, bins 1‥100 kept (the others set to zero, which then contribute nothing: zero divided by a
  positive mass is zero, and 0·log 0 − 0·p is read as 0), each kept row divided by its mass, and the divergence
  terms summed and divided by the number of bins. Where a share t is positive the kernel's term t·log t is the
  loss's; where it is zero both are zero; shares are never negative because counts are not.
-/
import proofs.«214571_g7919919694435_cont_9to1_m_483_28_alg».proof.Proof.RowSums
import proofs.«214571_g7919919694435_cont_9to1_m_483_28_alg».proof.Proof.Loss

noncomputable section

namespace Cert.Bridge

open Idealize.ShloMosaic Idealize.ShloMosaic.ValueIdx Cert.KernelIdeal Cert.KernelIdeal.Gen Cert.Bridge.Loss

/-- A sum over 128 bins of terms that vanish outside bins 1‥100 is the sum over the hundred kept bins. -/
theorem sum_kept (f : Fin 128 → EReal) (h0 : ∀ b : Fin 128, ¬ (1 ≤ b.val ∧ b.val ≤ 100) → f b = 0) :
    ∑ b : Fin 128, f b = ∑ c : Fin 100, f ⟨c.val + 1, by omega⟩ := by
  have hinj : Function.Injective (fun c : Fin 100 => (⟨c.val + 1, by omega⟩ : Fin 128)) := fun a b h => by
    have := congrArg Fin.val h; exact Fin.ext (by simpa using this)
  refine Eq.trans ?_ (Finset.sum_map Finset.univ ⟨_, hinj⟩ f)
  refine (Finset.sum_subset (Finset.subset_univ _) fun b _ hb => h0 b fun hr => hb ?_).symm
  exact Finset.mem_map.2 ⟨⟨b.val - 1, by omega⟩, Finset.mem_univ _, Fin.ext (by show b.val - 1 + 1 = b.val; omega)⟩

/-- The kept bins of the sum of an array's rows: bin b for 1 ≤ b ≤ 100, zero elsewhere. -/
def keptRow (x : FVec Ideal S32x128 .f32) (b : Fin 128) : EReal :=
  if 1 ≤ b.val ∧ b.val ≤ 100 then ∑ w : Fin 32, x (ix2 w b) else 0

/-- The masked row of sums, read at a bin. -/
theorem masked_apply (x : FVec Ideal S32x128 .f32) (h1 : S32x128.ShapeCasts S32x128) (h2 : S32x128.Reduces [0] S128)
    (h3 : S128.ShapeCasts S1x128) (u : Fin 1) (b : Fin 128) :
    select k1_pay2 (shapeCast S1x128 (multiReduction (F := Ideal) .add [0] S128 (shapeCast S32x128 x h1) 0x00000000#32 h2 (.inl rfl) rfl) h3)
        (broadcast S1x128 (Scalar.ofBits (F := Ideal) .f32 0x00000000#32)) (ix2 u b)
      = keptRow x b := by
  rw [select_apply, keep_apply, rows_sum, broadcast_apply]
  unfold keptRow
  split
  · exact select_one _ _
  · exact (select_zero _ _).trans Ideal.ofBits_zero_f32

/-- The mass the kept row is divided by. -/
def rowMass (x : FVec Ideal S32x128 .f32) : EReal := max (∑ b : Fin 128, keptRow x b) floorWord

/-- The first array's row of shares, read at a bin. -/
theorem pay3_apply (x : FVec Ideal S32x128 .f32) (u : Fin 1) (b : Fin 128) :
    k1_pay3 (F := Ideal) x (ix2 u b) = Ideal.div (keptRow x b) (rowMass x) := by
  unfold k1_pay3
  dsimp only
  rw [divf_apply, broadcast_apply, masked_apply]
  congr 1
  show max _ _ = max _ _
  congr 1
  refine (total_row _ _ _ _ _).trans ?_
  exact Finset.sum_congr rfl fun b _ => masked_apply x _ _ _ 0 b

/-- The second array's row of shares is computed by the same operations. -/
theorem pay4_eq_pay3 : k1_pay4 (F := Ideal) = k1_pay3 (F := Ideal) := rfl

/-- The row of terms t·log t, read at a bin: t·log t where the share t is positive, zero elsewhere. -/
theorem pay5_apply (y : FVec Ideal S32x128 .f32) (u : Fin 1) (b : Fin 128) :
    k1_pay5 (F := Ideal) y (ix2 u b)
      = if 0 < k1_pay4 (F := Ideal) y (ix2 u b) then k1_pay4 (F := Ideal) y (ix2 u b) * Ideal.log (k1_pay4 (F := Ideal) y (ix2 u b)) else 0 := by
  unfold k1_pay5
  generalize k1_pay4 (F := Ideal) y = T
  show Scalar.select (Ideal.cmp .ogt (T (ix2 u b)) (Ideal.ofBits .f32 0x00000000#32))
      (T (ix2 u b) * Ideal.log (Scalar.select (Ideal.cmp .ogt (T (ix2 u b)) (Ideal.ofBits .f32 0x00000000#32)) (T (ix2 u b)) (Ideal.ofBits .f32 0x3F800000#32)))
      (Ideal.ofBits .f32 0x00000000#32) = _
  rw [Ideal.ofBits_zero_f32]
  generalize T (ix2 u b) = t
  by_cases h : 0 < t
  · have hc : Ideal.cmp .ogt t 0 = 1#1 := by simp [Ideal.cmp, h]
    rw [hc, select_one, select_one, if_pos h]
  · have hc : Ideal.cmp .ogt t 0 = 0#1 := by simp [Ideal.cmp, h]
    rw [hc, select_zero, if_neg h]

/-- The stored value from its three rows: the sum over the 128 bins of  (t·log t) − t·p, divided by the number of
    bins. -/
theorem pay1_apply (v24 v31 v41 : FVec Ideal S1x128 .f32) (j : S1x1.Idx) :
    k1_pay1 (F := Ideal) v24 v31 v41 j
      = Ideal.div (∑ b : Fin 128, (v41 (ix2 (0 : Fin 1) b) - v31 (ix2 (0 : Fin 1) b) * v24 (ix2 (0 : Fin 1) b))) binsWord := by
  unfold k1_pay1
  try dsimp only
  rw [divf_apply, broadcast_apply, broadcast_apply]
  congr 1
  exact total_row _ _ _ _ _

/-- The kept row at bin c + 1, when the column sums are the counts of a table. -/
theorem keptRow_succ (x : FVec Ideal S32x128 .f32) (cx : ℕ → ℕ)
    (hx : ∀ b : Fin 128, 1 ≤ b.val ∧ b.val ≤ 100 → ∑ w : Fin 32, x (ix2 w b) = (((cx b.val : ℕ) : ℝ) : EReal)) (c : Fin 100) :
    keptRow x ⟨c.val + 1, by omega⟩ = bin cx c := by
  unfold keptRow
  rw [if_pos ⟨by show 1 ≤ c.val + 1; omega, by show c.val + 1 ≤ 100; omega⟩, hx _ ⟨by show 1 ≤ c.val + 1; omega, by show c.val + 1 ≤ 100; omega⟩]
  rfl

/-- The kept row vanishes outside bins 1‥100. -/
theorem keptRow_out (x : FVec Ideal S32x128 .f32) (b : Fin 128) (hb : ¬ (1 ≤ b.val ∧ b.val ≤ 100)) : keptRow x b = 0 := by
  unfold keptRow; rw [if_neg hb]

/-- The mass is positive, so not zero. -/
theorem rowMass_ne_zero (x : FVec Ideal S32x128 .f32) : rowMass x ≠ 0 := (lt_max_of_lt_right floorWord_pos).ne'

/-- The row's mass is the table's. -/
theorem rowMass_eq (x : FVec Ideal S32x128 .f32) (cx : ℕ → ℕ)
    (hx : ∀ b : Fin 128, 1 ≤ b.val ∧ b.val ≤ 100 → ∑ w : Fin 32, x (ix2 w b) = (((cx b.val : ℕ) : ℝ) : EReal)) :
    rowMass x = massOf (bin cx) := by
  unfold rowMass massOf
  rw [sum_kept _ (keptRow_out x)]
  exact congrArg (max · floorWord) (Finset.sum_congr rfl fun c _ => keptRow_succ x cx hx c)

/-- The second kernel's one stored value is the loss of the two tables whose counts the column sums of bins 1‥100
    of its two arrays are: the first array's the predicted steps' table, the second's the true steps'. -/
theorem tcOut_eq_loss (x y : FVec Ideal S32x128 .f32) (cx cy : ℕ → ℕ)
    (hx : ∀ b : Fin 128, 1 ≤ b.val ∧ b.val ≤ 100 → ∑ w : Fin 32, x (ix2 w b) = (((cx b.val : ℕ) : ℝ) : EReal))
    (hy : ∀ b : Fin 128, 1 ≤ b.val ∧ b.val ≤ 100 → ∑ w : Fin 32, y (ix2 w b) = (((cy b.val : ℕ) : ℝ) : EReal))
    (j : S1x1.Idx) :
    Hist.tcOut (F := Ideal) x y j = loss cy cx := by
  unfold Hist.tcOut
  rw [pay1_apply]
  unfold loss lossOf
  congr 1
  rw [sum_kept]
  · refine Finset.sum_congr rfl fun c _ => ?_
    rw [pay5_apply, pay4_eq_pay3, pay3_apply, pay3_apply, rowMass_eq x cx hx, rowMass_eq y cy hy, keptRow_succ x cx hx,
      keptRow_succ y cy hy]
    congr 1
    unfold xlogx
    have hnn : 0 ≤ Ideal.div (bin cy c) (massOf (bin cy)) := div_nonneg_of_pos (bin_nonneg cy c) (massOf_pos _)
    by_cases h0 : Ideal.div (bin cy c) (massOf (bin cy)) = 0
    · rw [if_pos h0, h0, if_neg (lt_irrefl _)]
    · rw [if_neg h0, if_pos (lt_of_le_of_ne hnn (Ne.symm h0))]
  · intro b hb
    rw [pay5_apply, pay4_eq_pay3, pay3_apply, pay3_apply, keptRow_out x b hb, keptRow_out y b hb,
      zero_div_of_ne (rowMass_ne_zero y), zero_div_of_ne (rowMass_ne_zero x),
      if_neg (lt_irrefl _), zero_mul, sub_zero]

end Cert.Bridge

end
-- ==== Proof.HistCount.lean ====
/-
  The 32 rows of bins sum, bin by bin, to the array's counts: every one of the 100000 positions lies in exactly one
  subcore's share (3120·w ‥ 3120·w + 3119 for subcore w, and 99840 + 16·w ‥ 99840 + 16·w + 15 for w < 10), a position
  holding v adds one to exactly one slot 129·l + v of that subcore's table, and bin b of the subcore's row is the sum of
  the sixteen slots 129·l + b.
-/
import proofs.«214571_g7919919694435_cont_9to1_m_483_28_alg».proof.Proof.Count
import proofs.«214571_g7919919694435_cont_9to1_m_483_28_alg».proof.Proof.InRange
import Idealize.ShloMosaic.PureOps.Ideal
import Idealize.ShloMosaic.PureOps.Ideal.Laws
import Idealize.ShloMosaic.Lib.ValueIdx
import Idealize.ShloMosaic.Lib.IdealHost

noncomputable section

namespace Cert.Bridge

open Idealize.ShloMosaic Idealize.ShloMosaic.ValueIdx Cert.KernelIdeal Cert.KernelIdeal.Gen Cert.KernelIdeal.Hist
open scoped BigOperators

/-- An index of the table is its one coordinate. -/
theorem idx_ext (i j : S2080.Idx) (h : (i 0).val = (j 0).val) : i = j := by
  funext a
  have ha : a = 0 := Fin.eq_zero a
  subst ha
  exact Fin.ext h

/-- A lane as an index. -/
theorem ofLane_eq (k : Fin 16) : (Shape.ofLane (d := ![16]) k) = ix1 k := by
  funext a
  have ha : a = 0 := Fin.eq_zero a
  subst ha
  rfl

/-- One lane's add-store. -/
def step1 (idxs : Fin S2080.rank → IVec S16 32) (h : ∀ a x, (idxs a x).toNat < S2080.size a)
    (v : Vec Ideal S16 .f32) (g : Vec Ideal S2080 .f32) (k : Fin 16) : Vec Ideal S2080 .f32 :=
  fun j => if (∀ a, (j a).val = (idxAt idxs h (ix1 k) a).val) then g (idxAt idxs h (ix1 k)) + v (ix1 k) else g j

/-- The add-stores of one over a list of lanes add, at each slot, the number of lanes of the list that name it. -/
theorem foldl_step1 (idxs : Fin S2080.rank → IVec S16 32) (h : ∀ a x, (idxs a x).toNat < S2080.size a)
    (v : Vec Ideal S16 .f32) (hv : ∀ x, v x = 1) (L : List (Fin 16)) (g : Vec Ideal S2080 .f32) (j : S2080.Idx) :
    (L.foldl (step1 idxs h v) g) j
      = g j + (((L.map fun k => if (idxs 0 (ix1 k)).toNat = (j 0).val then 1 else 0).sum : ℕ) : ℝ) := by
  induction L generalizing g with
  | nil => simp
  | cons k L ih =>
    rw [List.foldl_cons, ih, List.map_cons, List.sum_cons]
    by_cases hk : (idxs 0 (ix1 k)).toNat = (j 0).val
    · have hc : ∀ a, (j a).val = (idxAt idxs h (ix1 k) a).val := by
        intro a
        have ha : a = 0 := Fin.eq_zero a
        subst ha
        exact hk.symm
      have hij : idxAt idxs h (ix1 k) = j := idx_ext _ _ hk
      rw [if_pos hk]
      unfold step1
      rw [if_pos hc, hij, hv, Nat.cast_add, Nat.cast_one, EReal.coe_add, EReal.coe_one, add_assoc]
    · have hc : ¬ ∀ a, (j a).val = (idxAt idxs h (ix1 k) a).val := fun hh => hk (hh 0).symm
      rw [if_neg hk, zero_add]
      unfold step1
      rw [if_neg hc]

/-- The number of lanes whose word names slot t. -/
def hitsN (w : IVec S16 32) (t : ℕ) : ℕ := ∑ l : Fin 16, if (slots w (ix1 l)).toNat = t then 1 else 0

/-- The stored vector is the constant one. -/
theorem k0_pay2_apply (x : S16.Idx) : (k0_pay2 (F := Ideal)) x = 1 := Ideal.ofBits_one_f32

/-- One indexed add-store of ones adds, at each slot, the number of lanes naming it. -/
theorem bump_apply (g : Vec Ideal S2080 .f32) (w : IVec S16 32) (hw : InRange w) (j : S2080.Idx) :
    bump g w j = g j + ((hitsN w (j 0).val : ℕ) : ℝ) := by
  unfold bump
  rw [dif_pos hw]
  have hw' : ∀ a x, ((![slots w] : Fin 1 → IVec S16 32) a x).toNat < S2080.size a := hw
  have e : storeIdx g ![slots w] (k0_pay2 (F := Ideal)) (fun _ => 1#1) true hw'
      = (List.finRange 16).foldl (step1 ![slots w] hw' (k0_pay2 (F := Ideal))) g := by
    unfold storeIdx
    show List.foldl _ g (List.finRange 16) = _
    congr 1
    funext g' k
    unfold step1
    have h1 : ((1#1 : BitVec 1) = 1) := rfl
    simp only [h1, if_true]
    rw [ofLane_eq k]
    rfl
  rw [e, foldl_step1 _ _ _ k0_pay2_apply]
  unfold hitsN
  rw [Fin.sum_univ_def]
  rfl

/-- The lanes of a group naming slot t: lane l does when 129·l plus its word is t. -/
theorem hitsN_group (a : IVec S100000 32) (ha : ∀ i, (a i).toNat ≤ 100) (o t : ℕ) :
    hitsN (group a o) t = ∑ l ∈ Finset.range 16, if 129 * l + wd a (o + l) = t then 1 else 0 := by
  unfold hitsN
  rw [Finset.sum_range]
  refine Finset.sum_congr rfl fun l _ => ?_
  rw [slots_toNat _ l (group_le a ha o _), group_toNat]

/-- The lanes naming slot t over the first k groups of a subcore's words. -/
def mainN (a : IVec S100000 32) (L : grid0.Coords) (k t : ℕ) : ℕ :=
  ∑ i ∈ Finset.range k, hitsN (group a (base L + 16 * i)) t

theorem histMain_apply (a : IVec S100000 32) (ha : ∀ i, (a i).toNat ≤ 100) (L : grid0.Coords) (k : ℕ) (j : S2080.Idx) :
    histMain (F := Ideal) a L k j = ((mainN a L k (j 0).val : ℕ) : ℝ) := by
  induction k with
  | zero =>
    show Ideal.ofBits .f32 0x00000000#32 = _
    rw [Ideal.ofBits_zero_f32]
    simp [mainN]
  | succ k ih =>
    show bump (histMain a L k) (group a (base L + 16 * k)) j = _
    rw [bump_apply _ _ (inRange_of_le _ (group_le a ha _)), ih]
    unfold mainN
    rw [Finset.sum_range_succ, Nat.cast_add, EReal.coe_add]

/-- The lanes naming slot t over all of a subcore's words. -/
def allN (a : IVec S100000 32) (L : grid0.Coords) (t : ℕ) : ℕ :=
  mainN a L 195 t + (if k0_cond1 L = 1#1 then hitsN (group a (tailOff L)) t else 0)

theorem histAll_apply (a : IVec S100000 32) (ha : ∀ i, (a i).toNat ≤ 100) (L : grid0.Coords) (j : S2080.Idx) :
    histAll (F := Ideal) a L j = ((allN a L (j 0).val : ℕ) : ℝ) := by
  unfold histAll allN
  by_cases h : k0_cond1 L = 1#1
  · rw [if_pos h, if_pos h, bump_apply _ _ (inRange_of_le _ (group_le a ha _)), histMain_apply a ha, Nat.cast_add, EReal.coe_add]
  · rw [if_neg h, if_neg h, histMain_apply a ha, add_zero]

theorem k0_pay3_apply (x : S16.Idx) : (k0_pay3 (F := Ideal)) x = 0 := Ideal.ofBits_zero_f32
theorem k0_pay4_apply (A : FVec Ideal S16 .f32) (P : Vec Ideal S16 .f32) (x : S16.Idx) : k0_pay4 (F := Ideal) A P x = A x + P x := rfl

section Fold
variable (h : Vec Ideal S2080 .f32) (H : ℕ → ℕ) (hH : ∀ j, h j = ((H (j 0).val : ℕ) : ℝ))
include hH

theorem piece_apply (o : ℕ) (x : Fin 16) (hox : o + x.val < 2080) : piece h o (ix1 x) = ((H (o + x.val) : ℕ) : ℝ) := by
  show (if hh : o + x.val < 2080 then h (ix1 ⟨o + x.val, hh⟩) else _) = _
  rw [dif_pos hox, hH]

theorem acc_apply (cc : ℕ) (hcc : cc < 8) (x : Fin 16) (r : ℕ) (hr : r ≤ 16) :
    acc h cc r (ix1 x) = ((∑ r' ∈ Finset.range r, H (129 * r' + 16 * cc + x.val) : ℕ) : ℝ) := by
  have hx := x.isLt
  induction r with
  | zero =>
    show k0_pay3 (F := Ideal) _ = _
    rw [k0_pay3_apply]
    simp
  | succ r ih =>
    show k0_pay4 (acc h cc r) (piece h (129 * r + 16 * cc)) (ix1 x) = _
    rw [k0_pay4_apply, ih (by omega), piece_apply h H hH _ x (by omega), Finset.sum_range_succ, Nat.cast_add, EReal.coe_add]

/-- Bin b of the folded row is the sum of the sixteen slots 129·r + b. -/
theorem fold_apply (b : S128.Idx) : fold h b = ((∑ r ∈ Finset.range 16, H (129 * r + (b 0).val) : ℕ) : ℝ) := by
  have hb : (b 0).val < 128 := (b 0).isLt
  unfold fold
  rw [acc_apply h H hH _ (by omega) _ 16 le_rfl]
  have e : ∀ r, 129 * r + 16 * ((b 0).val / 16) + (b 0).val % 16 = 129 * r + (b 0).val := fun r => by omega
  simp only [e]

end Fold

/-- Bin b of a subcore's row. -/
theorem rowOut_apply (a : IVec S100000 32) (ha : ∀ i, (a i).toNat ≤ 100) (L : grid0.Coords) (b : S128.Idx) :
    rowOut (F := Ideal) a L b = ((∑ r ∈ Finset.range 16, allN a L (129 * r + (b 0).val) : ℕ) : ℝ) :=
  fold_apply _ _ (histAll_apply a ha L) b

/-- Over the sixteen slots 129·r + b of a group, the lanes naming them are the lanes whose word is b. -/
theorem sum_slots (a : IVec S100000 32) (ha : ∀ i, (a i).toNat ≤ 100) (o b : ℕ) (hb : 1 ≤ b ∧ b ≤ 100) :
    ∑ r ∈ Finset.range 16, hitsN (group a o) (129 * r + b) = ∑ l ∈ Finset.range 16, if wd a (o + l) = b then 1 else 0 := by
  simp only [hitsN_group a ha]
  rw [Finset.sum_comm]
  refine Finset.sum_congr rfl fun l hl => ?_
  have hv := wd_le a ha (o + l)
  have e : ∀ r ∈ Finset.range 16, (if 129 * l + wd a (o + l) = 129 * r + b then 1 else 0)
      = if r = l then (if wd a (o + l) = b then 1 else 0) else 0 := by
    intro r _
    by_cases h1 : r = l
    · subst h1
      rw [if_pos rfl]
      by_cases h2 : wd a (o + r) = b
      · rw [if_pos h2, if_pos (by omega)]
      · rw [if_neg h2, if_neg (by omega)]
    · rw [if_neg h1, if_neg (by omega)]
  rw [Finset.sum_congr rfl e, Finset.sum_ite_eq', if_pos hl]

/-- A sum over m·n consecutive naturals, n at a time. -/
theorem sum_range_mul (f : ℕ → ℕ) (m n : ℕ) :
    ∑ i ∈ Finset.range (m * n), f i = ∑ x ∈ Finset.range m, ∑ y ∈ Finset.range n, f (n * x + y) := by
  induction m with
  | zero => simp
  | succ m ih => rw [Nat.succ_mul, Finset.sum_range_add, ih, Finset.sum_range_succ, Nat.mul_comm n m]

/-- The positions of a subcore's share holding b. -/
def shareN (a : IVec S100000 32) (b : ℕ) (bs tl : ℕ) (c : Prop) [Decidable c] : ℕ :=
  (∑ k ∈ Finset.range 195, ∑ l ∈ Finset.range 16, if wd a (bs + 16 * k + l) = b then 1 else 0)
    + (if c then ∑ l ∈ Finset.range 16, if wd a (tl + l) = b then 1 else 0 else 0)

theorem row_count (a : IVec S100000 32) (ha : ∀ i, (a i).toNat ≤ 100) (L : grid0.Coords) (b : ℕ) (hb : 1 ≤ b ∧ b ≤ 100) :
    ∑ r ∈ Finset.range 16, allN a L (129 * r + b) = shareN a b (base L) (tailOff L) (k0_cond1 L = 1#1) := by
  unfold allN mainN shareN
  rw [Finset.sum_add_distrib, Finset.sum_comm]
  have e1 : ∑ k ∈ Finset.range 195, ∑ r ∈ Finset.range 16, hitsN (group a (base L + 16 * k)) (129 * r + b)
      = ∑ k ∈ Finset.range 195, ∑ l ∈ Finset.range 16, if wd a (base L + 16 * k + l) = b then 1 else 0 :=
    Finset.sum_congr rfl fun k _ => sum_slots a ha _ b hb
  rw [e1]
  by_cases h : k0_cond1 L = 1#1
  · simp only [if_pos h]
    rw [sum_slots a ha _ b hb]
  · simp only [if_neg h, Finset.sum_const_zero]

/-- Row w's subcore starts at 3120·w, its extra words at 99840 + 16·w, and it has extra words when w < 10. -/
theorem base_row (w : Fin 32) : base (coordsOfRow w) = 3120 * w.val := by
  show 6240 * (w.val / 2) + 3120 * (w.val % 2) = 3120 * w.val
  omega

theorem tail_row (w : Fin 32) : tailOff (coordsOfRow w) = 99840 + 16 * w.val := by
  show 32 * (w.val / 2) + 16 * (w.val % 2) + 99840 = 99840 + 16 * w.val
  omega

theorem cond_row : ∀ w : Fin 32, (k0_cond1 (coordsOfRow w) = 1#1) ↔ w.val < 10 := by decide

theorem shareN_row (a : IVec S100000 32) (b : ℕ) (w : Fin 32) :
    shareN a b (base (coordsOfRow w)) (tailOff (coordsOfRow w)) (k0_cond1 (coordsOfRow w) = 1#1)
      = shareN a b (3120 * w.val) (99840 + 16 * w.val) (w.val < 10) := by
  rw [base_row, tail_row]
  unfold shareN
  by_cases h : w.val < 10
  · rw [if_pos h, if_pos ((cond_row w).2 h)]
  · rw [if_neg h, if_neg (fun hh => h ((cond_row w).1 hh))]

/-- The 32 shares are disjoint and cover the 100000 positions. -/
theorem shares_partition (f : ℕ → ℕ) :
    ∑ n ∈ Finset.range 32, ((∑ k ∈ Finset.range 195, ∑ l ∈ Finset.range 16, f (3120 * n + 16 * k + l))
        + (if n < 10 then ∑ l ∈ Finset.range 16, f (99840 + 16 * n + l) else 0))
      = ∑ p ∈ Finset.range 100000, f p := by
  rw [Finset.sum_add_distrib]
  have e1 : ∑ n ∈ Finset.range 32, ∑ k ∈ Finset.range 195, ∑ l ∈ Finset.range 16, f (3120 * n + 16 * k + l)
      = ∑ p ∈ Finset.range 99840, f p := by
    have h1 : ∀ n, (∑ k ∈ Finset.range 195, ∑ l ∈ Finset.range 16, f (3120 * n + 16 * k + l))
        = ∑ i ∈ Finset.range 3120, f (3120 * n + i) := by
      intro n
      simp only [Nat.add_assoc]
      exact (sum_range_mul (fun i => f (3120 * n + i)) 195 16).symm
    rw [Finset.sum_congr rfl (fun n _ => h1 n)]
    exact (sum_range_mul f 32 3120).symm
  have e2 : ∑ n ∈ Finset.range 32, (if n < 10 then ∑ l ∈ Finset.range 16, f (99840 + 16 * n + l) else 0)
      = ∑ i ∈ Finset.range 160, f (99840 + i) := by
    have h32 : Finset.range 32 = Finset.range (10 + 22) := rfl
    rw [h32, Finset.sum_range_add]
    have z : ∑ x ∈ Finset.range 22, (if 10 + x < 10 then ∑ l ∈ Finset.range 16, f (99840 + 16 * (10 + x) + l) else 0) = 0 :=
      Finset.sum_eq_zero fun x _ => if_neg (by omega)
    rw [z, add_zero, Finset.sum_congr rfl (fun n hn => if_pos (Finset.mem_range.1 hn))]
    simp only [Nat.add_assoc]
    exact (sum_range_mul (fun i => f (99840 + i)) 10 16).symm
  rw [e1, e2]
  exact (Finset.sum_range_add f 99840 160).symm

/-- The count of a word as a sum over the positions. -/
theorem cnt_eq (a : IVec S100000 32) (b : ℕ) : cnt a b = ∑ p ∈ Finset.range 100000, if wd a p = b then 1 else 0 := by
  unfold cnt
  rw [Finset.card_filter, Finset.sum_range]
  refine Finset.sum_congr rfl fun i _ => ?_
  have e : wd a i.val = (a (ix1 i)).toNat := by
    unfold wd
    rw [dif_pos i.isLt]
  rw [e]

/-- A finite sum of naturals, cast term by term. -/
theorem coe_sum {ι : Type} (s : Finset ι) (f : ι → ℕ) :
    ∑ i ∈ s, (((f i : ℕ) : ℝ) : EReal) = (((∑ i ∈ s, f i : ℕ) : ℝ) : EReal) := by
  classical
  refine Finset.induction_on s (by simp) ?_
  intro x s hx ih
  rw [Finset.sum_insert hx, Finset.sum_insert hx, ih, Nat.cast_add, EReal.coe_add]

/-- At the exact instance, bin b (1 ≤ b ≤ 100) summed over the 32 rows is the number of words equal to b. -/
theorem colsum_parts (a : IVec Cert.KernelIdeal.S100000 32) (ha : ∀ i, (a i).toNat ≤ 100) (b : Fin 128) (hb : 1 ≤ b.val ∧ b.val ≤ 100) :
    (∑ w : Fin 32, (Cert.KernelIdeal.Hist.parts (F := Ideal) a (ix2 w b) : EReal)) = (((cnt a b.val : ℕ) : ℝ) : EReal) := by
  have hp : ∀ w : Fin 32, (parts (F := Ideal) a (ix2 w b) : EReal)
      = ((shareN a b.val (3120 * w.val) (99840 + 16 * w.val) (w.val < 10) : ℕ) : ℝ) := by
    intro w
    show rowOut (F := Ideal) a (coordsOfRow w) (ix1 b) = _
    rw [rowOut_apply a ha]
    show (((∑ r ∈ Finset.range 16, allN a (coordsOfRow w) (129 * r + b.val) : ℕ) : ℝ) : EReal) = _
    rw [row_count a ha _ _ hb, shareN_row]
  rw [Finset.sum_congr rfl (fun w _ => hp w), coe_sum, cnt_eq,
    ← shares_partition (fun p => if wd a p = b.val then 1 else 0), Finset.sum_range]
  rfl

end Cert.Bridge

end
-- ==== Proof.Bridge.lean ====
/-
  The reference's result is the kernel's: both are the loss of the two tables of counts. The reference by its two
  scatters; the kernel because the 32 rows of bins sum, bin by bin, to the counts, and the second kernel computes the
  loss of those column sums.
-/
import proofs.«214571_g7919919694435_cont_9to1_m_483_28_alg».proof.Proof.RefValue
import proofs.«214571_g7919919694435_cont_9to1_m_483_28_alg».proof.Proof.TcLoss
import proofs.«214571_g7919919694435_cont_9to1_m_483_28_alg».proof.Proof.HistCount

noncomputable section

namespace Cert.Bridge

open Idealize.ShloMosaic Idealize.ShloMosaic.ValueIdx

theorem result_eq (m' : (ℓ : Loc Cert.ReferenceIdeal.nD Cert.ReferenceIdeal.τ Cert.ReferenceIdeal.sig) → Buf (Elt Ideal) ℓ) (c : Dev Cert.ReferenceIdeal.nD)
    (h1 : ∀ i, (m' ((c.tc : Thread Cert.ReferenceIdeal.nD Cert.ReferenceIdeal.τ).loc Cert.ReferenceIdeal.main_arg1) i).toNat ≤ 100)
    (h3 : ∀ i, (m' ((c.tc : Thread Cert.ReferenceIdeal.nD Cert.ReferenceIdeal.τ).loc Cert.ReferenceIdeal.main_arg3) i).toNat ≤ 100) :
    Cert.ReferenceIdeal.ValueP.res_main_v45 (F := Ideal) m' c
      = Cert.KernelIdeal.Hist.result (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) := by
  funext i
  rw [res_eq_loss m' c h1 h3 i]
  unfold Cert.KernelIdeal.Hist.result
  refine ((shapeCast_apply _ _ i (ix2 (0 : Fin 1) (0 : Fin 1)) (by
    rw [Shape.rowMajor_val_two]
    exact (Shape.rowMajorPi_zero _ _).symm)).trans
    (tcOut_eq_loss _ _ _ _ (fun b hb => colsum_parts _ h1 b hb) (fun b hb => colsum_parts _ h3 b hb) _)).symm

end Cert.Bridge

end
-- ==== Proof.RangeOfPre.lean ====
/-
  The input-domain precondition, decoded: a 32-bit word that is at least 0 and at most 100 as a signed number is at
  most 100 as an unsigned one. The precondition is the conjunction of four "all" reductions; the second and the fourth
  say this of every word of the second and the fourth argument arrays.
-/
import proofs.«214571_g7919919694435_cont_9to1_m_483_28_alg».proof.Proof.Gen.Pre_input_domain
import Idealize.ShloMosaic.Lib.ReduceAll
import Idealize.ShloMosaic.Lib.ValueIdx

noncomputable section

namespace Cert.Bridge

open Idealize.ShloMosaic Idealize.ShloMosaic.ValueIdx

/-- A rank-0 shape has one index. -/
instance subsingleton_idx_S_ : Subsingleton Cert.Pre_input_domain.S_.Idx := ⟨fun a b => funext fun d => d.elim0⟩

/-- A word in [0, 100] signed is at most 100 unsigned. -/
theorem toNat_le_100 (w : BitVec 32) (h0 : IntOp.cmpi .sge w (0#32) = 1#1) (h1 : IntOp.cmpi .sle w (100#32) = 1#1) :
    w.toNat ≤ 100 := by
  rw [IntOp.cmpi_sge] at h0
  rw [IntOp.cmpi_sle] at h1
  have e0 : (0#32 : BitVec 32).toInt = 0 := by decide
  have e1 : (100#32 : BitVec 32).toInt = 100 := by decide
  rw [e0] at h0
  rw [e1] at h1
  have h32 := w.isLt
  unfold BitVec.toInt at h0 h1
  split at h1 <;> omega

theorem range_of_pre {F : FTy → Type} [FloatOps F] [Cert.Pre_input_domain.Facts]
    (a0 : FVec F Cert.Pre_input_domain.S100000x100 .f32) (a1 a2 a3 : IVec Cert.Pre_input_domain.S100000 32)
    (h : Cert.Pre_input_domain.fn (F := F) a0 a1 a2 a3 = fun _ => 1#1) :
    (∀ i, (a1 i).toNat ≤ 100) ∧ (∀ i, (a3 i).toNat ≤ 100) := by
  have e := congrFun h ValueIdx.ix0
  dsimp only [Cert.Pre_input_domain.fn, Cert.Pre_input_domain.fn_part1] at e
  change IntOp.andi (IntOp.andi (IntOp.andi _ _) _) _ = 1#1 at e
  rw [IntOp.andi_eq_one, IntOp.andi_eq_one, IntOp.andi_eq_one] at e
  obtain ⟨⟨⟨-, h1⟩, -⟩, h3⟩ := e
  refine ⟨fun i => ?_, fun i => ?_⟩
  · have p := Host.reduce_andi_all _ _ _ _ _ h1 i
    change IntOp.andi (IntOp.cmpi .sge (a1 i) (0#32)) (IntOp.cmpi .sle (a1 i) (100#32)) = 1#1 at p
    rw [IntOp.andi_eq_one] at p
    exact toNat_le_100 _ p.1 p.2
  · have p := Host.reduce_andi_all _ _ _ _ _ h3 i
    change IntOp.andi (IntOp.cmpi .sge (a3 i) (0#32)) (IntOp.cmpi .sle (a3 i) (100#32)) = 1#1 at p
    rw [IntOp.andi_eq_one] at p
    exact toNat_le_100 _ p.1 p.2

end Cert.Bridge

end
-- ==== Proof.Claims.lean ====
/-
  The claims at the exact instance: the precondition gives the words' range; the kernel program runs and leaves the
  loss of its two arrays' tables of counts; the reference runs and leaves the same loss; the arguments are unchanged.
-/
import proofs.«214571_g7919919694435_cont_9to1_m_483_28_alg».proof.Defs
import proofs.«214571_g7919919694435_cont_9to1_m_483_28_alg».proof.Proof.Launch
import proofs.«214571_g7919919694435_cont_9to1_m_483_28_alg».proof.Proof.Bridge
import proofs.«214571_g7919919694435_cont_9to1_m_483_28_alg».proof.Proof.RangeOfPre
import proofs.«214571_g7919919694435_cont_9to1_m_483_28_alg».proof.Proof.RefRunP
import proofs.«214571_g7919919694435_cont_9to1_m_483_28_alg».proof.Proof.Gen.Kernel
import proofs.«214571_g7919919694435_cont_9to1_m_483_28_alg».proof.Proof.Gen.KernelIdeal
import proofs.«214571_g7919919694435_cont_9to1_m_483_28_alg».proof.Proof.Gen.ReferenceIdeal
import proofs.«214571_g7919919694435_cont_9to1_m_483_28_alg».proof.Proof.Gen.Pre_input_domain

noncomputable section

open Idealize.ShloMosaic Idealize.SL.Sem

namespace Cert.Proof.Claims

/-- The precondition says every word of the second and the fourth argument arrays is at most 100. -/
theorem preOK_of_pre {F : FTy → Type} [FloatOps F] (m : (ℓ : Loc Cert.KernelIdeal.nD Cert.KernelIdeal.τ Cert.KernelIdeal.sig) → Buf (Elt F) ℓ)
    (h : ∀ c : Dev Cert.KernelIdeal.nD,
      Cert.Pre_input_domain.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = fun _ => 1#1) :
    Cert.KernelIdeal.Hand.PreOK m :=
  fun d => Cert.Bridge.range_of_pre _ _ _ _ (h d)

/-- The kernel program at the exact instance runs and leaves its arguments unchanged. -/
theorem frame_pi : Cert.frame_KernelIdeal := fun m ρ hpre =>
  (θ_run Cert.KernelIdeal.defs _ _).mono (fun _ h c => (h c).2)
    (Cert.KernelIdeal.Hand.run_main (F := Ideal) m ρ (preOK_of_pre m hpre))

/-- The reference at the exact instance runs and leaves its arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the exact instance both programs end at the loss of the two arrays' tables of counts: the kernel program by its
    run, the reference because its result is that loss of arrays that agree with the kernel's. -/
theorem algebraic : Cert.algebraic_KernelIdeal_ReferenceIdeal := by
  intro m ρ m' ρ' hpre hagree
  have hok := preOK_of_pre m hpre
  refine ⟨fun c => Cert.KernelIdeal.Hist.result (F := Ideal) (Cert.KernelIdeal.Hand.hArr m c) (Cert.KernelIdeal.Hand.rArr m c),
    Cert.KernelIdeal.Hand.run_main (F := Ideal) m ρ hok, ?_⟩
  refine (θ_run Cert.ReferenceIdeal.defs _ _).mono (fun _ h c => ⟨(h c).1.trans ?_, (h c).2⟩)
    (Cert.ReferenceIdeal.ValueP.run (F := Ideal) m' ρ')
  have h1 : ∀ i, (m' ((c.tc : Thread Cert.ReferenceIdeal.nD Cert.ReferenceIdeal.τ).loc Cert.ReferenceIdeal.main_arg1) i).toNat ≤ 100 := by
    rw [(hagree c).2.1]; exact (hok c).1
  have h3 : ∀ i, (m' ((c.tc : Thread Cert.ReferenceIdeal.nD Cert.ReferenceIdeal.τ).loc Cert.ReferenceIdeal.main_arg3) i).toNat ≤ 100 := by
    rw [(hagree c).2.2.2]; exact (hok c).2
  rw [Cert.Bridge.result_eq m' c h1 h3, (hagree c).2.1, (hagree c).2.2.2]

end Cert.Proof.Claims

end
-- ==== Proof.KHist.lean ====
/-
  The kernel's result as a pure function of its two integer argument arrays, for every float instance.

  Each of the 32 vector subcores, numbered w = 2·s + c for subcore s of SparseCore c, histograms 3120 consecutive words
  of an array (from 3120·w), sixteen at a time: the word v met in lane l adds one to slot 129·l + v of a 2080-slot
  table, so that sixteen lanes never meet in one slot. Subcores 0‥9 take sixteen more words each from the array's last
  160. The sixteen lane tables are then summed slot by slot into a row of 128 bins, row w of a 32 × 128 array. The
  second kernel sums the 32 rows of each of the two arrays, keeps bins 1‥100, normalises both to unit mass and returns
  the divergence sum over the bins divided by 100.
-/
import proofs.«214571_g7919919694435_cont_9to1_m_483_28_alg».proof.Proof.Gen.Kernel.Skeleton
import Idealize.ShloMosaic.Lib.ValueIdx

noncomputable section

namespace Cert.Kernel.Hist

open Idealize.ShloMosaic Idealize.ShloMosaic.ValueIdx Cert.Kernel Cert.Kernel.Gen

variable {F : FTy → Type} [FloatOps F]

/-- The slots sixteen words name: lane l's word v names slot 129·l + v. -/
def slots (w : IVec S16 32) : IVec S16 32 := addi k0_pay1 w

/-- Every named slot is inside the table. -/
def InRange (w : IVec S16 32) : Prop := ∀ a x, ((![slots w] : Fin 1 → IVec S16 32) a x).toNat < S2080.size a

/-- One is added at each of the sixteen named slots (nothing changes if a slot were outside the table). -/
def bump (g : Vec F S2080 .f32) (w : IVec S16 32) : Vec F S2080 .f32 :=
  open Classical in
  if h : InRange w then storeIdx g ![slots w] (k0_pay2 (F := F)) (fun _ => 1#1) true h else g

/-- Sixteen consecutive words of the array from offset o. -/
def group (a : IVec S100000 32) (o : Nat) : IVec S16 32 :=
  fun x => if h : o + (x 0).val < 100000 then a (ix1 ⟨o + (x 0).val, h⟩) else 0#32

/-- Where a subcore's 3120 words start, and where its sixteen extra words start. -/
def base (L : grid0.Coords) : Nat := 6240 * (L 1).val + 3120 * (L 0).val
def tailOff (L : grid0.Coords) : Nat := 32 * (L 1).val + 16 * (L 0).val + 99840

/-- The table after k groups of the subcore's 3120 words, from the all-zero table. -/
def histMain (a : IVec S100000 32) (L : grid0.Coords) : Nat → Vec F S2080 .f32
  | 0 => fun _ => Scalar.ofBits .f32 0x00000000#32
  | k + 1 => bump (histMain a L k) (group a (base L + 16 * k))

/-- The finished table: all 195 groups, and for subcores 0‥9 the extra group. -/
def histAll (a : IVec S100000 32) (L : grid0.Coords) : Vec F S2080 .f32 :=
  open Classical in
  if k0_cond1 L = 1#1 then bump (histMain a L 195) (group a (tailOff L)) else histMain a L 195

/-- Sixteen slots of a table from offset o. -/
def piece (h : Vec F S2080 .f32) (o : Nat) : Vec F S16 .f32 :=
  fun x => if hh : o + (x 0).val < 2080 then h (ix1 ⟨o + (x 0).val, hh⟩) else Scalar.ofBits .f32 0x00000000#32

/-- Bins 16·cc ‥ 16·cc + 15 summed over the first r lane tables, in lane order from zero. -/
def acc (h : Vec F S2080 .f32) (cc : Nat) : Nat → FVec F S16 .f32
  | 0 => k0_pay3
  | r + 1 => k0_pay4 (acc h cc r) (piece h (129 * r + 16 * cc))

/-- The 128 bins a table folds to. -/
def fold (h : Vec F S2080 .f32) : Vec F S128 .f32 :=
  fun b => acc h ((b 0).val / 16) 16 (ix1 ⟨(b 0).val % 16, Nat.mod_lt _ (by decide)⟩)

/-- Subcore L's row of bins. -/
def rowOut (a : IVec S100000 32) (L : grid0.Coords) : Vec F S128 .f32 := fold (histAll (F := F) a L)

/-- The subcore that writes row w: SparseCore w mod 2, subcore w / 2. -/
def coordsOfRow (w : Fin 32) : grid0.Coords :=
  fun | ⟨0, _⟩ => ⟨w.val % 2, Nat.mod_lt _ (by decide)⟩ | ⟨1, _⟩ => ⟨w.val / 2, by have := w.isLt; show w.val / 2 < 16; omega⟩
      | ⟨_ + 2, h⟩ => absurd h (Nat.not_lt.2 (Nat.le_add_left _ _))

/-- The 32 × 128 array of rows. -/
def parts (a : IVec S100000 32) : Vec F S32x128 .f32 := fun j => rowOut a (coordsOfRow (j 0)) (ix1 (j 1))

/-- The second kernel's one stored value, from the two arrays of rows. -/
def tcOut (x y : Vec F S32x128 .f32) : Vec F S1x1 .f32 := k1_pay1 (k1_pay3 x) (k1_pay4 y) (k1_pay5 y)

/-- The program's result, from its second and fourth argument arrays. -/
def result (a1 a3 : IVec S100000 32) : Vec F S_ .f32 :=
  shapeCast S_ (tcOut (F := F) (parts a1) (parts a3)) Facts₀.shapeCasts_S1x1_S_

end Cert.Kernel.Hist

end
-- ==== Proof.KSetup.lean ====
/-
  The kernel program as the SparseCore launch sees it, and what its threads hand each other.

  One call runs the histogram task on the 32 vector subcores; the TensorCore then runs the second kernel and a reshape.
  The call takes the two integer arrays (every task reads its own stretch of each, so each task is lent a read share of
  the whole array) and the two 32 × 128 arrays of bins, of which task (c, s) owns row 2·s + c. A task returns its read
  shares and its two rows, each now holding the bins its stretch folds to.
-/
import proofs.«214571_g7919919694435_cont_9to1_m_483_28_alg».proof.Defs
import proofs.«214571_g7919919694435_cont_9to1_m_483_28_alg».proof.Proof.Gen.Kernel
import proofs.«214571_g7919919694435_cont_9to1_m_483_28_alg».proof.Proof.Gen.Kernel.Skeleton
import proofs.«214571_g7919919694435_cont_9to1_m_483_28_alg».proof.Proof.Gen.Kernel.Launch
import proofs.«214571_g7919919694435_cont_9to1_m_483_28_alg».proof.Proof.Gen.Kernel.Points
import proofs.«214571_g7919919694435_cont_9to1_m_483_28_alg».proof.Proof.KHist
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the second kernel's staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev hLoc (d : Dev nD) : Loc nD τ sig := (SparseCore.T d).loc main_arg1
abbrev rLoc (d : Dev nD) : Loc nD τ sig := (SparseCore.T d).loc main_arg3
abbrev ohLoc (d : Dev nD) : Loc nD τ sig := (SparseCore.T d).loc main_v0_0
abbrev orLoc (d : Dev nD) : Loc nD τ sig := (SparseCore.T d).loc main_v0_1

/-- The words of the two integer arrays at launch. -/
abbrev hArr (d : Dev nD) : IVec S100000 32 := m (hLoc d)
abbrev rArr (d : Dev nD) : IVec S100000 32 := m (rLoc d)

/-- What the proof asks of the launch memory: every word of the two integer arrays is at most 100. -/
def PreOK : Prop := ∀ d : Dev nD, (∀ i, (hArr m d i).toNat ≤ 100) ∧ (∀ i, (rArr m d i).toNat ≤ 100)

variable [FloatOps F]

/-- The two arrays of bins after the call, whole. -/
abbrev ohVal (d : Dev nD) : Buf (Elt F) (ohLoc d) := Hist.parts (F := F) (hArr m d)
abbrev orVal (d : Dev nD) : Buf (Elt F) (orLoc d) := Hist.parts (F := F) (rArr m d)

/-! ## Rows and read shares -/

theorem hdiv : 32 ∣ S32x128.size 0 := ⟨1, rfl⟩
abbrev row (w : Fin 32) : Rect S32x128 := Rect.part (s := S32x128) (a₀ := 0) hdiv w
abbrev rowSet (w : Fin 32) : Finset S32x128.Idx := ((Memref.whole main_v0_0_scv : Memref sig .scVector .hbm S32x128 .f32).view.slice (row w)).set

/-- The row task (c, s) owns. -/
def wid (c : Fin 2) (s : Fin 16) : Fin 32 := ⟨2 * s.val + c.val, by omega⟩

/-- The 2ⁿ leaves of a share. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Task (c, s)'s read share of an array every task reads. -/
def sh (c : Fin 2) (s : Fin 16) : PosShare TreeShare := leaf 5 fullShare ⟨16 * c.val + s.val, by omega⟩

omit [FloatOps F] in
/-- What task (c, s) takes: its read shares of the two integer arrays and its row of each array of bins. -/
def tileRes (d : Dev nD) (c : Fin 2) (s : Fin 16) : sProp 𝕄 :=
  iprop((hLoc d ↦{sh c s} m (hLoc d)) ∗ (rLoc d ↦{sh c s} m (rLoc d))
    ∗ (ohLoc d ↦[rowSet (wid c s)]{fullShare} m (ohLoc d)) ∗ (orLoc d ↦[rowSet (wid c s)]{fullShare} m (orLoc d)))

/-- What it returns: the shares, and its rows at the bins of its stretch. -/
def tileRet (d : Dev nD) (c : Fin 2) (s : Fin 16) : sProp 𝕄 :=
  iprop((hLoc d ↦{sh c s} m (hLoc d)) ∗ (rLoc d ↦{sh c s} m (rLoc d))
    ∗ (ohLoc d ↦[rowSet (wid c s)]{fullShare} ohVal m d) ∗ (orLoc d ↦[rowSet (wid c s)]{fullShare} orVal m d))

/-- The call hands SparseCore c the sixteen tasks' holdings and takes them back. -/
def P : (K (F := F)).Pay (nD := nD) (Val := Elt F) (Name := ℕ) (U := UU) where
  st := fun q d c => match q with | 0 => bigSep Finset.univ fun s : Fin 16 => tileRes m d (Fin.cast nCore_zero c) s
  dn := fun q d c => match q with | 0 => bigSep Finset.univ fun s : Fin 16 => tileRet m d (Fin.cast nCore_zero c) s
  go := fun q d c i => match q with | 0 => tileRes m d (Fin.cast nCore_zero c) (Fin.cast nSub_zero i)
  td := fun q d c i => match q with | 0 => tileRet m d (Fin.cast nCore_zero c) (Fin.cast nSub_zero i)
  x := fun _ _ => iprop(emp)

instance tileRes_storable (d : Dev nD) (c : Fin 2) (s : Fin 16) : BI.Storable (upEmb : UEmb _ 𝕄) (tileRes (F := F) m d c s) := by
  unfold tileRes; infer_instance
instance tileRet_storable (d : Dev nD) (c : Fin 2) (s : Fin 16) : BI.Storable (upEmb : UEmb _ 𝕄) (tileRet (F := F) m d c s) := by
  unfold tileRet; infer_instance

instance P_storable : (P (F := F) m).IsStorable where
  st q d c := match q with | 0 => (inferInstance : BI.Storable (upEmb : UEmb _ 𝕄) (bigSep Finset.univ fun s : Fin 16 => tileRes m d (Fin.cast nCore_zero c) s))
  dn q d c := match q with | 0 => (inferInstance : BI.Storable (upEmb : UEmb _ 𝕄) (bigSep Finset.univ fun s : Fin 16 => tileRet m d (Fin.cast nCore_zero c) s))
  go q d c i := match q with | 0 => (inferInstance : BI.Storable (upEmb : UEmb _ 𝕄) (tileRes m d (Fin.cast nCore_zero c) (Fin.cast nSub_zero i)))
  td q d c i := match q with | 0 => (inferInstance : BI.Storable (upEmb : UEmb _ 𝕄) (tileRet m d (Fin.cast nCore_zero c) (Fin.cast nSub_zero i)))

end Cert.Kernel.Hand

end
-- ==== Proof.KTileDefs.lean ====
/-
  The histogram task on one vector subcore: its thread, its six transfer counters, and its two rows of the arrays of
  bins as the task itself addresses them.
-/
import proofs.«214571_g7919919694435_cont_9to1_m_483_28_alg».proof.Proof.KSetup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "hV" => (Memref.whole Cert.Kernel.main_arg1_scv : Memref Cert.Kernel.sig Kind.scVector Space.hbm Cert.Kernel.S100000 EltTy.i32)
local notation "rV" => (Memref.whole Cert.Kernel.main_arg3_scv : Memref Cert.Kernel.sig Kind.scVector Space.hbm Cert.Kernel.S100000 EltTy.i32)
local notation "ohV" => (Memref.whole Cert.Kernel.main_v0_0_scv : Memref Cert.Kernel.sig Kind.scVector Space.hbm Cert.Kernel.S32x128 EltTy.f32)
local notation "orV" => (Memref.whole Cert.Kernel.main_v0_1_scv : Memref Cert.Kernel.sig Kind.scVector Space.hbm Cert.Kernel.S32x128 EltTy.f32)
local notation "s0V" => (Memref.whole Cert.Kernel.cc0_scratch0 : Memref Cert.Kernel.sig Kind.scVector Space.vmem Cert.Kernel.S3120 EltTy.i32)
local notation "s1V" => (Memref.whole Cert.Kernel.cc0_scratch1 : Memref Cert.Kernel.sig Kind.scVector Space.vmem Cert.Kernel.S3120 EltTy.i32)
local notation "s2V" => (Memref.whole Cert.Kernel.cc0_scratch2 : Memref Cert.Kernel.sig Kind.scVector Space.vmem Cert.Kernel.S16 EltTy.i32)
local notation "s3V" => (Memref.whole Cert.Kernel.cc0_scratch3 : Memref Cert.Kernel.sig Kind.scVector Space.vmem Cert.Kernel.S16 EltTy.i32)
local notation "s4V" => (Memref.whole Cert.Kernel.cc0_scratch4 : Memref Cert.Kernel.sig Kind.scVector Space.vmem Cert.Kernel.S2080 EltTy.f32)
local notation "s5V" => (Memref.whole Cert.Kernel.cc0_scratch5 : Memref Cert.Kernel.sig Kind.scVector Space.vmem Cert.Kernel.S2080 EltTy.f32)
local notation "s6V" => (Memref.whole Cert.Kernel.cc0_scratch6 : Memref Cert.Kernel.sig Kind.scVector Space.vmem Cert.Kernel.S128 EltTy.f32)
local notation "s7V" => (Memref.whole Cert.Kernel.cc0_scratch7 : Memref Cert.Kernel.sig Kind.scVector Space.vmem Cert.Kernel.S128 EltTy.f32)

/-- The SparseCore and the subcore of grid point L, and the thread that runs its task. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The subcore's transfer counters the task names: two for the stretches, two for the extra words, two for the rows. -/
abbrev csem (k : Nat) (hk : k < 9 := by decide) : DmaSem sig := ⟨k, hk⟩

abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0)

/-- Row 2·s + c of each array of bins, as the task slices it. -/
abbrev oRowH (L : grid0.Coords) : Memref sig .scVector .hbm S128 .f32 :=
  ((ohV).slice (Rect.unit (s := S32x128) (k0_off8 L) S1x128.size (k0_off8_inb L)) (fun _ => rfl)).squeeze S128 squeezes_S1x128_S128
abbrev oRowR (L : grid0.Coords) : Memref sig .scVector .hbm S128 .f32 :=
  ((orV).slice (Rect.unit (s := S32x128) (k0_off8 L) S1x128.size (k0_off8_inb L)) (fun _ => rfl)).squeeze S128 squeezes_S1x128_S128

end Cert.Kernel.Hand

end
-- ==== Proof.KTileFacts.lean ====
/-
  Pure facts about what the histogram task's copies, loads and stores see and leave, for every float instance: the
  zero-filled tables, the words a copy lands, the sixteen words a trip loads, the indexed add-store as one bump, the
  lane-table fold.
-/
import proofs.«214571_g7919919694435_cont_9to1_m_483_28_alg».proof.Proof.KHist
import Idealize.ShloMosaic.Lib.Writes

noncomputable section

namespace Cert.Kernel.Hand

open Cert.Kernel Cert.Kernel.Gen
open Idealize.ShloMosaic Idealize.ShloMosaic.ValueIdx

variable {F : FTy → Type} [FloatOps F]

/-! ## The zero fill -/

/-- A table whose first 16·k slots are zero and whose other slots are as found. -/
def zfill (f : Vec F S2080 .f32) (k : Nat) : Vec F S2080 .f32 :=
  fun j => if (j 0).val < 16 * k then Scalar.ofBits .f32 0x00000000#32 else f j

/-- After all 130 groups of sixteen the table is zero: the table no group of words has been counted into. -/
theorem zfill_last (f : Vec F S2080 .f32) (a : IVec S100000 32) (L : grid0.Coords) :
    zfill f 130 = Hist.histMain (F := F) a L 0 := by
  funext j
  have : (j 0).val < 2080 := (j 0).isLt
  unfold zfill; rw [if_pos (by omega)]; rfl

/-- Sixteen zeros written at slots 16·k ‥ 16·k + 15 of table 4 extend the zero prefix by sixteen. -/
theorem zfill_step4 (f : Vec F S2080 .f32) (k : Fin k0_t1_loop.trips) (h : ∀ a, (k0_off2 k) a + S16.size a ≤ S2080.size a) :
    (Memref.whole (cc0_scratch4 : Ref sig .scVector)).view.writes (Elt F) (zfill f k.val) [⟨Rect.unit (s := S2080) (k0_off2 k) S16.size h, k0_pay3 (F := F)⟩]
      = zfill f (k.val + 1) := by
  have hoff : k0_off2 k = ![16 * k.val] := k0_off2_eq k
  funext j
  refine (congrFun (View.read_whole (cc0_scratch4 : Ref sig .scVector) (Val := Elt F)
    ((View.whole (cc0_scratch4 : Ref sig .scVector)).writes (Elt F) (zfill f k.val) [⟨Rect.unit (s := S2080) (k0_off2 k) S16.size h, k0_pay3 (F := F)⟩])).symm j).trans ?_
  by_cases hj : 16 * k.val ≤ (j 0).val ∧ (j 0).val < 16 * k.val + 16
  · have hx : (Rect.unit (s := S2080) (k0_off2 k) S16.size h).emb (ix1 ⟨(j 0).val - 16 * k.val, by omega⟩) = j := by
      funext a; obtain rfl : a = 0 := Subsingleton.elim _ _
      apply Fin.ext; rw [Rect.emb_apply]
      show (k0_off2 k) 0 + 1 * ((j 0).val - 16 * k.val) = (j 0).val
      rw [hoff]; show 16 * k.val + 1 * ((j 0).val - 16 * k.val) = (j 0).val; omega
    rw [← hx, View.read_writes_cons_emb, hx]
    unfold zfill; rw [if_pos (by omega)]; rfl
  · rw [View.read_writes_apply_of_forall_not_mem]
    · show zfill f k.val j = zfill f (k.val + 1) j
      unfold zfill
      by_cases h1 : (j 0).val < 16 * k.val
      · rw [if_pos h1, if_pos (by omega)]
      · rw [if_neg h1, if_neg (by omega)]
    · intro p hp hm
      obtain rfl : p = ⟨Rect.unit (s := S2080) (k0_off2 k) S16.size h, k0_pay3 (F := F)⟩ := List.mem_singleton.mp hp
      have := (Rect.mem_set_unit (s := S2080) (off := k0_off2 k) (size := S16.size) (inb := h) (i := j)).mp hm 0
      rw [hoff] at this
      exact hj ⟨this.1, this.2⟩

/-- Sixteen zeros written at slots 16·k ‥ 16·k + 15 of table 5 extend the zero prefix by sixteen. -/
theorem zfill_step5 (f : Vec F S2080 .f32) (k : Fin k0_t1_loop.trips) (h : ∀ a, (k0_off2 k) a + S16.size a ≤ S2080.size a) :
    (Memref.whole (cc0_scratch5 : Ref sig .scVector)).view.writes (Elt F) (zfill f k.val) [⟨Rect.unit (s := S2080) (k0_off2 k) S16.size h, k0_pay3 (F := F)⟩]
      = zfill f (k.val + 1) := by
  have hoff : k0_off2 k = ![16 * k.val] := k0_off2_eq k
  funext j
  refine (congrFun (View.read_whole (cc0_scratch5 : Ref sig .scVector) (Val := Elt F)
    ((View.whole (cc0_scratch5 : Ref sig .scVector)).writes (Elt F) (zfill f k.val) [⟨Rect.unit (s := S2080) (k0_off2 k) S16.size h, k0_pay3 (F := F)⟩])).symm j).trans ?_
  by_cases hj : 16 * k.val ≤ (j 0).val ∧ (j 0).val < 16 * k.val + 16
  · have hx : (Rect.unit (s := S2080) (k0_off2 k) S16.size h).emb (ix1 ⟨(j 0).val - 16 * k.val, by omega⟩) = j := by
      funext a; obtain rfl : a = 0 := Subsingleton.elim _ _
      apply Fin.ext; rw [Rect.emb_apply]
      show (k0_off2 k) 0 + 1 * ((j 0).val - 16 * k.val) = (j 0).val
      rw [hoff]; show 16 * k.val + 1 * ((j 0).val - 16 * k.val) = (j 0).val; omega
    rw [← hx, View.read_writes_cons_emb, hx]
    unfold zfill; rw [if_pos (by omega)]; rfl
  · rw [View.read_writes_apply_of_forall_not_mem]
    · show zfill f k.val j = zfill f (k.val + 1) j
      unfold zfill
      by_cases h1 : (j 0).val < 16 * k.val
      · rw [if_pos h1, if_pos (by omega)]
      · rw [if_neg h1, if_neg (by omega)]
    · intro p hp hm
      obtain rfl : p = ⟨Rect.unit (s := S2080) (k0_off2 k) S16.size h, k0_pay3 (F := F)⟩ := List.mem_singleton.mp hp
      have := (Rect.mem_set_unit (s := S2080) (off := k0_off2 k) (size := S16.size) (inb := h) (i := j)).mp hm 0
      rw [hoff] at this
      exact hj ⟨this.1, this.2⟩

end Cert.Kernel.Hand

end
-- ==== Proof.KInRange.lean ====
/-
  Every slot a group of sixteen words names is inside the 2080-slot table when every word of the array is at most 100:
  lane l's word v names slot 129·l + v (the lane offsets 129·l are 32-bit words with no wrap), at most 129·15 + 100,
  and a lane read beyond the array's end holds the word 0.
-/
import proofs.«214571_g7919919694435_cont_9to1_m_483_28_alg».proof.Proof.KHist

noncomputable section

namespace Cert.BridgeK

open Idealize.ShloMosaic Idealize.ShloMosaic.ValueIdx Cert.Kernel Cert.Kernel.Gen Cert.Kernel.Hist

/-- The slot lane l's word names: 129·l plus the word, when the word is at most 100. -/
theorem slots_toNat (w : IVec S16 32) (l : Fin 16) (hw : (w (ix1 l)).toNat ≤ 100) :
    (slots w (ix1 l)).toNat = 129 * l.val + (w (ix1 l)).toNat := by
  have hl := l.isLt
  have e : slots w (ix1 l) = BitVec.ofNat 32 (0 * 16 + l.val) * 129#32 + w (ix1 l) := rfl
  rw [e, BitVec.toNat_add, BitVec.toNat_mul, BitVec.toNat_ofNat]
  have e129 : (129#32 : BitVec 32).toNat = 129 := by decide
  rw [e129]
  omega

/-- Every named slot is inside the table when every word is at most 100. -/
theorem inRange_of_le (w : IVec S16 32) (hw : ∀ x, (w x).toNat ≤ 100) : InRange w := by
  intro a x
  have ha : a = 0 := Fin.eq_zero a
  subst ha
  obtain ⟨l, rfl⟩ : ∃ l : Fin 16, x = ix1 l := ⟨x 0, eq_ix1 x⟩
  show (slots w (ix1 l)).toNat < 2080
  rw [slots_toNat w l (hw _)]
  have h16 : l.val < 16 := l.isLt
  have := hw (ix1 l)
  omega

/-- The word at position p as a natural number, 0 beyond the array. -/
def wd (a : IVec S100000 32) (p : ℕ) : ℕ := if h : p < 100000 then (a (ix1 ⟨p, h⟩)).toNat else 0

theorem wd_le (a : IVec S100000 32) (ha : ∀ i, (a i).toNat ≤ 100) (p : ℕ) : wd a p ≤ 100 := by
  unfold wd
  split
  · exact ha _
  · omega

/-- Lane l of the sixteen words from offset o is the word at o + l. -/
theorem group_toNat (a : IVec S100000 32) (o : ℕ) (l : Fin 16) : (group a o (ix1 l)).toNat = wd a (o + l.val) := by
  unfold wd
  show (if h : o + l.val < 100000 then a (ix1 ⟨o + l.val, h⟩) else 0#32).toNat = _
  split <;> rfl

theorem group_le (a : IVec S100000 32) (ha : ∀ i, (a i).toNat ≤ 100) (o : ℕ) (x : S16.Idx) : (group a o x).toNat ≤ 100 := by
  obtain ⟨l, rfl⟩ : ∃ l : Fin 16, x = ix1 l := ⟨x 0, eq_ix1 x⟩
  rw [group_toNat]
  exact wd_le a ha _

/-- Every slot a group of the array's words names is inside the table. -/
theorem inRange_group (a : IVec S100000 32) (ha : ∀ i, (a i).toNat ≤ 100) (o : Nat) : InRange (group a o) :=
  inRange_of_le _ (group_le a ha o)

end Cert.BridgeK

end
-- ==== Proof.KTileFacts2.lean ====
/-
  More pure facts about what the histogram task's loads and stores see and leave, for every float instance: the
  indexed add-store as one bump, the sixteen words a trip loads as a group of the array's words, sixteen slots of a
  table, the row of bins filled sixteen at a time, and the subcore that writes a row.
-/
import proofs.«214571_g7919919694435_cont_9to1_m_483_28_alg».proof.Proof.KTileFacts
import proofs.«214571_g7919919694435_cont_9to1_m_483_28_alg».proof.Proof.KInRange
import Idealize.ShloMosaic.Lib.Writes
import Idealize.ShloMosaic.Lib.Exec

noncomputable section

namespace Cert.Kernel.Hand

open Cert.Kernel Cert.Kernel.Gen
open Idealize.ShloMosaic Idealize.ShloMosaic.ValueIdx

variable {F : FTy → Type} [FloatOps F]

/-- An index of a rank-one shape is its one coordinate. -/
theorem idx1_ext {n : Nat} (i j : (⟨1, ![n]⟩ : Shape).Idx) (h : (i 0).val = (j 0).val) : i = j := by
  funext a
  have ha : a = 0 := Fin.eq_zero a
  subst ha
  exact Fin.ext h

/-! ## The indexed add-store -/

/-- The indexed add-store of ones into table 4, through the whole table, is one bump. -/
theorem store_eq4 (g : Vec F S2080 .f32) (w : IVec S16 32) (h : ∀ a x, ((![addi k0_pay1 w] : Fin 1 → IVec S16 32) a x).toNat < S2080.size a) :
    View.write (Elt F) ((Memref.whole (cc0_scratch4 : Ref sig .scVector)).access (Rect.whole (cc0_scratch4 : Ref sig .scVector).ty.shape)) g
      (storeIdx (View.read (Elt F) ((Memref.whole (cc0_scratch4 : Ref sig .scVector)).access (Rect.whole (cc0_scratch4 : Ref sig .scVector).ty.shape)) g) ![addi k0_pay1 w] (k0_pay2 (F := F)) (fun _ => 1#1) true h) Finset.univ
      = Hist.bump g w := by
  rw [Memref.write_access_whole_univ, Memref.read_access_whole]
  have h' : Hist.InRange w := h
  unfold Hist.bump
  rw [dif_pos h']
  rfl

/-- The indexed add-store of ones into table 5, through the whole table, is one bump. -/
theorem store_eq5 (g : Vec F S2080 .f32) (w : IVec S16 32) (h : ∀ a x, ((![addi k0_pay1 w] : Fin 1 → IVec S16 32) a x).toNat < S2080.size a) :
    View.write (Elt F) ((Memref.whole (cc0_scratch5 : Ref sig .scVector)).access (Rect.whole (cc0_scratch5 : Ref sig .scVector).ty.shape)) g
      (storeIdx (View.read (Elt F) ((Memref.whole (cc0_scratch5 : Ref sig .scVector)).access (Rect.whole (cc0_scratch5 : Ref sig .scVector).ty.shape)) g) ![addi k0_pay1 w] (k0_pay2 (F := F)) (fun _ => 1#1) true h) Finset.univ
      = Hist.bump g w := by
  rw [Memref.write_access_whole_univ, Memref.read_access_whole]
  have h' : Hist.InRange w := h
  unfold Hist.bump
  rw [dif_pos h']
  rfl

/-! ## The words a trip loads -/

/-- A subcore's coordinates: SparseCore below 2, subcore below 16. -/
theorem coord0_lt (L : grid0.Coords) : (L 0).val < 2 := (L 0).isLt
theorem coord1_lt (L : grid0.Coords) : (L 1).val < 16 := (L 1).isLt
theorem trips2 (k : Fin k0_t2_loop.trips) : k.val < 195 := lt_of_lt_of_le k.isLt k0_t2_abs.2.1

/-- Trip k of the counting loop loads, from the subcore's landed 3120 words of the first array, the sixteen words of
    the array from base + 16·k. -/
theorem loaded0 (a : IVec S100000 32) (L : grid0.Coords) (k : Fin k0_t2_loop.trips) (g : Vec F S3120 .i32) :
    (Memref.whole (cc0_scratch0 : Ref sig .scVector)).view.readAt (Elt F) (Rect.unit (s := S3120) (k0_off3 k) S16.size (k0_off3_inb k)).toLoadRect
      ((Memref.whole (cc0_scratch0 : Ref sig .scVector)).view.writes (Elt F) g [⟨Rect.whole (cc0_scratch0 : Ref sig .scVector).ty.shape,
        ReadAs.same.apply (View.read (Elt F) ((Memref.whole main_arg1_scv : Memref sig .scVector .hbm S100000 .i32).slice (Rect.unit (s := S100000) (k0_off1 L) S3120.size (k0_off1_inb L)) (fun _ => rfl)).view a)⟩])
      = Hist.group a (Hist.base L + 16 * k.val) := by
  have e1 : (k0_off1 L) 0 = 6240 * (L 1).val + 3120 * (L 0).val := congrFun (k0_off1_eq L) 0
  have e3 : (k0_off3 k) 0 = 16 * k.val := congrFun (k0_off3_eq k) 0
  have h0 := coord0_lt L
  have h1 := coord1_lt L
  have hk := trips2 k
  funext x
  have hx : (x 0).val < 16 := (x 0).isLt
  rw [View.readAt_apply, View.read_writes_whole]
  unfold Hist.group Hist.base
  rw [dif_pos (by omega)]
  show a _ = a _
  refine congrArg a (idx1_ext _ _ ?_)
  show (k0_off1 L) 0 + 1 * ((k0_off3 k) 0 + 1 * (x 0).val) = 6240 * (L 1).val + 3120 * (L 0).val + 16 * k.val + (x 0).val
  rw [e1, e3]
  omega

/-- Trip k of the counting loop loads, from the subcore's landed 3120 words of the second array, the sixteen words of
    the array from base + 16·k. -/
theorem loaded1 (a : IVec S100000 32) (L : grid0.Coords) (k : Fin k0_t2_loop.trips) (g : Vec F S3120 .i32) :
    (Memref.whole (cc0_scratch1 : Ref sig .scVector)).view.readAt (Elt F) (Rect.unit (s := S3120) (k0_off4 k) S16.size (k0_off4_inb k)).toLoadRect
      ((Memref.whole (cc0_scratch1 : Ref sig .scVector)).view.writes (Elt F) g [⟨Rect.whole (cc0_scratch1 : Ref sig .scVector).ty.shape,
        ReadAs.same.apply (View.read (Elt F) ((Memref.whole main_arg3_scv : Memref sig .scVector .hbm S100000 .i32).slice (Rect.unit (s := S100000) (k0_off1 L) S3120.size (k0_off1_inb L)) (fun _ => rfl)).view a)⟩])
      = Hist.group a (Hist.base L + 16 * k.val) := by
  have e1 : (k0_off1 L) 0 = 6240 * (L 1).val + 3120 * (L 0).val := congrFun (k0_off1_eq L) 0
  have e3 : (k0_off4 k) 0 = 16 * k.val := congrFun (k0_off4_eq k) 0
  have h0 := coord0_lt L
  have h1 := coord1_lt L
  have hk := trips2 k
  funext x
  have hx : (x 0).val < 16 := (x 0).isLt
  rw [View.readAt_apply, View.read_writes_whole]
  unfold Hist.group Hist.base
  rw [dif_pos (by omega)]
  show a _ = a _
  refine congrArg a (idx1_ext _ _ ?_)
  show (k0_off1 L) 0 + 1 * ((k0_off4 k) 0 + 1 * (x 0).val) = 6240 * (L 1).val + 3120 * (L 0).val + 16 * k.val + (x 0).val
  rw [e1, e3]
  omega

/-- A subcore with extra words loads, from its landed sixteen extra words of the first array, the sixteen words of the
    array from its extra words' offset. -/
theorem loadedT2 (a : IVec S100000 32) (L : grid0.Coords) (hc : k0_cond1 L = 1#1) (g : Vec F S16 .i32) :
    (Memref.whole (cc0_scratch2 : Ref sig .scVector)).view.readAt (Elt F) (Rect.unit (s := S16) ![0] S16.size inb_S16_S16_0).toLoadRect
      ((Memref.whole (cc0_scratch2 : Ref sig .scVector)).view.writes (Elt F) g [⟨Rect.whole (cc0_scratch2 : Ref sig .scVector).ty.shape,
        ReadAs.same.apply (View.read (Elt F) ((Memref.whole main_arg1_scv : Memref sig .scVector .hbm S100000 .i32).slice (Rect.unit (s := S100000) (k0_off5 L) S16.size (k0_off5_inb L hc)) (fun _ => rfl)).view a)⟩])
      = Hist.group a (Hist.tailOff L) := by
  have e5 : (k0_off5 L) 0 = 32 * (L 1).val + 16 * (L 0).val + 99840 := congrFun (k0_off5_eq L) 0
  have hin := k0_off5_inb L hc 0
  rw [e5] at hin
  have hin' : 32 * (L 1).val + 16 * (L 0).val + 99840 + 16 ≤ 100000 := hin
  funext x
  have hx : (x 0).val < 16 := (x 0).isLt
  rw [View.readAt_apply, View.read_writes_whole]
  unfold Hist.group Hist.tailOff
  rw [dif_pos (by omega)]
  show a _ = a _
  refine congrArg a (idx1_ext _ _ ?_)
  show (k0_off5 L) 0 + 1 * (0 + 1 * (x 0).val) = 32 * (L 1).val + 16 * (L 0).val + 99840 + (x 0).val
  rw [e5]
  omega

/-- A subcore with extra words loads, from its landed sixteen extra words of the second array, the sixteen words of the
    array from its extra words' offset. -/
theorem loadedT3 (a : IVec S100000 32) (L : grid0.Coords) (hc : k0_cond1 L = 1#1) (g : Vec F S16 .i32) :
    (Memref.whole (cc0_scratch3 : Ref sig .scVector)).view.readAt (Elt F) (Rect.unit (s := S16) ![0] S16.size inb_S16_S16_0).toLoadRect
      ((Memref.whole (cc0_scratch3 : Ref sig .scVector)).view.writes (Elt F) g [⟨Rect.whole (cc0_scratch3 : Ref sig .scVector).ty.shape,
        ReadAs.same.apply (View.read (Elt F) ((Memref.whole main_arg3_scv : Memref sig .scVector .hbm S100000 .i32).slice (Rect.unit (s := S100000) (k0_off5 L) S16.size (k0_off5_inb L hc)) (fun _ => rfl)).view a)⟩])
      = Hist.group a (Hist.tailOff L) := by
  have e5 : (k0_off5 L) 0 = 32 * (L 1).val + 16 * (L 0).val + 99840 := congrFun (k0_off5_eq L) 0
  have hin := k0_off5_inb L hc 0
  rw [e5] at hin
  have hin' : 32 * (L 1).val + 16 * (L 0).val + 99840 + 16 ≤ 100000 := hin
  funext x
  have hx : (x 0).val < 16 := (x 0).isLt
  rw [View.readAt_apply, View.read_writes_whole]
  unfold Hist.group Hist.tailOff
  rw [dif_pos (by omega)]
  show a _ = a _
  refine congrArg a (idx1_ext _ _ ?_)
  show (k0_off5 L) 0 + 1 * (0 + 1 * (x 0).val) = 32 * (L 1).val + 16 * (L 0).val + 99840 + (x 0).val
  rw [e5]
  omega

/-! ## Sixteen slots of a table -/

/-- The trip counts of the fold's two loops. -/
theorem trips3 (cc : Fin k0_t3_loop.trips) : cc.val < 8 := lt_of_lt_of_le cc.isLt k0_t3_abs.2.1
theorem trips4 (r : Fin k0_t4_loop.trips) : r.val < 16 := lt_of_lt_of_le r.isLt k0_t4_abs.2.1

/-- What the fold's load reads off table 4: sixteen slots from 129·r + 16·cc. -/
theorem piece4 (h : Vec F S2080 .f32) (cc : Fin k0_t3_loop.trips) (r : Fin k0_t4_loop.trips) :
    (Memref.whole (cc0_scratch4 : Ref sig .scVector)).view.readAt (Elt F) (Rect.unit (s := S2080) (k0_off6 cc r) S16.size (k0_off6_inb cc r)).toLoadRect h
      = Hist.piece h (129 * r.val + 16 * cc.val) := by
  have e0 : (k0_off6 cc r) 0 = 129 * r.val + 16 * cc.val := congrFun (k0_off6_eq cc r) 0
  have h3 := trips3 cc
  have h4 := trips4 r
  funext x
  have hx : (x 0).val < 16 := (x 0).isLt
  rw [View.readAt_apply]
  unfold Hist.piece
  rw [dif_pos (by omega)]
  refine congrArg h (idx1_ext _ _ ?_)
  show (k0_off6 cc r) 0 + 1 * (x 0).val = 129 * r.val + 16 * cc.val + (x 0).val
  rw [e0]
  omega

/-- What the fold's load reads off table 5: sixteen slots from 129·r + 16·cc. -/
theorem piece5 (h : Vec F S2080 .f32) (cc : Fin k0_t3_loop.trips) (r : Fin k0_t4_loop.trips) :
    (Memref.whole (cc0_scratch5 : Ref sig .scVector)).view.readAt (Elt F) (Rect.unit (s := S2080) (k0_off6 cc r) S16.size (k0_off6_inb cc r)).toLoadRect h
      = Hist.piece h (129 * r.val + 16 * cc.val) := by
  have e0 : (k0_off6 cc r) 0 = 129 * r.val + 16 * cc.val := congrFun (k0_off6_eq cc r) 0
  have h3 := trips3 cc
  have h4 := trips4 r
  funext x
  have hx : (x 0).val < 16 := (x 0).isLt
  rw [View.readAt_apply]
  unfold Hist.piece
  rw [dif_pos (by omega)]
  refine congrArg h (idx1_ext _ _ ?_)
  show (k0_off6 cc r) 0 + 1 * (x 0).val = 129 * r.val + 16 * cc.val + (x 0).val
  rw [e0]
  omega

/-! ## The row of bins, sixteen at a time -/

/-- A row whose first 16·k bins are the table's folded bins and whose other bins are as found. -/
def outfill (h : Vec F S2080 .f32) (f : Vec F S128 .f32) (k : Nat) : Vec F S128 .f32 :=
  fun b => if (b 0).val < 16 * k then Hist.fold h b else f b

/-- After all eight groups of sixteen the row is the table's fold. -/
theorem outfill_last (h : Vec F S2080 .f32) (f : Vec F S128 .f32) : outfill h f 8 = Hist.fold h := by
  funext b
  have : (b 0).val < 128 := (b 0).isLt
  unfold outfill
  rw [if_pos (by omega)]

/-- Bins 16·k ‥ 16·k + 15 of the fold are the sixteen lanes of the k-th accumulated vector. -/
theorem acc_eq_fold (h : Vec F S2080 .f32) (k : Nat) (j : S128.Idx) (hj : 16 * k ≤ (j 0).val ∧ (j 0).val < 16 * k + 16) :
    Hist.acc h k 16 (ix1 ⟨(j 0).val - 16 * k, by omega⟩) = Hist.fold h j := by
  have e1 : (j 0).val / 16 = k := by omega
  have e2 : (⟨(j 0).val % 16, Nat.mod_lt _ (by decide)⟩ : Fin 16) = ⟨(j 0).val - 16 * k, by omega⟩ := Fin.ext (by show (j 0).val % 16 = (j 0).val - 16 * k; omega)
  unfold Hist.fold
  rw [e1, e2]

/-- Sixteen accumulated bins written at bins 16·k ‥ 16·k + 15 of row buffer 6 extend the folded prefix by sixteen. -/
theorem outfill_step6 (h : Vec F S2080 .f32) (f : Vec F S128 .f32) (k : Fin k0_t3_loop.trips) (hh : ∀ a, (k0_off7 k) a + S16.size a ≤ S128.size a) :
    (Memref.whole (cc0_scratch6 : Ref sig .scVector)).view.writes (Elt F) (outfill h f k.val) [⟨Rect.unit (s := S128) (k0_off7 k) S16.size hh, Hist.acc h k.val 16⟩]
      = outfill h f (k.val + 1) := by
  have hoff : k0_off7 k = ![16 * k.val] := k0_off7_eq k
  funext j
  refine (congrFun (View.read_whole (cc0_scratch6 : Ref sig .scVector) (Val := Elt F)
    ((View.whole (cc0_scratch6 : Ref sig .scVector)).writes (Elt F) (outfill h f k.val) [⟨Rect.unit (s := S128) (k0_off7 k) S16.size hh, Hist.acc h k.val 16⟩])).symm j).trans ?_
  by_cases hj : 16 * k.val ≤ (j 0).val ∧ (j 0).val < 16 * k.val + 16
  · have hx : (Rect.unit (s := S128) (k0_off7 k) S16.size hh).emb (ix1 ⟨(j 0).val - 16 * k.val, by omega⟩) = j := by
      funext a; obtain rfl : a = 0 := Subsingleton.elim _ _
      apply Fin.ext; rw [Rect.emb_apply]
      show (k0_off7 k) 0 + 1 * ((j 0).val - 16 * k.val) = (j 0).val
      rw [hoff]; show 16 * k.val + 1 * ((j 0).val - 16 * k.val) = (j 0).val; omega
    rw [← hx, View.read_writes_cons_emb, hx]
    unfold outfill; rw [if_pos (by omega)]
    exact acc_eq_fold h k.val j hj
  · rw [View.read_writes_apply_of_forall_not_mem]
    · show outfill h f k.val j = outfill h f (k.val + 1) j
      unfold outfill
      by_cases h1 : (j 0).val < 16 * k.val
      · rw [if_pos h1, if_pos (by omega)]
      · rw [if_neg h1, if_neg (by omega)]
    · intro p hp hm
      obtain rfl : p = ⟨Rect.unit (s := S128) (k0_off7 k) S16.size hh, Hist.acc h k.val 16⟩ := List.mem_singleton.mp hp
      have := (Rect.mem_set_unit (s := S128) (off := k0_off7 k) (size := S16.size) (inb := hh) (i := j)).mp hm 0
      rw [hoff] at this
      exact hj ⟨this.1, this.2⟩

/-- Sixteen accumulated bins written at bins 16·k ‥ 16·k + 15 of row buffer 7 extend the folded prefix by sixteen. -/
theorem outfill_step7 (h : Vec F S2080 .f32) (f : Vec F S128 .f32) (k : Fin k0_t3_loop.trips) (hh : ∀ a, (k0_off7 k) a + S16.size a ≤ S128.size a) :
    (Memref.whole (cc0_scratch7 : Ref sig .scVector)).view.writes (Elt F) (outfill h f k.val) [⟨Rect.unit (s := S128) (k0_off7 k) S16.size hh, Hist.acc h k.val 16⟩]
      = outfill h f (k.val + 1) := by
  have hoff : k0_off7 k = ![16 * k.val] := k0_off7_eq k
  funext j
  refine (congrFun (View.read_whole (cc0_scratch7 : Ref sig .scVector) (Val := Elt F)
    ((View.whole (cc0_scratch7 : Ref sig .scVector)).writes (Elt F) (outfill h f k.val) [⟨Rect.unit (s := S128) (k0_off7 k) S16.size hh, Hist.acc h k.val 16⟩])).symm j).trans ?_
  by_cases hj : 16 * k.val ≤ (j 0).val ∧ (j 0).val < 16 * k.val + 16
  · have hx : (Rect.unit (s := S128) (k0_off7 k) S16.size hh).emb (ix1 ⟨(j 0).val - 16 * k.val, by omega⟩) = j := by
      funext a; obtain rfl : a = 0 := Subsingleton.elim _ _
      apply Fin.ext; rw [Rect.emb_apply]
      show (k0_off7 k) 0 + 1 * ((j 0).val - 16 * k.val) = (j 0).val
      rw [hoff]; show 16 * k.val + 1 * ((j 0).val - 16 * k.val) = (j 0).val; omega
    rw [← hx, View.read_writes_cons_emb, hx]
    unfold outfill; rw [if_pos (by omega)]
    exact acc_eq_fold h k.val j hj
  · rw [View.read_writes_apply_of_forall_not_mem]
    · show outfill h f k.val j = outfill h f (k.val + 1) j
      unfold outfill
      by_cases h1 : (j 0).val < 16 * k.val
      · rw [if_pos h1, if_pos (by omega)]
      · rw [if_neg h1, if_neg (by omega)]
    · intro p hp hm
      obtain rfl : p = ⟨Rect.unit (s := S128) (k0_off7 k) S16.size hh, Hist.acc h k.val 16⟩ := List.mem_singleton.mp hp
      have := (Rect.mem_set_unit (s := S128) (off := k0_off7 k) (size := S16.size) (inb := hh) (i := j)).mp hm 0
      rw [hoff] at this
      exact hj ⟨this.1, this.2⟩

/-- One more lane table added into the accumulated bins (the first array's table). -/
theorem acc_succ (h : Vec F S2080 .f32) (cc r : Nat) (v : Vec F S16 .f32) (hv : v = Hist.piece h (129 * r + 16 * cc)) :
    k0_pay4 (Hist.acc h cc r) v = Hist.acc h cc (r + 1) := by
  rw [hv]; rfl

/-- One more lane table added into the accumulated bins (the second array's table). -/
theorem acc_succ5 (h : Vec F S2080 .f32) (cc r : Nat) (v : Vec F S16 .f32) (hv : v = Hist.piece h (129 * r + 16 * cc)) :
    k0_pay5 (Hist.acc h cc r) v = Hist.acc h cc (r + 1) := by
  rw [hv]; rfl

/-! ## The subcore that writes a row -/

/-- Row 2·s + c is written by subcore s of SparseCore c. -/
theorem coordsOfRow_wid (L : grid0.Coords) :
    Hist.coordsOfRow ⟨2 * (L 1).val + (L 0).val, by have := coord0_lt L; have := coord1_lt L; omega⟩ = L := by
  have h0 := coord0_lt L
  have h1 := coord1_lt L
  funext a
  match a with
  | ⟨0, _⟩ => exact Fin.ext (by show (2 * (L 1).val + (L 0).val) % 2 = (L 0).val; omega)
  | ⟨1, _⟩ => exact Fin.ext (by show (2 * (L 1).val + (L 0).val) / 2 = (L 1).val; omega)

end Cert.Kernel.Hand

end
-- ==== Proof.KTileFacts3.lean ====
/-
  The row of bins a task sends, as it lands in the 32 × 128 array of rows: the task's row is row 2·s + c, bin b of
  which is the bin the array of rows names there.
-/
import proofs.«214571_g7919919694435_cont_9to1_m_483_28_alg».proof.Proof.KTileDefs
import proofs.«214571_g7919919694435_cont_9to1_m_483_28_alg».proof.Proof.KTileFacts2
import Idealize.ShloMosaic.Lib.Exec

noncomputable section

namespace Cert.Kernel.Hand

open Cert.Kernel Cert.Kernel.Gen
open Idealize.ShloMosaic Idealize.ShloMosaic.ValueIdx

variable {F : FTy → Type} [FloatOps F]

/-- Where bin y of the task's row lies in the array of rows: row 2·s + c, column y. -/
theorem emb_oRowH (L : grid0.Coords) (y : S128.Idx) :
    (((oRowH L).view.emb y) 0).val = 2 * (L 1).val + (L 0).val ∧ (((oRowH L).view.emb y) 1).val = (y 0).val := by
  have e0 : (k0_off8 L) 0 = 2 * (L 1).val + (L 0).val := congrFun (k0_off8_eq L) 0
  have e1 : (k0_off8 L) 1 = 0 := congrFun (k0_off8_eq L) 1
  have hemb : (oRowH L).view.emb y
      = (Rect.unit (s := S32x128) (k0_off8 L) S1x128.size (k0_off8_inb L)).emb (Shape.reshapeEquiv squeezes_S1x128_S128.numel_eq y) := rfl
  rw [hemb, Shape.reshapeEquiv_cons_one]
  constructor
  · show (k0_off8 L) 0 + 1 * 0 = _
    rw [e0]; omega
  · show (k0_off8 L) 1 + 1 * (y 0).val = _
    rw [e1]; omega

/-- The other array's row lies at the same place. -/
theorem emb_oRowR (L : grid0.Coords) (y : S128.Idx) :
    (((oRowR L).view.emb y) 0).val = 2 * (L 1).val + (L 0).val ∧ (((oRowR L).view.emb y) 1).val = (y 0).val := by
  have e0 : (k0_off8 L) 0 = 2 * (L 1).val + (L 0).val := congrFun (k0_off8_eq L) 0
  have e1 : (k0_off8 L) 1 = 0 := congrFun (k0_off8_eq L) 1
  have hemb : (oRowR L).view.emb y
      = (Rect.unit (s := S32x128) (k0_off8 L) S1x128.size (k0_off8_inb L)).emb (Shape.reshapeEquiv squeezes_S1x128_S128.numel_eq y) := rfl
  rw [hemb, Shape.reshapeEquiv_cons_one]
  constructor
  · show (k0_off8 L) 0 + 1 * 0 = _
    rw [e0]; omega
  · show (k0_off8 L) 1 + 1 * (y 0).val = _
    rw [e1]; omega

/-- Bin (2·s + c, b) of the array of rows is bin b of subcore (c, s)'s folded table. -/
theorem parts_at (a : IVec S100000 32) (L : grid0.Coords) (j : S32x128.Idx) (y : S128.Idx)
    (h0 : (j 0).val = 2 * (L 1).val + (L 0).val) (h1 : (j 1).val = (y 0).val) :
    Hist.parts (F := F) a j = Hist.fold (Hist.histAll (F := F) a L) y := by
  have hL0 := coord0_lt L
  have hL1 := coord1_lt L
  have e0 : j 0 = (⟨2 * (L 1).val + (L 0).val, by omega⟩ : Fin 32) := Fin.ext h0
  have e1 : j 1 = (y 0 : Fin 128) := Fin.ext h1
  unfold Hist.parts
  rw [e0, e1, coordsOfRow_wid L]
  show Hist.fold (Hist.histAll (F := F) a L) (ix1 (y 0)) = _
  exact congrArg (Hist.fold (Hist.histAll (F := F) a L)) (eq_ix1 (n := 128) y).symm

/-- The task's row of the first array of bins, landed: every element of the row holds the bin the array of rows names there. -/
theorem row_landedH (a : IVec S100000 32) (L : grid0.Coords) (g : Vec F S32x128 .f32) (pay : S128.Idx → Elt F .f32)
    (hp : pay = Hist.fold (Hist.histAll (F := F) a L)) :
    ∀ i ∈ (oRowH L).view.set, (oRowH L).view.writes (Elt F) g [⟨Rect.whole S128, pay⟩] i = Hist.parts (F := F) a i := by
  intro i hi
  obtain ⟨y, -, rfl⟩ := Finset.mem_map.mp hi
  have hr := congrFun (View.read_writes_whole (oRowH L).view g pay) y
  rw [View.read_apply] at hr
  have hw : (oRowH L).view.writes (Elt F) g [⟨Rect.whole S128, pay⟩] ((oRowH L).view.emb y) = pay y := hr
  rw [hw, hp]
  exact (parts_at a L _ y (emb_oRowH L y).1 (emb_oRowH L y).2).symm

/-- The task's row of the second array of bins, landed. -/
theorem row_landedR (a : IVec S100000 32) (L : grid0.Coords) (g : Vec F S32x128 .f32) (pay : S128.Idx → Elt F .f32)
    (hp : pay = Hist.fold (Hist.histAll (F := F) a L)) :
    ∀ i ∈ (oRowR L).view.set, (oRowR L).view.writes (Elt F) g [⟨Rect.whole S128, pay⟩] i = Hist.parts (F := F) a i := by
  intro i hi
  obtain ⟨y, -, rfl⟩ := Finset.mem_map.mp hi
  have hr := congrFun (View.read_writes_whole (oRowR L).view g pay) y
  rw [View.read_apply] at hr
  have hw : (oRowR L).view.writes (Elt F) g [⟨Rect.whole S128, pay⟩] ((oRowR L).view.emb y) = pay y := hr
  rw [hw, hp]
  exact (parts_at a L _ y (emb_oRowR L y).1 (emb_oRowR L y).2).symm

/-! ## The indexed add-store at any index vector -/

/-- The indexed add-store of ones into table 4, through the whole table, is the pure indexed add-store. -/
theorem store_acc4 (g : Vec F S2080 .f32) (v : IVec S16 32) (h : ∀ a x, ((![v] : Fin 1 → IVec S16 32) a x).toNat < S2080.size a) :
    View.write (Elt F) ((Memref.whole (cc0_scratch4 : Ref sig .scVector)).access (Rect.whole (cc0_scratch4 : Ref sig .scVector).ty.shape)) g
      (storeIdx (View.read (Elt F) ((Memref.whole (cc0_scratch4 : Ref sig .scVector)).access (Rect.whole (cc0_scratch4 : Ref sig .scVector).ty.shape)) g) ![v] (k0_pay2 (F := F)) (fun _ => 1#1) true h) Finset.univ
      = storeIdx g ![v] (k0_pay2 (F := F)) (fun _ => 1#1) true h := by
  rw [Memref.write_access_whole_univ, Memref.read_access_whole]

/-- The indexed add-store of ones into table 5, through the whole table, is the pure indexed add-store. -/
theorem store_acc5 (g : Vec F S2080 .f32) (v : IVec S16 32) (h : ∀ a x, ((![v] : Fin 1 → IVec S16 32) a x).toNat < S2080.size a) :
    View.write (Elt F) ((Memref.whole (cc0_scratch5 : Ref sig .scVector)).access (Rect.whole (cc0_scratch5 : Ref sig .scVector).ty.shape)) g
      (storeIdx (View.read (Elt F) ((Memref.whole (cc0_scratch5 : Ref sig .scVector)).access (Rect.whole (cc0_scratch5 : Ref sig .scVector).ty.shape)) g) ![v] (k0_pay2 (F := F)) (fun _ => 1#1) true h) Finset.univ
      = storeIdx g ![v] (k0_pay2 (F := F)) (fun _ => 1#1) true h := by
  rw [Memref.write_access_whole_univ, Memref.read_access_whole]

/-- At the slots sixteen words name, the pure indexed add-store of ones is one bump. -/
theorem bump_of_eq (g : Vec F S2080 .f32) (v w : IVec S16 32) (hv : v = addi k0_pay1 w)
    (h : ∀ a x, ((![v] : Fin 1 → IVec S16 32) a x).toNat < S2080.size a) :
    storeIdx g ![v] (k0_pay2 (F := F)) (fun _ => 1#1) true h = Hist.bump g w := by
  subst hv
  have h' : Hist.InRange w := h
  unfold Hist.bump
  rw [dif_pos h']
  rfl

end Cert.Kernel.Hand

end
-- ==== Proof.KTileBody.lean ====
/-
  The histogram task's run on one vector subcore: the two stretches copied in while the tables are zeroed, 195 groups of
  sixteen words counted into the lane tables (and sixteen more words on subcores 0‥9), the lane tables folded into a row
  of 128 bins, the two rows copied out. Each loop keeps an invariant that names the tables' contents by the pure
  recursion the program performs; one theorem per loop trip, then the whole run.
-/
import proofs.«214571_g7919919694435_cont_9to1_m_483_28_alg».proof.Proof.KTileDefs
import proofs.«214571_g7919919694435_cont_9to1_m_483_28_alg».proof.Proof.KTileFacts
import proofs.«214571_g7919919694435_cont_9to1_m_483_28_alg».proof.Proof.KTileFacts2
import proofs.«214571_g7919919694435_cont_9to1_m_483_28_alg».proof.Proof.KInRange
import proofs.«214571_g7919919694435_cont_9to1_m_483_28_alg».proof.Proof.KTileFacts3

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "hV" => (Memref.whole Cert.Kernel.main_arg1_scv : Memref Cert.Kernel.sig Kind.scVector Space.hbm Cert.Kernel.S100000 EltTy.i32)
local notation "rV" => (Memref.whole Cert.Kernel.main_arg3_scv : Memref Cert.Kernel.sig Kind.scVector Space.hbm Cert.Kernel.S100000 EltTy.i32)
local notation "ohV" => (Memref.whole Cert.Kernel.main_v0_0_scv : Memref Cert.Kernel.sig Kind.scVector Space.hbm Cert.Kernel.S32x128 EltTy.f32)
local notation "orV" => (Memref.whole Cert.Kernel.main_v0_1_scv : Memref Cert.Kernel.sig Kind.scVector Space.hbm Cert.Kernel.S32x128 EltTy.f32)
local notation "s0V" => (Memref.whole Cert.Kernel.cc0_scratch0 : Memref Cert.Kernel.sig Kind.scVector Space.vmem Cert.Kernel.S3120 EltTy.i32)
local notation "s1V" => (Memref.whole Cert.Kernel.cc0_scratch1 : Memref Cert.Kernel.sig Kind.scVector Space.vmem Cert.Kernel.S3120 EltTy.i32)
local notation "s2V" => (Memref.whole Cert.Kernel.cc0_scratch2 : Memref Cert.Kernel.sig Kind.scVector Space.vmem Cert.Kernel.S16 EltTy.i32)
local notation "s3V" => (Memref.whole Cert.Kernel.cc0_scratch3 : Memref Cert.Kernel.sig Kind.scVector Space.vmem Cert.Kernel.S16 EltTy.i32)
local notation "s4V" => (Memref.whole Cert.Kernel.cc0_scratch4 : Memref Cert.Kernel.sig Kind.scVector Space.vmem Cert.Kernel.S2080 EltTy.f32)
local notation "s5V" => (Memref.whole Cert.Kernel.cc0_scratch5 : Memref Cert.Kernel.sig Kind.scVector Space.vmem Cert.Kernel.S2080 EltTy.f32)
local notation "s6V" => (Memref.whole Cert.Kernel.cc0_scratch6 : Memref Cert.Kernel.sig Kind.scVector Space.vmem Cert.Kernel.S128 EltTy.f32)
local notation "s7V" => (Memref.whole Cert.Kernel.cc0_scratch7 : Memref Cert.Kernel.sig Kind.scVector Space.vmem Cert.Kernel.S128 EltTy.f32)

variable [FloatOps F]

theorem zfill_zero (f : Vec F S2080 .f32) : zfill f 0 = f := by
  funext j; unfold zfill; rw [if_neg (by omega)]
theorem outfill_zero (h : Vec F S2080 .f32) (f : Vec F S128 .f32) : outfill h f 0 = f := by
  funext b; unfold outfill; rw [if_neg (by omega)]

omit [FloatOps F] in
theorem ntrips1 : Scf.trips k0_t1_loop.lb k0_t1_loop.ub k0_t1_loop.st = 130 := by decide
omit [FloatOps F] in
theorem ntrips2 : Scf.trips k0_t2_loop.lb k0_t2_loop.ub k0_t2_loop.st = 195 := by decide
omit [FloatOps F] in
theorem ntrips3 : Scf.trips k0_t3_loop.lb k0_t3_loop.ub k0_t3_loop.st = 8 := by decide
omit [FloatOps F] in
theorem ntrips4 : Scf.trips k0_t4_loop.lb k0_t4_loop.ub k0_t4_loop.st = 16 := by decide

variable (d : Dev nD) (L : grid0.Coords)

/-! ## What the copies land and what each loop keeps -/

/-- The subcore's 3120 words of each array, as its two copies land them. -/
abbrev c0H : Buf (Elt F) ((s0V).view.loc (VT d L)) :=
  (s0V).view.writes (Elt F) (s0V).view.junk [⟨Rect.whole (cc0_scratch0 : Ref sig .scVector).ty.shape,
    ReadAs.same.apply (View.read (Elt F) ((hV).slice (Rect.unit (s := S100000) (k0_off1 L) S3120.size (k0_off1_inb L)) (fun _ => rfl)).view (m (hLoc d)))⟩]
abbrev c1R : Buf (Elt F) ((s1V).view.loc (VT d L)) :=
  (s1V).view.writes (Elt F) (s1V).view.junk [⟨Rect.whole (cc0_scratch1 : Ref sig .scVector).ty.shape,
    ReadAs.same.apply (View.read (Elt F) ((rV).slice (Rect.unit (s := S100000) (k0_off1 L) S3120.size (k0_off1_inb L)) (fun _ => rfl)).view (m (rLoc d)))⟩]

/-- Zero fill: before trip k the first 16·k slots of both tables are zero. -/
def inv1 (f4 : Buf (Elt F) ((s4V).view.loc (VT d L))) (f5 : Buf (Elt F) ((s5V).view.loc (VT d L))) (k : Nat) (_ : PUnit) : sProp 𝕄 :=
  iprop(((s4V).view.loc (VT d L) ↦[(s4V).view.set]{fullShare} zfill (F := F) f4 k)
    ∗ ((s5V).view.loc (VT d L) ↦[(s5V).view.set]{fullShare} zfill (F := F) f5 k))

/-- Counting: before trip k the tables hold the first k groups of the subcore's words. -/
def inv2 (k : Nat) (_ : PUnit) : sProp 𝕄 :=
  iprop(((s0V).view.loc (VT d L) ↦[(s0V).view.set]{fullShare} c0H m d L)
    ∗ ((s1V).view.loc (VT d L) ↦[(s1V).view.set]{fullShare} c1R m d L)
    ∗ ((s4V).view.loc (VT d L) ↦[(s4V).view.set]{fullShare} Hist.histMain (F := F) (hArr m d) L k)
    ∗ ((s5V).view.loc (VT d L) ↦[(s5V).view.set]{fullShare} Hist.histMain (F := F) (rArr m d) L k))

omit [FloatOps F] in
/-- A table held whole, in the two spellings the rules use. -/
theorem pts_acc4 (f : Buf (Elt F) (((s4V).access (Rect.whole (cc0_scratch4 : Ref sig .scVector).ty.shape)).loc (VT d L))) :
    ((((s4V).access (Rect.whole (cc0_scratch4 : Ref sig .scVector).ty.shape)).loc (VT d L)
        ↦[((s4V).access (Rect.whole (cc0_scratch4 : Ref sig .scVector).ty.shape)).set]{fullShare} f : sProp 𝕄))
      = ((s4V).view.loc (VT d L) ↦[(s4V).view.set]{fullShare} f) := by
  rw [show ((s4V).access (Rect.whole (cc0_scratch4 : Ref sig .scVector).ty.shape)).set = Finset.univ from Memref.set_access_whole (cc0_scratch4 : Ref sig .scVector)]
  simp only [Memref.view_whole, View.set_whole]
omit [FloatOps F] in
theorem pts_acc5 (f : Buf (Elt F) (((s5V).access (Rect.whole (cc0_scratch5 : Ref sig .scVector).ty.shape)).loc (VT d L))) :
    ((((s5V).access (Rect.whole (cc0_scratch5 : Ref sig .scVector).ty.shape)).loc (VT d L)
        ↦[((s5V).access (Rect.whole (cc0_scratch5 : Ref sig .scVector).ty.shape)).set]{fullShare} f : sProp 𝕄))
      = ((s5V).view.loc (VT d L) ↦[(s5V).view.set]{fullShare} f) := by
  rw [show ((s5V).access (Rect.whole (cc0_scratch5 : Ref sig .scVector).ty.shape)).set = Finset.univ from Memref.set_access_whole (cc0_scratch5 : Ref sig .scVector)]
  simp only [Memref.view_whole, View.set_whole]

/-- One counting trip on the first table: the indexed add-store of the loaded group is the next table. -/
theorem step4 (k : Fin k0_t2_loop.trips) (h) :
    ((((s4V).access (Rect.whole (cc0_scratch4 : Ref sig .scVector).ty.shape)).loc (VT d L)
        ↦[((s4V).access (Rect.whole (cc0_scratch4 : Ref sig .scVector).ty.shape)).set]{fullShare}
          View.write (Elt F) ((s4V).access (Rect.whole (cc0_scratch4 : Ref sig .scVector).ty.shape)) (Hist.histMain (F := F) (hArr m d) L k.val)
            (storeIdx (View.read (Elt F) ((s4V).access (Rect.whole (cc0_scratch4 : Ref sig .scVector).ty.shape)) (Hist.histMain (F := F) (hArr m d) L k.val))
              ![addi k0_pay1 ((s0V).view.readAt (Elt F) (Rect.unit (s := S3120) (k0_off3 k) S16.size (k0_off3_inb k)).toLoadRect (c0H m d L))]
              (k0_pay2 (F := F)) (fun _ => 1#1) true h) Finset.univ : sProp 𝕄))
      = ((s4V).view.loc (VT d L) ↦[(s4V).view.set]{fullShare} Hist.histMain (F := F) (hArr m d) L (k.val + 1)) := by
  rw [pts_acc4]
  congr 1
  have e := loaded0 (F := F) (hArr m d) L k (s0V).view.junk
  generalize hw : (s0V).view.readAt (Elt F) (Rect.unit (s := S3120) (k0_off3 k) S16.size (k0_off3_inb k)).toLoadRect (c0H m d L) = w at h ⊢
  rw [store_eq4, ← hw, e]; rfl

/-- The same trip on the second table. -/
theorem step5 (k : Fin k0_t2_loop.trips) (h) :
    ((((s5V).access (Rect.whole (cc0_scratch5 : Ref sig .scVector).ty.shape)).loc (VT d L)
        ↦[((s5V).access (Rect.whole (cc0_scratch5 : Ref sig .scVector).ty.shape)).set]{fullShare}
          View.write (Elt F) ((s5V).access (Rect.whole (cc0_scratch5 : Ref sig .scVector).ty.shape)) (Hist.histMain (F := F) (rArr m d) L k.val)
            (storeIdx (View.read (Elt F) ((s5V).access (Rect.whole (cc0_scratch5 : Ref sig .scVector).ty.shape)) (Hist.histMain (F := F) (rArr m d) L k.val))
              ![addi k0_pay1 ((s1V).view.readAt (Elt F) (Rect.unit (s := S3120) (k0_off4 k) S16.size (k0_off4_inb k)).toLoadRect (c1R m d L))]
              (k0_pay2 (F := F)) (fun _ => 1#1) true h) Finset.univ : sProp 𝕄))
      = ((s5V).view.loc (VT d L) ↦[(s5V).view.set]{fullShare} Hist.histMain (F := F) (rArr m d) L (k.val + 1)) := by
  rw [pts_acc5]
  congr 1
  have e := loaded1 (F := F) (rArr m d) L k (s1V).view.junk
  generalize hw : (s1V).view.readAt (Elt F) (Rect.unit (s := S3120) (k0_off4 k) S16.size (k0_off4_inb k)).toLoadRect (c1R m d L) = w at h ⊢
  rw [store_eq5, ← hw, e]; rfl

/-- Folding: before trip cc the first 16·cc bins of each row are folded; the tables are read only. -/
def inv3 (h4 h5 : Vec F S2080 .f32) (f6 : Buf (Elt F) ((s6V).view.loc (VT d L))) (f7 : Buf (Elt F) ((s7V).view.loc (VT d L))) (k : Nat) (_ : PUnit) : sProp 𝕄 :=
  iprop(((s4V).view.loc (VT d L) ↦[(s4V).view.set]{fullShare} h4)
    ∗ ((s5V).view.loc (VT d L) ↦[(s5V).view.set]{fullShare} h5)
    ∗ ((s6V).view.loc (VT d L) ↦[(s6V).view.set]{fullShare} outfill (F := F) h4 f6 k)
    ∗ ((s7V).view.loc (VT d L) ↦[(s7V).view.set]{fullShare} outfill (F := F) h5 f7 k))

/-- Summing lane tables: before trip r the carried pair is the first r lane tables' sum at bins 16·cc ‥ 16·cc + 15. -/
def inv4 (h4 h5 : Vec F S2080 .f32) (cc : Nat) (r : Nat) (acc : FVec F S16 .f32 × FVec F S16 .f32) : sProp 𝕄 :=
  iprop(((s4V).view.loc (VT d L) ↦[(s4V).view.set]{fullShare} h4)
    ∗ ((s5V).view.loc (VT d L) ↦[(s5V).view.set]{fullShare} h5)
    ∗ ⌜acc.1 = Hist.acc h4 cc r ∧ acc.2 = Hist.acc h5 cc r⌝)

/-- The extra sixteen words as loaded once their copy has landed, for either array. -/
theorem loadedT2c (a : IVec S100000 32) (hc : k0_cond1 L = 1#1) :
    (s2V).view.readCov [⟨Rect.whole (cc0_scratch2 : Ref sig .scVector).ty.shape,
        ReadAs.same.apply (View.read (Elt F) ((hV).slice (Rect.unit (s := S100000) (k0_off5 L) S16.size (k0_off5_inb L hc)) (fun _ => rfl)).view a)⟩]
      (Rect.unit (s := S16) ![0] S16.size inb_S16_S16_0).toLoadRect = Hist.group a (Hist.tailOff L) :=
  (View.readAt_writes_of_cover (s2V).view (s2V).view.junk _ _
    (fun j => ⟨_, List.mem_singleton_self _, by rw [Rect.set_whole]; exact Finset.mem_univ _⟩)).symm.trans (loadedT2 (F := F) a L hc _)
theorem loadedT3c (a : IVec S100000 32) (hc : k0_cond1 L = 1#1) :
    (s3V).view.readCov [⟨Rect.whole (cc0_scratch3 : Ref sig .scVector).ty.shape,
        ReadAs.same.apply (View.read (Elt F) ((rV).slice (Rect.unit (s := S100000) (k0_off5 L) S16.size (k0_off5_inb L hc)) (fun _ => rfl)).view a)⟩]
      (Rect.unit (s := S16) ![0] S16.size inb_S16_S16_0).toLoadRect = Hist.group a (Hist.tailOff L) :=
  (View.readAt_writes_of_cover (s3V).view (s3V).view.junk _ _
    (fun j => ⟨_, List.mem_singleton_self _, by rw [Rect.set_whole]; exact Finset.mem_univ _⟩)).symm.trans (loadedT3 (F := F) a L hc _)

/-- An indexed add-store into a table held whole, respelt. -/
theorem stepG4 (g : Vec F S2080 .f32) (v : IVec S16 32) (h : ∀ a x, ((![v] : Fin 1 → IVec S16 32) a x).toNat < S2080.size a) :
    ((((s4V).access (Rect.whole (cc0_scratch4 : Ref sig .scVector).ty.shape)).loc (VT d L)
        ↦[((s4V).access (Rect.whole (cc0_scratch4 : Ref sig .scVector).ty.shape)).set]{fullShare}
          View.write (Elt F) ((s4V).access (Rect.whole (cc0_scratch4 : Ref sig .scVector).ty.shape)) g
            (storeIdx (View.read (Elt F) ((s4V).access (Rect.whole (cc0_scratch4 : Ref sig .scVector).ty.shape)) g) ![v] (k0_pay2 (F := F)) (fun _ => 1#1) true h) Finset.univ : sProp 𝕄))
      = ((s4V).view.loc (VT d L) ↦[(s4V).view.set]{fullShare} storeIdx g ![v] (k0_pay2 (F := F)) (fun _ => 1#1) true h) := by
  rw [pts_acc4, store_acc4]
theorem stepG5 (g : Vec F S2080 .f32) (v : IVec S16 32) (h : ∀ a x, ((![v] : Fin 1 → IVec S16 32) a x).toNat < S2080.size a) :
    ((((s5V).access (Rect.whole (cc0_scratch5 : Ref sig .scVector).ty.shape)).loc (VT d L)
        ↦[((s5V).access (Rect.whole (cc0_scratch5 : Ref sig .scVector).ty.shape)).set]{fullShare}
          View.write (Elt F) ((s5V).access (Rect.whole (cc0_scratch5 : Ref sig .scVector).ty.shape)) g
            (storeIdx (View.read (Elt F) ((s5V).access (Rect.whole (cc0_scratch5 : Ref sig .scVector).ty.shape)) g) ![v] (k0_pay2 (F := F)) (fun _ => 1#1) true h) Finset.univ : sProp 𝕄))
      = ((s5V).view.loc (VT d L) ↦[(s5V).view.set]{fullShare} storeIdx g ![v] (k0_pay2 (F := F)) (fun _ => 1#1) true h) := by
  rw [pts_acc5, store_acc5]

/-! ## One trip of each loop -/

/-- A zero-fill trip. -/
theorem region1 (f4 : Buf (Elt F) ((s4V).view.loc (VT d L))) (f5 : Buf (Elt F) ((s5V).view.loc (VT d L))) (k : Fin k0_t1_loop.trips) (acc : Unit) :
    inv1 (F := F) d L f4 f5 k.val acc
      ⊢ wp frame (wpE (defs₀ (F := F)) 𝒱₀ (VT d L) none) Set.univ (k0_t1_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 k acc) (inv1 (F := F) d L f4 f5 (k.val + 1)) := by
  unfold inv1 k0_t1_body
  iintro ⟨H4, H5⟩
  sl_exec
  sl_step
  isplitl [H4]
  · rw [← zfill_step4 (F := F) f4 k (k0_off2_inb k)]; iexact H4
  · rw [← zfill_step5 (F := F) f5 k (k0_off2_inb k)]; iexact H5

/-- A counting trip. -/
theorem region2 (hpre : PreOK m) (k : Fin k0_t2_loop.trips) (acc : Unit) :
    inv2 (F := F) m d L k.val acc
      ⊢ wp frame (wpE (defs₀ (F := F)) 𝒱₀ (VT d L) none) Set.univ (k0_t2_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 k acc) (inv2 (F := F) m d L (k.val + 1)) := by
  unfold inv2 k0_t2_body
  iintro ⟨H0, H1, H4, H5⟩
  have hk1 : k0_chk1 (addi k0_pay1 ((s0V).view.readAt (Elt F) (Rect.unit (s := S3120) (k0_off3 k) S16.size (k0_off3_inb k)).toLoadRect (c0H m d L))) := by
    rw [loaded0 (F := F) (hArr m d) L k (s0V).view.junk]; exact Cert.BridgeK.inRange_group _ (hpre d).1 _
  have hk2 : k0_chk2 (addi k0_pay1 ((s1V).view.readAt (Elt F) (Rect.unit (s := S3120) (k0_off4 k) S16.size (k0_off4_inb k)).toLoadRect (c1R m d L))) := by
    rw [loaded1 (F := F) (rArr m d) L k (s1V).view.junk]; exact Cert.BridgeK.inRange_group _ (hpre d).2 _
  sl_exec
  ihave H4' := (Entails.of_eq (pts_acc4 (F := F) d L _).symm) $$ H4
  iapply (SparseCore.wp_vectorStoreIdx 𝒱₀ (VT d L) none Set.univ (base := s4V)) $$ H4'; iintro H4
  sl_exec
  ihave H5' := (Entails.of_eq (pts_acc5 (F := F) d L _).symm) $$ H5
  iapply (SparseCore.wp_vectorStoreIdx 𝒱₀ (VT d L) none Set.univ (base := s5V)) $$ H5'; iintro H5
  sl_exec
  sl_step
  isplitl [H0]; · iexact H0
  isplitl [H1]; · iexact H1
  isplitl [H4]
  · iapply (Entails.of_eq (step4 (F := F) m d L k hk1)); iexact H4
  · iapply (Entails.of_eq (step5 (F := F) m d L k hk2)); iexact H5

/-- A lane-table trip of the fold. -/
theorem region4 (h4 h5 : Vec F S2080 .f32) (cc : Fin k0_t3_loop.trips) (r : Fin k0_t4_loop.trips) (acc : FVec F S16 .f32 × FVec F S16 .f32) :
    inv4 (F := F) d L h4 h5 cc.val r.val acc
      ⊢ wp frame (wpE (defs₀ (F := F)) 𝒱₀ (VT d L) none) Set.univ (k0_t4_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 cc r acc) (inv4 (F := F) d L h4 h5 cc.val (r.val + 1)) := by
  unfold inv4 k0_t4_body
  iintro ⟨H4, H5, %hacc⟩
  sl_exec
  sl_step
  isplitl [H4]; · iexact H4
  isplitl [H5]; · iexact H5
  ipureintro
  exact ⟨by rw [hacc.1, piece4]; rfl, by rw [hacc.2, piece5]; rfl⟩

set_option maxHeartbeats 4000000 in
/-- A bin-group trip of the fold: sixteen lane tables summed, the sixteen bins stored. -/
theorem region3 (h4 h5 : Vec F S2080 .f32) (f6 : Buf (Elt F) ((s6V).view.loc (VT d L))) (f7 : Buf (Elt F) ((s7V).view.loc (VT d L))) (cc : Fin k0_t3_loop.trips) (acc : Unit) :
    inv3 (F := F) d L h4 h5 f6 f7 cc.val acc
      ⊢ wp frame (wpE (defs₀ (F := F)) 𝒱₀ (VT d L) none) Set.univ (k0_t3_body L hV (Memref.isWhole_whole _) rV (Memref.isWhole_whole _) ohV (Memref.isWhole_whole _) orV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) s7V (Memref.isWhole_whole _) cc0_scratch8 cc0_scratch9 cc0_scoped0 cc0_scoped1 cc0_scoped2 cc0_scoped3 cc acc) (inv3 (F := F) d L h4 h5 f6 f7 (cc.val + 1)) := by
  unfold inv3 k0_t3_body
  iintro ⟨H4, H5, H6, H7⟩
  sl_exec
  sl_for (inv4 d L h4 h5 cc.val) $$ [H4 H5]
  case region =>
    intro r acc
    exact region4 (F := F) d L h4 h5 cc r acc
  · unfold inv4
    isplitl [H4]; · iexact H4
    isplitl [H5]; · iexact H5
    ipureintro; exact ⟨rfl, rfl⟩
  iintro %acc HI
  unfold inv4
  rw [ntrips4]
  icases HI with ⟨H4, H5, %hacc⟩
  obtain ⟨a1, a2⟩ := acc
  obtain ⟨rfl, rfl⟩ : a1 = Hist.acc h4 cc.val 16 ∧ a2 = Hist.acc h5 cc.val 16 := hacc
  sl_exec
  sl_step
  isplitl [H4]; · iexact H4
  isplitl [H5]; · iexact H5
  isplitl [H6]
  · rw [← outfill_step6 (F := F) h4 f6 cc (k0_off7_inb cc)]; iexact H6
  · rw [← outfill_step7 (F := F) h5 f7 cc (k0_off7_inb cc)]; iexact H7

/-! ## The whole task -/

attribute [local irreducible] Hist.histMain in
set_option maxHeartbeats 16000000 in
theorem tile_run (hpre : PreOK m) (q : PosShare TreeShare) (O : CellTallies nD τ sig (HIx 1)) (W : Waits sig (HIx 1))
    (f0 : Buf (Elt F) ((s0V).view.loc (VT d L))) (f1 : Buf (Elt F) ((s1V).view.loc (VT d L)))
    (f2 : Buf (Elt F) ((s2V).view.loc (VT d L))) (f3 : Buf (Elt F) ((s3V).view.loc (VT d L)))
    (f4 : Buf (Elt F) ((s4V).view.loc (VT d L))) (f5 : Buf (Elt F) ((s5V).view.loc (VT d L)))
    (f6 : Buf (Elt F) ((s6V).view.loc (VT d L))) (f7 : Buf (Elt F) ((s7V).view.loc (VT d L))) :
    (iprop(Transfers.MayWaits (VT d L) (default : HIx 1) O
        ∗ ((hV).view.loc (VT d L) ↦{q} m (hLoc d))
        ∗ ((rV).view.loc (VT d L) ↦{q} m (rLoc d))
        ∗ ((oRowH L).view.loc (VT d L) ↦[(oRowH L).view.set]{fullShare} m (ohLoc d))
        ∗ ((oRowR L).view.loc (VT d L) ↦[(oRowR L).view.set]{fullShare} m (orLoc d))
        ∗ ((s0V).view.loc (VT d L) ↦[(s0V).view.set]{fullShare} f0)
        ∗ ((s1V).view.loc (VT d L) ↦[(s1V).view.set]{fullShare} f1)
        ∗ ((s2V).view.loc (VT d L) ↦[(s2V).view.set]{fullShare} f2)
        ∗ ((s3V).view.loc (VT d L) ↦[(s3V).view.set]{fullShare} f3)
        ∗ ((s4V).view.loc (VT d L) ↦[(s4V).view.set]{fullShare} f4)
        ∗ ((s5V).view.loc (VT d L) ↦[(s5V).view.set]{fullShare} f5)
        ∗ ((s6V).view.loc (VT d L) ↦[(s6V).view.set]{fullShare} f6)
        ∗ ((s7V).view.loc (VT d L) ↦[(s7V).view.set]{fullShare} f7)
        ∗ cells0 d L
        ∗ owes (VT d L) O W) : sProp 𝕄)
      ⊢ wp frame (wpE (defs₀ (F := F)) 𝒱₀ (VT d L) none) Set.univ
          (cc0__sc_hist_body L hV (Memref.isWhole_whole _) rV (Memref.isWhole_whole _) ohV (Memref.isWhole_whole _) orV (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _) s7V (Memref.isWhole_whole _)
            cc0_scratch8 cc0_scratch9 cc0_scoped0 cc0_scoped1 cc0_scoped2 cc0_scoped3)
          fun _ => iprop(((hV).view.loc (VT d L) ↦{q} m (hLoc d))
            ∗ ((rV).view.loc (VT d L) ↦{q} m (rLoc d))
            ∗ ((oRowH L).view.loc (VT d L) ↦[(oRowH L).view.set]{fullShare} ohVal m d)
            ∗ ((oRowR L).view.loc (VT d L) ↦[(oRowR L).view.set]{fullShare} orVal m d)
            ∗ (∃ g, (s0V).view.loc (VT d L) ↦[(s0V).view.set]{fullShare} g)
            ∗ (∃ g, (s1V).view.loc (VT d L) ↦[(s1V).view.set]{fullShare} g)
            ∗ (∃ g, (s2V).view.loc (VT d L) ↦[(s2V).view.set]{fullShare} g)
            ∗ (∃ g, (s3V).view.loc (VT d L) ↦[(s3V).view.set]{fullShare} g)
            ∗ (∃ g, (s4V).view.loc (VT d L) ↦[(s4V).view.set]{fullShare} g)
            ∗ (∃ g, (s5V).view.loc (VT d L) ↦[(s5V).view.set]{fullShare} g)
            ∗ (∃ g, (s6V).view.loc (VT d L) ↦[(s6V).view.set]{fullShare} g)
            ∗ (∃ g, (s7V).view.loc (VT d L) ↦[(s7V).view.set]{fullShare} g)
            ∗ cells0 d L
            ∗ ∃ W', owes (VT d L) O W') := by
  iintro ⟨#Hmw, HH, HR, HOH, HOR, H0, H1, H2, H3, H4, H5, H6, H7, ⟨Hc0, Hc1, Hc2, Hc3, Hc4, Hc5⟩, HO⟩
  sl_unfold [cc0__sc_hist_body, k0_part1]
  sl_exec
  -- the zero fill
  sl_for (inv1 d L f4 f5) $$ [H4 H5]
  case region =>
    intro k acc
    exact region1 (F := F) d L f4 f5 k acc
  · unfold inv1
    rw [zfill_zero, zfill_zero]
    isplitl [H4] <;> iassumption
  iintro %_ HI
  unfold inv1
  rw [ntrips1, zfill_last (F := F) f4 (hArr m d) L, zfill_last (F := F) f5 (rArr m d) L]
  icases HI with ⟨H4, H5⟩
  -- the two stretches have landed
  sl_exec
  -- the counting loop
  sl_for (inv2 m d L) $$ [H0 H1 H4 H5]
  case region =>
    intro k acc
    exact region2 (F := F) m d L hpre k acc
  · unfold inv2
    isplitl [H0]; · iexact H0
    isplitl [H1]; · iexact H1
    isplitl [H4] <;> iassumption
  iintro %_ HI
  unfold inv2
  rw [ntrips2]
  icases HI with ⟨H0, H1, H4, H5⟩
  -- subcores 0‥9 count sixteen more words
  by_cases hc : k0_cond1 L = 1#1
  · have hk3 : ∀ g, k0_chk3 L (addi k0_pay1 ((s2V).view.readAt (Elt F) (Rect.unit (s := S16) ![0] S16.size inb_S16_S16_0).toLoadRect
        ((s2V).view.writes (Elt F) g [⟨Rect.whole (cc0_scratch2 : Ref sig .scVector).ty.shape,
          ReadAs.same.apply (View.read (Elt F) ((hV).slice (Rect.unit (s := S100000) (k0_off5 L) S16.size (k0_off5_inb L hc)) (fun _ => rfl)).view (m (hLoc d)))⟩]))) := by
      intro g _; rw [loadedT2 (F := F) (hArr m d) L hc g]; exact Cert.BridgeK.inRange_group _ (hpre d).1 _
    have hk4 : ∀ g, k0_chk4 L (addi k0_pay1 ((s3V).view.readAt (Elt F) (Rect.unit (s := S16) ![0] S16.size inb_S16_S16_0).toLoadRect
        ((s3V).view.writes (Elt F) g [⟨Rect.whole (cc0_scratch3 : Ref sig .scVector).ty.shape,
          ReadAs.same.apply (View.read (Elt F) ((rV).slice (Rect.unit (s := S100000) (k0_off5 L) S16.size (k0_off5_inb L hc)) (fun _ => rfl)).view (m (rLoc d)))⟩]))) := by
      intro g _; rw [loadedT3 (F := F) (rArr m d) L hc g]; exact Cert.BridgeK.inRange_group _ (hpre d).2 _
    have eA4 : Hist.bump (Hist.histMain (F := F) (hArr m d) L 195) (Hist.group (hArr m d) (Hist.tailOff L)) = Hist.histAll (F := F) (hArr m d) L := by
      unfold Hist.histAll; rw [if_pos hc]
    have eA5 : Hist.bump (Hist.histMain (F := F) (rArr m d) L 195) (Hist.group (rArr m d) (Hist.tailOff L)) = Hist.histAll (F := F) (rArr m d) L := by
      unfold Hist.histAll; rw [if_pos hc]
    sl_exec (disch := first | sl_exact hc | omega)
    have ev4 : tile_run.sl.v25 m d L hc = addi k0_pay1 (Hist.group (hArr m d) (Hist.tailOff L)) := by
      show addi k0_pay1 ((s2V).view.readCov [⟨Rect.whole (cc0_scratch2 : Ref sig .scVector).ty.shape,
        ReadAs.same.apply (View.read (Elt F) ((hV).slice (Rect.unit (s := S100000) (k0_off5 L) S16.size (k0_off5_inb L hc)) (fun _ => rfl)).view (m (hLoc d)))⟩]
        (Rect.unit (s := S16) ![0] S16.size inb_S16_S16_0).toLoadRect) = _
      rw [loadedT2c (F := F) L (hArr m d) hc]
    ihave H4' := (Entails.of_eq (pts_acc4 (F := F) d L _).symm) $$ H4
    iapply (SparseCore.wp_vectorStoreIdx 𝒱₀ (VT d L) none Set.univ (base := s4V)) $$ H4'; iintro H4
    ihave H4 := (Entails.of_eq (stepG4 (F := F) d L _ _ _)) $$ H4
    rw [bump_of_eq (F := F) _ _ _ ev4, eA4]
    sl_exec (disch := first | sl_exact hc | omega)
    have ev5 : tile_run.sl.v27 m d L hc = addi k0_pay1 (Hist.group (rArr m d) (Hist.tailOff L)) := by
      show addi k0_pay1 ((s3V).view.readCov [⟨Rect.whole (cc0_scratch3 : Ref sig .scVector).ty.shape,
        ReadAs.same.apply (View.read (Elt F) ((rV).slice (Rect.unit (s := S100000) (k0_off5 L) S16.size (k0_off5_inb L hc)) (fun _ => rfl)).view (m (rLoc d)))⟩]
        (Rect.unit (s := S16) ![0] S16.size inb_S16_S16_0).toLoadRect) = _
      rw [loadedT3c (F := F) L (rArr m d) hc]
    ihave H5' := (Entails.of_eq (pts_acc5 (F := F) d L _).symm) $$ H5
    iapply (SparseCore.wp_vectorStoreIdx 𝒱₀ (VT d L) none Set.univ (base := s5V)) $$ H5'; iintro H5
    ihave H5 := (Entails.of_eq (stepG5 (F := F) d L _ _ _)) $$ H5
    rw [bump_of_eq (F := F) _ _ _ ev5, eA5]
    sl_exec
    sl_for (inv3 d L (Hist.histAll (F := F) (hArr m d) L) (Hist.histAll (F := F) (rArr m d) L) f6 f7) $$ [H4 H5 H6 H7]
    case region =>
      intro cc acc
      exact region3 (F := F) d L _ _ f6 f7 cc acc
    · unfold inv3
      rw [outfill_zero, outfill_zero]
      isplitl [H4]; · iexact H4
      isplitl [H5]; · iexact H5
      isplitl [H6] <;> iassumption
    iintro %_ HI
    unfold inv3
    rw [ntrips3, outfill_last, outfill_last]
    icases HI with ⟨H4, H5, H6, H7⟩
    sl_exec
    ihave HOH := (Entails.of_eq (pointsTo_congr (ℓ := (oRowH L).view.loc (VT d L)) (q := fullShare) (row_landedH (F := F) (hArr m d) L (m (ohLoc d)) _ rfl))) $$ [HOH]
    · iexact HOH
    ihave HOR := (Entails.of_eq (pointsTo_congr (ℓ := (oRowR L).view.loc (VT d L)) (q := fullShare) (row_landedR (F := F) (rArr m d) L (m (orLoc d)) _ rfl))) $$ [HOR]
    · iexact HOR
    sl_step
    isplitl [HH]; · iexact HH
    isplitl [HR]; · iexact HR
    isplitl [HOH]; · iexact HOH
    isplitl [HOR]; · iexact HOR
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; iexact HO
  · sl_exec (disch := first | sl_exact hc | omega)
    have e4 : Hist.histMain (F := F) (hArr m d) L 195 = Hist.histAll (F := F) (hArr m d) L := by unfold Hist.histAll; rw [if_neg hc]
    have e5 : Hist.histMain (F := F) (rArr m d) L 195 = Hist.histAll (F := F) (rArr m d) L := by unfold Hist.histAll; rw [if_neg hc]
    rw [e4, e5]
    sl_for (inv3 d L (Hist.histAll (F := F) (hArr m d) L) (Hist.histAll (F := F) (rArr m d) L) f6 f7) $$ [H4 H5 H6 H7]
    case region =>
      intro cc acc
      exact region3 (F := F) d L _ _ f6 f7 cc acc
    · unfold inv3
      rw [outfill_zero, outfill_zero]
      isplitl [H4]; · iexact H4
      isplitl [H5]; · iexact H5
      isplitl [H6] <;> iassumption
    iintro %_ HI
    unfold inv3
    rw [ntrips3, outfill_last, outfill_last]
    icases HI with ⟨H4, H5, H6, H7⟩
    sl_exec
    ihave HOH := (Entails.of_eq (pointsTo_congr (ℓ := (oRowH L).view.loc (VT d L)) (q := fullShare) (row_landedH (F := F) (hArr m d) L (m (ohLoc d)) _ rfl))) $$ [HOH]
    · iexact HOH
    ihave HOR := (Entails.of_eq (pointsTo_congr (ℓ := (oRowR L).view.loc (VT d L)) (q := fullShare) (row_landedR (F := F) (rArr m d) L (m (orLoc d)) _ rfl))) $$ [HOR]
    · iexact HOR
    sl_step
    isplitl [HH]; · iexact HH
    isplitl [HR]; · iexact HR
    isplitl [HOH]; · iexact HOH
    isplitl [HOR]; · iexact HOR
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; iexact HO

end Cert.Kernel.Hand

end
-- ==== Proof.KTileObl.lean ====
/-
  The launch theorem's two obligations about the histogram task: each vector subcore's task from what the call deals it,
  and how a SparseCore's holdings are its sixteen tasks'.
-/
import proofs.«214571_g7919919694435_cont_9to1_m_483_28_alg».proof.Proof.KTileBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "hV" => (Memref.whole Cert.Kernel.main_arg1_scv : Memref Cert.Kernel.sig Kind.scVector Space.hbm Cert.Kernel.S100000 EltTy.i32)
local notation "rV" => (Memref.whole Cert.Kernel.main_arg3_scv : Memref Cert.Kernel.sig Kind.scVector Space.hbm Cert.Kernel.S100000 EltTy.i32)
local notation "ohV" => (Memref.whole Cert.Kernel.main_v0_0_scv : Memref Cert.Kernel.sig Kind.scVector Space.hbm Cert.Kernel.S32x128 EltTy.f32)
local notation "orV" => (Memref.whole Cert.Kernel.main_v0_1_scv : Memref Cert.Kernel.sig Kind.scVector Space.hbm Cert.Kernel.S32x128 EltTy.f32)
local notation "s0V" => (Memref.whole Cert.Kernel.cc0_scratch0 : Memref Cert.Kernel.sig Kind.scVector Space.vmem Cert.Kernel.S3120 EltTy.i32)
local notation "s1V" => (Memref.whole Cert.Kernel.cc0_scratch1 : Memref Cert.Kernel.sig Kind.scVector Space.vmem Cert.Kernel.S3120 EltTy.i32)
local notation "s2V" => (Memref.whole Cert.Kernel.cc0_scratch2 : Memref Cert.Kernel.sig Kind.scVector Space.vmem Cert.Kernel.S16 EltTy.i32)
local notation "s3V" => (Memref.whole Cert.Kernel.cc0_scratch3 : Memref Cert.Kernel.sig Kind.scVector Space.vmem Cert.Kernel.S16 EltTy.i32)
local notation "s4V" => (Memref.whole Cert.Kernel.cc0_scratch4 : Memref Cert.Kernel.sig Kind.scVector Space.vmem Cert.Kernel.S2080 EltTy.f32)
local notation "s5V" => (Memref.whole Cert.Kernel.cc0_scratch5 : Memref Cert.Kernel.sig Kind.scVector Space.vmem Cert.Kernel.S2080 EltTy.f32)
local notation "s6V" => (Memref.whole Cert.Kernel.cc0_scratch6 : Memref Cert.Kernel.sig Kind.scVector Space.vmem Cert.Kernel.S128 EltTy.f32)
local notation "s7V" => (Memref.whole Cert.Kernel.cc0_scratch7 : Memref Cert.Kernel.sig Kind.scVector Space.vmem Cert.Kernel.S128 EltTy.f32)

variable [FloatOps F]

section Tile

variable (d : Dev nD) (L : grid0.Coords)

omit [FloatOps F] in
theorem bound_zero : grid0.bound 0 = 2 := rfl
omit [FloatOps F] in
theorem bound_one : grid0.bound 1 = 16 := rfl
/-- The SparseCore and the subcore of a grid point, as the indices the tasks' holdings are stated over. -/
abbrev cL (L : grid0.Coords) : Fin 2 := Fin.cast bound_zero (L 0)
abbrev sL (L : grid0.Coords) : Fin 16 := Fin.cast bound_one (L 1)

/-! ### The row a task slices is the row the call dealt it -/

omit [FloatOps F] in
theorem rowK_eq : Rect.unit (s := S32x128) (k0_off8 L) S1x128.size (k0_off8_inb L) = row (wid (cL L) (sL L)) := by
  unfold row Rect.part Rect.block
  congr 1 <;> funext a
  · rw [k0_off8_eq]
    match a with
    | 0 => simp [Shape.partIx, Shape.partSize, wid]
    | 1 => simp [Shape.partIx, Shape.partSize]
  · match a with
    | 0 => simp [Shape.partSize]
    | 1 => simp [Shape.partSize]

omit [FloatOps F] in
theorem set_oRowH : (oRowH L).view.set = rowSet (wid (cL L) (sL L)) := by
  show (((ohV).view.slice (Rect.unit (s := S32x128) (k0_off8 L) S1x128.size (k0_off8_inb L))).reshape S128 squeezes_S1x128_S128.numel_eq).set
    = ((ohV).view.slice (row (wid (cL L) (sL L)))).set
  rw [View.set_reshape]
  exact rowK_eq L ▸ rfl
omit [FloatOps F] in
theorem set_oRowR : (oRowR L).view.set = rowSet (wid (cL L) (sL L)) := by
  show (((orV).view.slice (Rect.unit (s := S32x128) (k0_off8 L) S1x128.size (k0_off8_inb L))).reshape S128 squeezes_S1x128_S128.numel_eq).set
    = ((ohV).view.slice (row (wid (cL L) (sL L)))).set
  rw [View.set_reshape]
  exact rowK_eq L ▸ rfl

omit [FloatOps F] in
theorem pts_hV (q : PosShare TreeShare) (f : Buf (Elt F) (hLoc d)) :
    ((hV).view.loc (VT d L) ↦{q} f : sProp 𝕄) = hLoc d ↦{q} f := rfl
omit [FloatOps F] in
theorem pts_rV (q : PosShare TreeShare) (f : Buf (Elt F) (rLoc d)) :
    ((rV).view.loc (VT d L) ↦{q} f : sProp 𝕄) = rLoc d ↦{q} f := rfl
omit [FloatOps F] in
theorem pts_oRowH (f : Buf (Elt F) (ohLoc d)) :
    ((oRowH L).view.loc (VT d L) ↦[(oRowH L).view.set]{fullShare} f : sProp 𝕄) = ohLoc d ↦[rowSet (wid (cL L) (sL L))]{fullShare} f := by
  rw [set_oRowH]
omit [FloatOps F] in
theorem pts_oRowR (f : Buf (Elt F) (orLoc d)) :
    ((oRowR L).view.loc (VT d L) ↦[(oRowR L).view.set]{fullShare} f : sProp 𝕄) = orLoc d ↦[rowSet (wid (cL L) (sL L))]{fullShare} f := by
  rw [set_oRowR]
omit [FloatOps F] in
theorem pts_s0 (f : Buf (Elt F) ((VT d L).loc cc0_scratch0)) :
    ((s0V).view.loc (VT d L) ↦[(s0V).view.set]{fullShare} f : sProp 𝕄) = (VT d L).loc cc0_scratch0 ↦{fullShare} f := by
  rw [View.set_whole]
omit [FloatOps F] in
theorem pts_s1 (f : Buf (Elt F) ((VT d L).loc cc0_scratch1)) :
    ((s1V).view.loc (VT d L) ↦[(s1V).view.set]{fullShare} f : sProp 𝕄) = (VT d L).loc cc0_scratch1 ↦{fullShare} f := by
  rw [View.set_whole]
omit [FloatOps F] in
theorem pts_s2 (f : Buf (Elt F) ((VT d L).loc cc0_scratch2)) :
    ((s2V).view.loc (VT d L) ↦[(s2V).view.set]{fullShare} f : sProp 𝕄) = (VT d L).loc cc0_scratch2 ↦{fullShare} f := by
  rw [View.set_whole]
omit [FloatOps F] in
theorem pts_s3 (f : Buf (Elt F) ((VT d L).loc cc0_scratch3)) :
    ((s3V).view.loc (VT d L) ↦[(s3V).view.set]{fullShare} f : sProp 𝕄) = (VT d L).loc cc0_scratch3 ↦{fullShare} f := by
  rw [View.set_whole]
omit [FloatOps F] in
theorem pts_s4 (f : Buf (Elt F) ((VT d L).loc cc0_scratch4)) :
    ((s4V).view.loc (VT d L) ↦[(s4V).view.set]{fullShare} f : sProp 𝕄) = (VT d L).loc cc0_scratch4 ↦{fullShare} f := by
  rw [View.set_whole]
omit [FloatOps F] in
theorem pts_s5 (f : Buf (Elt F) ((VT d L).loc cc0_scratch5)) :
    ((s5V).view.loc (VT d L) ↦[(s5V).view.set]{fullShare} f : sProp 𝕄) = (VT d L).loc cc0_scratch5 ↦{fullShare} f := by
  rw [View.set_whole]
omit [FloatOps F] in
theorem pts_s6 (f : Buf (Elt F) ((VT d L).loc cc0_scratch6)) :
    ((s6V).view.loc (VT d L) ↦[(s6V).view.set]{fullShare} f : sProp 𝕄) = (VT d L).loc cc0_scratch6 ↦{fullShare} f := by
  rw [View.set_whole]
omit [FloatOps F] in
theorem pts_s7 (f : Buf (Elt F) ((VT d L).loc cc0_scratch7)) :
    ((s7V).view.loc (VT d L) ↦[(s7V).view.set]{fullShare} f : sProp 𝕄) = (VT d L).loc cc0_scratch7 ↦{fullShare} f := by
  rw [View.set_whole]

/-! ### The subcore's own counters and buffers -/

/-- The six transfer counters the task names, as a family. -/
abbrev dcell (d : Dev nD) (c : Fin τ.nSC) (i : Fin τ.nSub) (k : Fin 6) : GSem nD τ sig :=
  (V d c i, .dma (csem k.val (Nat.lt_of_lt_of_le k.isLt (by decide))))

omit [FloatOps F] in
theorem dcell_mem (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

omit [FloatOps F] in
/-- The subcore's own counters at zero: the six the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The subcore's own buffers less the eight the task names. -/
abbrev restRefs (L : grid0.Coords) : Finset (DevRef τ sig) :=
  (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7))

omit [FloatOps F] in
/-- The eight scratch buffers are among the subcore's own: they are them, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := (Proc.scVector (cV L) (jV L))) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := (Proc.scVector (cV L) (jV L))) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := (Proc.scVector (cV L) (jV L))) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := (Proc.scVector (cV L) (jV L))) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := (Proc.scVector (cV L) (jV L))) (b := ((Proc.scVector (cV L) (jV L)).devRef cc0_scratch5)) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := (Proc.scVector (cV L) (jV L))) (b := ((Proc.scVector (cV L) (jV L)).devRef cc0_scratch6)) rfl)⟩)⟩)⟩)⟩)⟩)⟩),
    SparseCore.bigSep_erase' (Finset.mem_erase.mpr ⟨fun e => absurd (Proc.devRef_injective _ e) (show (cc0_scratch7 : Ref sig .scVector) ≠ cc0_scratch6 by decide), (Finset.mem_erase.mpr ⟨fun e => absurd (Proc.devRef_injective _ e) (show (cc0_scratch7 : Ref sig .scVector) ≠ cc0_scratch5 by decide), (Finset.mem_erase.mpr ⟨fun e => absurd (Proc.devRef_injective _ e) (show (cc0_scratch7 : Ref sig .scVector) ≠ cc0_scratch4 by decide), (Finset.mem_erase.mpr ⟨fun e => absurd (Proc.devRef_injective _ e) (show (cc0_scratch7 : Ref sig .scVector) ≠ cc0_scratch3 by decide), (Finset.mem_erase.mpr ⟨fun e => absurd (Proc.devRef_injective _ e) (show (cc0_scratch7 : Ref sig .scVector) ≠ cc0_scratch2 by decide), (Finset.mem_erase.mpr ⟨fun e => absurd (Proc.devRef_injective _ e) (show (cc0_scratch7 : Ref sig .scVector) ≠ cc0_scratch1 by decide), (Finset.mem_erase.mpr ⟨fun e => absurd (Proc.devRef_injective _ e) (show (cc0_scratch7 : Ref sig .scVector) ≠ cc0_scratch0 by decide), (SparseCore.Cfg.mem_ownRefs_of_owner (p := (Proc.scVector (cV L) (jV L))) (b := ((Proc.scVector (cV L) (jV L)).devRef cc0_scratch7)) rfl)⟩)⟩)⟩)⟩)⟩)⟩)⟩)]

/-! ### The task, from what the call deals it to what it hands back -/

/-- The task on vector subcore (L 0, L 1) of device d: the call's holdings and the subcore's own buffers and counters
    respelt as the task names them, the run, and everything put back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileRes m d (cL L) (sL L)
        ∗ scopedBufs (VT d L) ∗ scopedSems0 (VT d L) ∗ owes (VT d L) O W)
      ⊢ wp frame (wpE (defs₀ (F := F)) 𝒱₀ (VT d L) none) Set.univ
          (cc0__sc_hist_body L hV (Memref.isWhole_whole _) rV (Memref.isWhole_whole _) ohV (Memref.isWhole_whole _) orV (Memref.isWhole_whole _)
            s0V (Memref.isWhole_whole _) s1V (Memref.isWhole_whole _) s2V (Memref.isWhole_whole _) s3V (Memref.isWhole_whole _)
            s4V (Memref.isWhole_whole _) s5V (Memref.isWhole_whole _) s6V (Memref.isWhole_whole _) s7V (Memref.isWhole_whole _)
            cc0_scratch8 cc0_scratch9 cc0_scoped0 cc0_scoped1 cc0_scoped2 cc0_scoped3)
          fun _ => iprop(tileRet m d (cL L) (sL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold tileRes tileRet
  iintro ⟨#Hlv, -, ⟨Hh, Hr, Hoh, Hor⟩, ⟨⟨%g0, H0⟩, ⟨%g1, H1⟩, ⟨%g2, H2⟩, ⟨%g3, H3⟩, ⟨%g4, H4⟩, ⟨%g5, H5⟩, ⟨%g6, H6⟩, ⟨%g7, H7⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hoh' := (Entails.of_eq (pts_oRowH (F := F) d L _).symm) $$ Hoh
  ihave Hor' := (Entails.of_eq (pts_oRowR (F := F) d L _).symm) $$ Hor
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave H5' := (Entails.of_eq (pts_s5 (F := F) d L _).symm) $$ H5
  ihave H6' := (Entails.of_eq (pts_s6 (F := F) d L _).symm) $$ H6
  ihave H7' := (Entails.of_eq (pts_s7 (F := F) d L _).symm) $$ H7
  iapply (wp_wand_r Idealize.ShloMosaic.frame (wpE (defs₀ (F := F)) 𝒱₀ (VT d L) none) Set.univ)
  isplitl [Hh Hr Hoh' Hor' H0' H1' H2' H3' H4' H5' H6' H7' HC HO]
  · iapply (tile_run m d L hpre (sh (cL L) (sL L)) O W g0 g1 g2 g3 g4 g5 g6 g7)
    isplitr; · iexact Hmw
    isplitl [Hh]; · iexact Hh
    isplitl [Hr]; · iexact Hr
    isplitl [Hoh']; · iexact Hoh'
    isplitl [Hor']; · iexact Hor'
    isplitl [H0']; · iexact H0'
    isplitl [H1']; · iexact H1'
    isplitl [H2']; · iexact H2'
    isplitl [H3']; · iexact H3'
    isplitl [H4']; · iexact H4'
    isplitl [H5']; · iexact H5'
    isplitl [H6']; · iexact H6'
    isplitl [H7']; · iexact H7'
    isplitl [HC]; · iexact HC
    iexact HO
  iintro %_ ⟨Hh, Hr, Hoh', Hor', ⟨%t0, H0'⟩, ⟨%t1, H1'⟩, ⟨%t2, H2'⟩, ⟨%t3, H3'⟩, ⟨%t4, H4'⟩, ⟨%t5, H5'⟩, ⟨%t6, H6'⟩, ⟨%t7, H7'⟩, HC, ⟨%W', HO⟩⟩
  isplitl [Hh Hr Hoh' Hor']
  · isplitl [Hh]; · iexact Hh
    isplitl [Hr]; · iexact Hr
    isplitl [Hoh']; · iapply (Entails.of_eq (pts_oRowH (F := F) d L _)); iexact Hoh'
    iapply (Entails.of_eq (pts_oRowR (F := F) d L _)); iexact Hor'
  isplitl [H0' H1' H2' H3' H4' H5' H6' H7' Hbufs]
  · isplitl [H0']; · iexists _; iapply (Entails.of_eq (pts_s0 (F := F) d L _)); iexact H0'
    isplitl [H1']; · iexists _; iapply (Entails.of_eq (pts_s1 (F := F) d L _)); iexact H1'
    isplitl [H2']; · iexists _; iapply (Entails.of_eq (pts_s2 (F := F) d L _)); iexact H2'
    isplitl [H3']; · iexists _; iapply (Entails.of_eq (pts_s3 (F := F) d L _)); iexact H3'
    isplitl [H4']; · iexists _; iapply (Entails.of_eq (pts_s4 (F := F) d L _)); iexact H4'
    isplitl [H5']; · iexists _; iapply (Entails.of_eq (pts_s5 (F := F) d L _)); iexact H5'
    isplitl [H6']; · iexists _; iapply (Entails.of_eq (pts_s6 (F := F) d L _)); iexact H6'
    isplitl [H7']; · iexists _; iapply (Entails.of_eq (pts_s7 (F := F) d L _)); iexact H7'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ### The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          hV (Memref.isWhole_whole _) rV (Memref.isWhole_whole _) ohV (Memref.isWhole_whole _) orV (Memref.isWhole_whole _)
          s0V (Memref.isWhole_whole _) s1V (Memref.isWhole_whole _) s2V (Memref.isWhole_whole _) s3V (Memref.isWhole_whole _)
          s4V (Memref.isWhole_whole _) s5V (Memref.isWhole_whole _) s6V (Memref.isWhole_whole _) s7V (Memref.isWhole_whole _)
          cc0_scratch8 cc0_scratch9 cc0_scoped0 cc0_scoped1 cc0_scoped2 cc0_scoped3) ⟨⟩ c s := rfl

end Tile

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

omit [FloatOps F] in
/-- A family over the sixteen tasks, indexed by the launch's subcore count. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileRes m d (Fin.cast nCore_zero c) s) ⊢ |={Set.univ}=> iprop(
      (bigSep Finset.univ fun i : Fin ((K (F := F)).nSub 0) => tileRes m d (Fin.cast nCore_zero c) (Fin.cast nSub_zero i))
      ∗ ((bigSep Finset.univ fun i : Fin ((K (F := F)).nSub 0) => tileRet m d (Fin.cast nCore_zero c) (Fin.cast nSub_zero i))
          -∗ (bigSep Finset.univ fun s : Fin 16 => tileRet m d (Fin.cast nCore_zero c) s)))
  rw [bigSep_tasks (F := F) (fun s => tileRes m d (Fin.cast nCore_zero c) s),
    bigSep_tasks (F := F) (fun s => tileRet m d (Fin.cast nCore_zero c) s)]
  iintro H; imodintro
  isplitl [H]; · iexact H
  iintro H; iexact H

end Cert.Kernel.Hand

end
-- ==== Proof.KTcBody.lean ====
/-
  The second kernel's body as the pipeline calls it: it loads its two staged 32 × 128 arrays whole and stores one value,
  the function Hist.tcOut of the two; the pipeline's proof data say so, and that nothing is owed across the region.
-/
import proofs.«214571_g7919919694435_cont_9to1_m_483_28_alg».proof.Proof.KSetup
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The proof data -/

/-- The three windowed arrays when the region is entered: the two arrays of bins as the call left them, the result array as launched. -/
def Aent (d : Dev nD) : (w : Fin cfg1.W) → Buf (Elt F) ((cfg1.win w).arr.view.loc (d : Thread nD τ))
  | ⟨0, _⟩ => ohVal m d
  | ⟨1, _⟩ => orVal m d
  | ⟨2, _⟩ => m ((SparseCore.T d).loc main_v1)

/-- A window's block at the one point, read off its array. -/
def iblk (d : Dev nD) (w : Fin cfg1.W) (t : Fin cfg1.N) : ((cfg1.win w).xblock (cfg1.grid.coords t)).Idx → Elt F (cfg1.win w).elt :=
  ((cfg1.win w).blk t).view.read (Elt F) (Aent m d w)

/-- The windows' one block sits at the array's origin. -/
theorem idx1_0 : ∀ (t : Fin grid1.N) (a : Fin 2), win1_0.index t a = 0 := by decide +kernel
theorem idx1_1 : ∀ (t : Fin grid1.N) (a : Fin 2), win1_1.index t a = 0 := by decide +kernel
theorem idx1_2 : ∀ (t : Fin grid1.N) (a : Fin 2), win1_2.index t a = 0 := by decide +kernel

omit [FloatOps F] in
/-- The one block of a window that stages its whole array is the array. -/
theorem read_blk0 (d : Dev nD) (t : Fin cfg1.N) (f : Buf (Elt F) ((cfg1.win 0).arr.view.loc (d : Thread nD τ))) :
    ((cfg1.win 0).blk t).view.read (Elt F) f = f := by
  funext j
  rw [View.read_apply]
  have h : ((cfg1.win 0).blk t).view.emb j = j := by
    funext a; apply Fin.ext
    match a with
    | ⟨0, _⟩ => show win1_0.index t (0 : Fin 2) * 32 + 1 * (j 0).val = (j 0).val; rw [idx1_0]; omega
    | ⟨1, _⟩ => show win1_0.index t (1 : Fin 2) * 128 + 1 * (j 1).val = (j 1).val; rw [idx1_0]; omega
  rw [h]; rfl
omit [FloatOps F] in
theorem read_blk1 (d : Dev nD) (t : Fin cfg1.N) (f : Buf (Elt F) ((cfg1.win 1).arr.view.loc (d : Thread nD τ))) :
    ((cfg1.win 1).blk t).view.read (Elt F) f = f := by
  funext j
  rw [View.read_apply]
  have h : ((cfg1.win 1).blk t).view.emb j = j := by
    funext a; apply Fin.ext
    match a with
    | ⟨0, _⟩ => show win1_1.index t (0 : Fin 2) * 32 + 1 * (j 0).val = (j 0).val; rw [idx1_1]; omega
    | ⟨1, _⟩ => show win1_1.index t (1 : Fin 2) * 128 + 1 * (j 1).val = (j 1).val; rw [idx1_1]; omega
  rw [h]; rfl

theorem Aent_0 (d : Dev nD) : Aent m d 0 = ohVal m d := by unfold Aent; rfl
theorem Aent_1 (d : Dev nD) : Aent m d 1 = orVal m d := by unfold Aent; rfl
theorem Aent_2 (d : Dev nD) : Aent m d 2 = m ((SparseCore.T d).loc main_v1) := by unfold Aent; rfl

theorem iblk_0 (d : Dev nD) (t : Fin cfg1.N) : iblk m d 0 t = ohVal m d := by
  unfold iblk; rw [read_blk0, Aent_0]
theorem iblk_1 (d : Dev nD) (t : Fin cfg1.N) : iblk m d 1 t = orVal m d := by
  unfold iblk; rw [read_blk1, Aent_1]

/-- The (semaphore, index) pairs the TensorCore's recorded waits stay among, before and through the region: those at level at most 8. -/
def recOK (d : Dev nD) : Set (SemLoc sig × HIx 1) := {p | (K (F := F)).lev (SparseCore.T d, p.1) p.2 ≤ 8}

/-- The proof data of the one pipeline on device d: the arrays as the region finds them; after the body each input's
    buffer at its block and the output's at Hist.tcOut of the two input blocks; the invariant the scoped buffers that
    stage nothing; full shares; nothing owed; the recorded waits among recOK. -/
def dat (d : Dev nD) : Dat τ (Elt F) (HIx 1) ℕ UU ℕ cfg1 d where
  A := Aent m d
  after w t := match w with
    | ⟨0, _⟩ => iblk m d 0 t
    | ⟨1, _⟩ => iblk m d 1 t
    | ⟨2, _⟩ => Hist.tcOut (F := F) (iblk m d 0 t) (iblk m d 1 t)
  Φ _ := Pipeline.scopedRest spec1 d
  q _ := fullShare
  owed _ := 0
  recorded _ := recOK (F := F) d

theorem A_eq (d : Dev nD) (w : Fin cfg1.W) : (dat m d).A w = Aent m d w := by dsimp only [dat]
theorem after1_0 (d : Dev nD) (t : Fin cfg1.N) : (dat m d).after 0 t = iblk m d 0 t := by dsimp only [dat]
theorem after1_1 (d : Dev nD) (t : Fin cfg1.N) : (dat m d).after 1 t = iblk m d 1 t := by dsimp only [dat]
theorem after1_2 (d : Dev nD) (t : Fin cfg1.N) : (dat m d).after 2 t = Hist.tcOut (F := F) (iblk m d 0 t) (iblk m d 1 t) := by dsimp only [dat]

/-- Each input's staging buffer holds its block when the body runs. -/
theorem before1_0 (d : Dev nD) (t : Fin cfg1.N) (dd) : (dat m d).before 0 t dd = iblk m d 0 t :=
  ((dat m d).before_in_eq_fetched 0 rfl (fun _ => rfl) (fun _ _ _ => rfl) (fun t => by rw [after1_0]; unfold Dat.blockOf iblk; rw [A_eq]; try rfl) t dd).trans
    (by unfold Dat.fetched Dat.blockOf iblk; rw [A_eq]; try rfl)
theorem before1_1 (d : Dev nD) (t : Fin cfg1.N) (dd) : (dat m d).before 1 t dd = iblk m d 1 t :=
  ((dat m d).before_in_eq_fetched 1 rfl (fun _ => rfl) (fun _ _ _ => rfl) (fun t => by rw [after1_1]; unfold Dat.blockOf iblk; rw [A_eq]; try rfl) t dd).trans
    (by unfold Dat.fetched Dat.blockOf iblk; rw [A_eq]; try rfl)

/-! ## The body's triple -/

theorem hz2 : (![0, 0] : Fin 2 → Nat) = fun _ => 0 := funext fun a => by fin_cases a <;> rfl

set_option maxHeartbeats 1000000 in
/-- The body on whole staging memrefs, the inputs' reading x0 and x1 and the output's anything, leaves the inputs' as
    they were and the output's reading Hist.tcOut x0 x1: its two whole loads, its one whole store. -/
theorem sound_kernel [∀ e, Nonempty (Elt F e)] (c : Dev nD) (E : Set ℕ) (arg0 : Memref sig .tc .vmem S32x128 .f32) (harg0 : arg0.IsWhole)
    (arg1 : Memref sig .tc .vmem S32x128 .f32) (harg1 : arg1.IsWhole) (arg2 : Memref sig .tc .vmem S1x1 .f32) (harg2 : arg2.IsWhole)
    (x0 : Vec F S32x128 .f32) (x1 : Vec F S32x128 .f32) (Kk : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (Hist.tcOut (F := F) x0 x1)) -∗ Kk ⟨⟩))
      ⊢ wp frame (wpE (defs₀ (F := F)) Variants.none c none) E (cc1__kl_body arg0 harg0 arg1 harg1 arg2 harg2) Kk := by
  simp only [cc1__kl_body_eq_skeleton]; unfold cc1__kl_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon (Val := Elt F) _ _ _ (View.cover_of_tiled (Val := Elt F) [⟨Rect.unit ![0, 0] S1x1.size inb_S1x1_S1x1_0_0, _⟩] S1x1.size (by rfl))).trans ?_
  rw [View.canon_unit_zero (Val := Elt F) hz2]
  sl_unfold_run_names
  simp only [View.readAt_eq_ld, View.ld_unit_zero (S := S32x128) hz2]
  rfl

/-! ## The body obligation -/

/-- What the body is called with at the point, the windows one by one, -/
def bodyPre (d : Dev nD) (t : Fin cfg1.N) : sProp 𝕄 :=
  iprop((dat m d).Φ t.castSucc ∗ (dat m d).owesAt none t.castSucc
    ∗ (∃ dd, owns (d : Thread nD τ) (st1_0 t) fullShare ((dat m d).before 0 t dd))
    ∗ (∃ dd, owns (d : Thread nD τ) (st1_1 t) fullShare ((dat m d).before 1 t dd))
    ∗ (∃ dd, owns (d : Thread nD τ) (st1_2 t) fullShare ((dat m d).before 2 t dd)))

/-- and what it returns. -/
def bodyPost (d : Dev nD) (t : Fin cfg1.N) : sProp 𝕄 :=
  iprop((dat m d).Φ t.succ ∗ (dat m d).owesAt none t.succ
    ∗ owns (d : Thread nD τ) (st1_0 t) fullShare ((dat m d).after 0 t)
    ∗ owns (d : Thread nD τ) (st1_1 t) fullShare ((dat m d).after 1 t)
    ∗ owns (d : Thread nD τ) (st1_2 t) fullShare ((dat m d).after 2 t))

/-- The body at the point: the inputs' memrefs hold their blocks, so the triple applies; the invariant and what the
    core owes pass through unread. -/
theorem sound_body [∀ e, Nonempty (Elt F e)] (d : Dev nD) (t : Fin cfg1.N) :
    bodyPre m d t ⊢ wp frame (wpE (defs₀ (F := F)) Variants.none d none) Set.univ (bodyAt1 t) (fun _ => bodyPost m d t) := by
  unfold bodyPre bodyPost bodyAt1
  simp only [before1_0, before1_1]
  rw [show (dat m d).Φ t.succ = (dat m d).Φ t.castSucc from rfl,
    show (dat m d).owesAt none t.succ = (dat m d).owesAt none t.castSucc from rfl,
    after1_0, after1_1, after1_2]
  iintro ⟨HΦ, Ho, ⟨%d0, H0⟩, ⟨%d1, H1⟩, ⟨%d2, H2⟩⟩
  iapply (sound_kernel d Set.univ _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at the one point. -/
theorem body_obligation [∀ e, Nonempty (Elt F e)] (d : Dev nD) : BodyObligation (dat (F := F) m d) (defs₀ (F := F)) Variants.none none Set.univ := fun t => by
  rw [bigSep_W1, bigSep_W1]
  exact sound_body m d t

/-! ## What the arrays hold after the region -/

omit [FloatOps F] in
theorem read_blk2 (d : Dev nD) (t : Fin cfg1.N) (f : Buf (Elt F) ((cfg1.win 2).arr.view.loc (d : Thread nD τ))) :
    ((cfg1.win 2).blk t).view.read (Elt F) f = f := by
  funext j
  rw [View.read_apply]
  have h : ((cfg1.win 2).blk t).view.emb j = j := by
    funext a; apply Fin.ext
    match a with
    | ⟨0, _⟩ => show win1_2.index t (0 : Fin 2) * 1 + 1 * (j 0).val = (j 0).val; rw [idx1_2]; omega
    | ⟨1, _⟩ => show win1_2.index t (1 : Fin 2) * 1 + 1 * (j 1).val = (j 1).val; rw [idx1_2]; omega
  rw [h]; rfl

omit [FloatOps F] in
/-- The result window's block is not cut. -/
theorem cut1_2 (t : Fin cfg1.N) (X : (cfg1.win 2).block.Idx → Elt F (cfg1.win 2).elt) : (cfg1.win 2).cut (cfg1.grid.coords t) X = X := rfl

theorem share_eq (d : Dev nD) (w : Fin cfg1.W) : (dat m d).share w = fullShare := (dat m d).share_full (fun _ => rfl) w

/-- The two arrays of bins are only read. -/
theorem arrAt_0 (d : Dev nD) (n : Nat) : (dat m d).arrAt 0 n = ohVal m d := ((dat m d).arrAt_in 0 rfl n).trans ((A_eq m d 0).trans (Aent_0 m d))
theorem arrAt_1 (d : Dev nD) (n : Nat) : (dat m d).arrAt 1 n = orVal m d := ((dat m d).arrAt_in 1 rfl n).trans ((A_eq m d 1).trans (Aent_1 m d))

/-- The result array ends at the one stored value. -/
theorem arrAt_2 (d : Dev nD) : (dat m d).arrAt 2 cfg1.N = Hist.tcOut (F := F) (ohVal m d) (orVal m d) := by
  have h := (dat m d).read_blk_arrAt_eq_flushed 2 (fun t t' _ _ hne => absurd ((fin_N1 t).trans (fin_N1 t').symm) hne) cfg1.N t1_0 t1_0.isLt (flush1_2 t1_0)
  rw [read_blk2] at h
  rw [h]
  show (cfg1.win 2).cut (cfg1.grid.coords t1_0) ((dat m d).after 2 t1_0) = _
  rw [cut1_2, after1_2, iblk_0, iblk_1]

/-! ## The arrays one by one, and what the TensorCore owes -/

/-- The pipeline's three arrays, each whole at the full share. -/
theorem arrays_eq3 (d : Dev nD) (Fw : (w : Fin cfg1.W) → Buf (Elt F) ((cfg1.win w).arr.view.loc (d : Thread nD τ))) :
    ((dat m d).arrays Fw : sProp 𝕄)
      = iprop((ohLoc d ↦{fullShare} Fw 0) ∗ (orLoc d ↦{fullShare} Fw 1) ∗ ((SparseCore.T d).loc main_v1 ↦{fullShare} Fw 2)) := by
  unfold Dat.arrays
  rw [bigSep_W1, (arr_whole1 0).set_eq_univ, (arr_whole1 1).set_eq_univ, (arr_whole1 2).set_eq_univ, share_eq, share_eq, share_eq]

/-- The TensorCore owing nothing, its recorded waits at level at most 8. -/
def owesSt (d : Dev nD) : sProp 𝕄 :=
  iprop(∃ W, ⌜(K (F := F)).WBelow (SparseCore.T d) W (8 * 1)⌝ ∗ owes (SparseCore.T d) 0 W)

theorem owesAt_of_owesSt (d : Dev nD) (t : Fin (cfg1.N + 1)) : owesSt (F := F) d ⊢ ((dat m d).owesAt none t : sProp 𝕄) := by
  unfold owesSt
  iintro ⟨%W, %hW, HO⟩
  iexists W
  isplitr
  · ipureintro
    intro p hp
    exact Or.inl (hW p hp)
  · iexact HO

theorem owesSt_of_owesAt (d : Dev nD) (t : Fin (cfg1.N + 1)) : ((dat m d).owesAt none t : sProp 𝕄) ⊢ owesSt (F := F) d := by
  unfold owesSt
  iintro ⟨%W, %hW, HO⟩
  iexists W
  isplitr
  · ipureintro
    intro p hp
    rcases hW hp with h | ⟨w, s, rfl⟩
    · exact h
    · show (K (F := F)).lev _ none ≤ 8 * 1
      rw [SparseCore.Cfg.lev_none]; omega
  · iexact HO

end Cert.Kernel.Hand

end
-- ==== Proof.KTcRegion.lean ====
/-
  The TensorCore's part of the program after the call: the second kernel as a pipeline region entered inside the
  launched program, then the reshape of its one stored value.
-/
import proofs.«214571_g7919919694435_cont_9to1_m_483_28_alg».proof.Proof.KTcBody
import Idealize.ShloMosaic.Lib.Pipeline.Regions
import Idealize.ShloMosaic.Lib.Pipeline.Frame
import Idealize.ShloMosaic.Lib.StableHlo.Run

noncomputable section

namespace Cert.Kernel.Hand

open Cert.Kernel Cert.Kernel.Gen

open Idealize.ShloMosaic Idealize.ShloMosaic.TcCoe
open Idealize.ShloMosaic.SparseCore.Cfg (HIx Pay)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The staging cells' rounds in the resource algebra -/

/-- The middle factor of the algebra, embedded. -/
def ER : Emb UR (MT nD τ sig (HIx 1) (Elt F) ℕ UU ℕ) := (Emb.inl : Emb UR (UR × Counters)).trans embR

instance ER_landsIn : (ER (F := F)).LandsIn (upEmb : UEmb _ 𝕄) := by
  unfold ER; infer_instance

/-- The launch element of the staging cells' rounds. -/
def uR₀ : UR := initOf (Pipeline.cells (nD := nD) (τ := τ) cfgs cellOf_inj) (Pipeline.launchToks (nD := nD) (τ := τ) cfgs cellOf_inj)

/-- What the launch element gives device d's TensorCore for the region: its staging cells' launch state and the
    duty tokens of the transfers the region issues. -/
def G (d : Dev nD) : sProp 𝕄 :=
  iprop(Pipeline.cellsGhost (nD := nD) (τ := τ) cfgs (ER (F := F)) 0 d ∗ Pipeline.toksInit (nD := nD) (τ := τ) cfgs (ER (F := F)) 0 d)

/-- A conjunction over the one pipeline is its summand. -/
theorem bigSep_fin_one {M : Type} [URA M] (Φ : Fin 1 → sProp M) : bigSep Finset.univ Φ = Φ 0 := by
  rw [show (Finset.univ : Finset (Fin 1)) = {0} from by decide, bigSep_singleton]

theorem fundG : (BI.own ((ER (F := F)) uR₀) : sProp 𝕄) ⊢ iprop(|==> bigSep Finset.univ (G (F := F))) := by
  have h : iprop((bigSep Finset.univ fun c : Dev nD => bigSep Finset.univ fun p : Fin 1 => Pipeline.cellsGhost (nD := nD) (τ := τ) cfgs (ER (F := F)) p c)
        ∗ (bigSep Finset.univ fun c : Dev nD => bigSep Finset.univ fun p : Fin 1 => (Pipeline.toksInit (nD := nD) (τ := τ) cfgs (ER (F := F)) p c : sProp 𝕄)))
      ⊢ bigSep Finset.univ (G (F := F)) := by
    unfold G
    rw [bigSep_sep']
    simp only [bigSep_fin_one]
    exact BI.Entails.refl _
  exact (Pipeline.fund_ghost (nD := nD) (τ := τ) cfgs (ER (F := F)) cellOf_inj).trans (BI.bupd_mono h)

/-- The TensorCore's program after the call: the second kernel's region, the reshape, the return. -/
abbrev afterProg : Prog (TpuEff nD τ sig (Elt F) (SparseCore.Sig (ΛP (F := F)) 1) .tc) PUnit := do
  Prog.lift (.customCall (SparseCore.inner (Pipeline.entry 0)) ())
  hlo rfl (StableHlo.reshape main_v1 main_v2 rfl Facts₀.shapeCasts_S1x1_S_) (fun _ => .ret ⟨⟩)
  pure ⟨⟩

variable (m : (ℓ : Loc nD τ sig) → Buf (Elt F) ℓ) (ρ : Dev nD → PrngReg)

/-! ## The region -/

/-- The one pipeline has no prefetched table: its one admissible contents. -/
abbrev adm : (p : Fin 1) → (pcfgs (F := F) p).Adm := fun q => (cfgs q).toPCfg_adm

/-- The one pipeline's proof data on every device. -/
def pdats : (p : Fin 1) → (c : Dev nD) → Dat τ (Elt F) (HIx 1) ℕ UU ℕ (Pipeline.pin (pcfgs (F := F)) adm p) c := fun _ c => dat m c

/-- What the TensorCore holds of the region's concern when it enters it: that it owes nothing, and the three arrays. -/
def regPre (d : Dev nD) : sProp 𝕄 :=
  iprop(owesSt (F := F) d ∗ (ohLoc d ↦{fullShare} ohVal m d) ∗ (orLoc d ↦{fullShare} orVal m d)
    ∗ ((SparseCore.T d).loc main_v1 ↦{fullShare} m ((SparseCore.T d).loc main_v1)))

/-- and when it leaves it: the result array at the one stored value. -/
def regPost (d : Dev nD) : sProp 𝕄 :=
  iprop(owesSt (F := F) d ∗ (ohLoc d ↦{fullShare} ohVal m d) ∗ (orLoc d ↦{fullShare} orVal m d)
    ∗ ((SparseCore.T d).loc main_v1 ↦{fullShare} Hist.tcOut (F := F) (ohVal m d) (orVal m d)))

set_option backward.isDefEq.respectTransparency.types false in
/-- The region's record: the decided layout, no semaphore of the kernel's own, the body obligation, no wait evidence
    needed (nothing is owed), and the entry and exit entailments between the thread states above. -/
def region [∀ e, Nonempty (Elt F e)] :
    Pipeline.RegionSeg (pcfgs (F := F)) adm (pdats m) none (defs₀ (F := F)) 𝒱₀ (K (F := F)).L (K (F := F)).lev 0 where
  win := winFacts1.to₀
  block_pos := block_pos1
  stage_whole := stage_whole1
  K := PEmpty
  osem := fun k => k.elim
  ho := Pipeline.OwnSemFacts.none _
  hbody := fun c => (body_obligation m c).loose
  hwaits := fun c => (show (levAts (K (F := F)).L (K (F := F)).lev : sProp 𝕄) ⊢ BI.emp from by iintro -; iempintro).trans
    (Pipeline.cellsWaits_of_owed_zero (Pipeline.pin (pcfgs (F := F)) adm) (pdats m) none 0 c (fun _ => rfl))
  pre := regPre m
  post := regPost m
  X := fun _ => iprop(emp)
  Y := fun _ => iprop(emp)
  Z := fun _ => iprop(emp)
  hentry := fun c => by
    show iprop(regPre m c ∗ _ ∗ _) ⊢ |={Set.univ}=> iprop((dat m c).arrays ((dat m c).arrAt · 0) ∗ _ ∗ (dat m c).owesAt none 0 ∗ _ ∗ _)
    rw [arrays_eq3, arrAt_0, arrAt_1, show (dat m c).arrAt 2 0 = m ((SparseCore.T c).loc main_v1) from (A_eq m c 2).trans (Aent_2 m c)]
    unfold regPre
    iintro ⟨⟨HO, Hoh, Hor, Hv1⟩, -, -⟩
    imodintro
    isplitl [Hoh Hor Hv1]
    · isplitl [Hoh]; · iexact Hoh
      isplitl [Hor]; · iexact Hor
      iexact Hv1
    isplitr
    · unfold Pipeline.prefHeld; rw [Finset.univ_eq_empty, bigSep_empty]; iempintro
    isplitl [HO]
    · iapply (owesAt_of_owesSt m c 0); iexact HO
    isplitr <;> iempintro
  hin := fun c => by
    show iprop(_ ∗ _ ∗ Pipeline.scopedRest spec1 c) ⊢ (Pipeline.scopedRest spec1 c : sProp 𝕄)
    iintro ⟨-, -, H⟩; iexact H
  hout := fun c => by
    show (Pipeline.scopedRest spec1 c : sProp 𝕄) ⊢ iprop(_ ∗ _ ∗ Pipeline.scopedRest spec1 c)
    iintro H
    isplitr; · iempintro
    isplitr
    · unfold Pipeline.ownSems0; rw [Finset.univ_eq_empty, bigSep_empty]; iempintro
    iexact H
  hexit := fun c => by
    show iprop((dat m c).arrays ((dat m c).arrAt · cfg1.N) ∗ (dat m c).owesAt none (Fin.last cfg1.N) ∗ _ ∗ _) ⊢ |={Set.univ}=> regPost m c
    rw [arrays_eq3, arrAt_0, arrAt_1, arrAt_2]
    unfold regPost
    iintro ⟨⟨Hoh, Hor, Hv1⟩, HO, -, -⟩
    imodintro
    isplitl [HO]; · iapply (owesSt_of_owesAt m c _); iexact HO
    isplitl [Hoh]; · iexact Hoh
    isplitl [Hor]; · iexact Hor
    iexact Hv1

/-! ## The reshape -/

abbrev v1' : DevRef τ sig := Proc.devRef .tc (main_v1 : Ref sig .tc)
abbrev v2' : DevRef τ sig := Proc.devRef .tc (main_v2 : Ref sig .tc)

/-- The reshape of the second kernel's 1 × 1 result to a scalar. -/
abbrev opR : HloOp τ sig (Elt F) := StableHlo.reshape main_v1 main_v2 rfl Facts₀.shapeCasts_S1x1_S_

/-- Its two arrays. -/
abbrev SR : Finset (DevRef τ sig) := {v1', v2'}

omit [FloatOps F] in
theorem held_SR (d : Dev nD) (W : Valuation τ sig (Elt F)) :
    (StableHlo.held (SparseCore.T d) SR W : sProp 𝕄)
      = iprop(((SparseCore.T d).loc main_v1 ↦{fullShare} W v1') ∗ ((SparseCore.T d).loc main_v2 ↦{fullShare} W v2')) := by
  unfold StableHlo.held SR
  rw [SparseCore.bigSep_insert' (by decide), bigSep_singleton]

/-- The device's arrays after the region: as launched, but the second kernel's result. -/
def VR (d : Dev nD) : Valuation τ sig (Elt F) := Function.update (fun b => m (d, b)) v1' (Hist.tcOut (F := F) (ohVal m d) (orVal m d))

theorem VR_v1 (d : Dev nD) : VR m d v1' = Hist.tcOut (F := F) (ohVal m d) (orVal m d) := Function.update_self _ _ _
theorem VR_v2 (d : Dev nD) : VR m d v2' = m ((SparseCore.T d).loc main_v2) := Function.update_of_ne (show v2' ≠ v1' by decide) _ _

/-- The reshape leaves the program's result in the scalar array. -/
theorem result_v2 (d : Dev nD) : (opR (F := F)).result (VR m d) v2' = Hist.result (F := F) (hArr m d) (rArr m d) := by
  refine (StableHlo.reshape_result main_v1 main_v2 rfl Facts₀.shapeCasts_S1x1_S_ ⟨by decide, rfl⟩ ⟨by decide, rfl⟩ (VR m d)).trans ?_
  rw [show VR m d (main_v1 : Ref sig .tc) = Hist.tcOut (F := F) (ohVal m d) (orVal m d) from VR_v1 m d]
  rfl

/-- After the call has returned: from the TensorCore's state after its one call, the region boundary, the eight arrays
    (the two arrays of bins at what the call left) and the staging cells' launch state, the second kernel's region and
    the reshape run to the same state with the scalar array at the program's result; the four argument arrays are kept. -/
theorem after_call [∀ e, Nonempty (Elt F e)] (κ : GSem nD τ sig → ℕ) (d : Dev nD) :
    iprop((K (F := F)).ctx EH (P m) κ ∗ (K (F := F)).tcSt EH d 1 ∗ boundary (SparseCore.T d) ∗ (K (F := F)).tcSems0 d ∗ prngReg d (ρ d)
        ∗ ((SparseCore.T d).loc main_arg0 ↦{fullShare} m ((SparseCore.T d).loc main_arg0)) ∗ (hLoc d ↦{fullShare} m (hLoc d)) ∗ ((SparseCore.T d).loc main_arg2 ↦{fullShare} m ((SparseCore.T d).loc main_arg2)) ∗ (rLoc d ↦{fullShare} m (rLoc d))
        ∗ (ohLoc d ↦{fullShare} ohVal m d) ∗ (orLoc d ↦{fullShare} orVal m d) ∗ ((SparseCore.T d).loc main_v1 ↦{fullShare} m ((SparseCore.T d).loc main_v1)) ∗ ((SparseCore.T d).loc main_v2 ↦{fullShare} m ((SparseCore.T d).loc main_v2))
        ∗ G (F := F) d)
      ⊢ wp frame (wpE ((K (F := F)).defs (D (F := F))) 𝒱 (SparseCore.T d) none) Set.univ
          (afterProg (F := F))
          fun _ => iprop((K (F := F)).tcSt EH d 1
            ∗ ((SparseCore.T d).loc main_arg0 ↦{fullShare} m ((SparseCore.T d).loc main_arg0)) ∗ (hLoc d ↦{fullShare} m (hLoc d)) ∗ ((SparseCore.T d).loc main_arg2 ↦{fullShare} m ((SparseCore.T d).loc main_arg2)) ∗ (rLoc d ↦{fullShare} m (rLoc d))
            ∗ ((SparseCore.T d).loc main_v2 ↦{fullShare} Hist.result (F := F) (hArr m d) (rArr m d))) := by
  classical
  have hOtc : (K (F := F)).Otc d 1 = 0 := (K (F := F)).Otc_end d le_rfl
  unfold SparseCore.Cfg.tcSt
  rw [hOtc]
  simp only [afterProg, wp_bind, wp_pure]
  iintro ⟨#Hctx, ⟨HO, Hrest⟩, Hb, -, -, Ha0, Hh, Ha2, Hr, Hoh, Hor, Hv1, Hv2, HG⟩
  ihave Hlev := (SparseCore.Cfg.ctx_levAts (K := K (F := F)) (EH := EH) (P := P m) κ) $$ Hctx
  unfold G
  icases HG with ⟨Hg, Ht⟩
  -- the region, entered through the lifted call
  iapply ((K (F := F)).wp_liftProg (D (F := F)) 𝒱 (SparseCore.T d) Set.univ none
    (Prog.op (TpuEff.customCall (Pipeline.entry 0) ()) fun x => Prog.ret x) _)
  iapply (Pipeline.RegionSeg.wp (pcfgs (F := F)) adm (pdats m) none cellOf_inj (ER (F := F)) (defs₀ (F := F)) 𝒱₀ (K (F := F)).L (K (F := F)).lev
    (region m) d none (fun u hu => nomatch hu) (fun x => Prog.ret x) _)
  isplitr [HO Hoh Hor Hv1 Hb Hg Ht]
  swap
  · isplitl [Hb]; · iexact Hb
    isplitl [HO Hoh Hor Hv1]
    · iapply (show regPre m d ⊢ (region m).pre d from BI.Entails.refl _)
      unfold regPre owesSt
      isplitl [HO]; · iexact HO
      isplitl [Hoh]; · iexact Hoh
      isplitl [Hor]; · iexact Hor
      iexact Hv1
    isplitr; · iexact Hlev
    isplitl [Hg]; · iexact Hg
    iexact Ht
  iintro ⟨Hb, Hpost⟩
  ihave Hpost' := (show (region m).post d ⊢ regPost m d from BI.Entails.refl _) $$ Hpost
  unfold regPost owesSt
  icases Hpost' with ⟨HO, Hoh, Hor, Hv1⟩
  rw [wp_ret]; imodintro
  -- the reshape
  iapply (StableHlo.wp_hlo_within 𝒱 (SparseCore.T d) none Set.univ (op := opR (F := F)) (S := SR) (Finset.Subset.refl _) (V := VR m d)) $$ [Hb Hv1 Hv2]
  · isplitl [Hb]; · iexact Hb
    rw [held_SR, VR_v1, VR_v2]
    isplitl [Hv1]; · iexact Hv1
    iexact Hv2
  iintro ⟨Hb, Hheld⟩
  ihave Hh2 := (Entails.of_eq (held_SR (F := F) d _)) $$ Hheld
  icases Hh2 with ⟨-, Hv2⟩
  rw [result_v2]
  rw [wp_ret]; imodintro; imodintro
  isplitl [HO Hrest]
  · isplitl [HO]; · iexact HO
    iexact Hrest
  isplitl [Ha0]; · iexact Ha0
  isplitl [Hh]; · iexact Hh
  isplitl [Ha2]; · iexact Ha2
  isplitl [Hr]; · iexact Hr
  iexact Hv2

end Cert.Kernel.Hand

end
-- ==== Proof.KShares.lean ====
/-
  How the four arrays the call takes are the 32 tasks' holdings: a points-to at the full share is its 32 leaves' at
  once, leaf 16·c + s being task (c, s)'s; an array of 32 rows is its rows, row 2·s + c being task (c, s)'s.
-/
import proofs.«214571_g7919919694435_cont_9to1_m_483_28_alg».proof.Proof.KSetup

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The leaves of a share -/

/-- The two halves of the leaves of depth n + 1. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## Tasks, leaves and rows -/

/-- Task (c, s) holds leaf 16·c + s. -/
def leafEquiv : Fin 2 × Fin 16 ≃ Fin (2 ^ 5) where
  toFun p := ⟨16 * p.1.val + p.2.val, by have := p.1.isLt; have := p.2.isLt; show _ < 32; omega⟩
  invFun i := (⟨i.val / 16, by have : i.val < 32 := i.isLt; omega⟩, ⟨i.val % 16, Nat.mod_lt _ (by decide)⟩)
  left_inv p := by
    have := p.1.isLt; have := p.2.isLt
    exact Prod.ext (Fin.ext (by show (16 * p.1.val + p.2.val) / 16 = p.1.val; omega)) (Fin.ext (by show (16 * p.1.val + p.2.val) % 16 = p.2.val; omega))
  right_inv i := Fin.ext (by show 16 * (i.val / 16) + i.val % 16 = i.val; omega)

/-- Task (c, s) holds row 2·s + c. -/
def rowEquiv : Fin 2 × Fin 16 ≃ Fin 32 where
  toFun p := wid p.1 p.2
  invFun w := (⟨w.val % 2, Nat.mod_lt _ (by decide)⟩, ⟨w.val / 2, by have := w.isLt; omega⟩)
  left_inv p := by
    have := p.1.isLt; have := p.2.isLt
    exact Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-- A family over the tasks of the SparseCores of the call is the family over the pairs (c, s). -/
theorem bigSep_cores (Φ : Fin 2 → Fin 16 → sProp 𝕄) :
    (bigSep Finset.univ fun c : Fin ((K (F := F)).nCore 0) => bigSep Finset.univ fun s : Fin 16 => Φ (Fin.cast nCore_zero c) s)
      = bigSep Finset.univ fun p : Fin 2 × Fin 16 => Φ p.1 p.2 := by
  rw [bigSep_univ_prod]
  exact bigSep_congr fun _ _ => bigSep_congr fun _ _ => congrArg (fun c => Φ c _) (Fin.ext rfl)

/-- A whole array at the full share is the 32 tasks' read shares. -/
theorem pts_shares {ℓ : Loc nD τ sig} (f : Buf (Elt F) ℓ) :
    (ℓ ↦{fullShare} f : sProp 𝕄) = bigSep Finset.univ fun p : Fin 2 × Fin 16 => ℓ ↦{sh p.1 p.2} f := by
  rw [pointsTo_leaves Finset.univ f 5 fullShare,
    bigSep_univ_equiv leafEquiv (fun i : Fin (2 ^ 5) => (ℓ ↦{leaf 5 fullShare i} f : sProp 𝕄))]
  rfl

/-! ## The rows of the arrays of bins -/

theorem rowSet_eq (w : Fin 32) : rowSet w = (row w).set := by
  show ((View.whole (main_v0_0_scv : Ref sig .scVector)).slice (row w)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-- An array of 32 rows whole is its rows. -/
theorem oh_rows32 (d : Dev nD) (f : Buf (Elt F) (ohLoc d)) :
    (ohLoc d ↦{fullShare} f : sProp 𝕄) = bigSep Finset.univ fun w : Fin 32 => ohLoc d ↦[rowSet w]{fullShare} f := by
  rw [← pointsTo_biUnion Finset.univ (ℓ := ohLoc d) rowSet rows_disjoint, rows_cover]; try rfl
theorem or_rows32 (d : Dev nD) (f : Buf (Elt F) (orLoc d)) :
    (orLoc d ↦{fullShare} f : sProp 𝕄) = bigSep Finset.univ fun w : Fin 32 => orLoc d ↦[rowSet w]{fullShare} f := by
  rw [← pointsTo_biUnion Finset.univ (ℓ := orLoc d) rowSet rows_disjoint, rows_cover]; try rfl

/-- The first array of bins whole is the 32 tasks' rows. -/
theorem oh_rows (d : Dev nD) (f : Buf (Elt F) (ohLoc d)) :
    (ohLoc d ↦{fullShare} f : sProp 𝕄) = bigSep Finset.univ fun p : Fin 2 × Fin 16 => ohLoc d ↦[rowSet (wid p.1 p.2)]{fullShare} f :=
  (oh_rows32 d f).trans (bigSep_univ_equiv rowEquiv (fun w : Fin 32 => (ohLoc d ↦[rowSet w]{fullShare} f : sProp 𝕄)))

/-- The second likewise. -/
theorem or_rows (d : Dev nD) (f : Buf (Elt F) (orLoc d)) :
    (orLoc d ↦{fullShare} f : sProp 𝕄) = bigSep Finset.univ fun p : Fin 2 × Fin 16 => orLoc d ↦[rowSet (wid p.1 p.2)]{fullShare} f :=
  (or_rows32 d f).trans (bigSep_univ_equiv rowEquiv (fun w : Fin 32 => (orLoc d ↦[rowSet w]{fullShare} f : sProp 𝕄)))

/-! ## What the call takes and hands back -/

variable (m : (ℓ : Loc nD τ sig) → Buf (Elt F) ℓ) [FloatOps F]

/-- What the call takes for the two SparseCores is the four arrays whole, at their launch contents. -/
theorem st0_eq (d : Dev nD) :
    (bigSep Finset.univ fun c : Fin ((K (F := F)).nCore 0) => (P m).st 0 d c)
      = iprop((hLoc d ↦{fullShare} m (hLoc d)) ∗ (rLoc d ↦{fullShare} m (rLoc d))
          ∗ (ohLoc d ↦{fullShare} m (ohLoc d)) ∗ (orLoc d ↦{fullShare} m (orLoc d))) := by
  show (bigSep Finset.univ fun c : Fin ((K (F := F)).nCore 0) => bigSep Finset.univ fun s : Fin 16 => tileRes m d (Fin.cast nCore_zero c) s) = _
  rw [bigSep_cores (F := F) (fun c s => tileRes m d c s)]
  unfold tileRes
  rw [bigSep_sep', bigSep_sep', bigSep_sep', pts_shares (m (hLoc d)), pts_shares (m (rLoc d)), oh_rows d (m (ohLoc d)), or_rows d (m (orLoc d))]

/-- What it hands back is the two integer arrays whole and the two arrays of bins whole, at the rows of bins. -/
theorem dn0_eq (d : Dev nD) :
    (bigSep Finset.univ fun c : Fin ((K (F := F)).nCore 0) => (P m).dn 0 d c)
      = iprop((hLoc d ↦{fullShare} m (hLoc d)) ∗ (rLoc d ↦{fullShare} m (rLoc d))
          ∗ (ohLoc d ↦{fullShare} ohVal m d) ∗ (orLoc d ↦{fullShare} orVal m d)) := by
  show (bigSep Finset.univ fun c : Fin ((K (F := F)).nCore 0) => bigSep Finset.univ fun s : Fin 16 => tileRet m d (Fin.cast nCore_zero c) s) = _
  rw [bigSep_cores (F := F) (fun c s => tileRet m d c s)]
  unfold tileRet
  rw [bigSep_sep', bigSep_sep', bigSep_sep', pts_shares (m (hLoc d)), pts_shares (m (rLoc d)), oh_rows d (ohVal m d), or_rows d (orVal m d)]

end Cert.Kernel.Hand

end
-- ==== Proof.KLaunch.lean ====
/-
  The launch: the ghost state the program starts from, the TensorCore's program from what the launch deals it, and
  the claim read off the final memory.

  The launch element is the handshakes' rounds, the second kernel's staging rounds, and the unit counters. The
  TensorCore lends every task a read share of the two integer arrays (the full share halved five times: 32 leaves)
  and gives task (c, s) row 2·s + c of each array of bins; the tasks hand the shares back and each row at the bins of
  its stretch, which together are the two arrays of rows; the second kernel and the reshape follow.
-/
import proofs.«214571_g7919919694435_cont_9to1_m_483_28_alg».proof.Proof.KTileObl
import proofs.«214571_g7919919694435_cont_9to1_m_483_28_alg».proof.Proof.KTcRegion
import proofs.«214571_g7919919694435_cont_9to1_m_483_28_alg».proof.Proof.KShares

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks, (uR₀, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HR, -⟩
  have hfund : (BI.own (((Emb.inl : Emb UR (UR × Counters)).trans embR) uR₀) : sProp 𝕄) ⊢ iprop(|==> bigSep Finset.univ (G (F := F))) :=
    fundG (F := F)
  imod hfund $$ HR with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the four argument arrays at their launch contents, the result at the loss. -/
abbrev FIN (d : Dev nD) : sProp 𝕄 :=
  iprop(((SparseCore.T d).loc main_arg0 ↦{fullShare} m ((SparseCore.T d).loc main_arg0)) ∗ (hLoc d ↦{fullShare} m (hLoc d))
    ∗ ((SparseCore.T d).loc main_arg2 ↦{fullShare} m ((SparseCore.T d).loc main_arg2)) ∗ (rLoc d ↦{fullShare} m (rLoc d))
    ∗ ((SparseCore.T d).loc main_v2 ↦{fullShare} Hist.result (F := F) (hArr m d) (rArr m d)))

omit [FloatOps F] in
/-- The TensorCore's eight arrays, all unscoped. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ (hLoc d ↦{fullShare} W main_arg1)
          ∗ ((SparseCore.T d).loc main_arg2 ↦{fullShare} W main_arg2) ∗ (rLoc d ↦{fullShare} W main_arg3)
          ∗ (ohLoc d ↦{fullShare} W main_v0_0) ∗ (orLoc d ↦{fullShare} W main_v0_1)
          ∗ ((SparseCore.T d).loc main_v1 ↦{fullShare} W main_v1) ∗ ((SparseCore.T d).loc main_v2 ↦{fullShare} W main_v2)) := by
  unfold unscopedBufs
  rw [show (Finset.univ.filter fun b : Ref sig .tc => ¬ b.isScoped) = {main_arg0, main_arg1, main_arg2, main_arg3, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- @main is the call, then the rest. -/
theorem main_eq (d : Dev nD) : main (F := F) d = ((K (F := F)).run d 0 >>= fun _ => afterProg (F := F)) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, main_eq, wp_bind]
  iintro ⟨#Hctx, Hst, ⟨Hb, ⟨H0, H1, H2, H3, Hoh, Hor, Hv1, Hv2⟩, Hsems, Hprng⟩, HG⟩
  iapply ((K (F := F)).wp_run (D (F := F)) 𝒱 (EH := EH) (P := P m) κ d 0) $$ [Hst H0 H1 H2 H3 Hoh Hor Hv1 Hv2 Hb Hsems Hprng HG]
  isplitr; · iexact Hctx
  isplitl [Hst]; · iexact Hst
  isplitl [H1 H3 Hoh Hor]
  · rw [st0_eq]
    isplitl [H1]; · iexact H1
    isplitl [H3]; · iexact H3
    isplitl [Hoh]; · iexact Hoh
    iexact Hor
  iintro ⟨Hst, Hdn⟩
  ihave Hdn' := (Entails.of_eq (dn0_eq m d)) $$ Hdn
  icases Hdn' with ⟨H1, H3, Hoh, Hor⟩
  iapply (after_call m ρ κ d)
  isplitr; · iexact Hctx
  isplitl [Hst]; · iexact Hst
  isplitl [Hb]; · iexact Hb
  isplitl [Hsems]; · iexact Hsems
  isplitl [Hprng]; · iexact Hprng
  isplitl [H0]; · iexact H0
  isplitl [H1]; · iexact H1
  isplitl [H2]; · iexact H2
  isplitl [H3]; · iexact H3
  isplitl [Hoh]; · iexact Hoh
  isplitl [Hor]; · iexact Hor
  isplitl [Hv1]; · iexact Hv1
  isplitl [Hv2]; · iexact Hv2
  iexact HG

/-! ## The claim -/

def fq (d : Dev nD) (s' : Phys nD τ sig (Elt F)) : Prop :=
  s'.mem.mem ((SparseCore.T d).loc main_v2) = Hist.result (F := F) (hArr m d) (rArr m d)
    ∧ s'.mem.mem ((SparseCore.T d).loc main_arg0) = m ((SparseCore.T d).loc main_arg0)
    ∧ s'.mem.mem (hLoc d) = m (hLoc d)
    ∧ s'.mem.mem ((SparseCore.T d).loc main_arg2) = m ((SparseCore.T d).loc main_arg2)
    ∧ s'.mem.mem (rLoc d) = m (rLoc d)

theorem hfin (d : Dev nD) (s' : Phys nD τ sig (Elt F)) : iprop(FIN m d ∗ SI s') ⊢ (⌜fq m d s'⌝ : sProp 𝕄) := by
  iintro ⟨⟨H0, H1, H2, H3, Hv⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := hLoc d) (I := Finset.univ) (q := fullShare) (f := m (hLoc d)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (persistent_entails_right (SI_pointsTo_agree (st := s') (ℓ := rLoc d) (I := Finset.univ) (q := fullShare) (f := m (rLoc d)))) $$ [HSI H3]
  · isplitl [HSI] <;> iassumption
  icases H with ⟨%h3, HSI, -⟩
  ihave H := (SI_pointsTo_agree (st := s') (ℓ := (SparseCore.T d).loc main_v2) (I := Finset.univ) (q := fullShare)
    (f := Hist.result (F := F) (hArr m d) (rArr m d))) $$ [HSI Hv]
  · isplitl [HSI] <;> iassumption
  icases H with %hv
  ipureintro
  exact ⟨funext fun (i : Idx ((SparseCore.T d).loc main_v2)) => hv i (by simp),
    funext fun (i : Idx ((SparseCore.T d).loc main_arg0)) => h0 i (by simp),
    funext fun (i : Idx (hLoc d)) => h1 i (by simp),
    funext fun (i : Idx ((SparseCore.T d).loc main_arg2)) => h2 i (by simp),
    funext fun (i : Idx (rLoc d)) => h3 i (by simp)⟩

theorem run_main [∀ e, Nonempty (Elt F e)] (hpre : PreOK m) :
    θ_run (Cert.Kernel.defs (F := F)) (Cert.Kernel.threads (F := F)) ⟨m, fun _ => 0, ρ⟩
      (fun r => ∀ c : Dev nD, r.2.mem ((c.tc : Thread nD τ).loc main_v2) = Hist.result (F := F) (hArr m c) (rArr m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) _ (fun _ h => h)

end Cert.Kernel.Hand

end
-- ==== Proof.KClaims.lean ====
/-
  The word-level kernel program's claim: the precondition gives the words' range, and the program runs and leaves its
  four argument arrays unchanged.
-/
import proofs.«214571_g7919919694435_cont_9to1_m_483_28_alg».proof.Defs
import proofs.«214571_g7919919694435_cont_9to1_m_483_28_alg».proof.Proof.KLaunch
import proofs.«214571_g7919919694435_cont_9to1_m_483_28_alg».proof.Proof.RangeOfPre
import proofs.«214571_g7919919694435_cont_9to1_m_483_28_alg».proof.Proof.Gen.Kernel
import proofs.«214571_g7919919694435_cont_9to1_m_483_28_alg».proof.Proof.Gen.Pre_input_domain

noncomputable section

open Idealize.ShloMosaic Idealize.SL.Sem

namespace Cert.Proof.KClaims

/-- The precondition says every word of the second and the fourth argument arrays is at most 100. -/
theorem preOK_of_pre {F : FTy → Type} [FloatOps F] (m : (ℓ : Loc Cert.Kernel.nD Cert.Kernel.τ Cert.Kernel.sig) → Buf (Elt F) ℓ)
    (h : ∀ c : Dev Cert.Kernel.nD,
      Cert.Pre_input_domain.fn (F := F) (m ((c.tc : Thread Cert.Kernel.nD Cert.Kernel.τ).loc Cert.Kernel.main_arg0))
        (m ((c.tc : Thread Cert.Kernel.nD Cert.Kernel.τ).loc Cert.Kernel.main_arg1))
        (m ((c.tc : Thread Cert.Kernel.nD Cert.Kernel.τ).loc Cert.Kernel.main_arg2))
        (m ((c.tc : Thread Cert.Kernel.nD Cert.Kernel.τ).loc Cert.Kernel.main_arg3)) = fun _ => 1#1) :
    Cert.Kernel.Hand.PreOK m :=
  fun d => Cert.Bridge.range_of_pre _ _ _ _ (h d)

/-- The word-level kernel program runs and leaves its arguments unchanged. -/
theorem frame_p : Cert.frame_Kernel := fun m ρ hpre =>
  (θ_run Cert.Kernel.defs _ _).mono (fun _ h c => (h c).2)
    (Cert.Kernel.Hand.run_main (F := Bits) m ρ (preOK_of_pre m hpre))

end Cert.Proof.KClaims

end
-- ==== Proof.lean ====
/-
  The kernel and its reference compute one number from two arrays of 100000 integer words, each word in 0 ‥ 100: with
  c_t(j) and c_p(j) the numbers of words of the fourth and of the second argument equal to j, and t(j) = c_t(j) / max(Σ c_t, ε),
  p(j) = c_p(j) / max(Σ c_p, ε) over j = 1 ‥ 100 (ε one shared literal), the result is Σ_j (t(j)·log t(j) − t(j)·p(j)) / 100,
  a term with t(j) = 0 contributing −0·p(j).

  The reference counts with one scatter-add per array. The kernel counts on 32 vector subcores: subcore w takes the
  3120 words from 3120·w (and, for w < 10, sixteen more of the last 160), adds one at slot 129·lane + word of a
  2080-slot table — sixteen lanes never meeting in a slot since a word is below 129 — and sums the sixteen lane tables
  into a row of 128 bins; a second kernel sums the 32 rows, keeps bins 1 ‥ 100 and evaluates the formula. Every position
  lies in exactly one subcore's share, so the rows' sum at bin j is the count of j; both sides are then the same function
  of the two count vectors over the extended reals (counts are non-negative, so the reference's absolute values and
  its test t ≠ 0 are the kernel's plain sums and its test t > 0).

  The frames: every subcore's indexed stores name slots inside the table because the words are at most 100 (the
  precondition), every copy is waited for before its destination is read, each subcore writes its own row, and the
  second kernel starts after all rows are back; the argument arrays are only read. The word-level program runs the same
  steps, so its frame is the same argument at the other float instance.
-/
import proofs.«214571_g7919919694435_cont_9to1_m_483_28_alg».proof.Defs
import proofs.«214571_g7919919694435_cont_9to1_m_483_28_alg».proof.Proof.Gen.Kernel
import proofs.«214571_g7919919694435_cont_9to1_m_483_28_alg».proof.Proof.Gen.KernelIdeal
import proofs.«214571_g7919919694435_cont_9to1_m_483_28_alg».proof.Proof.Gen.ReferenceIdeal
import proofs.«214571_g7919919694435_cont_9to1_m_483_28_alg».proof.Proof.Gen.Pre_input_domain
import proofs.«214571_g7919919694435_cont_9to1_m_483_28_alg».proof.Proof.Claims
import proofs.«214571_g7919919694435_cont_9to1_m_483_28_alg».proof.Proof.KClaims

noncomputable section

namespace Cert.Proof

open Idealize.ShloMosaic Idealize.SL.Sem

/-- The five claims, under the programs' stated side conditions. -/
theorem claim : Cert.Claim :=
  ⟨Cert.Kernel.Gen.facts, Cert.KernelIdeal.Gen.facts, Cert.ReferenceIdeal.Gen.facts, Cert.Pre_input_domain.Gen.facts,
    Cert.Proof.KClaims.frame_p, Cert.Proof.Claims.frame_pi, Cert.Proof.Claims.frame_ri, Cert.Proof.Claims.preserves,
    Cert.Proof.Claims.algebraic⟩

end Cert.Proof

end
